-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S129x128 : Shape := ⟨2, ![129, 128]⟩
abbrev S128 : Shape := ⟨1, ![128]⟩
abbrev S128x128 : Shape := ⟨2, ![128, 128]⟩
abbrev S4x128 : Shape := ⟨2, ![4, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg21 : FVec F S64x1 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg21
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg17 : FVec F S4x128 .f32) (main_arg18 : FVec F S4x128 .f32) (main_arg19 : FVec F S128x64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S4x128 .f32 := Host.absf main_arg17
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128 .f32 := Host.absf main_arg18
  let main_cst_28 : FVec F S_ .f32 := constant S_ .f32 0x7F800000#32
  let main_v75 : FVec F S4x128 .f32 := broadcastInDim S4x128 ![] bcast_S_S4x128 main_cst_28
  let main_v76 : IVec S4x128 1 := cmpf .olt main_v74 main_v75
  let main_c_29 : IVec S_ 1 := constantI S_ 1 1#1
  let main_v77 : IVec S_ 1 := (fun x v => Host.reduce IntOp.andi x v reducesTo_S4x128_S_d0_1 h_S_) main_v76 main_c_29
  let main_v78 : IVec S_ 1 := andi main_v73 main_v77
  let main_v79 : FVec F S128x64 .f32 := Host.absf main_arg19
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S128 .f32) (main_arg15 : FVec F S4x128 .f32) (main_arg16 : FVec F S4x128 .f32) (main_arg17 : FVec F S4x128 .f32) (main_arg18 : FVec F S4x128 .f32) (main_arg19 : FVec F S128x64 .f32) (main_arg20 : FVec F S64 .f32) (main_arg21 : FVec F S64x1 .f32) (main_arg22 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S4x128 .f32 := Host.absf main_arg15
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg16
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg17 main_arg18 main_arg19 main_arg20 main_arg21 main_arg22 main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S4x128 .f32) (main_arg16 : FVec F S4x128 .f32) (main_arg17 : FVec F S4x128 .f32) (main_arg18 : FVec F S4x128 .f32) (main_arg19 : FVec F S128x64 .f32) (main_arg20 : FVec F S64 .f32) (main_arg21 : FVec F S64x1 .f32) (main_arg22 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S129x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S4x128 .f32) (main_arg16 : FVec F S4x128 .f32) (main_arg17 : FVec F S4x128 .f32) (main_arg18 : FVec F S4x128 .f32) (main_arg19 : FVec F S128x64 .f32) (main_arg20 : FVec F S64 .f32) (main_arg21 : FVec F S64x1 .f32) (main_arg22 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S129x128 .f32 := Host.absf main_arg7
  let main_cst_6 : FVec F S_ .f32 := constant S_ .f32 0x7F800000#32
  let main_v20 : FVec F S129x128 .f32 := broadcastInDim S129x128 ![] bcast_S_S129x128 main_cst_6
  let main_v21 : IVec S129x128 1 := cmpf .olt main_v19 main_v20
  let main_c_7 : IVec S_ 1 := constantI S_ 1 1#1
  let main_v22 : IVec S_ 1 := (fun x v => Host.reduce IntOp.andi x v reducesTo_S129x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1600000 32) (main_arg2 : IVec S100000 32) (main_arg3 : IVec S100000 32) (main_arg4 : FVec F S128x64 .f32) (main_arg5 : FVec F S64 .f32) (main_arg6 : FVec F S64x1 .f32) (main_arg7 : FVec F S129x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S4x128 .f32) (main_arg16 : FVec F S4x128 .f32) (main_arg17 : FVec F S4x128 .f32) (main_arg18 : FVec F S4x128 .f32) (main_arg19 : FVec F S128x64 .f32) (main_arg20 : FVec F S64 .f32) (main_arg21 : FVec F S64x1 .f32) (main_arg22 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg6
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S129x128 : Shape := ⟨2, ![129, 128]⟩
abbrev S128 : Shape := ⟨1, ![128]⟩
abbrev S128x128 : Shape := ⟨2, ![128, 128]⟩
abbrev S4x128 : Shape := ⟨2, ![4, 128]⟩
abbrev S1 : Shape := ⟨1, ![1]⟩
abbrev S_ : Shape := ⟨0, ![]⟩
abbrev S100000x1 : Shape := ⟨2, ![100000, 1]⟩
abbrev S64x128 : Shape := ⟨2, ![64, 128]⟩
abbrev S64x64 : Shape := ⟨2, ![64, 64]⟩
abbrev S1x64 : Shape := ⟨2, ![1, 64]⟩
abbrev S1x1 : Shape := ⟨2, ![1, 1]⟩
abbrev S100000x129 : Shape := ⟨2, ![100000, 129]⟩
abbrev S1x1600000 : Shape := ⟨2, ![1, 1600000]⟩
abbrev S1600000 : Shape := ⟨1, ![1600000]⟩
abbrev S1600000x1 : Shape := ⟨2, ![1600000, 1]⟩
abbrev S5000x129 : Shape := ⟨2, ![5000, 129]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S512 : Shape := ⟨1, ![512]⟩
abbrev S512x128 : Shape := ⟨2, ![512, 128]⟩
abbrev S512x1 : Shape := ⟨2, ![512, 1]⟩
abbrev S512x64 : Shape := ⟨2, ![512, 64]⟩

abbrev nBuf : Space → Nat
  | .hbm => 264
  | .vmem => 72
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000, .i32⟩
  | 4 => ⟨S128x64, .f32⟩
  | 5 => ⟨S64, .f32⟩
  | 6 => ⟨S64x1, .f32⟩
  | 7 => ⟨S129x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S4x128, .f32⟩
  | 16 => ⟨S4x128, .f32⟩
  | 17 => ⟨S4x128, .f32⟩
  | 18 => ⟨S4x128, .f32⟩
  | 19 => ⟨S128x64, .f32⟩
  | 20 => ⟨S64, .f32⟩
  | 21 => ⟨S64x1, .f32⟩
  | 22 => ⟨S1, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S_, .f32⟩
  | 33 => ⟨S64x128, .f32⟩
  | 34 => ⟨S100000x1, .i32⟩
  | 35 => ⟨S64x128, .f32⟩
  | 36 => ⟨S64x1, .f32⟩
  | 37 => ⟨S64x128, .f32⟩
  | 38 => ⟨S64x128, .f32⟩
  | 39 => ⟨S64x64, .f32⟩
  | 40 => ⟨S1x64, .f32⟩
  | 41 => ⟨S64x64, .f32⟩
  | 42 => ⟨S64x64, .f32⟩
  | 43 => ⟨S64x64, .f32⟩
  | 44 => ⟨S64x1, .f32⟩
  | 45 => ⟨S_, .f32⟩
  | 46 => ⟨S1, .f32⟩
  | 47 => ⟨S_, .f32⟩
  | 48 => ⟨S1, .f32⟩
  | 49 => ⟨S1, .f32⟩
  | 50 => ⟨S1x1, .f32⟩
  | 51 => ⟨S64x1, .f32⟩
  | 52 => ⟨S64x1, .f32⟩
  | 53 => ⟨S64x1, .f32⟩
  | 54 => ⟨S_, .f32⟩
  | 55 => ⟨S1, .f32⟩
  | 56 => ⟨S1x1, .f32⟩
  | 57 => ⟨S64x1, .f32⟩
  | 58 => ⟨S64x1, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x1, .f32⟩
  | 68 => ⟨S100000x129, .f32⟩
  | 69 => ⟨S1x1600000, .i32⟩
  | 70 => ⟨S1600000, .i32⟩
  | 71 => ⟨S1x1600000, .i32⟩
  | 72 => ⟨S1600000, .i32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S100000, .f32⟩
  | 84 => ⟨S100000x1, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S1600000x1, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x128, .f32⟩
  | 17 => ⟨S1600000x128, .f32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S1x128, .f32⟩
  | 24 => ⟨S1x128, .f32⟩
  | 25 => ⟨S128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S128, .f32⟩
  | 32 => ⟨S1x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x128, .f32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S100000x128, .f32⟩
  | 97 => ⟨S_, .f32⟩
  | 98 => ⟨S100000, .f32⟩
  | 99 => ⟨S_, .f32⟩
  | 100 => ⟨S512, .f32⟩
  | 101 => ⟨S100000x1, .i32⟩
  | 102 => ⟨S512, .f32⟩
  | 103 => ⟨S_, .f32⟩
  | 104 => ⟨S512, .f32⟩
  | 105 => ⟨S512, .f32⟩
  | 106 => ⟨S_, .f32⟩
  | 107 => ⟨S512x128, .f32⟩
  | 108 => ⟨S100000x1, .i32⟩
  | 109 => ⟨S512x128, .f32⟩
  | 110 => ⟨S512x1, .f32⟩
  | 111 => ⟨S512x128, .f32⟩
  | 112 => ⟨S512x128, .f32⟩
  | 113 => ⟨S512x64, .f32⟩
  | 114 => ⟨S1x64, .f32⟩
  | 115 => ⟨S512x64, .f32⟩
  | 116 => ⟨S512x64, .f32⟩
  | 117 => ⟨S_, .f32⟩
  | 118 => ⟨S512x64, .f32⟩
  | 119 => ⟨S512x64, .i1⟩
  | 120 => ⟨S_, .f32⟩
  | 121 => ⟨S512x64, .f32⟩
  | 122 => ⟨S512x64, .i1⟩
  | 123 => ⟨S_, .f32⟩
  | 124 => ⟨S_, .f32⟩
  | 125 => ⟨S512x64, .f32⟩
  | 126 => ⟨S512x64, .f32⟩
  | 127 => ⟨S512x64, .f32⟩
  | _ => ⟨S100000x128, .f32⟩

abbrev hbmTy0_2 (i : Nat) : BufTy := match i % 128 with
  | 0 => ⟨S_, .f32⟩
  | 1 => ⟨S512x64, .f32⟩
  | 2 => ⟨S512x64, .f32⟩
  | 3 => ⟨S512x64, .f32⟩
  | 4 => ⟨S512x1, .f32⟩
  | 5 => ⟨S1x1, .f32⟩
  | 6 => ⟨S512x1, .f32⟩
  | 7 => ⟨S512x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x129, .f32⟩
  | .local _ .vmem, ⟨1, _⟩ => ⟨S5000x129, .f32⟩
  | .local _ .vmem, ⟨2, _⟩ => ⟨S129x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x1, .f32⟩
  | .local _ .vmem, ⟨64, _⟩ => ⟨S5000x1, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_v5 : Ref sig .tc := ⟨.hbm, 31, rfl⟩
abbrev main_cst_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_10 : Ref sig .tc := ⟨.hbm, 85, rfl⟩
abbrev main_v50 : Ref sig .tc := ⟨.hbm, 86, rfl⟩
abbrev main_v51 : Ref sig .tc := ⟨.hbm, 87, rfl⟩
abbrev main_c_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_12 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_14 : Ref sig .tc := ⟨.hbm, 106, rfl⟩
abbrev main_v67 : Ref sig .tc := ⟨.hbm, 107, rfl⟩
abbrev main_v68 : Ref sig .tc := ⟨.hbm, 108, rfl⟩
abbrev main_c_15 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_16 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_17 : Ref sig .tc := ⟨.hbm, 136, rfl⟩
abbrev main_v94 : Ref sig .tc := ⟨.hbm, 137, rfl⟩
abbrev main_v95 : Ref sig .tc := ⟨.hbm, 138, rfl⟩
abbrev main_c_18 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_20 : Ref sig .tc := ⟨.hbm, 166, rfl⟩
abbrev main_v121 : Ref sig .tc := ⟨.hbm, 167, rfl⟩
abbrev main_v122 : Ref sig .tc := ⟨.hbm, 168, rfl⟩
abbrev main_c_21 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_22 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_23 : Ref sig .tc := ⟨.hbm, 196, rfl⟩
abbrev main_v148 : Ref sig .tc := ⟨.hbm, 197, rfl⟩
abbrev main_v149 : Ref sig .tc := ⟨.hbm, 198, rfl⟩
abbrev main_c_24 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_25 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_26 : Ref sig .tc := ⟨.hbm, 225, rfl⟩
abbrev main_v174 : Ref sig .tc := ⟨.hbm, 226, rfl⟩
abbrev main_cst_27 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_28 : Ref sig .tc := ⟨.hbm, 231, rfl⟩
abbrev main_v178 : Ref sig .tc := ⟨.hbm, 232, rfl⟩
abbrev main_v179 : Ref sig .tc := ⟨.hbm, 233, rfl⟩
abbrev main_cst_29 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_call0_cst : Ref sig .tc := ⟨.hbm, 245, rfl⟩
abbrev main_call0_v0 : Ref sig .tc := ⟨.hbm, 246, rfl⟩
abbrev main_call0_v1 : Ref sig .tc := ⟨.hbm, 247, rfl⟩
abbrev main_call0_cst_0 : Ref sig .tc := ⟨.hbm, 248, rfl⟩
abbrev main_call0_v2 : Ref sig .tc := ⟨.hbm, 249, rfl⟩
abbrev main_call0_v3 : Ref sig .tc := ⟨.hbm, 250, rfl⟩
abbrev main_call0_cst_1 : Ref sig .tc := ⟨.hbm, 251, rfl⟩
abbrev main_call0_call0_v0 : Ref sig .tc := ⟨.hbm, 252, rfl⟩
abbrev main_call0_call0_v1 : Ref sig .tc := ⟨.hbm, 253, rfl⟩
abbrev main_call0_v4 : Ref sig .tc := ⟨.hbm, 254, rfl⟩
abbrev main_call0_v5 : Ref sig .tc := ⟨.hbm, 255, rfl⟩
abbrev main_call0_cst_2 : Ref sig .tc := ⟨.hbm, 256, rfl⟩
abbrev main_call0_v6 : Ref sig .tc := ⟨.hbm, 257, rfl⟩
abbrev main_call0_v7 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg7_0 : Ref sig .tc := ⟨.vmem, 69, rfl⟩
abbrev cc7_stg8_0 : Ref sig .tc := ⟨.vmem, 70, rfl⟩
abbrev cc7_stg8_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem7_0 : DmaSem sig := 69
abbrev cc7_sem8_0 : DmaSem sig := 70
abbrev cc7_sem8_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S129x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x1_S1_d0 : S64x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  concatenates_S100000x128_S100000x1_S100000x129_d1 : Shape.Concatenates [S100000x128, S100000x1] S100000x129 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x129_S5000x129_0_0 : ∀ a, (![0, 0] : Fin 2 → Nat) a + S5000x129.size a ≤ S5000x129.size a
  h_S5000x129 : 0 < S5000x129.numel
  shapeCasts_S5000x129_S5000x129 : S5000x129.ShapeCasts S5000x129
  bitsLt_bf16_f32 : FTy.bits .bf16 < FTy.bits .f32
  inb_S129x128_S129x128_0_0 : ∀ a, (![0, 0] : Fin 2 → Nat) a + S129x128.size a ≤ S129x128.size a
  h_S129x128 : 0 < S129x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  slices_S4x128_S1x128_0_0 : S4x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  slices_S4x128_S1x128_1_0 : S4x128.Slices ![1, 0] S1x128
  slices_S4x128_S1x128_2_0 : S4x128.Slices ![2, 0] S1x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1x1_S512x1_0_1 : S1x1.BroadcastsInDim S512x1 (![0, 1] : Fin 2 → Fin S512x1.rank)
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  gather_S64x1_S100000x1_S100000x1_1_0_n_n_0_1_11_wf : GatherDims.WF S64x1 S100000x1 S100000x1 [1] [0] [] [0] [] 1 ![1, 1]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x129_S129x128_S5000x128_1_0_0_1_n_n_wf : DotDims.WF S5000x129 S129x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x129.size a ≤ S100000x129.size a
  hwx0_0 : ∀ i : grid0.Coords, EltTy.bits .f32 = 32 ∨ (Rect.block (s := S100000x129) S5000x129.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S129x128.size a ≤ S129x128.size a
  hwx0_1 : ∀ i : grid0.Coords, EltTy.bits .f32 = 32 ∨ (Rect.block (s := S129x128) S129x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S100000x128.size a
  hwx5_8 : ∀ i : grid5.Coords, EltTy.bits .f32 = 32 ∨ (Rect.block (s := S100000x128) S5000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S100000x128.size a
  hwx7_8 : ∀ i : grid7.Coords, EltTy.bits .f32 = 32 ∨ (Rect.block (s := S100000x128) S5000x128.size (cc7_transform_8 i) (hinb7_8 i)).WholeWords (EltTy.packing .f32)

variable [Facts₀]

def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def gather_S64x1_S100000x1_S100000x1_1_0_n_n_0_1_11 : GatherDims S64x1 S100000x1 S100000x1 where
  offsetDims := [1]
  collapsedSliceDims := [0]
  operandBatchingDims := []
  startIndicesBatchingDims := []
  startIndexMap := [0]
  indexVectorDim := 1
  sliceSizes := ![1, 1]
  wf := gather_S64x1_S100000x1_S100000x1_1_0_n_n_0_1_11_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x129_S129x128_S5000x128_1_0_0_1_n_n : DotDims S5000x129 S129x128 S5000x128 where
  lhsContracting := [1]
  rhsContracting := [0]
  lhsNonContracting := [0]
  rhsNonContracting := [1]
  lhsBatch := []
  rhsBatch := []
  wf := dot_S5000x129_S129x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v36) S5000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S129x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v78) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v79) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v82) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v88) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v91) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v92) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v92) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v105) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v106) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v109) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v112) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v115) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v119) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v119) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v120) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v132) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v133) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v136) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v139) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v142) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v145) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v146) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v146) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v159) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v147) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v49) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v160) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v163) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v166) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v169) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v172) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v173) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S129x128 : Shape := ⟨2, ![129, 128]⟩
abbrev S128 : Shape := ⟨1, ![128]⟩
abbrev S128x128 : Shape := ⟨2, ![128, 128]⟩
abbrev S4x128 : Shape := ⟨2, ![4, 128]⟩
abbrev S1 : Shape := ⟨1, ![1]⟩
abbrev S_ : Shape := ⟨0, ![]⟩
abbrev S100000x1 : Shape := ⟨2, ![100000, 1]⟩
abbrev S64x128 : Shape := ⟨2, ![64, 128]⟩
abbrev S64x64 : Shape := ⟨2, ![64, 64]⟩
abbrev S1x64 : Shape := ⟨2, ![1, 64]⟩
abbrev S1x1 : Shape := ⟨2, ![1, 1]⟩
abbrev S100000x129 : Shape := ⟨2, ![100000, 129]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S512 : Shape := ⟨1, ![512]⟩
abbrev S512x128 : Shape := ⟨2, ![512, 128]⟩
abbrev S512x1 : Shape := ⟨2, ![512, 1]⟩
abbrev S512x64 : Shape := ⟨2, ![512, 64]⟩

abbrev nBuf : Space → Nat
  | .hbm => 442
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000, .i32⟩
  | 4 => ⟨S128x64, .f32⟩
  | 5 => ⟨S64, .f32⟩
  | 6 => ⟨S64x1, .f32⟩
  | 7 => ⟨S129x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S4x128, .f32⟩
  | 16 => ⟨S4x128, .f32⟩
  | 17 => ⟨S4x128, .f32⟩
  | 18 => ⟨S4x128, .f32⟩
  | 19 => ⟨S128x64, .f32⟩
  | 20 => ⟨S64, .f32⟩
  | 21 => ⟨S64x1, .f32⟩
  | 22 => ⟨S1, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S_, .f32⟩
  | 33 => ⟨S64x128, .f32⟩
  | 34 => ⟨S100000x1, .i32⟩
  | 35 => ⟨S64x128, .f32⟩
  | 36 => ⟨S64x1, .f32⟩
  | 37 => ⟨S64x128, .f32⟩
  | 38 => ⟨S64x128, .f32⟩
  | 39 => ⟨S64x64, .f32⟩
  | 40 => ⟨S1x64, .f32⟩
  | 41 => ⟨S64x64, .f32⟩
  | 42 => ⟨S64x64, .f32⟩
  | 43 => ⟨S64x64, .f32⟩
  | 44 => ⟨S64x1, .f32⟩
  | 45 => ⟨S_, .f32⟩
  | 46 => ⟨S1, .f32⟩
  | 47 => ⟨S_, .f32⟩
  | 48 => ⟨S1, .f32⟩
  | 49 => ⟨S1, .f32⟩
  | 50 => ⟨S1x1, .f32⟩
  | 51 => ⟨S64x1, .f32⟩
  | 52 => ⟨S64x1, .f32⟩
  | 53 => ⟨S64x1, .f32⟩
  | 54 => ⟨S_, .f32⟩
  | 55 => ⟨S1, .f32⟩
  | 56 => ⟨S1x1, .f32⟩
  | 57 => ⟨S64x1, .f32⟩
  | 58 => ⟨S64x1, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x1, .f32⟩
  | 68 => ⟨S100000x129, .f32⟩
  | 69 => ⟨S1x1600000, .i32⟩
  | 70 => ⟨S1600000, .i32⟩
  | 71 => ⟨S1x1600000, .i32⟩
  | 72 => ⟨S1600000, .i32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .i1⟩
  | 26 => ⟨S_, .f32⟩
  | 27 => ⟨S100000x128, .f32⟩
  | 28 => ⟨S100000x128, .i1⟩
  | 29 => ⟨S_, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .i1⟩
  | 109 => ⟨S_, .f32⟩
  | 110 => ⟨S100000x128, .f32⟩
  | 111 => ⟨S100000x128, .i1⟩
  | 112 => ⟨S_, .f32⟩
  | 113 => ⟨S_, .f32⟩
  | 114 => ⟨S100000x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x1, .f32⟩
  | 23 => ⟨S1600000x128, .f32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S100000, .f32⟩
  | 30 => ⟨S100000x1, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .i1⟩
  | 64 => ⟨S_, .f32⟩
  | 65 => ⟨S100000x128, .f32⟩
  | 66 => ⟨S100000x128, .i1⟩
  | 67 => ⟨S_, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x1, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S_, .f32⟩
  | _ => ⟨S100000x128, .f32⟩

abbrev hbmTy0_3 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .f32⟩
  | 20 => ⟨S100000, .f32⟩
  | 21 => ⟨S_, .f32⟩
  | 22 => ⟨S512, .f32⟩
  | 23 => ⟨S100000x1, .i32⟩
  | 24 => ⟨S512, .f32⟩
  | 25 => ⟨S_, .f32⟩
  | 26 => ⟨S512, .f32⟩
  | 27 => ⟨S512, .f32⟩
  | 28 => ⟨S_, .f32⟩
  | 29 => ⟨S512x128, .f32⟩
  | 30 => ⟨S100000x1, .i32⟩
  | 31 => ⟨S512x128, .f32⟩
  | 32 => ⟨S512x1, .f32⟩
  | 33 => ⟨S512x128, .f32⟩
  | 34 => ⟨S512x128, .f32⟩
  | 35 => ⟨S512x64, .f32⟩
  | 36 => ⟨S1x64, .f32⟩
  | 37 => ⟨S512x64, .f32⟩
  | 38 => ⟨S512x64, .f32⟩
  | 39 => ⟨S_, .f32⟩
  | 40 => ⟨S512x64, .f32⟩
  | 41 => ⟨S512x64, .i1⟩
  | 42 => ⟨S_, .f32⟩
  | 43 => ⟨S512x64, .f32⟩
  | 44 => ⟨S512x64, .i1⟩
  | 45 => ⟨S_, .f32⟩
  | 46 => ⟨S_, .f32⟩
  | 47 => ⟨S512x64, .f32⟩
  | 48 => ⟨S512x64, .f32⟩
  | 49 => ⟨S512x64, .f32⟩
  | 50 => ⟨S_, .f32⟩
  | 51 => ⟨S512x64, .f32⟩
  | 52 => ⟨S512x64, .f32⟩
  | 53 => ⟨S512x64, .f32⟩
  | 54 => ⟨S512x1, .f32⟩
  | 55 => ⟨S1x1, .f32⟩
  | 56 => ⟨S512x1, .f32⟩
  | 57 => ⟨S512x1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_v5 : Ref sig .tc := ⟨.hbm, 31, rfl⟩
abbrev main_cst_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_10 : Ref sig .tc := ⟨.hbm, 84, rfl⟩
abbrev main_v49 : Ref sig .tc := ⟨.hbm, 85, rfl⟩
abbrev main_v50 : Ref sig .tc := ⟨.hbm, 86, rfl⟩
abbrev main_c_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_12 : Ref sig .tc := ⟨.hbm, 93, rfl⟩
abbrev main_v56 : Ref sig .tc := ⟨.hbm, 94, rfl⟩
abbrev main_v57 : Ref sig .tc := ⟨.hbm, 95, rfl⟩
abbrev main_c_13 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_14 : Ref sig .tc := ⟨.hbm, 103, rfl⟩
abbrev main_v64 : Ref sig .tc := ⟨.hbm, 104, rfl⟩
abbrev main_v65 : Ref sig .tc := ⟨.hbm, 105, rfl⟩
abbrev main_c_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_16 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call0_cst : Ref sig .tc := ⟨.hbm, 151, rfl⟩
abbrev main_call0_v0 : Ref sig .tc := ⟨.hbm, 152, rfl⟩
abbrev main_call0_v1 : Ref sig .tc := ⟨.hbm, 153, rfl⟩
abbrev main_call0_cst_0 : Ref sig .tc := ⟨.hbm, 154, rfl⟩
abbrev main_call0_v2 : Ref sig .tc := ⟨.hbm, 155, rfl⟩
abbrev main_call0_v3 : Ref sig .tc := ⟨.hbm, 156, rfl⟩
abbrev main_call0_cst_1 : Ref sig .tc := ⟨.hbm, 157, rfl⟩
abbrev main_call0_call0_v0 : Ref sig .tc := ⟨.hbm, 158, rfl⟩
abbrev main_call0_call0_v1 : Ref sig .tc := ⟨.hbm, 159, rfl⟩
abbrev main_call0_v4 : Ref sig .tc := ⟨.hbm, 160, rfl⟩
abbrev main_call0_v5 : Ref sig .tc := ⟨.hbm, 161, rfl⟩
abbrev main_call0_cst_2 : Ref sig .tc := ⟨.hbm, 162, rfl⟩
abbrev main_call0_v6 : Ref sig .tc := ⟨.hbm, 163, rfl⟩
abbrev main_call0_v7 : Ref sig .tc := ⟨.hbm, 164, rfl⟩
abbrev main_v108 : Ref sig .tc := ⟨.hbm, 165, rfl⟩
abbrev main_v109 : Ref sig .tc := ⟨.hbm, 166, rfl⟩
abbrev main_c_18 : Ref sig .tc := ⟨.hbm, 167, rfl⟩
abbrev main_v110 : Ref sig .tc := ⟨.hbm, 168, rfl⟩
abbrev main_v111 : Ref sig .tc := ⟨.hbm, 169, rfl⟩
abbrev main_c_19 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_c_20 : Ref sig .tc := ⟨.hbm, 176, rfl⟩
abbrev main_v117 : Ref sig .tc := ⟨.hbm, 177, rfl⟩
abbrev main_v118 : Ref sig .tc := ⟨.hbm, 178, rfl⟩
abbrev main_c_21 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_22 : Ref sig .tc := ⟨.hbm, 186, rfl⟩
abbrev main_v125 : Ref sig .tc := ⟨.hbm, 187, rfl⟩
abbrev main_v126 : Ref sig .tc := ⟨.hbm, 188, rfl⟩
abbrev main_c_23 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_24 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_25 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_call1_cst : Ref sig .tc := ⟨.hbm, 234, rfl⟩
abbrev main_call1_v0 : Ref sig .tc := ⟨.hbm, 235, rfl⟩
abbrev main_call1_v1 : Ref sig .tc := ⟨.hbm, 236, rfl⟩
abbrev main_call1_cst_0 : Ref sig .tc := ⟨.hbm, 237, rfl⟩
abbrev main_call1_v2 : Ref sig .tc := ⟨.hbm, 238, rfl⟩
abbrev main_call1_v3 : Ref sig .tc := ⟨.hbm, 239, rfl⟩
abbrev main_call1_cst_1 : Ref sig .tc := ⟨.hbm, 240, rfl⟩
abbrev main_call1_call0_v0 : Ref sig .tc := ⟨.hbm, 241, rfl⟩
abbrev main_call1_call0_v1 : Ref sig .tc := ⟨.hbm, 242, rfl⟩
abbrev main_call1_v4 : Ref sig .tc := ⟨.hbm, 243, rfl⟩
abbrev main_call1_v5 : Ref sig .tc := ⟨.hbm, 244, rfl⟩
abbrev main_call1_cst_2 : Ref sig .tc := ⟨.hbm, 245, rfl⟩
abbrev main_call1_v6 : Ref sig .tc := ⟨.hbm, 246, rfl⟩
abbrev main_call1_v7 : Ref sig .tc := ⟨.hbm, 247, rfl⟩
abbrev main_v169 : Ref sig .tc := ⟨.hbm, 248, rfl⟩
abbrev main_v170 : Ref sig .tc := ⟨.hbm, 249, rfl⟩
abbrev main_c_26 : Ref sig .tc := ⟨.hbm, 250, rfl⟩
abbrev main_v171 : Ref sig .tc := ⟨.hbm, 251, rfl⟩
abbrev main_v172 : Ref sig .tc := ⟨.hbm, 252, rfl⟩
abbrev main_c_27 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_c_28 : Ref sig .tc := ⟨.hbm, 259, rfl⟩
abbrev main_v178 : Ref sig .tc := ⟨.hbm, 260, rfl⟩
abbrev main_v179 : Ref sig .tc := ⟨.hbm, 261, rfl⟩
abbrev main_c_29 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_c_30 : Ref sig .tc := ⟨.hbm, 269, rfl⟩
abbrev main_v186 : Ref sig .tc := ⟨.hbm, 270, rfl⟩
abbrev main_v187 : Ref sig .tc := ⟨.hbm, 271, rfl⟩
abbrev main_c_31 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_cst_32 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_cst_33 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_call2_cst : Ref sig .tc := ⟨.hbm, 317, rfl⟩
abbrev main_call2_v0 : Ref sig .tc := ⟨.hbm, 318, rfl⟩
abbrev main_call2_v1 : Ref sig .tc := ⟨.hbm, 319, rfl⟩
abbrev main_call2_cst_0 : Ref sig .tc := ⟨.hbm, 320, rfl⟩
abbrev main_call2_v2 : Ref sig .tc := ⟨.hbm, 321, rfl⟩
abbrev main_call2_v3 : Ref sig .tc := ⟨.hbm, 322, rfl⟩
abbrev main_call2_cst_1 : Ref sig .tc := ⟨.hbm, 323, rfl⟩
abbrev main_call2_call0_v0 : Ref sig .tc := ⟨.hbm, 324, rfl⟩
abbrev main_call2_call0_v1 : Ref sig .tc := ⟨.hbm, 325, rfl⟩
abbrev main_call2_v4 : Ref sig .tc := ⟨.hbm, 326, rfl⟩
abbrev main_call2_v5 : Ref sig .tc := ⟨.hbm, 327, rfl⟩
abbrev main_call2_cst_2 : Ref sig .tc := ⟨.hbm, 328, rfl⟩
abbrev main_call2_v6 : Ref sig .tc := ⟨.hbm, 329, rfl⟩
abbrev main_call2_v7 : Ref sig .tc := ⟨.hbm, 330, rfl⟩
abbrev main_v230 : Ref sig .tc := ⟨.hbm, 331, rfl⟩
abbrev main_v231 : Ref sig .tc := ⟨.hbm, 332, rfl⟩
abbrev main_c_34 : Ref sig .tc := ⟨.hbm, 333, rfl⟩
abbrev main_v232 : Ref sig .tc := ⟨.hbm, 334, rfl⟩
abbrev main_v233 : Ref sig .tc := ⟨.hbm, 335, rfl⟩
abbrev main_c_35 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_c_36 : Ref sig .tc := ⟨.hbm, 342, rfl⟩
abbrev main_v239 : Ref sig .tc := ⟨.hbm, 343, rfl⟩
abbrev main_v240 : Ref sig .tc := ⟨.hbm, 344, rfl⟩
abbrev main_c_37 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_c_38 : Ref sig .tc := ⟨.hbm, 352, rfl⟩
abbrev main_v247 : Ref sig .tc := ⟨.hbm, 353, rfl⟩
abbrev main_v248 : Ref sig .tc := ⟨.hbm, 354, rfl⟩
abbrev main_c_39 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_cst_40 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_cst_41 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_v281 : Ref sig .tc := ⟨.hbm, 390, rfl⟩
abbrev main_v282 : Ref sig .tc := ⟨.hbm, 391, rfl⟩
abbrev main_v283 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_call3_cst : Ref sig .tc := ⟨.hbm, 400, rfl⟩
abbrev main_call3_v0 : Ref sig .tc := ⟨.hbm, 401, rfl⟩
abbrev main_v291 : Ref sig .tc := ⟨.hbm, 402, rfl⟩
abbrev main_cst_42 : Ref sig .tc := ⟨.hbm, 403, rfl⟩
abbrev main_v292 : Ref sig .tc := ⟨.hbm, 404, rfl⟩
abbrev main_cst_43 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_cst_44 : Ref sig .tc := ⟨.hbm, 409, rfl⟩
abbrev main_v296 : Ref sig .tc := ⟨.hbm, 410, rfl⟩
abbrev main_v297 : Ref sig .tc := ⟨.hbm, 411, rfl⟩
abbrev main_cst_45 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_call4_cst : Ref sig .tc := ⟨.hbm, 423, rfl⟩
abbrev main_call4_v0 : Ref sig .tc := ⟨.hbm, 424, rfl⟩
abbrev main_call4_v1 : Ref sig .tc := ⟨.hbm, 425, rfl⟩
abbrev main_call4_cst_0 : Ref sig .tc := ⟨.hbm, 426, rfl⟩
abbrev main_call4_v2 : Ref sig .tc := ⟨.hbm, 427, rfl⟩
abbrev main_call4_v3 : Ref sig .tc := ⟨.hbm, 428, rfl⟩
abbrev main_call4_cst_1 : Ref sig .tc := ⟨.hbm, 429, rfl⟩
abbrev main_call4_call0_v0 : Ref sig .tc := ⟨.hbm, 430, rfl⟩
abbrev main_call4_call0_v1 : Ref sig .tc := ⟨.hbm, 431, rfl⟩
abbrev main_call4_v4 : Ref sig .tc := ⟨.hbm, 432, rfl⟩
abbrev main_call4_v5 : Ref sig .tc := ⟨.hbm, 433, rfl⟩
abbrev main_call4_cst_2 : Ref sig .tc := ⟨.hbm, 434, rfl⟩
abbrev main_call4_v6 : Ref sig .tc := ⟨.hbm, 435, rfl⟩
abbrev main_call4_v7 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_v311 : Ref sig .tc := ⟨.hbm, 440, rfl⟩
abbrev main_v312 : Ref sig .tc := ⟨.hbm, 441, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x1_S1_d0 : S64x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  concatenates_S100000x128_S100000x1_S100000x129_d1 : Shape.Concatenates [S100000x128, S100000x1] S100000x129 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  bcast_S_S128 : S_.BroadcastsInDim S128 (![] : Fin 0 → Fin S128.rank)
  slices_S4x128_S1x128_1_0 : S4x128.Slices ![1, 0] S1x128
  slices_S4x128_S1x128_2_0 : S4x128.Slices ![2, 0] S1x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1x1_S512x1_0_1 : S1x1.BroadcastsInDim S512x1 (![0, 1] : Fin 2 → Fin S512x1.rank)
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  gather_S64x1_S100000x1_S100000x1_1_0_n_n_0_1_11_wf : GatherDims.WF S64x1 S100000x1 S100000x1 [1] [0] [] [0] [] 1 ![1, 1]
  scatter_S100000_S1600000x1_S1600000_n_0_0_1_wf : ScatterDims.WF S100000 S1600000x1 S1600000 [] [0] [0] 1
  dot_S100000x129_S129x128_S100000x128_1_0_0_1_n_n_wf : DotDims.WF S100000x129 S129x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512_S100000x1_S100000_n_0_0_1_wf : ScatterDims.WF S512 S100000x1 S100000 [] [0] [0] 1
  scatter_S512x128_S100000x1_S100000x128_1_0_0_1_wf : ScatterDims.WF S512x128 S100000x1 S100000x128 [1] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf
def gather_S64x1_S100000x1_S100000x1_1_0_n_n_0_1_11 : GatherDims S64x1 S100000x1 S100000x1 where
  offsetDims := [1]
  collapsedSliceDims := [0]
  operandBatchingDims := []
  startIndicesBatchingDims := []
  startIndexMap := [0]
  indexVectorDim := 1
  sliceSizes := ![1, 1]
  wf := gather_S64x1_S100000x1_S100000x1_1_0_n_n_0_1_11_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x129_S129x128_S100000x128_1_0_0_1_n_n : DotDims S100000x129 S129x128 S100000x128 where
  lhsContracting := [1]
  rhsContracting := [0]
  lhsNonContracting := [0]
  rhsNonContracting := [1]
  lhsBatch := []
  rhsBatch := []
  wf := dot_S100000x129_S129x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KernelRun.lean ====
/-
  The idealized kernel program's run with its RESULT named.
  The program is eight pipelined regions among stretches of host operations.  Its run is read boundary by boundary: the
  buffer contents at each boundary are a fold from the launch memory (a host stretch applies its operations; a region
  leaves its arrays at what its write-backs produce and every other buffer as entered).  Every weakly fair execution
  terminates with each unscoped buffer at the last boundary's contents; here that fact is read at the result buffer
  (the [512, 1] prediction) as well as at the twenty-three argument arrays, which end as launched.
-/
import proofs.«127358_j57011395887506_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v194) = W16 m ρ c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v194 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c)⟩)

end Cert.KernelIdeal.Result

end
-- ==== Proof.RefOps0.lean ====
/- The reference program's operations, part 0 of 6: pre — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The shared preamble: attention scores, the concatenated features %36, the edge sources %38 and targets %40, the degrees, and their inverse square roots %47. 60 operations. -/
abbrev pre : List (HloOp τ sig (Elt F)) :=
  [ StableHlo.nullary main_cst (constant S_ .f32 0x3F800000#32),  -- %cst = constant dense<1.000000e+00>
    StableHlo.unary main_cst main_v0 (broadcastInDim S100000 ![] bcast_S_S100000 : (⟨S_, .f32⟩ : BufTy).Contents (Elt F) → (⟨S100000, .f32⟩ : BufTy).Contents (Elt F)),  -- %0 = broadcast_in_dim %cst, dims = []
    StableHlo.nullary main_cst_0 (constant S_ .f32 0x00000000#32),  -- %cst_0 = constant dense<0.000000e+00>
    StableHlo.unary main_cst_0 main_v1 (broadcastInDim S64 ![] bcast_S_S64 : (⟨S_, .f32⟩ : BufTy).Contents (Elt F) → (⟨S64, .f32⟩ : BufTy).Contents (Elt F)),  -- %1 = broadcast_in_dim %cst_0, dims = []
    StableHlo.unary main_arg2 main_v2 (broadcastInDim S100000x1 ![0] bcast_S100000_S100000x1_0 : (⟨S100000, .i32⟩ : BufTy).Contents (Elt F) → (⟨S100000x1, .i32⟩ : BufTy).Contents (Elt F)),  -- %2 = broadcast_in_dim %arg2, dims = [0]
    StableHlo.ternary main_v1 main_v2 main_v0 main_v3 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),  -- %3 = "scatter"(%1, %2, %0)
    StableHlo.nullary main_cst_1 (constant S_ .f32 0x3F800000#32),  -- %cst_1 = constant dense<1.000000e+00>
    StableHlo.unary main_cst_1 main_v4 (broadcastInDim S64 ![] bcast_S_S64 : (⟨S_, .f32⟩ : BufTy).Contents (Elt F) → (⟨S64, .f32⟩ : BufTy).Contents (Elt F)),  -- %4 = broadcast_in_dim %cst_1, dims = []
    StableHlo.binary main_v3 main_v4 main_v5 (maximumf : (⟨S64, .f32⟩ : BufTy).Contents (Elt F) → (⟨S64, .f32⟩ : BufTy).Contents (Elt F) → (⟨S64, .f32⟩ : BufTy).Contents (Elt F)),  -- %5 = maximum %3, %4
    StableHlo.nullary main_cst_2 (constant S_ .f32 0x00000000#32),  -- %cst_2 = constant dense<0.000000e+00>
    StableHlo.unary main_cst_2 main_v6 (broadcastInDim S64x128 ![] bcast_S_S64x128 : (⟨S_, .f32⟩ : BufTy).Contents (Elt F) → (⟨S64x128, .f32⟩ : BufTy).Contents (Elt F)),  -- %6 = broadcast_in_dim %cst_2, dims = []
    StableHlo.unary main_arg2 main_v7 (broadcastInDim S100000x1 ![0] bcast_S100000_S100000x1_0 : (⟨S100000, .i32⟩ : BufTy).Contents (Elt F) → (⟨S100000x1, .i32⟩ : BufTy).Contents (Elt F)),  -- %7 = broadcast_in_dim %arg2, dims = [0]
    StableHlo.ternary main_v6 main_v7 main_arg0 main_v8 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),  -- %8 = "scatter"(%6, %7, %arg0)
    StableHlo.unary main_v5 main_v9 (broadcastInDim S64x1 ![0] bcast_S64_S64x1_0 : (⟨S64, .f32⟩ : BufTy).Contents (Elt F) → (⟨S64x1, .f32⟩ : BufTy).Contents (Elt F)),  -- %9 = broadcast_in_dim %5, dims = [0]
    StableHlo.unary main_v9 main_v10 (broadcastInDim S64x128 ![0, 1] bcast_S64x1_S64x128_0_1 : (⟨S64x1, .f32⟩ : BufTy).Contents (Elt F) → (⟨S64x128, .f32⟩ : BufTy).Contents (Elt F)),  -- %10 = broadcast_in_dim %9, dims = [0, 1]
    StableHlo.binary main_v8 main_v10 main_v11 (Host.divf : (⟨S64x128, .f32⟩ : BufTy).Contents (Elt F) → (⟨S64x128, .f32⟩ : BufTy).Contents (Elt F) → (⟨S64x128, .f32⟩ : BufTy).Contents (Elt F)),  -- %11 = divide %8, %10
    StableHlo.binary main_v11 main_arg4 main_v12 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),  -- %12 = dot_general %11, %arg4, contracting_dims = [1] x [0], precision = [DEFAULT, DEFAULT]
    StableHlo.unary main_arg5 main_v13 (broadcastInDim S1x64 ![1] bcast_S64_S1x64_1 : (⟨S64, .f32⟩ : BufTy).Contents (Elt F) → (⟨S1x64, .f32⟩ : BufTy).Contents (Elt F)),  -- %13 = broadcast_in_dim %arg5, dims = [1]
    StableHlo.unary main_v13 main_v14 (broadcastInDim S64x64 ![0, 1] bcast_S1x64_S64x64_0_1 : (⟨S1x64, .f32⟩ : BufTy).Contents (Elt F) → (⟨S64x64, .f32⟩ : BufTy).Contents (Elt F)),  -- %14 = broadcast_in_dim %13, dims = [0, 1]
    StableHlo.binary main_v12 main_v14 main_v15 (addf : (⟨S64x64, .f32⟩ : BufTy).Contents (Elt F) → (⟨S64x64, .f32⟩ : BufTy).Contents (Elt F) → (⟨S64x64, .f32⟩ : BufTy).Contents (Elt F)),  -- %15 = add %12, %14
    StableHlo.unary main_v15 main_v16 (Host.tanh : (⟨S64x64, .f32⟩ : BufTy).Contents (Elt F) → (⟨S64x64, .f32⟩ : BufTy).Contents (Elt F)),  -- %16 = tanh %15
    StableHlo.binary main_v16 main_arg6 main_v17 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),  -- %17 = dot_general %16, %arg6, contracting_dims = [1] x [0], precision = [DEFAULT, DEFAULT]
    StableHlo.nullary main_cst_3 (constant S_ .f32 0xFF800000#32),  -- %cst_3 = constant dense<0xFF800000>
    StableHlo.binary main_v17 main_cst_3 main_v18 ((fun x v => Host.reduce FloatOps.maximumf x v reducesTo_S64x1_S1_d0 h_S_) : (⟨S64x1, .f32⟩ : BufTy).Contents (Elt F) → (⟨S_, .f32⟩ : BufTy).Contents (Elt F) → (⟨S1, .f32⟩ : BufTy).Contents (Elt F)),  -- %18 = reduce(%17 init: %cst_3) applies maximum across dimensions = [0]
    StableHlo.nullary main_cst_4 (constant S_ .f32 0xFF800000#32),  -- %cst_4 = constant dense<0xFF800000>
    StableHlo.unary main_cst_4 main_v19 (broadcastInDim S1 ![] bcast_S_S1 : (⟨S_, .f32⟩ : BufTy).Contents (Elt F) → (⟨S1, .f32⟩ : BufTy).Contents (Elt F)),  -- %19 = broadcast_in_dim %cst_4, dims = []
    StableHlo.binary main_v19 main_v18 main_v20 (maximumf : (⟨S1, .f32⟩ : BufTy).Contents (Elt F) → (⟨S1, .f32⟩ : BufTy).Contents (Elt F) → (⟨S1, .f32⟩ : BufTy).Contents (Elt F)),  -- %20 = maximum %19, %18
    StableHlo.unary main_v20 main_v21 (broadcastInDim S1x1 ![1] bcast_S1_S1x1_1 : (⟨S1, .f32⟩ : BufTy).Contents (Elt F) → (⟨S1x1, .f32⟩ : BufTy).Contents (Elt F)),  -- %21 = broadcast_in_dim %20, dims = [1]
    StableHlo.unary main_v21 main_v22 (broadcastInDim S64x1 ![0, 1] bcast_S1x1_S64x1_0_1 : (⟨S1x1, .f32⟩ : BufTy).Contents (Elt F) → (⟨S64x1, .f32⟩ : BufTy).Contents (Elt F)),  -- %22 = broadcast_in_dim %21, dims = [0, 1]
    StableHlo.binary main_v17 main_v22 main_v23 (subf : (⟨S64x1, .f32⟩ : BufTy).Contents (Elt F) → (⟨S64x1, .f32⟩ : BufTy).Contents (Elt F) → (⟨S64x1, .f32⟩ : BufTy).Contents (Elt F)),  -- %23 = subtract %17, %22
    StableHlo.unary main_v23 main_v24 (Host.exp : (⟨S64x1, .f32⟩ : BufTy).Contents (Elt F) → (⟨S64x1, .f32⟩ : BufTy).Contents (Elt F)),  -- %24 = exponential %23
    StableHlo.nullary main_cst_5 (constant S_ .f32 0x00000000#32),  -- %cst_5 = constant dense<0.000000e+00>
    StableHlo.binary main_v24 main_cst_5 main_v25 ((fun x v => Host.reduceAdd x v reducesTo_S64x1_S1_d0 h_S_) : (⟨S64x1, .f32⟩ : BufTy).Contents (Elt F) → (⟨S_, .f32⟩ : BufTy).Contents (Elt F) → (⟨S1, .f32⟩ : BufTy).Contents (Elt F)),  -- %25 = reduce(%24 init: %cst_5) applies add across dimensions = [0]
    StableHlo.unary main_v25 main_v26 (broadcastInDim S1x1 ![1] bcast_S1_S1x1_1 : (⟨S1, .f32⟩ : BufTy).Contents (Elt F) → (⟨S1x1, .f32⟩ : BufTy).Contents (Elt F)),  -- %26 = broadcast_in_dim %25, dims = [1]
    StableHlo.unary main_v26 main_v27 (broadcastInDim S64x1 ![0, 1] bcast_S1x1_S64x1_0_1 : (⟨S1x1, .f32⟩ : BufTy).Contents (Elt F) → (⟨S64x1, .f32⟩ : BufTy).Contents (Elt F)),  -- %27 = broadcast_in_dim %26, dims = [0, 1]
    StableHlo.binary main_v24 main_v27 main_v28 (Host.divf : (⟨S64x1, .f32⟩ : BufTy).Contents (Elt F) → (⟨S64x1, .f32⟩ : BufTy).Contents (Elt F) → (⟨S64x1, .f32⟩ : BufTy).Contents (Elt F)),  -- %28 = divide %24, %27
    StableHlo.nullary main_c (constantI S_ 32 0#32),  -- %c = constant dense<0>
    StableHlo.unary main_c main_v29 (broadcastInDim S100000 ![] bcast_S_S100000 : (⟨S_, .i32⟩ : BufTy).Contents (Elt F) → (⟨S100000, .i32⟩ : BufTy).Contents (Elt F)),  -- %29 = broadcast_in_dim %c, dims = []
    StableHlo.binary main_arg2 main_v29 main_v30 (cmpi .slt : (⟨S100000, .i32⟩ : BufTy).Contents (Elt F) → (⟨S100000, .i32⟩ : BufTy).Contents (Elt F) → (⟨S100000, .i1⟩ : BufTy).Contents (Elt F)),  -- %30 = compare LT, %arg2, %29, SIGNED
    StableHlo.nullary main_c_6 (constantI S_ 32 64#32),  -- %c_6 = constant dense<64>
    StableHlo.unary main_c_6 main_v31 (broadcastInDim S100000 ![] bcast_S_S100000 : (⟨S_, .i32⟩ : BufTy).Contents (Elt F) → (⟨S100000, .i32⟩ : BufTy).Contents (Elt F)),  -- %31 = broadcast_in_dim %c_6, dims = []
    StableHlo.binary main_arg2 main_v31 main_v32 (addi : (⟨S100000, .i32⟩ : BufTy).Contents (Elt F) → (⟨S100000, .i32⟩ : BufTy).Contents (Elt F) → (⟨S100000, .i32⟩ : BufTy).Contents (Elt F)),  -- %32 = add %arg2, %31
    StableHlo.ternary main_v30 main_v32 main_arg2 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),  -- %33 = select %30, %32, %arg2
    StableHlo.unary main_v33 main_v34 (broadcastInDim S100000x1 ![0] bcast_S100000_S100000x1_0 : (⟨S100000, .i32⟩ : BufTy).Contents (Elt F) → (⟨S100000x1, .i32⟩ : BufTy).Contents (Elt F)),  -- %34 = broadcast_in_dim %33, dims = [0]
    StableHlo.binary main_v28 main_v34 main_v35 ((fun x i => Host.gather gather_S64x1_S100000x1_S100000x1_1_0_n_n_0_1_11 x i) : (⟨S64x1, .f32⟩ : BufTy).Contents (Elt F) → (⟨S100000x1, .i32⟩ : BufTy).Contents (Elt F) → (⟨S100000x1, .f32⟩ : BufTy).Contents (Elt F)),  -- %35 = "gather"(%28, %34)
    StableHlo.binary main_arg0 main_v35 main_v36 ((fun a b => concatenate S100000x129 1 [⟨S100000x128, a⟩, ⟨S100000x1, b⟩] concatenates_S100000x128_S100000x1_S100000x129_d1) : (⟨S100000x128, .f32⟩ : BufTy).Contents (Elt F) → (⟨S100000x1, .f32⟩ : BufTy).Contents (Elt F) → (⟨S100000x129, .f32⟩ : BufTy).Contents (Elt F)),  -- %36 = concatenate %arg0, %35, dim = 1
    StableHlo.unary main_arg1 main_v37 ((extractStridedSlice S1x1600000 ![0, 0] · slices_S2x1600000_S1x1600000_0_0) : (⟨S2x1600000, .i32⟩ : BufTy).Contents (Elt F) → (⟨S1x1600000, .i32⟩ : BufTy).Contents (Elt F)),  -- %37 = slice %arg1 [0:1, 0:1600000]
    StableHlo.reshape main_v37 main_v38 rfl shapeCasts_S1x1600000_S1600000,  -- %38 = reshape %37
    StableHlo.unary main_arg1 main_v39 ((extractStridedSlice S1x1600000 ![1, 0] · slices_S2x1600000_S1x1600000_1_0) : (⟨S2x1600000, .i32⟩ : BufTy).Contents (Elt F) → (⟨S1x1600000, .i32⟩ : BufTy).Contents (Elt F)),  -- %39 = slice %arg1 [1:2, 0:1600000]
    StableHlo.reshape main_v39 main_v40 rfl shapeCasts_S1x1600000_S1600000,  -- %40 = reshape %39
    StableHlo.nullary main_cst_7 (constant S_ .f32 0x3F800000#32),  -- %cst_7 = constant dense<1.000000e+00>
    StableHlo.unary main_cst_7 main_v41 (broadcastInDim S1600000 ![] bcast_S_S1600000 : (⟨S_, .f32⟩ : BufTy).Contents (Elt F) → (⟨S1600000, .f32⟩ : BufTy).Contents (Elt F)),  -- %41 = broadcast_in_dim %cst_7, dims = []
    StableHlo.nullary main_cst_8 (constant S_ .f32 0x00000000#32),  -- %cst_8 = constant dense<0.000000e+00>
    StableHlo.unary main_cst_8 main_v42 (broadcastInDim S100000 ![] bcast_S_S100000 : (⟨S_, .f32⟩ : BufTy).Contents (Elt F) → (⟨S100000, .f32⟩ : BufTy).Contents (Elt F)),  -- %42 = broadcast_in_dim %cst_8, dims = []
    StableHlo.unary main_v40 main_v43 (broadcastInDim S1600000x1 ![0] bcast_S1600000_S1600000x1_0 : (⟨S1600000, .i32⟩ : BufTy).Contents (Elt F) → (⟨S1600000x1, .i32⟩ : BufTy).Contents (Elt F)),  -- %43 = broadcast_in_dim %40, dims = [0]
    StableHlo.ternary main_v42 main_v43 main_v41 main_v44 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),  -- %44 = "scatter"(%42, %43, %41)
    StableHlo.nullary main_cst_9 (constant S_ .f32 0x3F800000#32),  -- %cst_9 = constant dense<1.000000e+00>
    StableHlo.unary main_cst_9 main_v45 (broadcastInDim S100000 ![] bcast_S_S100000 : (⟨S_, .f32⟩ : BufTy).Contents (Elt F) → (⟨S100000, .f32⟩ : BufTy).Contents (Elt F)),  -- %45 = broadcast_in_dim %cst_9, dims = []
    StableHlo.binary main_v44 main_v45 main_v46 (addf : (⟨S100000, .f32⟩ : BufTy).Contents (Elt F) → (⟨S100000, .f32⟩ : BufTy).Contents (Elt F) → (⟨S100000, .f32⟩ : BufTy).Contents (Elt F)),  -- %46 = add %44, %45
    StableHlo.unary main_v46 main_v47 (Host.rsqrt : (⟨S100000, .f32⟩ : BufTy).Contents (Elt F) → (⟨S100000, .f32⟩ : BufTy).Contents (Elt F)) ]  -- %47 = rsqrt %46

set_option maxHeartbeats 40000000 in
/-- Each of them touches TensorCore references only. -/
theorem pre_sub : (pre : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩

set_option maxHeartbeats 40000000 in
/-- Each of them determines its results: none allocates. -/
theorem pre_fresh : ∀ op ∈ (pre : List (HloOp τ sig (Elt F))), op.fresh = ∅ := by
  intro _ h; (repeat (cases h with | head => rfl | tail _ h => ?_)); exact nomatch h

end Cert.ReferenceIdeal.RefRun

end
-- ==== Proof.RefOps1.lean ====
/- The reference program's operations, part 1 of 6: dense0, agg0, norm0 — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Layer 0: the one product of the features with the layer's weights. 1 operation. -/
abbrev dense0 : List (HloOp τ sig (Elt F)) :=
  [ StableHlo.binary main_v36 main_arg7 main_v48 ((fun l r => Host.dotGeneral dot_S100000x129_S129x128_S100000x128_1_0_0_1_n_n none l r) : (⟨S100000x129, .f32⟩ : BufTy).Contents (Elt F) → (⟨S129x128, .f32⟩ : BufTy).Contents (Elt F) → (⟨S100000x128, .f32⟩ : BufTy).Contents (Elt F)) ]  -- %48 = dot_general %36, %arg7, contracting_dims = [1] x [0], precision = [DEFAULT, DEFAULT]

set_option maxHeartbeats 40000000 in
/-- Each of them touches TensorCore references only. -/
theorem dense0_sub : (dense0 : List (HloOp τ sig (Elt F))).Forall fun op => op.bufs ⊆ tcRefs τ sig :=
  binary_bufs_sub ..

set_option maxHeartbeats 40000000 in
/-- Each of them determines its results: none allocates. -/
theorem dense0_fresh : ∀ op ∈ (dense0 : List (HloOp τ sig (Elt F))), op.fresh = ∅ := by
  intro _ h; (repeat (cases h with | head => rfl | tail _ h => ?_)); exact nomatch h

set_option maxHeartbeats 40000000 in
/-- Layer 0: the edge coefficients, the gather of the sources' rows, their scaling, and the scatter-add onto the targets. 35 operations. -/
abbrev agg0 : List (HloOp τ sig (Elt F)) :=
  [ StableHlo.nullary main_c_10 (constantI S_ 32 0#32),  -- %c_10 = constant dense<0>
    StableHlo.unary main_c_10 main_v49 (broadcastInDim S1600000 ![] bcast_S_S1600000 : (⟨S_, .i32⟩ : BufTy).Contents (Elt F) → (⟨S1600000, .i32⟩ : BufTy).Contents (Elt F)),  -- %49 = broadcast_in_dim %c_10, dims = []
    StableHlo.binary main_v38 main_v49 main_v50 (cmpi .slt : (⟨S1600000, .i32⟩ : BufTy).Contents (Elt F) → (⟨S1600000, .i32⟩ : BufTy).Contents (Elt F) → (⟨S1600000, .i1⟩ : BufTy).Contents (Elt F)),  -- %50 = compare LT, %38, %49, SIGNED
    StableHlo.nullary main_c_11 (constantI S_ 32 100000#32),  -- %c_11 = constant dense<100000>
    StableHlo.unary main_c_11 main_v51 (broadcastInDim S1600000 ![] bcast_S_S1600000 : (⟨S_, .i32⟩ : BufTy).Contents (Elt F) → (⟨S1600000, .i32⟩ : BufTy).Contents (Elt F)),  -- %51 = broadcast_in_dim %c_11, dims = []
    StableHlo.binary main_v38 main_v51 main_v52 (addi : (⟨S1600000, .i32⟩ : BufTy).Contents (Elt F) → (⟨S1600000, .i32⟩ : BufTy).Contents (Elt F) → (⟨S1600000, .i32⟩ : BufTy).Contents (Elt F)),  -- %52 = add %38, %51
    StableHlo.ternary main_v50 main_v52 main_v38 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %53 = select %50, %52, %38
    StableHlo.unary main_v53 main_v54 (broadcastInDim S1600000x1 ![0] bcast_S1600000_S1600000x1_0 : (⟨S1600000, .i32⟩ : BufTy).Contents (Elt F) → (⟨S1600000x1, .i32⟩ : BufTy).Contents (Elt F)),  -- %54 = broadcast_in_dim %53, dims = [0]
    StableHlo.binary main_v47 main_v54 main_v55 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %55 = "gather"(%47, %54)
    StableHlo.nullary main_c_12 (constantI S_ 32 0#32),  -- %c_12 = constant dense<0>
    StableHlo.unary main_c_12 main_v56 (broadcastInDim S1600000 ![] bcast_S_S1600000 : (⟨S_, .i32⟩ : BufTy).Contents (Elt F) → (⟨S1600000, .i32⟩ : BufTy).Contents (Elt F)),  -- %56 = broadcast_in_dim %c_12, dims = []
    StableHlo.binary main_v40 main_v56 main_v57 (cmpi .slt : (⟨S1600000, .i32⟩ : BufTy).Contents (Elt F) → (⟨S1600000, .i32⟩ : BufTy).Contents (Elt F) → (⟨S1600000, .i1⟩ : BufTy).Contents (Elt F)),  -- %57 = compare LT, %40, %56, SIGNED
    StableHlo.nullary main_c_13 (constantI S_ 32 100000#32),  -- %c_13 = constant dense<100000>
    StableHlo.unary main_c_13 main_v58 (broadcastInDim S1600000 ![] bcast_S_S1600000 : (⟨S_, .i32⟩ : BufTy).Contents (Elt F) → (⟨S1600000, .i32⟩ : BufTy).Contents (Elt F)),  -- %58 = broadcast_in_dim %c_13, dims = []
    StableHlo.binary main_v40 main_v58 main_v59 (addi : (⟨S1600000, .i32⟩ : BufTy).Contents (Elt F) → (⟨S1600000, .i32⟩ : BufTy).Contents (Elt F) → (⟨S1600000, .i32⟩ : BufTy).Contents (Elt F)),  -- %59 = add %40, %58
    StableHlo.ternary main_v57 main_v59 main_v40 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %60 = select %57, %59, %40
    StableHlo.unary main_v60 main_v61 (broadcastInDim S1600000x1 ![0] bcast_S1600000_S1600000x1_0 : (⟨S1600000, .i32⟩ : BufTy).Contents (Elt F) → (⟨S1600000x1, .i32⟩ : BufTy).Contents (Elt F)),  -- %61 = broadcast_in_dim %60, dims = [0]
    StableHlo.binary main_v47 main_v61 main_v62 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %62 = "gather"(%47, %61)
    StableHlo.binary main_v55 main_v62 main_v63 (mulf : (⟨S1600000, .f32⟩ : BufTy).Contents (Elt F) → (⟨S1600000, .f32⟩ : BufTy).Contents (Elt F) → (⟨S1600000, .f32⟩ : BufTy).Contents (Elt F)),  -- %63 = multiply %55, %62
    StableHlo.nullary main_c_14 (constantI S_ 32 0#32),  -- %c_14 = constant dense<0>
    StableHlo.unary main_c_14 main_v64 (broadcastInDim S1600000 ![] bcast_S_S1600000 : (⟨S_, .i32⟩ : BufTy).Contents (Elt F) → (⟨S1600000, .i32⟩ : BufTy).Contents (Elt F)),  -- %64 = broadcast_in_dim %c_14, dims = []
    StableHlo.binary main_v38 main_v64 main_v65 (cmpi .slt : (⟨S1600000, .i32⟩ : BufTy).Contents (Elt F) → (⟨S1600000, .i32⟩ : BufTy).Contents (Elt F) → (⟨S1600000, .i1⟩ : BufTy).Contents (Elt F)),  -- %65 = compare LT, %38, %64, SIGNED
    StableHlo.nullary main_c_15 (constantI S_ 32 100000#32),  -- %c_15 = constant dense<100000>
    StableHlo.unary main_c_15 main_v66 (broadcastInDim S1600000 ![] bcast_S_S1600000 : (⟨S_, .i32⟩ : BufTy).Contents (Elt F) → (⟨S1600000, .i32⟩ : BufTy).Contents (Elt F)),  -- %66 = broadcast_in_dim %c_15, dims = []
    StableHlo.binary main_v38 main_v66 main_v67 (addi : (⟨S1600000, .i32⟩ : BufTy).Contents (Elt F) → (⟨S1600000, .i32⟩ : BufTy).Contents (Elt F) → (⟨S1600000, .i32⟩ : BufTy).Contents (Elt F)),  -- %67 = add %38, %66
    StableHlo.ternary main_v65 main_v67 main_v38 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %68 = select %65, %67, %38
    StableHlo.unary main_v68 main_v69 (broadcastInDim S1600000x1 ![0] bcast_S1600000_S1600000x1_0 : (⟨S1600000, .i32⟩ : BufTy).Contents (Elt F) → (⟨S1600000x1, .i32⟩ : BufTy).Contents (Elt F)),  -- %69 = broadcast_in_dim %68, dims = [0]
    StableHlo.binary main_v48 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %70 = "gather"(%48, %69)
    StableHlo.unary main_v63 main_v71 (broadcastInDim S1600000x1 ![0] bcast_S1600000_S1600000x1_0 : (⟨S1600000, .f32⟩ : BufTy).Contents (Elt F) → (⟨S1600000x1, .f32⟩ : BufTy).Contents (Elt F)),  -- %71 = broadcast_in_dim %63, dims = [0]
    StableHlo.unary main_v71 main_v72 (broadcastInDim S1600000x128 ![0, 1] bcast_S1600000x1_S1600000x128_0_1 : (⟨S1600000x1, .f32⟩ : BufTy).Contents (Elt F) → (⟨S1600000x128, .f32⟩ : BufTy).Contents (Elt F)),  -- %72 = broadcast_in_dim %71, dims = [0, 1]
    StableHlo.binary main_v70 main_v72 main_v73 (mulf : (⟨S1600000x128, .f32⟩ : BufTy).Contents (Elt F) → (⟨S1600000x128, .f32⟩ : BufTy).Contents (Elt F) → (⟨S1600000x128, .f32⟩ : BufTy).Contents (Elt F)),  -- %73 = multiply %70, %72
    StableHlo.nullary main_cst_16 (constant S_ .f32 0x00000000#32),  -- %cst_16 = constant dense<0.000000e+00>
    StableHlo.unary main_cst_16 main_v74 (broadcastInDim S100000x128 ![] bcast_S_S100000x128 : (⟨S_, .f32⟩ : BufTy).Contents (Elt F) → (⟨S100000x128, .f32⟩ : BufTy).Contents (Elt F)),  -- %74 = broadcast_in_dim %cst_16, dims = []
    StableHlo.unary main_v40 main_v75 (broadcastInDim S1600000x1 ![0] bcast_S1600000_S1600000x1_0 : (⟨S1600000, .i32⟩ : BufTy).Contents (Elt F) → (⟨S1600000x1, .i32⟩ : BufTy).Contents (Elt F)),  -- %75 = broadcast_in_dim %40, dims = [0]
    StableHlo.ternary main_v74 main_v75 main_v73 main_v76 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]  -- %76 = "scatter"(%74, %75, %73)

set_option maxHeartbeats 40000000 in
/-- Each of them touches TensorCore references only. -/
theorem agg0_sub : (agg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxHeartbeats 40000000 in
/-- Each of them determines its results: none allocates. -/
theorem agg0_fresh : ∀ op ∈ (agg0 : List (HloOp τ sig (Elt F))), op.fresh = ∅ := by
  intro _ h; (repeat (cases h with | head => rfl | tail _ h => ?_)); exact nomatch h

set_option maxHeartbeats 40000000 in
/-- Layer 0: the self-loop term, the bias, the batch normalisation, and the activation (its function's operations in line). 47 operations. -/
abbrev norm0 : List (HloOp τ sig (Elt F)) :=
  [ StableHlo.binary main_v47 main_v47 main_v77 (mulf : (⟨S100000, .f32⟩ : BufTy).Contents (Elt F) → (⟨S100000, .f32⟩ : BufTy).Contents (Elt F) → (⟨S100000, .f32⟩ : BufTy).Contents (Elt F)),  -- %77 = multiply %47, %47
    StableHlo.unary main_v77 main_v78 (broadcastInDim S100000x1 ![0] bcast_S100000_S100000x1_0 : (⟨S100000, .f32⟩ : BufTy).Contents (Elt F) → (⟨S100000x1, .f32⟩ : BufTy).Contents (Elt F)),  -- %78 = broadcast_in_dim %77, dims = [0]
    StableHlo.unary main_v78 main_v79 (broadcastInDim S100000x128 ![0, 1] bcast_S100000x1_S100000x128_0_1 : (⟨S100000x1, .f32⟩ : BufTy).Contents (Elt F) → (⟨S100000x128, .f32⟩ : BufTy).Contents (Elt F)),  -- %79 = broadcast_in_dim %78, dims = [0, 1]
    StableHlo.binary main_v48 main_v79 main_v80 (mulf : (⟨S100000x128, .f32⟩ : BufTy).Contents (Elt F) → (⟨S100000x128, .f32⟩ : BufTy).Contents (Elt F) → (⟨S100000x128, .f32⟩ : BufTy).Contents (Elt F)),  -- %80 = multiply %48, %79
    StableHlo.binary main_v76 main_v80 main_v81 (addf : (⟨S100000x128, .f32⟩ : BufTy).Contents (Elt F) → (⟨S100000x128, .f32⟩ : BufTy).Contents (Elt F) → (⟨S100000x128, .f32⟩ : BufTy).Contents (Elt F)),  -- %81 = add %76, %80
    StableHlo.unary main_arg8 main_v82 (broadcastInDim S1x128 ![1] bcast_S128_S1x128_1 : (⟨S128, .f32⟩ : BufTy).Contents (Elt F) → (⟨S1x128, .f32⟩ : BufTy).Contents (Elt F)),  -- %82 = broadcast_in_dim %arg8, dims = [1]
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),  -- %83 = broadcast_in_dim %82, dims = [0, 1]
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),  -- %84 = add %81, %83
    StableHlo.unary main_arg17 main_v85 ((extractStridedSlice S1x128 ![0, 0] · slices_S4x128_S1x128_0_0) : (⟨S4x128, .f32⟩ : BufTy).Contents (Elt F) → (⟨S1x128, .f32⟩ : BufTy).Contents (Elt F)),  -- %85 = slice %arg17 [0:1, 0:128]
    StableHlo.reshape main_v85 main_v86 rfl shapeCasts_S1x128_S128,  -- %86 = reshape %85
    StableHlo.unary main_v86 main_v87 (broadcastInDim S1x128 ![1] bcast_S128_S1x128_1 : (⟨S128, .f32⟩ : BufTy).Contents (Elt F) → (⟨S1x128, .f32⟩ : BufTy).Contents (Elt F)),  -- %87 = broadcast_in_dim %86, dims = [1]
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),  -- %88 = broadcast_in_dim %87, dims = [0, 1]
    StableHlo.binary main_v84 main_v88 main_v89 (subf : (⟨S100000x128, .f32⟩ : BufTy).Contents (Elt F) → (⟨S100000x128, .f32⟩ : BufTy).Contents (Elt F) → (⟨S100000x128, .f32⟩ : BufTy).Contents (Elt F)),  -- %89 = subtract %84, %88
    StableHlo.unary main_arg18 main_v90 ((extractStridedSlice S1x128 ![0, 0] · slices_S4x128_S1x128_0_0) : (⟨S4x128, .f32⟩ : BufTy).Contents (Elt F) → (⟨S1x128, .f32⟩ : BufTy).Contents (Elt F)),  -- %90 = slice %arg18 [0:1, 0:128]
    StableHlo.reshape main_v90 main_v91 rfl shapeCasts_S1x128_S128,  -- %91 = reshape %90
    StableHlo.nullary main_cst_17 (constant S_ .f32 0x3727C5AC#32),  -- %cst_17 = constant dense<9.99999974E-6>
    StableHlo.unary main_cst_17 main_v92 (broadcastInDim S128 ![] bcast_S_S128 : (⟨S_, .f32⟩ : BufTy).Contents (Elt F) → (⟨S128, .f32⟩ : BufTy).Contents (Elt F)),  -- %92 = broadcast_in_dim %cst_17, dims = []
    StableHlo.binary main_v91 main_v92 main_v93 (addf : (⟨S128, .f32⟩ : BufTy).Contents (Elt F) → (⟨S128, .f32⟩ : BufTy).Contents (Elt F) → (⟨S128, .f32⟩ : BufTy).Contents (Elt F)),  -- %93 = add %91, %92
    StableHlo.unary main_v93 main_v94 (Host.rsqrt : (⟨S128, .f32⟩ : BufTy).Contents (Elt F) → (⟨S128, .f32⟩ : BufTy).Contents (Elt F)),  -- %94 = rsqrt %93
    StableHlo.unary main_v94 main_v95 (broadcastInDim S1x128 ![1] bcast_S128_S1x128_1 : (⟨S128, .f32⟩ : BufTy).Contents (Elt F) → (⟨S1x128, .f32⟩ : BufTy).Contents (Elt F)),  -- %95 = broadcast_in_dim %94, dims = [1]
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),  -- %96 = broadcast_in_dim %95, dims = [0, 1]
    StableHlo.binary main_v89 main_v96 main_v97 (mulf : (⟨S100000x128, .f32⟩ : BufTy).Contents (Elt F) → (⟨S100000x128, .f32⟩ : BufTy).Contents (Elt F) → (⟨S100000x128, .f32⟩ : BufTy).Contents (Elt F)),  -- %97 = multiply %89, %96
    StableHlo.unary main_arg15 main_v98 ((extractStridedSlice S1x128 ![0, 0] · slices_S4x128_S1x128_0_0) : (⟨S4x128, .f32⟩ : BufTy).Contents (Elt F) → (⟨S1x128, .f32⟩ : BufTy).Contents (Elt F)),  -- %98 = slice %arg15 [0:1, 0:128]
    StableHlo.reshape main_v98 main_v99 rfl shapeCasts_S1x128_S128,  -- %99 = reshape %98
    StableHlo.unary main_v99 main_v100 (broadcastInDim S1x128 ![1] bcast_S128_S1x128_1 : (⟨S128, .f32⟩ : BufTy).Contents (Elt F) → (⟨S1x128, .f32⟩ : BufTy).Contents (Elt F)),  -- %100 = broadcast_in_dim %99, dims = [1]
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),  -- %101 = broadcast_in_dim %100, dims = [0, 1]
    StableHlo.binary main_v97 main_v101 main_v102 (mulf : (⟨S100000x128, .f32⟩ : BufTy).Contents (Elt F) → (⟨S100000x128, .f32⟩ : BufTy).Contents (Elt F) → (⟨S100000x128, .f32⟩ : BufTy).Contents (Elt F)),  -- %102 = multiply %97, %101
    StableHlo.unary main_arg16 main_v103 ((extractStridedSlice S1x128 ![0, 0] · slices_S4x128_S1x128_0_0) : (⟨S4x128, .f32⟩ : BufTy).Contents (Elt F) → (⟨S1x128, .f32⟩ : BufTy).Contents (Elt F)),  -- %103 = slice %arg16 [0:1, 0:128]
    StableHlo.reshape main_v103 main_v104 rfl shapeCasts_S1x128_S128,  -- %104 = reshape %103
    StableHlo.unary main_v104 main_v105 (broadcastInDim S1x128 ![1] bcast_S128_S1x128_1 : (⟨S128, .f32⟩ : BufTy).Contents (Elt F) → (⟨S1x128, .f32⟩ : BufTy).Contents (Elt F)),  -- %105 = broadcast_in_dim %104, dims = [1]
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),  -- %106 = broadcast_in_dim %105, dims = [0, 1]
    StableHlo.binary main_v102 main_v106 main_v107 (addf : (⟨S100000x128, .f32⟩ : BufTy).Contents (Elt F) → (⟨S100000x128, .f32⟩ : BufTy).Contents (Elt F) → (⟨S100000x128, .f32⟩ : BufTy).Contents (Elt F)),  -- %107 = add %102, %106
    StableHlo.TRef.nullary (.of main_call0_cst : StableHlo.TRef sig ⟨S_, .f32⟩) (constant S_ .f32 0x00000000#32),  -- %108 = func.call @elu(%107) > %cst = constant dense<0.000000e+00>
    StableHlo.TRef.unary (.of main_call0_cst : StableHlo.TRef sig ⟨S_, .f32⟩) (.of main_call0_v0 : StableHlo.TRef sig ⟨S100000x128, .f32⟩) (broadcastInDim S100000x128 ![] bcast_S_S100000x128),  -- %108 = func.call @elu(%107) > %0 = broadcast_in_dim %cst, dims = []
    StableHlo.TRef.binary (.of main_v107 : StableHlo.TRef sig ⟨S100000x128, .f32⟩) (.of main_call0_v0 : StableHlo.TRef sig ⟨S100000x128, .f32⟩) (.of main_call0_v1 : StableHlo.TRef sig ⟨S100000x128, .i1⟩) (cmpf .ogt),  -- %108 = func.call @elu(%107) > %1 = compare GT, %arg0, %0, FLOAT
    StableHlo.TRef.nullary (.of main_call0_cst_0 : StableHlo.TRef sig ⟨S_, .f32⟩) (constant S_ .f32 0x00000000#32),  -- %108 = func.call @elu(%107) > %cst_0 = constant dense<0.000000e+00>
    StableHlo.TRef.unary (.of main_call0_cst_0 : StableHlo.TRef sig ⟨S_, .f32⟩) (.of main_call0_v2 : StableHlo.TRef sig ⟨S100000x128, .f32⟩) (broadcastInDim S100000x128 ![] bcast_S_S100000x128),  -- %108 = func.call @elu(%107) > %2 = broadcast_in_dim %cst_0, dims = []
    StableHlo.TRef.binary (.of main_v107 : StableHlo.TRef sig ⟨S100000x128, .f32⟩) (.of main_call0_v2 : StableHlo.TRef sig ⟨S100000x128, .f32⟩) (.of main_call0_v3 : StableHlo.TRef sig ⟨S100000x128, .i1⟩) (cmpf .ogt),  -- %108 = func.call @elu(%107) > %3 = compare GT, %arg0, %2, FLOAT
    StableHlo.TRef.nullary (.of main_call0_cst_1 : StableHlo.TRef sig ⟨S_, .f32⟩) (constant S_ .f32 0x00000000#32),  -- %108 = func.call @elu(%107) > %cst_1 = constant dense<0.000000e+00>
    StableHlo.TRef.unary (.of main_call0_cst_1 : StableHlo.TRef sig ⟨S_, .f32⟩) (.of main_call0_call0_v0 : StableHlo.TRef sig ⟨S_, .f32⟩) id,  -- %108 = func.call @elu(%107) > %4 = func.call @_where(%3, %cst_1, %arg0) > %0 = convert %arg1
    StableHlo.TRef.unary (.of main_call0_call0_v0 : StableHlo.TRef sig ⟨S_, .f32⟩) (.of main_call0_call0_v1 : StableHlo.TRef sig ⟨S100000x128, .f32⟩) (broadcastInDim S100000x128 ![] bcast_S_S100000x128),  -- %108 = func.call @elu(%107) > %4 = func.call @_where(%3, %cst_1, %arg0) > %1 = broadcast_in_dim %0, dims = []
    StableHlo.TRef.ternary (.of main_call0_v3 : StableHlo.TRef sig ⟨S100000x128, .i1⟩) (.of main_call0_call0_v1 : StableHlo.TRef sig ⟨S100000x128, .f32⟩) (.of main_v107 : StableHlo.TRef sig ⟨S100000x128, .f32⟩) (.of main_call0_v4 : StableHlo.TRef sig ⟨S100000x128, .f32⟩) select,  -- %108 = func.call @elu(%107) > %4 = func.call @_where(%3, %cst_1, %arg0) > %2 = select %arg0, %1, %arg2
    StableHlo.TRef.unary (.of main_call0_v4 : StableHlo.TRef sig ⟨S100000x128, .f32⟩) (.of main_call0_v5 : StableHlo.TRef sig ⟨S100000x128, .f32⟩) Host.expm1,  -- %108 = func.call @elu(%107) > %5 = exponential_minus_one %4
    StableHlo.TRef.nullary (.of main_call0_cst_2 : StableHlo.TRef sig ⟨S_, .f32⟩) (constant S_ .f32 0x3F800000#32),  -- %108 = func.call @elu(%107) > %cst_2 = constant dense<1.000000e+00>
    StableHlo.TRef.unary (.of main_call0_cst_2 : StableHlo.TRef sig ⟨S_, .f32⟩) (.of main_call0_v6 : StableHlo.TRef sig ⟨S100000x128, .f32⟩) (broadcastInDim S100000x128 ![] bcast_S_S100000x128),  -- %108 = func.call @elu(%107) > %6 = broadcast_in_dim %cst_2, dims = []
    StableHlo.TRef.binary (.of main_call0_v6 : StableHlo.TRef sig ⟨S100000x128, .f32⟩) (.of main_call0_v5 : StableHlo.TRef sig ⟨S100000x128, .f32⟩) (.of main_call0_v7 : StableHlo.TRef sig ⟨S100000x128, .f32⟩) mulf,  -- %108 = func.call @elu(%107) > %7 = multiply %6, %5
    StableHlo.TRef.ternary (.of main_call0_v1 : StableHlo.TRef sig ⟨S100000x128, .i1⟩) (.of main_v107 : StableHlo.TRef sig ⟨S100000x128, .f32⟩) (.of main_call0_v7 : StableHlo.TRef sig ⟨S100000x128, .f32⟩) (.of main_v108 : StableHlo.TRef sig ⟨S100000x128, .f32⟩) select ]  -- %108 = func.call @elu(%107) > %8 = func.call @_where_0(%1, %arg0, %7) > %0 = select %arg0, %arg1, %arg2

set_option maxHeartbeats 40000000 in
/-- Each of them touches TensorCore references only. -/
theorem norm0_sub : (norm0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxHeartbeats 40000000 in
/-- Each of them determines its results: none allocates. -/
theorem norm0_fresh : ∀ op ∈ (norm0 : List (HloOp τ sig (Elt F))), op.fresh = ∅ := by
  intro _ h; (repeat (cases h with | head => rfl | tail _ h => ?_)); exact nomatch h

end Cert.ReferenceIdeal.RefRun

end
-- ==== Proof.RefOps2.lean ====
/- The reference program's operations, part 2 of 6: dense1, agg1, norm1 — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Layer 1: the one product of the features with the layer's weights. 1 operation. -/
abbrev dense1 : List (HloOp τ sig (Elt F)) :=
  [ StableHlo.binary main_v108 main_arg9 main_v109 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]  -- %109 = dot_general %108, %arg9, contracting_dims = [1] x [0], precision = [DEFAULT, DEFAUL

set_option maxHeartbeats 40000000 in
/-- Each of them touches TensorCore references only. -/
theorem dense1_sub : (dense1 : List (HloOp τ sig (Elt F))).Forall fun op => op.bufs ⊆ tcRefs τ sig :=
  binary_bufs_sub ..

set_option maxHeartbeats 40000000 in
/-- Each of them determines its results: none allocates. -/
theorem dense1_fresh : ∀ op ∈ (dense1 : List (HloOp τ sig (Elt F))), op.fresh = ∅ := by
  intro _ h; (repeat (cases h with | head => rfl | tail _ h => ?_)); exact nomatch h

set_option maxHeartbeats 40000000 in
/-- Layer 1: the edge coefficients, the gather of the sources' rows, their scaling, and the scatter-add onto the targets. 35 operations. -/
abbrev agg1 : List (HloOp τ sig (Elt F)) :=
  [ StableHlo.nullary main_c_18 (constantI S_ 32 0#32),  -- %c_18 = constant dense<0>
    StableHlo.unary main_c_18 main_v110 (broadcastInDim S1600000 ![] bcast_S_S1600000 : (⟨S_, .i32⟩ : BufTy).Contents (Elt F) → (⟨S1600000, .i32⟩ : BufTy).Contents (Elt F)),  -- %110 = broadcast_in_dim %c_18, dims = []
    StableHlo.binary main_v38 main_v110 main_v111 (cmpi .slt : (⟨S1600000, .i32⟩ : BufTy).Contents (Elt F) → (⟨S1600000, .i32⟩ : BufTy).Contents (Elt F) → (⟨S1600000, .i1⟩ : BufTy).Contents (Elt F)),  -- %111 = compare LT, %38, %110, SIGNED
    StableHlo.nullary main_c_19 (constantI S_ 32 100000#32),  -- %c_19 = constant dense<100000>
    StableHlo.unary main_c_19 main_v112 (broadcastInDim S1600000 ![] bcast_S_S1600000 : (⟨S_, .i32⟩ : BufTy).Contents (Elt F) → (⟨S1600000, .i32⟩ : BufTy).Contents (Elt F)),  -- %112 = broadcast_in_dim %c_19, dims = []
    StableHlo.binary main_v38 main_v112 main_v113 (addi : (⟨S1600000, .i32⟩ : BufTy).Contents (Elt F) → (⟨S1600000, .i32⟩ : BufTy).Contents (Elt F) → (⟨S1600000, .i32⟩ : BufTy).Contents (Elt F)),  -- %113 = add %38, %112
    StableHlo.ternary main_v111 main_v113 main_v38 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %114 = select %111, %113, %38
    StableHlo.unary main_v114 main_v115 (broadcastInDim S1600000x1 ![0] bcast_S1600000_S1600000x1_0 : (⟨S1600000, .i32⟩ : BufTy).Contents (Elt F) → (⟨S1600000x1, .i32⟩ : BufTy).Contents (Elt F)),  -- %115 = broadcast_in_dim %114, dims = [0]
    StableHlo.binary main_v47 main_v115 main_v116 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %116 = "gather"(%47, %115)
    StableHlo.nullary main_c_20 (constantI S_ 32 0#32),  -- %c_20 = constant dense<0>
    StableHlo.unary main_c_20 main_v117 (broadcastInDim S1600000 ![] bcast_S_S1600000 : (⟨S_, .i32⟩ : BufTy).Contents (Elt F) → (⟨S1600000, .i32⟩ : BufTy).Contents (Elt F)),  -- %117 = broadcast_in_dim %c_20, dims = []
    StableHlo.binary main_v40 main_v117 main_v118 (cmpi .slt : (⟨S1600000, .i32⟩ : BufTy).Contents (Elt F) → (⟨S1600000, .i32⟩ : BufTy).Contents (Elt F) → (⟨S1600000, .i1⟩ : BufTy).Contents (Elt F)),  -- %118 = compare LT, %40, %117, SIGNED
    StableHlo.nullary main_c_21 (constantI S_ 32 100000#32),  -- %c_21 = constant dense<100000>
    StableHlo.unary main_c_21 main_v119 (broadcastInDim S1600000 ![] bcast_S_S1600000 : (⟨S_, .i32⟩ : BufTy).Contents (Elt F) → (⟨S1600000, .i32⟩ : BufTy).Contents (Elt F)),  -- %119 = broadcast_in_dim %c_21, dims = []
    StableHlo.binary main_v40 main_v119 main_v120 (addi : (⟨S1600000, .i32⟩ : BufTy).Contents (Elt F) → (⟨S1600000, .i32⟩ : BufTy).Contents (Elt F) → (⟨S1600000, .i32⟩ : BufTy).Contents (Elt F)),  -- %120 = add %40, %119
    StableHlo.ternary main_v118 main_v120 main_v40 main_v121 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %121 = select %118, %120, %40
    StableHlo.unary main_v121 main_v122 (broadcastInDim S1600000x1 ![0] bcast_S1600000_S1600000x1_0 : (⟨S1600000, .i32⟩ : BufTy).Contents (Elt F) → (⟨S1600000x1, .i32⟩ : BufTy).Contents (Elt F)),  -- %122 = broadcast_in_dim %121, dims = [0]
    StableHlo.binary main_v47 main_v122 main_v123 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %123 = "gather"(%47, %122)
    StableHlo.binary main_v116 main_v123 main_v124 (mulf : (⟨S1600000, .f32⟩ : BufTy).Contents (Elt F) → (⟨S1600000, .f32⟩ : BufTy).Contents (Elt F) → (⟨S1600000, .f32⟩ : BufTy).Contents (Elt F)),  -- %124 = multiply %116, %123
    StableHlo.nullary main_c_22 (constantI S_ 32 0#32),  -- %c_22 = constant dense<0>
    StableHlo.unary main_c_22 main_v125 (broadcastInDim S1600000 ![] bcast_S_S1600000 : (⟨S_, .i32⟩ : BufTy).Contents (Elt F) → (⟨S1600000, .i32⟩ : BufTy).Contents (Elt F)),  -- %125 = broadcast_in_dim %c_22, dims = []
    StableHlo.binary main_v38 main_v125 main_v126 (cmpi .slt : (⟨S1600000, .i32⟩ : BufTy).Contents (Elt F) → (⟨S1600000, .i32⟩ : BufTy).Contents (Elt F) → (⟨S1600000, .i1⟩ : BufTy).Contents (Elt F)),  -- %126 = compare LT, %38, %125, SIGNED
    StableHlo.nullary main_c_23 (constantI S_ 32 100000#32),  -- %c_23 = constant dense<100000>
    StableHlo.unary main_c_23 main_v127 (broadcastInDim S1600000 ![] bcast_S_S1600000 : (⟨S_, .i32⟩ : BufTy).Contents (Elt F) → (⟨S1600000, .i32⟩ : BufTy).Contents (Elt F)),  -- %127 = broadcast_in_dim %c_23, dims = []
    StableHlo.binary main_v38 main_v127 main_v128 (addi : (⟨S1600000, .i32⟩ : BufTy).Contents (Elt F) → (⟨S1600000, .i32⟩ : BufTy).Contents (Elt F) → (⟨S1600000, .i32⟩ : BufTy).Contents (Elt F)),  -- %128 = add %38, %127
    StableHlo.ternary main_v126 main_v128 main_v38 main_v129 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %129 = select %126, %128, %38
    StableHlo.unary main_v129 main_v130 (broadcastInDim S1600000x1 ![0] bcast_S1600000_S1600000x1_0 : (⟨S1600000, .i32⟩ : BufTy).Contents (Elt F) → (⟨S1600000x1, .i32⟩ : BufTy).Contents (Elt F)),  -- %130 = broadcast_in_dim %129, dims = [0]
    StableHlo.binary main_v109 main_v130 main_v131 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %131 = "gather"(%109, %130)
    StableHlo.unary main_v124 main_v132 (broadcastInDim S1600000x1 ![0] bcast_S1600000_S1600000x1_0 : (⟨S1600000, .f32⟩ : BufTy).Contents (Elt F) → (⟨S1600000x1, .f32⟩ : BufTy).Contents (Elt F)),  -- %132 = broadcast_in_dim %124, dims = [0]
    StableHlo.unary main_v132 main_v133 (broadcastInDim S1600000x128 ![0, 1] bcast_S1600000x1_S1600000x128_0_1 : (⟨S1600000x1, .f32⟩ : BufTy).Contents (Elt F) → (⟨S1600000x128, .f32⟩ : BufTy).Contents (Elt F)),  -- %133 = broadcast_in_dim %132, dims = [0, 1]
    StableHlo.binary main_v131 main_v133 main_v134 (mulf : (⟨S1600000x128, .f32⟩ : BufTy).Contents (Elt F) → (⟨S1600000x128, .f32⟩ : BufTy).Contents (Elt F) → (⟨S1600000x128, .f32⟩ : BufTy).Contents (Elt F)),  -- %134 = multiply %131, %133
    StableHlo.nullary main_cst_24 (constant S_ .f32 0x00000000#32),  -- %cst_24 = constant dense<0.000000e+00>
    StableHlo.unary main_cst_24 main_v135 (broadcastInDim S100000x128 ![] bcast_S_S100000x128 : (⟨S_, .f32⟩ : BufTy).Contents (Elt F) → (⟨S100000x128, .f32⟩ : BufTy).Contents (Elt F)),  -- %135 = broadcast_in_dim %cst_24, dims = []
    StableHlo.unary main_v40 main_v136 (broadcastInDim S1600000x1 ![0] bcast_S1600000_S1600000x1_0 : (⟨S1600000, .i32⟩ : BufTy).Contents (Elt F) → (⟨S1600000x1, .i32⟩ : BufTy).Contents (Elt F)),  -- %136 = broadcast_in_dim %40, dims = [0]
    StableHlo.ternary main_v135 main_v136 main_v134 main_v137 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]  -- %137 = "scatter"(%135, %136, %134)

set_option maxHeartbeats 40000000 in
/-- Each of them touches TensorCore references only. -/
theorem agg1_sub : (agg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxHeartbeats 40000000 in
/-- Each of them determines its results: none allocates. -/
theorem agg1_fresh : ∀ op ∈ (agg1 : List (HloOp τ sig (Elt F))), op.fresh = ∅ := by
  intro _ h; (repeat (cases h with | head => rfl | tail _ h => ?_)); exact nomatch h

set_option maxHeartbeats 40000000 in
/-- Layer 1: the self-loop term, the bias, the batch normalisation, and the activation (its function's operations in line). 47 operations. -/
abbrev norm1 : List (HloOp τ sig (Elt F)) :=
  [ StableHlo.binary main_v47 main_v47 main_v138 (mulf : (⟨S100000, .f32⟩ : BufTy).Contents (Elt F) → (⟨S100000, .f32⟩ : BufTy).Contents (Elt F) → (⟨S100000, .f32⟩ : BufTy).Contents (Elt F)),  -- %138 = multiply %47, %47
    StableHlo.unary main_v138 main_v139 (broadcastInDim S100000x1 ![0] bcast_S100000_S100000x1_0 : (⟨S100000, .f32⟩ : BufTy).Contents (Elt F) → (⟨S100000x1, .f32⟩ : BufTy).Contents (Elt F)),  -- %139 = broadcast_in_dim %138, dims = [0]
    StableHlo.unary main_v139 main_v140 (broadcastInDim S100000x128 ![0, 1] bcast_S100000x1_S100000x128_0_1 : (⟨S100000x1, .f32⟩ : BufTy).Contents (Elt F) → (⟨S100000x128, .f32⟩ : BufTy).Contents (Elt F)),  -- %140 = broadcast_in_dim %139, dims = [0, 1]
    StableHlo.binary main_v109 main_v140 main_v141 (mulf : (⟨S100000x128, .f32⟩ : BufTy).Contents (Elt F) → (⟨S100000x128, .f32⟩ : BufTy).Contents (Elt F) → (⟨S100000x128, .f32⟩ : BufTy).Contents (Elt F)),  -- %141 = multiply %109, %140
    StableHlo.binary main_v137 main_v141 main_v142 (addf : (⟨S100000x128, .f32⟩ : BufTy).Contents (Elt F) → (⟨S100000x128, .f32⟩ : BufTy).Contents (Elt F) → (⟨S100000x128, .f32⟩ : BufTy).Contents (Elt F)),  -- %142 = add %137, %141
    StableHlo.unary main_arg10 main_v143 (broadcastInDim S1x128 ![1] bcast_S128_S1x128_1 : (⟨S128, .f32⟩ : BufTy).Contents (Elt F) → (⟨S1x128, .f32⟩ : BufTy).Contents (Elt F)),  -- %143 = broadcast_in_dim %arg10, dims = [1]
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),  -- %144 = broadcast_in_dim %143, dims = [0, 1]
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),  -- %145 = add %142, %144
    StableHlo.unary main_arg17 main_v146 ((extractStridedSlice S1x128 ![1, 0] · slices_S4x128_S1x128_1_0) : (⟨S4x128, .f32⟩ : BufTy).Contents (Elt F) → (⟨S1x128, .f32⟩ : BufTy).Contents (Elt F)),  -- %146 = slice %arg17 [1:2, 0:128]
    StableHlo.reshape main_v146 main_v147 rfl shapeCasts_S1x128_S128,  -- %147 = reshape %146
    StableHlo.unary main_v147 main_v148 (broadcastInDim S1x128 ![1] bcast_S128_S1x128_1 : (⟨S128, .f32⟩ : BufTy).Contents (Elt F) → (⟨S1x128, .f32⟩ : BufTy).Contents (Elt F)),  -- %148 = broadcast_in_dim %147, dims = [1]
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),  -- %149 = broadcast_in_dim %148, dims = [0, 1]
    StableHlo.binary main_v145 main_v149 main_v150 (subf : (⟨S100000x128, .f32⟩ : BufTy).Contents (Elt F) → (⟨S100000x128, .f32⟩ : BufTy).Contents (Elt F) → (⟨S100000x128, .f32⟩ : BufTy).Contents (Elt F)),  -- %150 = subtract %145, %149
    StableHlo.unary main_arg18 main_v151 ((extractStridedSlice S1x128 ![1, 0] · slices_S4x128_S1x128_1_0) : (⟨S4x128, .f32⟩ : BufTy).Contents (Elt F) → (⟨S1x128, .f32⟩ : BufTy).Contents (Elt F)),  -- %151 = slice %arg18 [1:2, 0:128]
    StableHlo.reshape main_v151 main_v152 rfl shapeCasts_S1x128_S128,  -- %152 = reshape %151
    StableHlo.nullary main_cst_25 (constant S_ .f32 0x3727C5AC#32),  -- %cst_25 = constant dense<9.99999974E-6>
    StableHlo.unary main_cst_25 main_v153 (broadcastInDim S128 ![] bcast_S_S128 : (⟨S_, .f32⟩ : BufTy).Contents (Elt F) → (⟨S128, .f32⟩ : BufTy).Contents (Elt F)),  -- %153 = broadcast_in_dim %cst_25, dims = []
    StableHlo.binary main_v152 main_v153 main_v154 (addf : (⟨S128, .f32⟩ : BufTy).Contents (Elt F) → (⟨S128, .f32⟩ : BufTy).Contents (Elt F) → (⟨S128, .f32⟩ : BufTy).Contents (Elt F)),  -- %154 = add %152, %153
    StableHlo.unary main_v154 main_v155 (Host.rsqrt : (⟨S128, .f32⟩ : BufTy).Contents (Elt F) → (⟨S128, .f32⟩ : BufTy).Contents (Elt F)),  -- %155 = rsqrt %154
    StableHlo.unary main_v155 main_v156 (broadcastInDim S1x128 ![1] bcast_S128_S1x128_1 : (⟨S128, .f32⟩ : BufTy).Contents (Elt F) → (⟨S1x128, .f32⟩ : BufTy).Contents (Elt F)),  -- %156 = broadcast_in_dim %155, dims = [1]
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),  -- %157 = broadcast_in_dim %156, dims = [0, 1]
    StableHlo.binary main_v150 main_v157 main_v158 (mulf : (⟨S100000x128, .f32⟩ : BufTy).Contents (Elt F) → (⟨S100000x128, .f32⟩ : BufTy).Contents (Elt F) → (⟨S100000x128, .f32⟩ : BufTy).Contents (Elt F)),  -- %158 = multiply %150, %157
    StableHlo.unary main_arg15 main_v159 ((extractStridedSlice S1x128 ![1, 0] · slices_S4x128_S1x128_1_0) : (⟨S4x128, .f32⟩ : BufTy).Contents (Elt F) → (⟨S1x128, .f32⟩ : BufTy).Contents (Elt F)),  -- %159 = slice %arg15 [1:2, 0:128]
    StableHlo.reshape main_v159 main_v160 rfl shapeCasts_S1x128_S128,  -- %160 = reshape %159
    StableHlo.unary main_v160 main_v161 (broadcastInDim S1x128 ![1] bcast_S128_S1x128_1 : (⟨S128, .f32⟩ : BufTy).Contents (Elt F) → (⟨S1x128, .f32⟩ : BufTy).Contents (Elt F)),  -- %161 = broadcast_in_dim %160, dims = [1]
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),  -- %162 = broadcast_in_dim %161, dims = [0, 1]
    StableHlo.binary main_v158 main_v162 main_v163 (mulf : (⟨S100000x128, .f32⟩ : BufTy).Contents (Elt F) → (⟨S100000x128, .f32⟩ : BufTy).Contents (Elt F) → (⟨S100000x128, .f32⟩ : BufTy).Contents (Elt F)),  -- %163 = multiply %158, %162
    StableHlo.unary main_arg16 main_v164 ((extractStridedSlice S1x128 ![1, 0] · slices_S4x128_S1x128_1_0) : (⟨S4x128, .f32⟩ : BufTy).Contents (Elt F) → (⟨S1x128, .f32⟩ : BufTy).Contents (Elt F)),  -- %164 = slice %arg16 [1:2, 0:128]
    StableHlo.reshape main_v164 main_v165 rfl shapeCasts_S1x128_S128,  -- %165 = reshape %164
    StableHlo.unary main_v165 main_v166 (broadcastInDim S1x128 ![1] bcast_S128_S1x128_1 : (⟨S128, .f32⟩ : BufTy).Contents (Elt F) → (⟨S1x128, .f32⟩ : BufTy).Contents (Elt F)),  -- %166 = broadcast_in_dim %165, dims = [1]
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),  -- %167 = broadcast_in_dim %166, dims = [0, 1]
    StableHlo.binary main_v163 main_v167 main_v168 (addf : (⟨S100000x128, .f32⟩ : BufTy).Contents (Elt F) → (⟨S100000x128, .f32⟩ : BufTy).Contents (Elt F) → (⟨S100000x128, .f32⟩ : BufTy).Contents (Elt F)),  -- %168 = add %163, %167
    StableHlo.TRef.nullary (.of main_call1_cst : StableHlo.TRef sig ⟨S_, .f32⟩) (constant S_ .f32 0x00000000#32),  -- %169 = func.call @elu(%168) > %cst = constant dense<0.000000e+00>
    StableHlo.TRef.unary (.of main_call1_cst : StableHlo.TRef sig ⟨S_, .f32⟩) (.of main_call1_v0 : StableHlo.TRef sig ⟨S100000x128, .f32⟩) (broadcastInDim S100000x128 ![] bcast_S_S100000x128),  -- %169 = func.call @elu(%168) > %0 = broadcast_in_dim %cst, dims = []
    StableHlo.TRef.binary (.of main_v168 : StableHlo.TRef sig ⟨S100000x128, .f32⟩) (.of main_call1_v0 : StableHlo.TRef sig ⟨S100000x128, .f32⟩) (.of main_call1_v1 : StableHlo.TRef sig ⟨S100000x128, .i1⟩) (cmpf .ogt),  -- %169 = func.call @elu(%168) > %1 = compare GT, %arg0, %0, FLOAT
    StableHlo.TRef.nullary (.of main_call1_cst_0 : StableHlo.TRef sig ⟨S_, .f32⟩) (constant S_ .f32 0x00000000#32),  -- %169 = func.call @elu(%168) > %cst_0 = constant dense<0.000000e+00>
    StableHlo.TRef.unary (.of main_call1_cst_0 : StableHlo.TRef sig ⟨S_, .f32⟩) (.of main_call1_v2 : StableHlo.TRef sig ⟨S100000x128, .f32⟩) (broadcastInDim S100000x128 ![] bcast_S_S100000x128),  -- %169 = func.call @elu(%168) > %2 = broadcast_in_dim %cst_0, dims = []
    StableHlo.TRef.binary (.of main_v168 : StableHlo.TRef sig ⟨S100000x128, .f32⟩) (.of main_call1_v2 : StableHlo.TRef sig ⟨S100000x128, .f32⟩) (.of main_call1_v3 : StableHlo.TRef sig ⟨S100000x128, .i1⟩) (cmpf .ogt),  -- %169 = func.call @elu(%168) > %3 = compare GT, %arg0, %2, FLOAT
    StableHlo.TRef.nullary (.of main_call1_cst_1 : StableHlo.TRef sig ⟨S_, .f32⟩) (constant S_ .f32 0x00000000#32),  -- %169 = func.call @elu(%168) > %cst_1 = constant dense<0.000000e+00>
    StableHlo.TRef.unary (.of main_call1_cst_1 : StableHlo.TRef sig ⟨S_, .f32⟩) (.of main_call1_call0_v0 : StableHlo.TRef sig ⟨S_, .f32⟩) id,  -- %169 = func.call @elu(%168) > %4 = func.call @_where(%3, %cst_1, %arg0) > %0 = convert %arg1
    StableHlo.TRef.unary (.of main_call1_call0_v0 : StableHlo.TRef sig ⟨S_, .f32⟩) (.of main_call1_call0_v1 : StableHlo.TRef sig ⟨S100000x128, .f32⟩) (broadcastInDim S100000x128 ![] bcast_S_S100000x128),  -- %169 = func.call @elu(%168) > %4 = func.call @_where(%3, %cst_1, %arg0) > %1 = broadcast_in_dim %0, dims = []
    StableHlo.TRef.ternary (.of main_call1_v3 : StableHlo.TRef sig ⟨S100000x128, .i1⟩) (.of main_call1_call0_v1 : StableHlo.TRef sig ⟨S100000x128, .f32⟩) (.of main_v168 : StableHlo.TRef sig ⟨S100000x128, .f32⟩) (.of main_call1_v4 : StableHlo.TRef sig ⟨S100000x128, .f32⟩) select,  -- %169 = func.call @elu(%168) > %4 = func.call @_where(%3, %cst_1, %arg0) > %2 = select %arg0, %1, %arg2
    StableHlo.TRef.unary (.of main_call1_v4 : StableHlo.TRef sig ⟨S100000x128, .f32⟩) (.of main_call1_v5 : StableHlo.TRef sig ⟨S100000x128, .f32⟩) Host.expm1,  -- %169 = func.call @elu(%168) > %5 = exponential_minus_one %4
    StableHlo.TRef.nullary (.of main_call1_cst_2 : StableHlo.TRef sig ⟨S_, .f32⟩) (constant S_ .f32 0x3F800000#32),  -- %169 = func.call @elu(%168) > %cst_2 = constant dense<1.000000e+00>
    StableHlo.TRef.unary (.of main_call1_cst_2 : StableHlo.TRef sig ⟨S_, .f32⟩) (.of main_call1_v6 : StableHlo.TRef sig ⟨S100000x128, .f32⟩) (broadcastInDim S100000x128 ![] bcast_S_S100000x128),  -- %169 = func.call @elu(%168) > %6 = broadcast_in_dim %cst_2, dims = []
    StableHlo.TRef.binary (.of main_call1_v6 : StableHlo.TRef sig ⟨S100000x128, .f32⟩) (.of main_call1_v5 : StableHlo.TRef sig ⟨S100000x128, .f32⟩) (.of main_call1_v7 : StableHlo.TRef sig ⟨S100000x128, .f32⟩) mulf,  -- %169 = func.call @elu(%168) > %7 = multiply %6, %5
    StableHlo.TRef.ternary (.of main_call1_v1 : StableHlo.TRef sig ⟨S100000x128, .i1⟩) (.of main_v168 : StableHlo.TRef sig ⟨S100000x128, .f32⟩) (.of main_call1_v7 : StableHlo.TRef sig ⟨S100000x128, .f32⟩) (.of main_v169 : StableHlo.TRef sig ⟨S100000x128, .f32⟩) select ]  -- %169 = func.call @elu(%168) > %8 = func.call @_where_0(%1, %arg0, %7) > %0 = select %arg0, %arg1, %arg2

set_option maxHeartbeats 40000000 in
/-- Each of them touches TensorCore references only. -/
theorem norm1_sub : (norm1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxHeartbeats 40000000 in
/-- Each of them determines its results: none allocates. -/
theorem norm1_fresh : ∀ op ∈ (norm1 : List (HloOp τ sig (Elt F))), op.fresh = ∅ := by
  intro _ h; (repeat (cases h with | head => rfl | tail _ h => ?_)); exact nomatch h

end Cert.ReferenceIdeal.RefRun

end
-- ==== Proof.RefOps3.lean ====
/- The reference program's operations, part 3 of 6: dense2, agg2, norm2 — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Layer 2: the one product of the features with the layer's weights. 1 operation. -/
abbrev dense2 : List (HloOp τ sig (Elt F)) :=
  [ StableHlo.binary main_v169 main_arg11 main_v170 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]  -- %170 = dot_general %169, %arg11, contracting_dims = [1] x [0], precision = [DEFAULT, DEFAU

set_option maxHeartbeats 40000000 in
/-- Each of them touches TensorCore references only. -/
theorem dense2_sub : (dense2 : List (HloOp τ sig (Elt F))).Forall fun op => op.bufs ⊆ tcRefs τ sig :=
  binary_bufs_sub ..

set_option maxHeartbeats 40000000 in
/-- Each of them determines its results: none allocates. -/
theorem dense2_fresh : ∀ op ∈ (dense2 : List (HloOp τ sig (Elt F))), op.fresh = ∅ := by
  intro _ h; (repeat (cases h with | head => rfl | tail _ h => ?_)); exact nomatch h

set_option maxHeartbeats 40000000 in
/-- Layer 2: the edge coefficients, the gather of the sources' rows, their scaling, and the scatter-add onto the targets. 35 operations. -/
abbrev agg2 : List (HloOp τ sig (Elt F)) :=
  [ StableHlo.nullary main_c_26 (constantI S_ 32 0#32),  -- %c_26 = constant dense<0>
    StableHlo.unary main_c_26 main_v171 (broadcastInDim S1600000 ![] bcast_S_S1600000 : (⟨S_, .i32⟩ : BufTy).Contents (Elt F) → (⟨S1600000, .i32⟩ : BufTy).Contents (Elt F)),  -- %171 = broadcast_in_dim %c_26, dims = []
    StableHlo.binary main_v38 main_v171 main_v172 (cmpi .slt : (⟨S1600000, .i32⟩ : BufTy).Contents (Elt F) → (⟨S1600000, .i32⟩ : BufTy).Contents (Elt F) → (⟨S1600000, .i1⟩ : BufTy).Contents (Elt F)),  -- %172 = compare LT, %38, %171, SIGNED
    StableHlo.nullary main_c_27 (constantI S_ 32 100000#32),  -- %c_27 = constant dense<100000>
    StableHlo.unary main_c_27 main_v173 (broadcastInDim S1600000 ![] bcast_S_S1600000 : (⟨S_, .i32⟩ : BufTy).Contents (Elt F) → (⟨S1600000, .i32⟩ : BufTy).Contents (Elt F)),  -- %173 = broadcast_in_dim %c_27, dims = []
    StableHlo.binary main_v38 main_v173 main_v174 (addi : (⟨S1600000, .i32⟩ : BufTy).Contents (Elt F) → (⟨S1600000, .i32⟩ : BufTy).Contents (Elt F) → (⟨S1600000, .i32⟩ : BufTy).Contents (Elt F)),  -- %174 = add %38, %173
    StableHlo.ternary main_v172 main_v174 main_v38 main_v175 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %175 = select %172, %174, %38
    StableHlo.unary main_v175 main_v176 (broadcastInDim S1600000x1 ![0] bcast_S1600000_S1600000x1_0 : (⟨S1600000, .i32⟩ : BufTy).Contents (Elt F) → (⟨S1600000x1, .i32⟩ : BufTy).Contents (Elt F)),  -- %176 = broadcast_in_dim %175, dims = [0]
    StableHlo.binary main_v47 main_v176 main_v177 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %177 = "gather"(%47, %176)
    StableHlo.nullary main_c_28 (constantI S_ 32 0#32),  -- %c_28 = constant dense<0>
    StableHlo.unary main_c_28 main_v178 (broadcastInDim S1600000 ![] bcast_S_S1600000 : (⟨S_, .i32⟩ : BufTy).Contents (Elt F) → (⟨S1600000, .i32⟩ : BufTy).Contents (Elt F)),  -- %178 = broadcast_in_dim %c_28, dims = []
    StableHlo.binary main_v40 main_v178 main_v179 (cmpi .slt : (⟨S1600000, .i32⟩ : BufTy).Contents (Elt F) → (⟨S1600000, .i32⟩ : BufTy).Contents (Elt F) → (⟨S1600000, .i1⟩ : BufTy).Contents (Elt F)),  -- %179 = compare LT, %40, %178, SIGNED
    StableHlo.nullary main_c_29 (constantI S_ 32 100000#32),  -- %c_29 = constant dense<100000>
    StableHlo.unary main_c_29 main_v180 (broadcastInDim S1600000 ![] bcast_S_S1600000 : (⟨S_, .i32⟩ : BufTy).Contents (Elt F) → (⟨S1600000, .i32⟩ : BufTy).Contents (Elt F)),  -- %180 = broadcast_in_dim %c_29, dims = []
    StableHlo.binary main_v40 main_v180 main_v181 (addi : (⟨S1600000, .i32⟩ : BufTy).Contents (Elt F) → (⟨S1600000, .i32⟩ : BufTy).Contents (Elt F) → (⟨S1600000, .i32⟩ : BufTy).Contents (Elt F)),  -- %181 = add %40, %180
    StableHlo.ternary main_v179 main_v181 main_v40 main_v182 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %182 = select %179, %181, %40
    StableHlo.unary main_v182 main_v183 (broadcastInDim S1600000x1 ![0] bcast_S1600000_S1600000x1_0 : (⟨S1600000, .i32⟩ : BufTy).Contents (Elt F) → (⟨S1600000x1, .i32⟩ : BufTy).Contents (Elt F)),  -- %183 = broadcast_in_dim %182, dims = [0]
    StableHlo.binary main_v47 main_v183 main_v184 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %184 = "gather"(%47, %183)
    StableHlo.binary main_v177 main_v184 main_v185 (mulf : (⟨S1600000, .f32⟩ : BufTy).Contents (Elt F) → (⟨S1600000, .f32⟩ : BufTy).Contents (Elt F) → (⟨S1600000, .f32⟩ : BufTy).Contents (Elt F)),  -- %185 = multiply %177, %184
    StableHlo.nullary main_c_30 (constantI S_ 32 0#32),  -- %c_30 = constant dense<0>
    StableHlo.unary main_c_30 main_v186 (broadcastInDim S1600000 ![] bcast_S_S1600000 : (⟨S_, .i32⟩ : BufTy).Contents (Elt F) → (⟨S1600000, .i32⟩ : BufTy).Contents (Elt F)),  -- %186 = broadcast_in_dim %c_30, dims = []
    StableHlo.binary main_v38 main_v186 main_v187 (cmpi .slt : (⟨S1600000, .i32⟩ : BufTy).Contents (Elt F) → (⟨S1600000, .i32⟩ : BufTy).Contents (Elt F) → (⟨S1600000, .i1⟩ : BufTy).Contents (Elt F)),  -- %187 = compare LT, %38, %186, SIGNED
    StableHlo.nullary main_c_31 (constantI S_ 32 100000#32),  -- %c_31 = constant dense<100000>
    StableHlo.unary main_c_31 main_v188 (broadcastInDim S1600000 ![] bcast_S_S1600000 : (⟨S_, .i32⟩ : BufTy).Contents (Elt F) → (⟨S1600000, .i32⟩ : BufTy).Contents (Elt F)),  -- %188 = broadcast_in_dim %c_31, dims = []
    StableHlo.binary main_v38 main_v188 main_v189 (addi : (⟨S1600000, .i32⟩ : BufTy).Contents (Elt F) → (⟨S1600000, .i32⟩ : BufTy).Contents (Elt F) → (⟨S1600000, .i32⟩ : BufTy).Contents (Elt F)),  -- %189 = add %38, %188
    StableHlo.ternary main_v187 main_v189 main_v38 main_v190 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %190 = select %187, %189, %38
    StableHlo.unary main_v190 main_v191 (broadcastInDim S1600000x1 ![0] bcast_S1600000_S1600000x1_0 : (⟨S1600000, .i32⟩ : BufTy).Contents (Elt F) → (⟨S1600000x1, .i32⟩ : BufTy).Contents (Elt F)),  -- %191 = broadcast_in_dim %190, dims = [0]
    StableHlo.binary main_v170 main_v191 main_v192 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %192 = "gather"(%170, %191)
    StableHlo.unary main_v185 main_v193 (broadcastInDim S1600000x1 ![0] bcast_S1600000_S1600000x1_0 : (⟨S1600000, .f32⟩ : BufTy).Contents (Elt F) → (⟨S1600000x1, .f32⟩ : BufTy).Contents (Elt F)),  -- %193 = broadcast_in_dim %185, dims = [0]
    StableHlo.unary main_v193 main_v194 (broadcastInDim S1600000x128 ![0, 1] bcast_S1600000x1_S1600000x128_0_1 : (⟨S1600000x1, .f32⟩ : BufTy).Contents (Elt F) → (⟨S1600000x128, .f32⟩ : BufTy).Contents (Elt F)),  -- %194 = broadcast_in_dim %193, dims = [0, 1]
    StableHlo.binary main_v192 main_v194 main_v195 (mulf : (⟨S1600000x128, .f32⟩ : BufTy).Contents (Elt F) → (⟨S1600000x128, .f32⟩ : BufTy).Contents (Elt F) → (⟨S1600000x128, .f32⟩ : BufTy).Contents (Elt F)),  -- %195 = multiply %192, %194
    StableHlo.nullary main_cst_32 (constant S_ .f32 0x00000000#32),  -- %cst_32 = constant dense<0.000000e+00>
    StableHlo.unary main_cst_32 main_v196 (broadcastInDim S100000x128 ![] bcast_S_S100000x128 : (⟨S_, .f32⟩ : BufTy).Contents (Elt F) → (⟨S100000x128, .f32⟩ : BufTy).Contents (Elt F)),  -- %196 = broadcast_in_dim %cst_32, dims = []
    StableHlo.unary main_v40 main_v197 (broadcastInDim S1600000x1 ![0] bcast_S1600000_S1600000x1_0 : (⟨S1600000, .i32⟩ : BufTy).Contents (Elt F) → (⟨S1600000x1, .i32⟩ : BufTy).Contents (Elt F)),  -- %197 = broadcast_in_dim %40, dims = [0]
    StableHlo.ternary main_v196 main_v197 main_v195 main_v198 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]  -- %198 = "scatter"(%196, %197, %195)

set_option maxHeartbeats 40000000 in
/-- Each of them touches TensorCore references only. -/
theorem agg2_sub : (agg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxHeartbeats 40000000 in
/-- Each of them determines its results: none allocates. -/
theorem agg2_fresh : ∀ op ∈ (agg2 : List (HloOp τ sig (Elt F))), op.fresh = ∅ := by
  intro _ h; (repeat (cases h with | head => rfl | tail _ h => ?_)); exact nomatch h

set_option maxHeartbeats 40000000 in
/-- Layer 2: the self-loop term, the bias, the batch normalisation, and the activation (its function's operations in line). 47 operations. -/
abbrev norm2 : List (HloOp τ sig (Elt F)) :=
  [ StableHlo.binary main_v47 main_v47 main_v199 (mulf : (⟨S100000, .f32⟩ : BufTy).Contents (Elt F) → (⟨S100000, .f32⟩ : BufTy).Contents (Elt F) → (⟨S100000, .f32⟩ : BufTy).Contents (Elt F)),  -- %199 = multiply %47, %47
    StableHlo.unary main_v199 main_v200 (broadcastInDim S100000x1 ![0] bcast_S100000_S100000x1_0 : (⟨S100000, .f32⟩ : BufTy).Contents (Elt F) → (⟨S100000x1, .f32⟩ : BufTy).Contents (Elt F)),  -- %200 = broadcast_in_dim %199, dims = [0]
    StableHlo.unary main_v200 main_v201 (broadcastInDim S100000x128 ![0, 1] bcast_S100000x1_S100000x128_0_1 : (⟨S100000x1, .f32⟩ : BufTy).Contents (Elt F) → (⟨S100000x128, .f32⟩ : BufTy).Contents (Elt F)),  -- %201 = broadcast_in_dim %200, dims = [0, 1]
    StableHlo.binary main_v170 main_v201 main_v202 (mulf : (⟨S100000x128, .f32⟩ : BufTy).Contents (Elt F) → (⟨S100000x128, .f32⟩ : BufTy).Contents (Elt F) → (⟨S100000x128, .f32⟩ : BufTy).Contents (Elt F)),  -- %202 = multiply %170, %201
    StableHlo.binary main_v198 main_v202 main_v203 (addf : (⟨S100000x128, .f32⟩ : BufTy).Contents (Elt F) → (⟨S100000x128, .f32⟩ : BufTy).Contents (Elt F) → (⟨S100000x128, .f32⟩ : BufTy).Contents (Elt F)),  -- %203 = add %198, %202
    StableHlo.unary main_arg12 main_v204 (broadcastInDim S1x128 ![1] bcast_S128_S1x128_1 : (⟨S128, .f32⟩ : BufTy).Contents (Elt F) → (⟨S1x128, .f32⟩ : BufTy).Contents (Elt F)),  -- %204 = broadcast_in_dim %arg12, dims = [1]
    StableHlo.unary main_v204 main_v205 (broadcastInDim S100000x128 ![0, 1] bcast_S1x128_S100000x128_0_1 : (⟨S1x128, .f32⟩ : BufTy).Contents (Elt F) → (⟨S100000x128, .f32⟩ : BufTy).Contents (Elt F)),  -- %205 = broadcast_in_dim %204, dims = [0, 1]
    StableHlo.binary main_v203 main_v205 main_v206 (addf : (⟨S100000x128, .f32⟩ : BufTy).Contents (Elt F) → (⟨S100000x128, .f32⟩ : BufTy).Contents (Elt F) → (⟨S100000x128, .f32⟩ : BufTy).Contents (Elt F)),  -- %206 = add %203, %205
    StableHlo.unary main_arg17 main_v207 ((extractStridedSlice S1x128 ![2, 0] · slices_S4x128_S1x128_2_0) : (⟨S4x128, .f32⟩ : BufTy).Contents (Elt F) → (⟨S1x128, .f32⟩ : BufTy).Contents (Elt F)),  -- %207 = slice %arg17 [2:3, 0:128]
    StableHlo.reshape main_v207 main_v208 rfl shapeCasts_S1x128_S128,  -- %208 = reshape %207
    StableHlo.unary main_v208 main_v209 (broadcastInDim S1x128 ![1] bcast_S128_S1x128_1 : (⟨S128, .f32⟩ : BufTy).Contents (Elt F) → (⟨S1x128, .f32⟩ : BufTy).Contents (Elt F)),  -- %209 = broadcast_in_dim %208, dims = [1]
    StableHlo.unary main_v209 main_v210 (broadcastInDim S100000x128 ![0, 1] bcast_S1x128_S100000x128_0_1 : (⟨S1x128, .f32⟩ : BufTy).Contents (Elt F) → (⟨S100000x128, .f32⟩ : BufTy).Contents (Elt F)),  -- %210 = broadcast_in_dim %209, dims = [0, 1]
    StableHlo.binary main_v206 main_v210 main_v211 (subf : (⟨S100000x128, .f32⟩ : BufTy).Contents (Elt F) → (⟨S100000x128, .f32⟩ : BufTy).Contents (Elt F) → (⟨S100000x128, .f32⟩ : BufTy).Contents (Elt F)),  -- %211 = subtract %206, %210
    StableHlo.unary main_arg18 main_v212 ((extractStridedSlice S1x128 ![2, 0] · slices_S4x128_S1x128_2_0) : (⟨S4x128, .f32⟩ : BufTy).Contents (Elt F) → (⟨S1x128, .f32⟩ : BufTy).Contents (Elt F)),  -- %212 = slice %arg18 [2:3, 0:128]
    StableHlo.reshape main_v212 main_v213 rfl shapeCasts_S1x128_S128,  -- %213 = reshape %212
    StableHlo.nullary main_cst_33 (constant S_ .f32 0x3727C5AC#32),  -- %cst_33 = constant dense<9.99999974E-6>
    StableHlo.unary main_cst_33 main_v214 (broadcastInDim S128 ![] bcast_S_S128 : (⟨S_, .f32⟩ : BufTy).Contents (Elt F) → (⟨S128, .f32⟩ : BufTy).Contents (Elt F)),  -- %214 = broadcast_in_dim %cst_33, dims = []
    StableHlo.binary main_v213 main_v214 main_v215 (addf : (⟨S128, .f32⟩ : BufTy).Contents (Elt F) → (⟨S128, .f32⟩ : BufTy).Contents (Elt F) → (⟨S128, .f32⟩ : BufTy).Contents (Elt F)),  -- %215 = add %213, %214
    StableHlo.unary main_v215 main_v216 (Host.rsqrt : (⟨S128, .f32⟩ : BufTy).Contents (Elt F) → (⟨S128, .f32⟩ : BufTy).Contents (Elt F)),  -- %216 = rsqrt %215
    StableHlo.unary main_v216 main_v217 (broadcastInDim S1x128 ![1] bcast_S128_S1x128_1 : (⟨S128, .f32⟩ : BufTy).Contents (Elt F) → (⟨S1x128, .f32⟩ : BufTy).Contents (Elt F)),  -- %217 = broadcast_in_dim %216, dims = [1]
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),  -- %218 = broadcast_in_dim %217, dims = [0, 1]
    StableHlo.binary main_v211 main_v218 main_v219 (mulf : (⟨S100000x128, .f32⟩ : BufTy).Contents (Elt F) → (⟨S100000x128, .f32⟩ : BufTy).Contents (Elt F) → (⟨S100000x128, .f32⟩ : BufTy).Contents (Elt F)),  -- %219 = multiply %211, %218
    StableHlo.unary main_arg15 main_v220 ((extractStridedSlice S1x128 ![2, 0] · slices_S4x128_S1x128_2_0) : (⟨S4x128, .f32⟩ : BufTy).Contents (Elt F) → (⟨S1x128, .f32⟩ : BufTy).Contents (Elt F)),  -- %220 = slice %arg15 [2:3, 0:128]
    StableHlo.reshape main_v220 main_v221 rfl shapeCasts_S1x128_S128,  -- %221 = reshape %220
    StableHlo.unary main_v221 main_v222 (broadcastInDim S1x128 ![1] bcast_S128_S1x128_1 : (⟨S128, .f32⟩ : BufTy).Contents (Elt F) → (⟨S1x128, .f32⟩ : BufTy).Contents (Elt F)),  -- %222 = broadcast_in_dim %221, dims = [1]
    StableHlo.unary main_v222 main_v223 (broadcastInDim S100000x128 ![0, 1] bcast_S1x128_S100000x128_0_1 : (⟨S1x128, .f32⟩ : BufTy).Contents (Elt F) → (⟨S100000x128, .f32⟩ : BufTy).Contents (Elt F)),  -- %223 = broadcast_in_dim %222, dims = [0, 1]
    StableHlo.binary main_v219 main_v223 main_v224 (mulf : (⟨S100000x128, .f32⟩ : BufTy).Contents (Elt F) → (⟨S100000x128, .f32⟩ : BufTy).Contents (Elt F) → (⟨S100000x128, .f32⟩ : BufTy).Contents (Elt F)),  -- %224 = multiply %219, %223
    StableHlo.unary main_arg16 main_v225 ((extractStridedSlice S1x128 ![2, 0] · slices_S4x128_S1x128_2_0) : (⟨S4x128, .f32⟩ : BufTy).Contents (Elt F) → (⟨S1x128, .f32⟩ : BufTy).Contents (Elt F)),  -- %225 = slice %arg16 [2:3, 0:128]
    StableHlo.reshape main_v225 main_v226 rfl shapeCasts_S1x128_S128,  -- %226 = reshape %225
    StableHlo.unary main_v226 main_v227 (broadcastInDim S1x128 ![1] bcast_S128_S1x128_1 : (⟨S128, .f32⟩ : BufTy).Contents (Elt F) → (⟨S1x128, .f32⟩ : BufTy).Contents (Elt F)),  -- %227 = broadcast_in_dim %226, dims = [1]
    StableHlo.unary main_v227 main_v228 (broadcastInDim S100000x128 ![0, 1] bcast_S1x128_S100000x128_0_1 : (⟨S1x128, .f32⟩ : BufTy).Contents (Elt F) → (⟨S100000x128, .f32⟩ : BufTy).Contents (Elt F)),  -- %228 = broadcast_in_dim %227, dims = [0, 1]
    StableHlo.binary main_v224 main_v228 main_v229 (addf : (⟨S100000x128, .f32⟩ : BufTy).Contents (Elt F) → (⟨S100000x128, .f32⟩ : BufTy).Contents (Elt F) → (⟨S100000x128, .f32⟩ : BufTy).Contents (Elt F)),  -- %229 = add %224, %228
    StableHlo.TRef.nullary (.of main_call2_cst : StableHlo.TRef sig ⟨S_, .f32⟩) (constant S_ .f32 0x00000000#32),  -- %230 = func.call @elu(%229) > %cst = constant dense<0.000000e+00>
    StableHlo.TRef.unary (.of main_call2_cst : StableHlo.TRef sig ⟨S_, .f32⟩) (.of main_call2_v0 : StableHlo.TRef sig ⟨S100000x128, .f32⟩) (broadcastInDim S100000x128 ![] bcast_S_S100000x128),  -- %230 = func.call @elu(%229) > %0 = broadcast_in_dim %cst, dims = []
    StableHlo.TRef.binary (.of main_v229 : StableHlo.TRef sig ⟨S100000x128, .f32⟩) (.of main_call2_v0 : StableHlo.TRef sig ⟨S100000x128, .f32⟩) (.of main_call2_v1 : StableHlo.TRef sig ⟨S100000x128, .i1⟩) (cmpf .ogt),  -- %230 = func.call @elu(%229) > %1 = compare GT, %arg0, %0, FLOAT
    StableHlo.TRef.nullary (.of main_call2_cst_0 : StableHlo.TRef sig ⟨S_, .f32⟩) (constant S_ .f32 0x00000000#32),  -- %230 = func.call @elu(%229) > %cst_0 = constant dense<0.000000e+00>
    StableHlo.TRef.unary (.of main_call2_cst_0 : StableHlo.TRef sig ⟨S_, .f32⟩) (.of main_call2_v2 : StableHlo.TRef sig ⟨S100000x128, .f32⟩) (broadcastInDim S100000x128 ![] bcast_S_S100000x128),  -- %230 = func.call @elu(%229) > %2 = broadcast_in_dim %cst_0, dims = []
    StableHlo.TRef.binary (.of main_v229 : StableHlo.TRef sig ⟨S100000x128, .f32⟩) (.of main_call2_v2 : StableHlo.TRef sig ⟨S100000x128, .f32⟩) (.of main_call2_v3 : StableHlo.TRef sig ⟨S100000x128, .i1⟩) (cmpf .ogt),  -- %230 = func.call @elu(%229) > %3 = compare GT, %arg0, %2, FLOAT
    StableHlo.TRef.nullary (.of main_call2_cst_1 : StableHlo.TRef sig ⟨S_, .f32⟩) (constant S_ .f32 0x00000000#32),  -- %230 = func.call @elu(%229) > %cst_1 = constant dense<0.000000e+00>
    StableHlo.TRef.unary (.of main_call2_cst_1 : StableHlo.TRef sig ⟨S_, .f32⟩) (.of main_call2_call0_v0 : StableHlo.TRef sig ⟨S_, .f32⟩) id,  -- %230 = func.call @elu(%229) > %4 = func.call @_where(%3, %cst_1, %arg0) > %0 = convert %arg1
    StableHlo.TRef.unary (.of main_call2_call0_v0 : StableHlo.TRef sig ⟨S_, .f32⟩) (.of main_call2_call0_v1 : StableHlo.TRef sig ⟨S100000x128, .f32⟩) (broadcastInDim S100000x128 ![] bcast_S_S100000x128),  -- %230 = func.call @elu(%229) > %4 = func.call @_where(%3, %cst_1, %arg0) > %1 = broadcast_in_dim %0, dims = []
    StableHlo.TRef.ternary (.of main_call2_v3 : StableHlo.TRef sig ⟨S100000x128, .i1⟩) (.of main_call2_call0_v1 : StableHlo.TRef sig ⟨S100000x128, .f32⟩) (.of main_v229 : StableHlo.TRef sig ⟨S100000x128, .f32⟩) (.of main_call2_v4 : StableHlo.TRef sig ⟨S100000x128, .f32⟩) select,  -- %230 = func.call @elu(%229) > %4 = func.call @_where(%3, %cst_1, %arg0) > %2 = select %arg0, %1, %arg2
    StableHlo.TRef.unary (.of main_call2_v4 : StableHlo.TRef sig ⟨S100000x128, .f32⟩) (.of main_call2_v5 : StableHlo.TRef sig ⟨S100000x128, .f32⟩) Host.expm1,  -- %230 = func.call @elu(%229) > %5 = exponential_minus_one %4
    StableHlo.TRef.nullary (.of main_call2_cst_2 : StableHlo.TRef sig ⟨S_, .f32⟩) (constant S_ .f32 0x3F800000#32),  -- %230 = func.call @elu(%229) > %cst_2 = constant dense<1.000000e+00>
    StableHlo.TRef.unary (.of main_call2_cst_2 : StableHlo.TRef sig ⟨S_, .f32⟩) (.of main_call2_v6 : StableHlo.TRef sig ⟨S100000x128, .f32⟩) (broadcastInDim S100000x128 ![] bcast_S_S100000x128),  -- %230 = func.call @elu(%229) > %6 = broadcast_in_dim %cst_2, dims = []
    StableHlo.TRef.binary (.of main_call2_v6 : StableHlo.TRef sig ⟨S100000x128, .f32⟩) (.of main_call2_v5 : StableHlo.TRef sig ⟨S100000x128, .f32⟩) (.of main_call2_v7 : StableHlo.TRef sig ⟨S100000x128, .f32⟩) mulf,  -- %230 = func.call @elu(%229) > %7 = multiply %6, %5
    StableHlo.TRef.ternary (.of main_call2_v1 : StableHlo.TRef sig ⟨S100000x128, .i1⟩) (.of main_v229 : StableHlo.TRef sig ⟨S100000x128, .f32⟩) (.of main_call2_v7 : StableHlo.TRef sig ⟨S100000x128, .f32⟩) (.of main_v230 : StableHlo.TRef sig ⟨S100000x128, .f32⟩) select ]  -- %230 = func.call @elu(%229) > %8 = func.call @_where_0(%1, %arg0, %7) > %0 = select %arg0, %arg1, %arg2

set_option maxHeartbeats 40000000 in
/-- Each of them touches TensorCore references only. -/
theorem norm2_sub : (norm2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxHeartbeats 40000000 in
/-- Each of them determines its results: none allocates. -/
theorem norm2_fresh : ∀ op ∈ (norm2 : List (HloOp τ sig (Elt F))), op.fresh = ∅ := by
  intro _ h; (repeat (cases h with | head => rfl | tail _ h => ?_)); exact nomatch h

end Cert.ReferenceIdeal.RefRun

end
-- ==== Proof.RefOps4.lean ====
/- The reference program's operations, part 4 of 6: dense3, agg3, norm3 — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Layer 3: the one product of the features with the layer's weights. 1 operation. -/
abbrev dense3 : List (HloOp τ sig (Elt F)) :=
  [ StableHlo.binary main_v230 main_arg13 main_v231 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]  -- %231 = dot_general %230, %arg13, contracting_dims = [1] x [0], precision = [DEFAULT, DEFAU

set_option maxHeartbeats 40000000 in
/-- Each of them touches TensorCore references only. -/
theorem dense3_sub : (dense3 : List (HloOp τ sig (Elt F))).Forall fun op => op.bufs ⊆ tcRefs τ sig :=
  binary_bufs_sub ..

set_option maxHeartbeats 40000000 in
/-- Each of them determines its results: none allocates. -/
theorem dense3_fresh : ∀ op ∈ (dense3 : List (HloOp τ sig (Elt F))), op.fresh = ∅ := by
  intro _ h; (repeat (cases h with | head => rfl | tail _ h => ?_)); exact nomatch h

set_option maxHeartbeats 40000000 in
/-- Layer 3: the edge coefficients, the gather of the sources' rows, their scaling, and the scatter-add onto the targets. 35 operations. -/
abbrev agg3 : List (HloOp τ sig (Elt F)) :=
  [ StableHlo.nullary main_c_34 (constantI S_ 32 0#32),  -- %c_34 = constant dense<0>
    StableHlo.unary main_c_34 main_v232 (broadcastInDim S1600000 ![] bcast_S_S1600000 : (⟨S_, .i32⟩ : BufTy).Contents (Elt F) → (⟨S1600000, .i32⟩ : BufTy).Contents (Elt F)),  -- %232 = broadcast_in_dim %c_34, dims = []
    StableHlo.binary main_v38 main_v232 main_v233 (cmpi .slt : (⟨S1600000, .i32⟩ : BufTy).Contents (Elt F) → (⟨S1600000, .i32⟩ : BufTy).Contents (Elt F) → (⟨S1600000, .i1⟩ : BufTy).Contents (Elt F)),  -- %233 = compare LT, %38, %232, SIGNED
    StableHlo.nullary main_c_35 (constantI S_ 32 100000#32),  -- %c_35 = constant dense<100000>
    StableHlo.unary main_c_35 main_v234 (broadcastInDim S1600000 ![] bcast_S_S1600000 : (⟨S_, .i32⟩ : BufTy).Contents (Elt F) → (⟨S1600000, .i32⟩ : BufTy).Contents (Elt F)),  -- %234 = broadcast_in_dim %c_35, dims = []
    StableHlo.binary main_v38 main_v234 main_v235 (addi : (⟨S1600000, .i32⟩ : BufTy).Contents (Elt F) → (⟨S1600000, .i32⟩ : BufTy).Contents (Elt F) → (⟨S1600000, .i32⟩ : BufTy).Contents (Elt F)),  -- %235 = add %38, %234
    StableHlo.ternary main_v233 main_v235 main_v38 main_v236 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %236 = select %233, %235, %38
    StableHlo.unary main_v236 main_v237 (broadcastInDim S1600000x1 ![0] bcast_S1600000_S1600000x1_0 : (⟨S1600000, .i32⟩ : BufTy).Contents (Elt F) → (⟨S1600000x1, .i32⟩ : BufTy).Contents (Elt F)),  -- %237 = broadcast_in_dim %236, dims = [0]
    StableHlo.binary main_v47 main_v237 main_v238 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %238 = "gather"(%47, %237)
    StableHlo.nullary main_c_36 (constantI S_ 32 0#32),  -- %c_36 = constant dense<0>
    StableHlo.unary main_c_36 main_v239 (broadcastInDim S1600000 ![] bcast_S_S1600000 : (⟨S_, .i32⟩ : BufTy).Contents (Elt F) → (⟨S1600000, .i32⟩ : BufTy).Contents (Elt F)),  -- %239 = broadcast_in_dim %c_36, dims = []
    StableHlo.binary main_v40 main_v239 main_v240 (cmpi .slt : (⟨S1600000, .i32⟩ : BufTy).Contents (Elt F) → (⟨S1600000, .i32⟩ : BufTy).Contents (Elt F) → (⟨S1600000, .i1⟩ : BufTy).Contents (Elt F)),  -- %240 = compare LT, %40, %239, SIGNED
    StableHlo.nullary main_c_37 (constantI S_ 32 100000#32),  -- %c_37 = constant dense<100000>
    StableHlo.unary main_c_37 main_v241 (broadcastInDim S1600000 ![] bcast_S_S1600000 : (⟨S_, .i32⟩ : BufTy).Contents (Elt F) → (⟨S1600000, .i32⟩ : BufTy).Contents (Elt F)),  -- %241 = broadcast_in_dim %c_37, dims = []
    StableHlo.binary main_v40 main_v241 main_v242 (addi : (⟨S1600000, .i32⟩ : BufTy).Contents (Elt F) → (⟨S1600000, .i32⟩ : BufTy).Contents (Elt F) → (⟨S1600000, .i32⟩ : BufTy).Contents (Elt F)),  -- %242 = add %40, %241
    StableHlo.ternary main_v240 main_v242 main_v40 main_v243 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %243 = select %240, %242, %40
    StableHlo.unary main_v243 main_v244 (broadcastInDim S1600000x1 ![0] bcast_S1600000_S1600000x1_0 : (⟨S1600000, .i32⟩ : BufTy).Contents (Elt F) → (⟨S1600000x1, .i32⟩ : BufTy).Contents (Elt F)),  -- %244 = broadcast_in_dim %243, dims = [0]
    StableHlo.binary main_v47 main_v244 main_v245 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %245 = "gather"(%47, %244)
    StableHlo.binary main_v238 main_v245 main_v246 (mulf : (⟨S1600000, .f32⟩ : BufTy).Contents (Elt F) → (⟨S1600000, .f32⟩ : BufTy).Contents (Elt F) → (⟨S1600000, .f32⟩ : BufTy).Contents (Elt F)),  -- %246 = multiply %238, %245
    StableHlo.nullary main_c_38 (constantI S_ 32 0#32),  -- %c_38 = constant dense<0>
    StableHlo.unary main_c_38 main_v247 (broadcastInDim S1600000 ![] bcast_S_S1600000 : (⟨S_, .i32⟩ : BufTy).Contents (Elt F) → (⟨S1600000, .i32⟩ : BufTy).Contents (Elt F)),  -- %247 = broadcast_in_dim %c_38, dims = []
    StableHlo.binary main_v38 main_v247 main_v248 (cmpi .slt : (⟨S1600000, .i32⟩ : BufTy).Contents (Elt F) → (⟨S1600000, .i32⟩ : BufTy).Contents (Elt F) → (⟨S1600000, .i1⟩ : BufTy).Contents (Elt F)),  -- %248 = compare LT, %38, %247, SIGNED
    StableHlo.nullary main_c_39 (constantI S_ 32 100000#32),  -- %c_39 = constant dense<100000>
    StableHlo.unary main_c_39 main_v249 (broadcastInDim S1600000 ![] bcast_S_S1600000 : (⟨S_, .i32⟩ : BufTy).Contents (Elt F) → (⟨S1600000, .i32⟩ : BufTy).Contents (Elt F)),  -- %249 = broadcast_in_dim %c_39, dims = []
    StableHlo.binary main_v38 main_v249 main_v250 (addi : (⟨S1600000, .i32⟩ : BufTy).Contents (Elt F) → (⟨S1600000, .i32⟩ : BufTy).Contents (Elt F) → (⟨S1600000, .i32⟩ : BufTy).Contents (Elt F)),  -- %250 = add %38, %249
    StableHlo.ternary main_v248 main_v250 main_v38 main_v251 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %251 = select %248, %250, %38
    StableHlo.unary main_v251 main_v252 (broadcastInDim S1600000x1 ![0] bcast_S1600000_S1600000x1_0 : (⟨S1600000, .i32⟩ : BufTy).Contents (Elt F) → (⟨S1600000x1, .i32⟩ : BufTy).Contents (Elt F)),  -- %252 = broadcast_in_dim %251, dims = [0]
    StableHlo.binary main_v231 main_v252 main_v253 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %253 = "gather"(%231, %252)
    StableHlo.unary main_v246 main_v254 (broadcastInDim S1600000x1 ![0] bcast_S1600000_S1600000x1_0 : (⟨S1600000, .f32⟩ : BufTy).Contents (Elt F) → (⟨S1600000x1, .f32⟩ : BufTy).Contents (Elt F)),  -- %254 = broadcast_in_dim %246, dims = [0]
    StableHlo.unary main_v254 main_v255 (broadcastInDim S1600000x128 ![0, 1] bcast_S1600000x1_S1600000x128_0_1 : (⟨S1600000x1, .f32⟩ : BufTy).Contents (Elt F) → (⟨S1600000x128, .f32⟩ : BufTy).Contents (Elt F)),  -- %255 = broadcast_in_dim %254, dims = [0, 1]
    StableHlo.binary main_v253 main_v255 main_v256 (mulf : (⟨S1600000x128, .f32⟩ : BufTy).Contents (Elt F) → (⟨S1600000x128, .f32⟩ : BufTy).Contents (Elt F) → (⟨S1600000x128, .f32⟩ : BufTy).Contents (Elt F)),  -- %256 = multiply %253, %255
    StableHlo.nullary main_cst_40 (constant S_ .f32 0x00000000#32),  -- %cst_40 = constant dense<0.000000e+00>
    StableHlo.unary main_cst_40 main_v257 (broadcastInDim S100000x128 ![] bcast_S_S100000x128 : (⟨S_, .f32⟩ : BufTy).Contents (Elt F) → (⟨S100000x128, .f32⟩ : BufTy).Contents (Elt F)),  -- %257 = broadcast_in_dim %cst_40, dims = []
    StableHlo.unary main_v40 main_v258 (broadcastInDim S1600000x1 ![0] bcast_S1600000_S1600000x1_0 : (⟨S1600000, .i32⟩ : BufTy).Contents (Elt F) → (⟨S1600000x1, .i32⟩ : BufTy).Contents (Elt F)),  -- %258 = broadcast_in_dim %40, dims = [0]
    StableHlo.ternary main_v257 main_v258 main_v256 main_v259 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]  -- %259 = "scatter"(%257, %258, %256)

set_option maxHeartbeats 40000000 in
/-- Each of them touches TensorCore references only. -/
theorem agg3_sub : (agg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

set_option maxHeartbeats 40000000 in
/-- Each of them determines its results: none allocates. -/
theorem agg3_fresh : ∀ op ∈ (agg3 : List (HloOp τ sig (Elt F))), op.fresh = ∅ := by
  intro _ h; (repeat (cases h with | head => rfl | tail _ h => ?_)); exact nomatch h

set_option maxHeartbeats 40000000 in
/-- Layer 3: the self-loop term, the bias, the batch normalisation, and the activation (its function's operations in line). 35 operations. -/
abbrev norm3 : List (HloOp τ sig (Elt F)) :=
  [ StableHlo.binary main_v47 main_v47 main_v260 (mulf : (⟨S100000, .f32⟩ : BufTy).Contents (Elt F) → (⟨S100000, .f32⟩ : BufTy).Contents (Elt F) → (⟨S100000, .f32⟩ : BufTy).Contents (Elt F)),  -- %260 = multiply %47, %47
    StableHlo.unary main_v260 main_v261 (broadcastInDim S100000x1 ![0] bcast_S100000_S100000x1_0 : (⟨S100000, .f32⟩ : BufTy).Contents (Elt F) → (⟨S100000x1, .f32⟩ : BufTy).Contents (Elt F)),  -- %261 = broadcast_in_dim %260, dims = [0]
    StableHlo.unary main_v261 main_v262 (broadcastInDim S100000x128 ![0, 1] bcast_S100000x1_S100000x128_0_1 : (⟨S100000x1, .f32⟩ : BufTy).Contents (Elt F) → (⟨S100000x128, .f32⟩ : BufTy).Contents (Elt F)),  -- %262 = broadcast_in_dim %261, dims = [0, 1]
    StableHlo.binary main_v231 main_v262 main_v263 (mulf : (⟨S100000x128, .f32⟩ : BufTy).Contents (Elt F) → (⟨S100000x128, .f32⟩ : BufTy).Contents (Elt F) → (⟨S100000x128, .f32⟩ : BufTy).Contents (Elt F)),  -- %263 = multiply %231, %262
    StableHlo.binary main_v259 main_v263 main_v264 (addf : (⟨S100000x128, .f32⟩ : BufTy).Contents (Elt F) → (⟨S100000x128, .f32⟩ : BufTy).Contents (Elt F) → (⟨S100000x128, .f32⟩ : BufTy).Contents (Elt F)),  -- %264 = add %259, %263
    StableHlo.unary main_arg14 main_v265 (broadcastInDim S1x128 ![1] bcast_S128_S1x128_1 : (⟨S128, .f32⟩ : BufTy).Contents (Elt F) → (⟨S1x128, .f32⟩ : BufTy).Contents (Elt F)),  -- %265 = broadcast_in_dim %arg14, dims = [1]
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),  -- %266 = broadcast_in_dim %265, dims = [0, 1]
    StableHlo.binary main_v264 main_v266 main_v267 (addf : (⟨S100000x128, .f32⟩ : BufTy).Contents (Elt F) → (⟨S100000x128, .f32⟩ : BufTy).Contents (Elt F) → (⟨S100000x128, .f32⟩ : BufTy).Contents (Elt F)),  -- %267 = add %264, %266
    StableHlo.unary main_arg17 main_v268 ((extractStridedSlice S1x128 ![3, 0] · slices_S4x128_S1x128_3_0) : (⟨S4x128, .f32⟩ : BufTy).Contents (Elt F) → (⟨S1x128, .f32⟩ : BufTy).Contents (Elt F)),  -- %268 = slice %arg17 [3:4, 0:128]
    StableHlo.reshape main_v268 main_v269 rfl shapeCasts_S1x128_S128,  -- %269 = reshape %268
    StableHlo.unary main_v269 main_v270 (broadcastInDim S1x128 ![1] bcast_S128_S1x128_1 : (⟨S128, .f32⟩ : BufTy).Contents (Elt F) → (⟨S1x128, .f32⟩ : BufTy).Contents (Elt F)),  -- %270 = broadcast_in_dim %269, dims = [1]
    StableHlo.unary main_v270 main_v271 (broadcastInDim S100000x128 ![0, 1] bcast_S1x128_S100000x128_0_1 : (⟨S1x128, .f32⟩ : BufTy).Contents (Elt F) → (⟨S100000x128, .f32⟩ : BufTy).Contents (Elt F)),  -- %271 = broadcast_in_dim %270, dims = [0, 1]
    StableHlo.binary main_v267 main_v271 main_v272 (subf : (⟨S100000x128, .f32⟩ : BufTy).Contents (Elt F) → (⟨S100000x128, .f32⟩ : BufTy).Contents (Elt F) → (⟨S100000x128, .f32⟩ : BufTy).Contents (Elt F)),  -- %272 = subtract %267, %271
    StableHlo.unary main_arg18 main_v273 ((extractStridedSlice S1x128 ![3, 0] · slices_S4x128_S1x128_3_0) : (⟨S4x128, .f32⟩ : BufTy).Contents (Elt F) → (⟨S1x128, .f32⟩ : BufTy).Contents (Elt F)),  -- %273 = slice %arg18 [3:4, 0:128]
    StableHlo.reshape main_v273 main_v274 rfl shapeCasts_S1x128_S128,  -- %274 = reshape %273
    StableHlo.nullary main_cst_41 (constant S_ .f32 0x3727C5AC#32),  -- %cst_41 = constant dense<9.99999974E-6>
    StableHlo.unary main_cst_41 main_v275 (broadcastInDim S128 ![] bcast_S_S128 : (⟨S_, .f32⟩ : BufTy).Contents (Elt F) → (⟨S128, .f32⟩ : BufTy).Contents (Elt F)),  -- %275 = broadcast_in_dim %cst_41, dims = []
    StableHlo.binary main_v274 main_v275 main_v276 (addf : (⟨S128, .f32⟩ : BufTy).Contents (Elt F) → (⟨S128, .f32⟩ : BufTy).Contents (Elt F) → (⟨S128, .f32⟩ : BufTy).Contents (Elt F)),  -- %276 = add %274, %275
    StableHlo.unary main_v276 main_v277 (Host.rsqrt : (⟨S128, .f32⟩ : BufTy).Contents (Elt F) → (⟨S128, .f32⟩ : BufTy).Contents (Elt F)),  -- %277 = rsqrt %276
    StableHlo.unary main_v277 main_v278 (broadcastInDim S1x128 ![1] bcast_S128_S1x128_1 : (⟨S128, .f32⟩ : BufTy).Contents (Elt F) → (⟨S1x128, .f32⟩ : BufTy).Contents (Elt F)),  -- %278 = broadcast_in_dim %277, dims = [1]
    StableHlo.unary main_v278 main_v279 (broadcastInDim S100000x128 ![0, 1] bcast_S1x128_S100000x128_0_1 : (⟨S1x128, .f32⟩ : BufTy).Contents (Elt F) → (⟨S100000x128, .f32⟩ : BufTy).Contents (Elt F)),  -- %279 = broadcast_in_dim %278, dims = [0, 1]
    StableHlo.binary main_v272 main_v279 main_v280 (mulf : (⟨S100000x128, .f32⟩ : BufTy).Contents (Elt F) → (⟨S100000x128, .f32⟩ : BufTy).Contents (Elt F) → (⟨S100000x128, .f32⟩ : BufTy).Contents (Elt F)),  -- %280 = multiply %272, %279
    StableHlo.unary main_arg15 main_v281 ((extractStridedSlice S1x128 ![3, 0] · slices_S4x128_S1x128_3_0) : (⟨S4x128, .f32⟩ : BufTy).Contents (Elt F) → (⟨S1x128, .f32⟩ : BufTy).Contents (Elt F)),  -- %281 = slice %arg15 [3:4, 0:128]
    StableHlo.reshape main_v281 main_v282 rfl shapeCasts_S1x128_S128,  -- %282 = reshape %281
    StableHlo.unary main_v282 main_v283 (broadcastInDim S1x128 ![1] bcast_S128_S1x128_1 : (⟨S128, .f32⟩ : BufTy).Contents (Elt F) → (⟨S1x128, .f32⟩ : BufTy).Contents (Elt F)),  -- %283 = broadcast_in_dim %282, dims = [1]
    StableHlo.unary main_v283 main_v284 (broadcastInDim S100000x128 ![0, 1] bcast_S1x128_S100000x128_0_1 : (⟨S1x128, .f32⟩ : BufTy).Contents (Elt F) → (⟨S100000x128, .f32⟩ : BufTy).Contents (Elt F)),  -- %284 = broadcast_in_dim %283, dims = [0, 1]
    StableHlo.binary main_v280 main_v284 main_v285 (mulf : (⟨S100000x128, .f32⟩ : BufTy).Contents (Elt F) → (⟨S100000x128, .f32⟩ : BufTy).Contents (Elt F) → (⟨S100000x128, .f32⟩ : BufTy).Contents (Elt F)),  -- %285 = multiply %280, %284
    StableHlo.unary main_arg16 main_v286 ((extractStridedSlice S1x128 ![3, 0] · slices_S4x128_S1x128_3_0) : (⟨S4x128, .f32⟩ : BufTy).Contents (Elt F) → (⟨S1x128, .f32⟩ : BufTy).Contents (Elt F)),  -- %286 = slice %arg16 [3:4, 0:128]
    StableHlo.reshape main_v286 main_v287 rfl shapeCasts_S1x128_S128,  -- %287 = reshape %286
    StableHlo.unary main_v287 main_v288 (broadcastInDim S1x128 ![1] bcast_S128_S1x128_1 : (⟨S128, .f32⟩ : BufTy).Contents (Elt F) → (⟨S1x128, .f32⟩ : BufTy).Contents (Elt F)),  -- %288 = broadcast_in_dim %287, dims = [1]
    StableHlo.unary main_v288 main_v289 (broadcastInDim S100000x128 ![0, 1] bcast_S1x128_S100000x128_0_1 : (⟨S1x128, .f32⟩ : BufTy).Contents (Elt F) → (⟨S100000x128, .f32⟩ : BufTy).Contents (Elt F)),  -- %289 = broadcast_in_dim %288, dims = [0, 1]
    StableHlo.binary main_v285 main_v289 main_v290 (addf : (⟨S100000x128, .f32⟩ : BufTy).Contents (Elt F) → (⟨S100000x128, .f32⟩ : BufTy).Contents (Elt F) → (⟨S100000x128, .f32⟩ : BufTy).Contents (Elt F)),  -- %290 = add %285, %289
    StableHlo.TRef.nullary (.of main_call3_cst : StableHlo.TRef sig ⟨S_, .f32⟩) (constant S_ .f32 0x00000000#32),  -- %291 = func.call @relu(%290) > %cst = constant dense<0.000000e+00>
    StableHlo.TRef.unary (.of main_call3_cst : StableHlo.TRef sig ⟨S_, .f32⟩) (.of main_call3_v0 : StableHlo.TRef sig ⟨S100000x128, .f32⟩) (broadcastInDim S100000x128 ![] bcast_S_S100000x128),  -- %291 = func.call @relu(%290) > %0 = broadcast_in_dim %cst, dims = []
    StableHlo.TRef.binary (.of main_v290 : StableHlo.TRef sig ⟨S100000x128, .f32⟩) (.of main_call3_v0 : StableHlo.TRef sig ⟨S100000x128, .f32⟩) (.of main_v291 : StableHlo.TRef sig ⟨S100000x128, .f32⟩) maximumf ]  -- %291 = func.call @relu(%290) > %1 = maximum %arg0, %0

set_option maxHeartbeats 40000000 in
/-- Each of them touches TensorCore references only. -/
theorem norm3_sub : (norm3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxHeartbeats 40000000 in
/-- Each of them determines its results: none allocates. -/
theorem norm3_fresh : ∀ op ∈ (norm3 : List (HloOp τ sig (Elt F))), op.fresh = ∅ := by
  intro _ h; (repeat (cases h with | head => rfl | tail _ h => ?_)); exact nomatch h

end Cert.ReferenceIdeal.RefRun

end
-- ==== Proof.RefOps5.lean ====
/- The reference program's operations, part 5 of 6: tail — the program's statements in order, each function's operations in line at its call. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Everything after layer 3's activation: the pooled readout and its two dense layers, up to %312. 39 operations. -/
abbrev tail : List (HloOp τ sig (Elt F)) :=
  [ StableHlo.nullary main_cst_42 (constant S_ .f32 0x3F800000#32),  -- %cst_42 = constant dense<1.000000e+00>
    StableHlo.unary main_cst_42 main_v292 (broadcastInDim S100000 ![] bcast_S_S100000 : (⟨S_, .f32⟩ : BufTy).Contents (Elt F) → (⟨S100000, .f32⟩ : BufTy).Contents (Elt F)),  -- %292 = broadcast_in_dim %cst_42, dims = []
    StableHlo.nullary main_cst_43 (constant S_ .f32 0x00000000#32),  -- %cst_43 = constant dense<0.000000e+00>
    StableHlo.unary main_cst_43 main_v293 (broadcastInDim S512 ![] bcast_S_S512 : (⟨S_, .f32⟩ : BufTy).Contents (Elt F) → (⟨S512, .f32⟩ : BufTy).Contents (Elt F)),  -- %293 = broadcast_in_dim %cst_43, dims = []
    StableHlo.unary main_arg3 main_v294 (broadcastInDim S100000x1 ![0] bcast_S100000_S100000x1_0 : (⟨S100000, .i32⟩ : BufTy).Contents (Elt F) → (⟨S100000x1, .i32⟩ : BufTy).Contents (Elt F)),  -- %294 = broadcast_in_dim %arg3, dims = [0]
    StableHlo.ternary main_v293 main_v294 main_v292 main_v295 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),  -- %295 = "scatter"(%293, %294, %292)
    StableHlo.nullary main_cst_44 (constant S_ .f32 0x3F800000#32),  -- %cst_44 = constant dense<1.000000e+00>
    StableHlo.unary main_cst_44 main_v296 (broadcastInDim S512 ![] bcast_S_S512 : (⟨S_, .f32⟩ : BufTy).Contents (Elt F) → (⟨S512, .f32⟩ : BufTy).Contents (Elt F)),  -- %296 = broadcast_in_dim %cst_44, dims = []
    StableHlo.binary main_v295 main_v296 main_v297 (maximumf : (⟨S512, .f32⟩ : BufTy).Contents (Elt F) → (⟨S512, .f32⟩ : BufTy).Contents (Elt F) → (⟨S512, .f32⟩ : BufTy).Contents (Elt F)),  -- %297 = maximum %295, %296
    StableHlo.nullary main_cst_45 (constant S_ .f32 0x00000000#32),  -- %cst_45 = constant dense<0.000000e+00>
    StableHlo.unary main_cst_45 main_v298 (broadcastInDim S512x128 ![] bcast_S_S512x128 : (⟨S_, .f32⟩ : BufTy).Contents (Elt F) → (⟨S512x128, .f32⟩ : BufTy).Contents (Elt F)),  -- %298 = broadcast_in_dim %cst_45, dims = []
    StableHlo.unary main_arg3 main_v299 (broadcastInDim S100000x1 ![0] bcast_S100000_S100000x1_0 : (⟨S100000, .i32⟩ : BufTy).Contents (Elt F) → (⟨S100000x1, .i32⟩ : BufTy).Contents (Elt F)),  -- %299 = broadcast_in_dim %arg3, dims = [0]
    StableHlo.ternary main_v298 main_v299 main_v291 main_v300 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),  -- %300 = "scatter"(%298, %299, %291)
    StableHlo.unary main_v297 main_v301 (broadcastInDim S512x1 ![0] bcast_S512_S512x1_0 : (⟨S512, .f32⟩ : BufTy).Contents (Elt F) → (⟨S512x1, .f32⟩ : BufTy).Contents (Elt F)),  -- %301 = broadcast_in_dim %297, dims = [0]
    StableHlo.unary main_v301 main_v302 (broadcastInDim S512x128 ![0, 1] bcast_S512x1_S512x128_0_1 : (⟨S512x1, .f32⟩ : BufTy).Contents (Elt F) → (⟨S512x128, .f32⟩ : BufTy).Contents (Elt F)),  -- %302 = broadcast_in_dim %301, dims = [0, 1]
    StableHlo.binary main_v300 main_v302 main_v303 (Host.divf : (⟨S512x128, .f32⟩ : BufTy).Contents (Elt F) → (⟨S512x128, .f32⟩ : BufTy).Contents (Elt F) → (⟨S512x128, .f32⟩ : BufTy).Contents (Elt F)),  -- %303 = divide %300, %302
    StableHlo.binary main_v303 main_arg19 main_v304 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),  -- %304 = dot_general %303, %arg19, contracting_dims = [1] x [0], precision = [DEFAULT, DEFAU
    StableHlo.unary main_arg20 main_v305 (broadcastInDim S1x64 ![1] bcast_S64_S1x64_1 : (⟨S64, .f32⟩ : BufTy).Contents (Elt F) → (⟨S1x64, .f32⟩ : BufTy).Contents (Elt F)),  -- %305 = broadcast_in_dim %arg20, dims = [1]
    StableHlo.unary main_v305 main_v306 (broadcastInDim S512x64 ![0, 1] bcast_S1x64_S512x64_0_1 : (⟨S1x64, .f32⟩ : BufTy).Contents (Elt F) → (⟨S512x64, .f32⟩ : BufTy).Contents (Elt F)),  -- %306 = broadcast_in_dim %305, dims = [0, 1]
    StableHlo.binary main_v304 main_v306 main_v307 (addf : (⟨S512x64, .f32⟩ : BufTy).Contents (Elt F) → (⟨S512x64, .f32⟩ : BufTy).Contents (Elt F) → (⟨S512x64, .f32⟩ : BufTy).Contents (Elt F)),  -- %307 = add %304, %306
    StableHlo.TRef.nullary (.of main_call4_cst : StableHlo.TRef sig ⟨S_, .f32⟩) (constant S_ .f32 0x00000000#32),  -- %308 = func.call @elu_1(%307) > %cst = constant dense<0.000000e+00>
    StableHlo.TRef.unary (.of main_call4_cst : StableHlo.TRef sig ⟨S_, .f32⟩) (.of main_call4_v0 : StableHlo.TRef sig ⟨S512x64, .f32⟩) (broadcastInDim S512x64 ![] bcast_S_S512x64),  -- %308 = func.call @elu_1(%307) > %0 = broadcast_in_dim %cst, dims = []
    StableHlo.TRef.binary (.of main_v307 : StableHlo.TRef sig ⟨S512x64, .f32⟩) (.of main_call4_v0 : StableHlo.TRef sig ⟨S512x64, .f32⟩) (.of main_call4_v1 : StableHlo.TRef sig ⟨S512x64, .i1⟩) (cmpf .ogt),  -- %308 = func.call @elu_1(%307) > %1 = compare GT, %arg0, %0, FLOAT
    StableHlo.TRef.nullary (.of main_call4_cst_0 : StableHlo.TRef sig ⟨S_, .f32⟩) (constant S_ .f32 0x00000000#32),  -- %308 = func.call @elu_1(%307) > %cst_0 = constant dense<0.000000e+00>
    StableHlo.TRef.unary (.of main_call4_cst_0 : StableHlo.TRef sig ⟨S_, .f32⟩) (.of main_call4_v2 : StableHlo.TRef sig ⟨S512x64, .f32⟩) (broadcastInDim S512x64 ![] bcast_S_S512x64),  -- %308 = func.call @elu_1(%307) > %2 = broadcast_in_dim %cst_0, dims = []
    StableHlo.TRef.binary (.of main_v307 : StableHlo.TRef sig ⟨S512x64, .f32⟩) (.of main_call4_v2 : StableHlo.TRef sig ⟨S512x64, .f32⟩) (.of main_call4_v3 : StableHlo.TRef sig ⟨S512x64, .i1⟩) (cmpf .ogt),  -- %308 = func.call @elu_1(%307) > %3 = compare GT, %arg0, %2, FLOAT
    StableHlo.TRef.nullary (.of main_call4_cst_1 : StableHlo.TRef sig ⟨S_, .f32⟩) (constant S_ .f32 0x00000000#32),  -- %308 = func.call @elu_1(%307) > %cst_1 = constant dense<0.000000e+00>
    StableHlo.TRef.unary (.of main_call4_cst_1 : StableHlo.TRef sig ⟨S_, .f32⟩) (.of main_call4_call0_v0 : StableHlo.TRef sig ⟨S_, .f32⟩) id,  -- %308 = func.call @elu_1(%307) > %4 = func.call @_where_2(%3, %cst_1, %arg0) > %0 = convert %arg1
    StableHlo.TRef.unary (.of main_call4_call0_v0 : StableHlo.TRef sig ⟨S_, .f32⟩) (.of main_call4_call0_v1 : StableHlo.TRef sig ⟨S512x64, .f32⟩) (broadcastInDim S512x64 ![] bcast_S_S512x64),  -- %308 = func.call @elu_1(%307) > %4 = func.call @_where_2(%3, %cst_1, %arg0) > %1 = broadcast_in_dim %0, dims = []
    StableHlo.TRef.ternary (.of main_call4_v3 : StableHlo.TRef sig ⟨S512x64, .i1⟩) (.of main_call4_call0_v1 : StableHlo.TRef sig ⟨S512x64, .f32⟩) (.of main_v307 : StableHlo.TRef sig ⟨S512x64, .f32⟩) (.of main_call4_v4 : StableHlo.TRef sig ⟨S512x64, .f32⟩) select,  -- %308 = func.call @elu_1(%307) > %4 = func.call @_where_2(%3, %cst_1, %arg0) > %2 = select %arg0, %1, %arg2
    StableHlo.TRef.unary (.of main_call4_v4 : StableHlo.TRef sig ⟨S512x64, .f32⟩) (.of main_call4_v5 : StableHlo.TRef sig ⟨S512x64, .f32⟩) Host.expm1,  -- %308 = func.call @elu_1(%307) > %5 = exponential_minus_one %4
    StableHlo.TRef.nullary (.of main_call4_cst_2 : StableHlo.TRef sig ⟨S_, .f32⟩) (constant S_ .f32 0x3F800000#32),  -- %308 = func.call @elu_1(%307) > %cst_2 = constant dense<1.000000e+00>
    StableHlo.TRef.unary (.of main_call4_cst_2 : StableHlo.TRef sig ⟨S_, .f32⟩) (.of main_call4_v6 : StableHlo.TRef sig ⟨S512x64, .f32⟩) (broadcastInDim S512x64 ![] bcast_S_S512x64),  -- %308 = func.call @elu_1(%307) > %6 = broadcast_in_dim %cst_2, dims = []
    StableHlo.TRef.binary (.of main_call4_v6 : StableHlo.TRef sig ⟨S512x64, .f32⟩) (.of main_call4_v5 : StableHlo.TRef sig ⟨S512x64, .f32⟩) (.of main_call4_v7 : StableHlo.TRef sig ⟨S512x64, .f32⟩) mulf,  -- %308 = func.call @elu_1(%307) > %7 = multiply %6, %5
    StableHlo.TRef.ternary (.of main_call4_v1 : StableHlo.TRef sig ⟨S512x64, .i1⟩) (.of main_v307 : StableHlo.TRef sig ⟨S512x64, .f32⟩) (.of main_call4_v7 : StableHlo.TRef sig ⟨S512x64, .f32⟩) (.of main_v308 : StableHlo.TRef sig ⟨S512x64, .f32⟩) select,  -- %308 = func.call @elu_1(%307) > %8 = func.call @_where_3(%1, %arg0, %7) > %0 = select %arg0, %arg1, %arg2
    StableHlo.binary main_v308 main_arg21 main_v309 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),  -- %309 = dot_general %308, %arg21, contracting_dims = [1] x [0], precision = [DEFAULT, DEFAU
    StableHlo.unary main_arg22 main_v310 (broadcastInDim S1x1 ![1] bcast_S1_S1x1_1 : (⟨S1, .f32⟩ : BufTy).Contents (Elt F) → (⟨S1x1, .f32⟩ : BufTy).Contents (Elt F)),  -- %310 = broadcast_in_dim %arg22, dims = [1]
    StableHlo.unary main_v310 main_v311 (broadcastInDim S512x1 ![0, 1] bcast_S1x1_S512x1_0_1 : (⟨S1x1, .f32⟩ : BufTy).Contents (Elt F) → (⟨S512x1, .f32⟩ : BufTy).Contents (Elt F)),  -- %311 = broadcast_in_dim %310, dims = [0, 1]
    StableHlo.binary main_v309 main_v311 main_v312 (addf : (⟨S512x1, .f32⟩ : BufTy).Contents (Elt F) → (⟨S512x1, .f32⟩ : BufTy).Contents (Elt F) → (⟨S512x1, .f32⟩ : BufTy).Contents (Elt F)) ]  -- %312 = add %309, %311

set_option maxHeartbeats 40000000 in
/-- Each of them touches TensorCore references only. -/
theorem tail_sub : (tail : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩

set_option maxHeartbeats 40000000 in
/-- Each of them determines its results: none allocates. -/
theorem tail_fresh : ∀ op ∈ (tail : List (HloOp τ sig (Elt F))), op.fresh = ∅ := by
  intro _ h; (repeat (cases h with | head => rfl | tail _ h => ?_)); exact nomatch h

end Cert.ReferenceIdeal.RefRun

end
-- ==== Proof.RefOps.lean ====
/- The reference program's operations in order: the preamble, then for each of the four layers its dense product, its
   aggregation over the edges and its normalisation with the activation, then the readout. The fold of the operations
   over a valuation splits along any concatenation. -/
import proofs.«127358_j57011395887506_2_alg».proof.Proof.RefOps0
import proofs.«127358_j57011395887506_2_alg».proof.Proof.RefOps1
import proofs.«127358_j57011395887506_2_alg».proof.Proof.RefOps2
import proofs.«127358_j57011395887506_2_alg».proof.Proof.RefOps3
import proofs.«127358_j57011395887506_2_alg».proof.Proof.RefOps4
import proofs.«127358_j57011395887506_2_alg».proof.Proof.RefOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order: 419 of them, the five calls' operations in line. -/
abbrev ops : List (HloOp τ sig (Elt F)) :=
  pre ++ dense0 ++ agg0 ++ norm0 ++ dense1 ++ agg1 ++ norm1 ++ dense2 ++ agg2 ++ norm2 ++ dense3 ++ agg3 ++ norm3 ++ tail

/-- The contents after two lines run one after the other: the second line's fold over the first line's. -/
theorem after_append (a b : List (HloOp τ sig (Elt F))) (V : Valuation τ sig (Elt F)) :
    after (a ++ b) V = after b (after a V) := by
  induction a generalizing V with
  | nil => rfl
  | cons op a ih => simp only [List.cons_append, after_cons, ih]

/-- A property of every operation of two lines holds of every operation of their concatenation. -/
theorem forall_append' {P : HloOp τ sig (Elt F) → Prop} {a b : List (HloOp τ sig (Elt F))}
    (ha : a.Forall P) (hb : b.Forall P) : (a ++ b).Forall P :=
  List.forall_append.2 ⟨ha, hb⟩

/-- Likewise for a property stated over membership. -/
theorem mem_append' {P : HloOp τ sig (Elt F) → Prop} {a b : List (HloOp τ sig (Elt F))}
    (ha : ∀ op ∈ a, P op) (hb : ∀ op ∈ b, P op) : ∀ op ∈ a ++ b, P op :=
  fun op h => (List.mem_append.1 h).elim (ha op) (hb op)

/-- Every operation touches TensorCore references only. -/
theorem ops_sub : (ops : List (HloOp τ sig (Elt F))).Forall fun op => op.bufs ⊆ tcRefs τ sig :=
  forall_append' (forall_append' (forall_append' (forall_append' (forall_append' (forall_append' (forall_append' (forall_append' (forall_append' (forall_append' (forall_append' (forall_append' (forall_append' (pre_sub) dense0_sub) agg0_sub) norm0_sub) dense1_sub) agg1_sub) norm1_sub) dense2_sub) agg2_sub) norm2_sub) dense3_sub) agg3_sub) norm3_sub) tail_sub

/-- Every operation determines its results: none allocates. -/
theorem ops_fresh : ∀ op ∈ (ops : List (HloOp τ sig (Elt F))), op.fresh = ∅ :=
  mem_append' (mem_append' (mem_append' (mem_append' (mem_append' (mem_append' (mem_append' (mem_append' (mem_append' (mem_append' (mem_append' (mem_append' (mem_append' (pre_fresh) dense0_fresh) agg0_fresh) norm0_fresh) dense1_fresh) agg1_fresh) norm1_fresh) dense2_fresh) agg2_fresh) norm2_fresh) dense3_fresh) agg3_fresh) norm3_fresh) tail_fresh

end Cert.ReferenceIdeal.RefRun

end
-- ==== Proof.RefWin0.lean ====
/- The reference program's operations as its windows print them, window 0: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 0, piece 0: 60 operations. -/
abbrev win0_0 : List (HloOp τ sig (Elt F)) :=
  [ StableHlo.nullary main_cst (constant S_ .f32 0x3F800000#32),  -- %cst = constant dense<1.000000e+00>
    StableHlo.unary main_cst main_v0 (broadcastInDim S100000 ![] bcast_S_S100000 : (⟨S_, .f32⟩ : BufTy).Contents (Elt F) → (⟨S100000, .f32⟩ : BufTy).Contents (Elt F)),  -- %0 = broadcast_in_dim %cst, dims = []
    StableHlo.nullary main_cst_0 (constant S_ .f32 0x00000000#32),  -- %cst_0 = constant dense<0.000000e+00>
    StableHlo.unary main_cst_0 main_v1 (broadcastInDim S64 ![] bcast_S_S64 : (⟨S_, .f32⟩ : BufTy).Contents (Elt F) → (⟨S64, .f32⟩ : BufTy).Contents (Elt F)),  -- %1 = broadcast_in_dim %cst_0, dims = []
    StableHlo.unary main_arg2 main_v2 (broadcastInDim S100000x1 ![0] bcast_S100000_S100000x1_0 : (⟨S100000, .i32⟩ : BufTy).Contents (Elt F) → (⟨S100000x1, .i32⟩ : BufTy).Contents (Elt F)),  -- %2 = broadcast_in_dim %arg2, dims = [0]
    StableHlo.ternary main_v1 main_v2 main_v0 main_v3 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),  -- %3 = "scatter"(%1, %2, %0)
    StableHlo.nullary main_cst_1 (constant S_ .f32 0x3F800000#32),  -- %cst_1 = constant dense<1.000000e+00>
    StableHlo.unary main_cst_1 main_v4 (broadcastInDim S64 ![] bcast_S_S64 : (⟨S_, .f32⟩ : BufTy).Contents (Elt F) → (⟨S64, .f32⟩ : BufTy).Contents (Elt F)),  -- %4 = broadcast_in_dim %cst_1, dims = []
    StableHlo.binary main_v3 main_v4 main_v5 (maximumf : (⟨S64, .f32⟩ : BufTy).Contents (Elt F) → (⟨S64, .f32⟩ : BufTy).Contents (Elt F) → (⟨S64, .f32⟩ : BufTy).Contents (Elt F)),  -- %5 = maximum %3, %4
    StableHlo.nullary main_cst_2 (constant S_ .f32 0x00000000#32),  -- %cst_2 = constant dense<0.000000e+00>
    StableHlo.unary main_cst_2 main_v6 (broadcastInDim S64x128 ![] bcast_S_S64x128 : (⟨S_, .f32⟩ : BufTy).Contents (Elt F) → (⟨S64x128, .f32⟩ : BufTy).Contents (Elt F)),  -- %6 = broadcast_in_dim %cst_2, dims = []
    StableHlo.unary main_arg2 main_v7 (broadcastInDim S100000x1 ![0] bcast_S100000_S100000x1_0 : (⟨S100000, .i32⟩ : BufTy).Contents (Elt F) → (⟨S100000x1, .i32⟩ : BufTy).Contents (Elt F)),  -- %7 = broadcast_in_dim %arg2, dims = [0]
    StableHlo.ternary main_v6 main_v7 main_arg0 main_v8 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),  -- %8 = "scatter"(%6, %7, %arg0)
    StableHlo.unary main_v5 main_v9 (broadcastInDim S64x1 ![0] bcast_S64_S64x1_0 : (⟨S64, .f32⟩ : BufTy).Contents (Elt F) → (⟨S64x1, .f32⟩ : BufTy).Contents (Elt F)),  -- %9 = broadcast_in_dim %5, dims = [0]
    StableHlo.unary main_v9 main_v10 (broadcastInDim S64x128 ![0, 1] bcast_S64x1_S64x128_0_1 : (⟨S64x1, .f32⟩ : BufTy).Contents (Elt F) → (⟨S64x128, .f32⟩ : BufTy).Contents (Elt F)),  -- %10 = broadcast_in_dim %9, dims = [0, 1]
    StableHlo.binary main_v8 main_v10 main_v11 (Host.divf : (⟨S64x128, .f32⟩ : BufTy).Contents (Elt F) → (⟨S64x128, .f32⟩ : BufTy).Contents (Elt F) → (⟨S64x128, .f32⟩ : BufTy).Contents (Elt F)),  -- %11 = divide %8, %10
    StableHlo.binary main_v11 main_arg4 main_v12 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),  -- %12 = dot_general %11, %arg4, contracting_dims = [1] x [0], precision = [DEFAULT, DEFAULT]
    StableHlo.unary main_arg5 main_v13 (broadcastInDim S1x64 ![1] bcast_S64_S1x64_1 : (⟨S64, .f32⟩ : BufTy).Contents (Elt F) → (⟨S1x64, .f32⟩ : BufTy).Contents (Elt F)),  -- %13 = broadcast_in_dim %arg5, dims = [1]
    StableHlo.unary main_v13 main_v14 (broadcastInDim S64x64 ![0, 1] bcast_S1x64_S64x64_0_1 : (⟨S1x64, .f32⟩ : BufTy).Contents (Elt F) → (⟨S64x64, .f32⟩ : BufTy).Contents (Elt F)),  -- %14 = broadcast_in_dim %13, dims = [0, 1]
    StableHlo.binary main_v12 main_v14 main_v15 (addf : (⟨S64x64, .f32⟩ : BufTy).Contents (Elt F) → (⟨S64x64, .f32⟩ : BufTy).Contents (Elt F) → (⟨S64x64, .f32⟩ : BufTy).Contents (Elt F)),  -- %15 = add %12, %14
    StableHlo.unary main_v15 main_v16 (Host.tanh : (⟨S64x64, .f32⟩ : BufTy).Contents (Elt F) → (⟨S64x64, .f32⟩ : BufTy).Contents (Elt F)),  -- %16 = tanh %15
    StableHlo.binary main_v16 main_arg6 main_v17 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),  -- %17 = dot_general %16, %arg6, contracting_dims = [1] x [0], precision = [DEFAULT, DEFAULT]
    StableHlo.nullary main_cst_3 (constant S_ .f32 0xFF800000#32),  -- %cst_3 = constant dense<0xFF800000>
    StableHlo.binary main_v17 main_cst_3 main_v18 ((fun x v => Host.reduce FloatOps.maximumf x v reducesTo_S64x1_S1_d0 h_S_) : (⟨S64x1, .f32⟩ : BufTy).Contents (Elt F) → (⟨S_, .f32⟩ : BufTy).Contents (Elt F) → (⟨S1, .f32⟩ : BufTy).Contents (Elt F)),  -- %18 = reduce(%17 init: %cst_3) applies maximum across dimensions = [0]
    StableHlo.nullary main_cst_4 (constant S_ .f32 0xFF800000#32),  -- %cst_4 = constant dense<0xFF800000>
    StableHlo.unary main_cst_4 main_v19 (broadcastInDim S1 ![] bcast_S_S1 : (⟨S_, .f32⟩ : BufTy).Contents (Elt F) → (⟨S1, .f32⟩ : BufTy).Contents (Elt F)),  -- %19 = broadcast_in_dim %cst_4, dims = []
    StableHlo.binary main_v19 main_v18 main_v20 (maximumf : (⟨S1, .f32⟩ : BufTy).Contents (Elt F) → (⟨S1, .f32⟩ : BufTy).Contents (Elt F) → (⟨S1, .f32⟩ : BufTy).Contents (Elt F)),  -- %20 = maximum %19, %18
    StableHlo.unary main_v20 main_v21 (broadcastInDim S1x1 ![1] bcast_S1_S1x1_1 : (⟨S1, .f32⟩ : BufTy).Contents (Elt F) → (⟨S1x1, .f32⟩ : BufTy).Contents (Elt F)),  -- %21 = broadcast_in_dim %20, dims = [1]
    StableHlo.unary main_v21 main_v22 (broadcastInDim S64x1 ![0, 1] bcast_S1x1_S64x1_0_1 : (⟨S1x1, .f32⟩ : BufTy).Contents (Elt F) → (⟨S64x1, .f32⟩ : BufTy).Contents (Elt F)),  -- %22 = broadcast_in_dim %21, dims = [0, 1]
    StableHlo.binary main_v17 main_v22 main_v23 (subf : (⟨S64x1, .f32⟩ : BufTy).Contents (Elt F) → (⟨S64x1, .f32⟩ : BufTy).Contents (Elt F) → (⟨S64x1, .f32⟩ : BufTy).Contents (Elt F)),  -- %23 = subtract %17, %22
    StableHlo.unary main_v23 main_v24 (Host.exp : (⟨S64x1, .f32⟩ : BufTy).Contents (Elt F) → (⟨S64x1, .f32⟩ : BufTy).Contents (Elt F)),  -- %24 = exponential %23
    StableHlo.nullary main_cst_5 (constant S_ .f32 0x00000000#32),  -- %cst_5 = constant dense<0.000000e+00>
    StableHlo.binary main_v24 main_cst_5 main_v25 ((fun x v => Host.reduceAdd x v reducesTo_S64x1_S1_d0 h_S_) : (⟨S64x1, .f32⟩ : BufTy).Contents (Elt F) → (⟨S_, .f32⟩ : BufTy).Contents (Elt F) → (⟨S1, .f32⟩ : BufTy).Contents (Elt F)),  -- %25 = reduce(%24 init: %cst_5) applies add across dimensions = [0]
    StableHlo.unary main_v25 main_v26 (broadcastInDim S1x1 ![1] bcast_S1_S1x1_1 : (⟨S1, .f32⟩ : BufTy).Contents (Elt F) → (⟨S1x1, .f32⟩ : BufTy).Contents (Elt F)),  -- %26 = broadcast_in_dim %25, dims = [1]
    StableHlo.unary main_v26 main_v27 (broadcastInDim S64x1 ![0, 1] bcast_S1x1_S64x1_0_1 : (⟨S1x1, .f32⟩ : BufTy).Contents (Elt F) → (⟨S64x1, .f32⟩ : BufTy).Contents (Elt F)),  -- %27 = broadcast_in_dim %26, dims = [0, 1]
    StableHlo.binary main_v24 main_v27 main_v28 (Host.divf : (⟨S64x1, .f32⟩ : BufTy).Contents (Elt F) → (⟨S64x1, .f32⟩ : BufTy).Contents (Elt F) → (⟨S64x1, .f32⟩ : BufTy).Contents (Elt F)),  -- %28 = divide %24, %27
    StableHlo.nullary main_c (constantI S_ 32 0#32),  -- %c = constant dense<0>
    StableHlo.unary main_c main_v29 (broadcastInDim S100000 ![] bcast_S_S100000 : (⟨S_, .i32⟩ : BufTy).Contents (Elt F) → (⟨S100000, .i32⟩ : BufTy).Contents (Elt F)),  -- %29 = broadcast_in_dim %c, dims = []
    StableHlo.binary main_arg2 main_v29 main_v30 (cmpi .slt : (⟨S100000, .i32⟩ : BufTy).Contents (Elt F) → (⟨S100000, .i32⟩ : BufTy).Contents (Elt F) → (⟨S100000, .i1⟩ : BufTy).Contents (Elt F)),  -- %30 = compare LT, %arg2, %29, SIGNED
    StableHlo.nullary main_c_6 (constantI S_ 32 64#32),  -- %c_6 = constant dense<64>
    StableHlo.unary main_c_6 main_v31 (broadcastInDim S100000 ![] bcast_S_S100000 : (⟨S_, .i32⟩ : BufTy).Contents (Elt F) → (⟨S100000, .i32⟩ : BufTy).Contents (Elt F)),  -- %31 = broadcast_in_dim %c_6, dims = []
    StableHlo.binary main_arg2 main_v31 main_v32 (addi : (⟨S100000, .i32⟩ : BufTy).Contents (Elt F) → (⟨S100000, .i32⟩ : BufTy).Contents (Elt F) → (⟨S100000, .i32⟩ : BufTy).Contents (Elt F)),  -- %32 = add %arg2, %31
    StableHlo.ternary main_v30 main_v32 main_arg2 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),  -- %33 = select %30, %32, %arg2
    StableHlo.unary main_v33 main_v34 (broadcastInDim S100000x1 ![0] bcast_S100000_S100000x1_0 : (⟨S100000, .i32⟩ : BufTy).Contents (Elt F) → (⟨S100000x1, .i32⟩ : BufTy).Contents (Elt F)),  -- %34 = broadcast_in_dim %33, dims = [0]
    StableHlo.binary main_v28 main_v34 main_v35 ((fun x i => Host.gather gather_S64x1_S100000x1_S100000x1_1_0_n_n_0_1_11 x i) : (⟨S64x1, .f32⟩ : BufTy).Contents (Elt F) → (⟨S100000x1, .i32⟩ : BufTy).Contents (Elt F) → (⟨S100000x1, .f32⟩ : BufTy).Contents (Elt F)),  -- %35 = "gather"(%28, %34)
    StableHlo.binary main_arg0 main_v35 main_v36 ((fun a b => concatenate S100000x129 1 [⟨S100000x128, a⟩, ⟨S100000x1, b⟩] concatenates_S100000x128_S100000x1_S100000x129_d1) : (⟨S100000x128, .f32⟩ : BufTy).Contents (Elt F) → (⟨S100000x1, .f32⟩ : BufTy).Contents (Elt F) → (⟨S100000x129, .f32⟩ : BufTy).Contents (Elt F)),  -- %36 = concatenate %arg0, %35, dim = 1
    StableHlo.unary main_arg1 main_v37 ((extractStridedSlice S1x1600000 ![0, 0] · slices_S2x1600000_S1x1600000_0_0) : (⟨S2x1600000, .i32⟩ : BufTy).Contents (Elt F) → (⟨S1x1600000, .i32⟩ : BufTy).Contents (Elt F)),  -- %37 = slice %arg1 [0:1, 0:1600000]
    StableHlo.reshape main_v37 main_v38 rfl shapeCasts_S1x1600000_S1600000,  -- %38 = reshape %37
    StableHlo.unary main_arg1 main_v39 ((extractStridedSlice S1x1600000 ![1, 0] · slices_S2x1600000_S1x1600000_1_0) : (⟨S2x1600000, .i32⟩ : BufTy).Contents (Elt F) → (⟨S1x1600000, .i32⟩ : BufTy).Contents (Elt F)),  -- %39 = slice %arg1 [1:2, 0:1600000]
    StableHlo.reshape main_v39 main_v40 rfl shapeCasts_S1x1600000_S1600000,  -- %40 = reshape %39
    StableHlo.nullary main_cst_7 (constant S_ .f32 0x3F800000#32),  -- %cst_7 = constant dense<1.000000e+00>
    StableHlo.unary main_cst_7 main_v41 (broadcastInDim S1600000 ![] bcast_S_S1600000 : (⟨S_, .f32⟩ : BufTy).Contents (Elt F) → (⟨S1600000, .f32⟩ : BufTy).Contents (Elt F)),  -- %41 = broadcast_in_dim %cst_7, dims = []
    StableHlo.nullary main_cst_8 (constant S_ .f32 0x00000000#32),  -- %cst_8 = constant dense<0.000000e+00>
    StableHlo.unary main_cst_8 main_v42 (broadcastInDim S100000 ![] bcast_S_S100000 : (⟨S_, .f32⟩ : BufTy).Contents (Elt F) → (⟨S100000, .f32⟩ : BufTy).Contents (Elt F)),  -- %42 = broadcast_in_dim %cst_8, dims = []
    StableHlo.unary main_v40 main_v43 (broadcastInDim S1600000x1 ![0] bcast_S1600000_S1600000x1_0 : (⟨S1600000, .i32⟩ : BufTy).Contents (Elt F) → (⟨S1600000x1, .i32⟩ : BufTy).Contents (Elt F)),  -- %43 = broadcast_in_dim %40, dims = [0]
    StableHlo.ternary main_v42 main_v43 main_v41 main_v44 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),  -- %44 = "scatter"(%42, %43, %41)
    StableHlo.nullary main_cst_9 (constant S_ .f32 0x3F800000#32),  -- %cst_9 = constant dense<1.000000e+00>
    StableHlo.unary main_cst_9 main_v45 (broadcastInDim S100000 ![] bcast_S_S100000 : (⟨S_, .f32⟩ : BufTy).Contents (Elt F) → (⟨S100000, .f32⟩ : BufTy).Contents (Elt F)),  -- %45 = broadcast_in_dim %cst_9, dims = []
    StableHlo.binary main_v44 main_v45 main_v46 (addf : (⟨S100000, .f32⟩ : BufTy).Contents (Elt F) → (⟨S100000, .f32⟩ : BufTy).Contents (Elt F) → (⟨S100000, .f32⟩ : BufTy).Contents (Elt F)),  -- %46 = add %44, %45
    StableHlo.unary main_v46 main_v47 (Host.rsqrt : (⟨S100000, .f32⟩ : BufTy).Contents (Elt F) → (⟨S100000, .f32⟩ : BufTy).Contents (Elt F)) ]  -- %47 = rsqrt %46

end Cert.ReferenceIdeal.RefRun

end
-- ==== Proof.RefWin1.lean ====
/- The reference program's operations as its windows print them, window 1: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 1, piece 0: 60 operations. -/
abbrev win1_0 : List (HloOp τ sig (Elt F)) :=
  [ StableHlo.binary main_v36 main_arg7 main_v48 ((fun l r => Host.dotGeneral dot_S100000x129_S129x128_S100000x128_1_0_0_1_n_n none l r) : (⟨S100000x129, .f32⟩ : BufTy).Contents (Elt F) → (⟨S129x128, .f32⟩ : BufTy).Contents (Elt F) → (⟨S100000x128, .f32⟩ : BufTy).Contents (Elt F)),  -- %48 = dot_general %36, %arg7, contracting_dims = [1] x [0], precision = [DEFAULT, DEFAULT]
    StableHlo.nullary main_c_10 (constantI S_ 32 0#32),  -- %c_10 = constant dense<0>
    StableHlo.unary main_c_10 main_v49 (broadcastInDim S1600000 ![] bcast_S_S1600000 : (⟨S_, .i32⟩ : BufTy).Contents (Elt F) → (⟨S1600000, .i32⟩ : BufTy).Contents (Elt F)),  -- %49 = broadcast_in_dim %c_10, dims = []
    StableHlo.binary main_v38 main_v49 main_v50 (cmpi .slt : (⟨S1600000, .i32⟩ : BufTy).Contents (Elt F) → (⟨S1600000, .i32⟩ : BufTy).Contents (Elt F) → (⟨S1600000, .i1⟩ : BufTy).Contents (Elt F)),  -- %50 = compare LT, %38, %49, SIGNED
    StableHlo.nullary main_c_11 (constantI S_ 32 100000#32),  -- %c_11 = constant dense<100000>
    StableHlo.unary main_c_11 main_v51 (broadcastInDim S1600000 ![] bcast_S_S1600000 : (⟨S_, .i32⟩ : BufTy).Contents (Elt F) → (⟨S1600000, .i32⟩ : BufTy).Contents (Elt F)),  -- %51 = broadcast_in_dim %c_11, dims = []
    StableHlo.binary main_v38 main_v51 main_v52 (addi : (⟨S1600000, .i32⟩ : BufTy).Contents (Elt F) → (⟨S1600000, .i32⟩ : BufTy).Contents (Elt F) → (⟨S1600000, .i32⟩ : BufTy).Contents (Elt F)),  -- %52 = add %38, %51
    StableHlo.ternary main_v50 main_v52 main_v38 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %53 = select %50, %52, %38
    StableHlo.unary main_v53 main_v54 (broadcastInDim S1600000x1 ![0] bcast_S1600000_S1600000x1_0 : (⟨S1600000, .i32⟩ : BufTy).Contents (Elt F) → (⟨S1600000x1, .i32⟩ : BufTy).Contents (Elt F)),  -- %54 = broadcast_in_dim %53, dims = [0]
    StableHlo.binary main_v47 main_v54 main_v55 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %55 = "gather"(%47, %54)
    StableHlo.nullary main_c_12 (constantI S_ 32 0#32),  -- %c_12 = constant dense<0>
    StableHlo.unary main_c_12 main_v56 (broadcastInDim S1600000 ![] bcast_S_S1600000 : (⟨S_, .i32⟩ : BufTy).Contents (Elt F) → (⟨S1600000, .i32⟩ : BufTy).Contents (Elt F)),  -- %56 = broadcast_in_dim %c_12, dims = []
    StableHlo.binary main_v40 main_v56 main_v57 (cmpi .slt : (⟨S1600000, .i32⟩ : BufTy).Contents (Elt F) → (⟨S1600000, .i32⟩ : BufTy).Contents (Elt F) → (⟨S1600000, .i1⟩ : BufTy).Contents (Elt F)),  -- %57 = compare LT, %40, %56, SIGNED
    StableHlo.nullary main_c_13 (constantI S_ 32 100000#32),  -- %c_13 = constant dense<100000>
    StableHlo.unary main_c_13 main_v58 (broadcastInDim S1600000 ![] bcast_S_S1600000 : (⟨S_, .i32⟩ : BufTy).Contents (Elt F) → (⟨S1600000, .i32⟩ : BufTy).Contents (Elt F)),  -- %58 = broadcast_in_dim %c_13, dims = []
    StableHlo.binary main_v40 main_v58 main_v59 (addi : (⟨S1600000, .i32⟩ : BufTy).Contents (Elt F) → (⟨S1600000, .i32⟩ : BufTy).Contents (Elt F) → (⟨S1600000, .i32⟩ : BufTy).Contents (Elt F)),  -- %59 = add %40, %58
    StableHlo.ternary main_v57 main_v59 main_v40 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %60 = select %57, %59, %40
    StableHlo.unary main_v60 main_v61 (broadcastInDim S1600000x1 ![0] bcast_S1600000_S1600000x1_0 : (⟨S1600000, .i32⟩ : BufTy).Contents (Elt F) → (⟨S1600000x1, .i32⟩ : BufTy).Contents (Elt F)),  -- %61 = broadcast_in_dim %60, dims = [0]
    StableHlo.binary main_v47 main_v61 main_v62 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %62 = "gather"(%47, %61)
    StableHlo.binary main_v55 main_v62 main_v63 (mulf : (⟨S1600000, .f32⟩ : BufTy).Contents (Elt F) → (⟨S1600000, .f32⟩ : BufTy).Contents (Elt F) → (⟨S1600000, .f32⟩ : BufTy).Contents (Elt F)),  -- %63 = multiply %55, %62
    StableHlo.nullary main_c_14 (constantI S_ 32 0#32),  -- %c_14 = constant dense<0>
    StableHlo.unary main_c_14 main_v64 (broadcastInDim S1600000 ![] bcast_S_S1600000 : (⟨S_, .i32⟩ : BufTy).Contents (Elt F) → (⟨S1600000, .i32⟩ : BufTy).Contents (Elt F)),  -- %64 = broadcast_in_dim %c_14, dims = []
    StableHlo.binary main_v38 main_v64 main_v65 (cmpi .slt : (⟨S1600000, .i32⟩ : BufTy).Contents (Elt F) → (⟨S1600000, .i32⟩ : BufTy).Contents (Elt F) → (⟨S1600000, .i1⟩ : BufTy).Contents (Elt F)),  -- %65 = compare LT, %38, %64, SIGNED
    StableHlo.nullary main_c_15 (constantI S_ 32 100000#32),  -- %c_15 = constant dense<100000>
    StableHlo.unary main_c_15 main_v66 (broadcastInDim S1600000 ![] bcast_S_S1600000 : (⟨S_, .i32⟩ : BufTy).Contents (Elt F) → (⟨S1600000, .i32⟩ : BufTy).Contents (Elt F)),  -- %66 = broadcast_in_dim %c_15, dims = []
    StableHlo.binary main_v38 main_v66 main_v67 (addi : (⟨S1600000, .i32⟩ : BufTy).Contents (Elt F) → (⟨S1600000, .i32⟩ : BufTy).Contents (Elt F) → (⟨S1600000, .i32⟩ : BufTy).Contents (Elt F)),  -- %67 = add %38, %66
    StableHlo.ternary main_v65 main_v67 main_v38 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %68 = select %65, %67, %38
    StableHlo.unary main_v68 main_v69 (broadcastInDim S1600000x1 ![0] bcast_S1600000_S1600000x1_0 : (⟨S1600000, .i32⟩ : BufTy).Contents (Elt F) → (⟨S1600000x1, .i32⟩ : BufTy).Contents (Elt F)),  -- %69 = broadcast_in_dim %68, dims = [0]
    StableHlo.binary main_v48 main_v69 main_v70 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %70 = "gather"(%48, %69)
    StableHlo.unary main_v63 main_v71 (broadcastInDim S1600000x1 ![0] bcast_S1600000_S1600000x1_0 : (⟨S1600000, .f32⟩ : BufTy).Contents (Elt F) → (⟨S1600000x1, .f32⟩ : BufTy).Contents (Elt F)),  -- %71 = broadcast_in_dim %63, dims = [0]
    StableHlo.unary main_v71 main_v72 (broadcastInDim S1600000x128 ![0, 1] bcast_S1600000x1_S1600000x128_0_1 : (⟨S1600000x1, .f32⟩ : BufTy).Contents (Elt F) → (⟨S1600000x128, .f32⟩ : BufTy).Contents (Elt F)),  -- %72 = broadcast_in_dim %71, dims = [0, 1]
    StableHlo.binary main_v70 main_v72 main_v73 (mulf : (⟨S1600000x128, .f32⟩ : BufTy).Contents (Elt F) → (⟨S1600000x128, .f32⟩ : BufTy).Contents (Elt F) → (⟨S1600000x128, .f32⟩ : BufTy).Contents (Elt F)),  -- %73 = multiply %70, %72
    StableHlo.nullary main_cst_16 (constant S_ .f32 0x00000000#32),  -- %cst_16 = constant dense<0.000000e+00>
    StableHlo.unary main_cst_16 main_v74 (broadcastInDim S100000x128 ![] bcast_S_S100000x128 : (⟨S_, .f32⟩ : BufTy).Contents (Elt F) → (⟨S100000x128, .f32⟩ : BufTy).Contents (Elt F)),  -- %74 = broadcast_in_dim %cst_16, dims = []
    StableHlo.unary main_v40 main_v75 (broadcastInDim S1600000x1 ![0] bcast_S1600000_S1600000x1_0 : (⟨S1600000, .i32⟩ : BufTy).Contents (Elt F) → (⟨S1600000x1, .i32⟩ : BufTy).Contents (Elt F)),  -- %75 = broadcast_in_dim %40, dims = [0]
    StableHlo.ternary main_v74 main_v75 main_v73 main_v76 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),  -- %76 = "scatter"(%74, %75, %73)
    StableHlo.binary main_v47 main_v47 main_v77 (mulf : (⟨S100000, .f32⟩ : BufTy).Contents (Elt F) → (⟨S100000, .f32⟩ : BufTy).Contents (Elt F) → (⟨S100000, .f32⟩ : BufTy).Contents (Elt F)),  -- %77 = multiply %47, %47
    StableHlo.unary main_v77 main_v78 (broadcastInDim S100000x1 ![0] bcast_S100000_S100000x1_0 : (⟨S100000, .f32⟩ : BufTy).Contents (Elt F) → (⟨S100000x1, .f32⟩ : BufTy).Contents (Elt F)),  -- %78 = broadcast_in_dim %77, dims = [0]
    StableHlo.unary main_v78 main_v79 (broadcastInDim S100000x128 ![0, 1] bcast_S100000x1_S100000x128_0_1 : (⟨S100000x1, .f32⟩ : BufTy).Contents (Elt F) → (⟨S100000x128, .f32⟩ : BufTy).Contents (Elt F)),  -- %79 = broadcast_in_dim %78, dims = [0, 1]
    StableHlo.binary main_v48 main_v79 main_v80 (mulf : (⟨S100000x128, .f32⟩ : BufTy).Contents (Elt F) → (⟨S100000x128, .f32⟩ : BufTy).Contents (Elt F) → (⟨S100000x128, .f32⟩ : BufTy).Contents (Elt F)),  -- %80 = multiply %48, %79
    StableHlo.binary main_v76 main_v80 main_v81 (addf : (⟨S100000x128, .f32⟩ : BufTy).Contents (Elt F) → (⟨S100000x128, .f32⟩ : BufTy).Contents (Elt F) → (⟨S100000x128, .f32⟩ : BufTy).Contents (Elt F)),  -- %81 = add %76, %80
    StableHlo.unary main_arg8 main_v82 (broadcastInDim S1x128 ![1] bcast_S128_S1x128_1 : (⟨S128, .f32⟩ : BufTy).Contents (Elt F) → (⟨S1x128, .f32⟩ : BufTy).Contents (Elt F)),  -- %82 = broadcast_in_dim %arg8, dims = [1]
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),  -- %83 = broadcast_in_dim %82, dims = [0, 1]
    StableHlo.binary main_v81 main_v83 main_v84 (addf : (⟨S100000x128, .f32⟩ : BufTy).Contents (Elt F) → (⟨S100000x128, .f32⟩ : BufTy).Contents (Elt F) → (⟨S100000x128, .f32⟩ : BufTy).Contents (Elt F)),  -- %84 = add %81, %83
    StableHlo.unary main_arg17 main_v85 ((extractStridedSlice S1x128 ![0, 0] · slices_S4x128_S1x128_0_0) : (⟨S4x128, .f32⟩ : BufTy).Contents (Elt F) → (⟨S1x128, .f32⟩ : BufTy).Contents (Elt F)),  -- %85 = slice %arg17 [0:1, 0:128]
    StableHlo.reshape main_v85 main_v86 rfl shapeCasts_S1x128_S128,  -- %86 = reshape %85
    StableHlo.unary main_v86 main_v87 (broadcastInDim S1x128 ![1] bcast_S128_S1x128_1 : (⟨S128, .f32⟩ : BufTy).Contents (Elt F) → (⟨S1x128, .f32⟩ : BufTy).Contents (Elt F)),  -- %87 = broadcast_in_dim %86, dims = [1]
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),  -- %88 = broadcast_in_dim %87, dims = [0, 1]
    StableHlo.binary main_v84 main_v88 main_v89 (subf : (⟨S100000x128, .f32⟩ : BufTy).Contents (Elt F) → (⟨S100000x128, .f32⟩ : BufTy).Contents (Elt F) → (⟨S100000x128, .f32⟩ : BufTy).Contents (Elt F)),  -- %89 = subtract %84, %88
    StableHlo.unary main_arg18 main_v90 ((extractStridedSlice S1x128 ![0, 0] · slices_S4x128_S1x128_0_0) : (⟨S4x128, .f32⟩ : BufTy).Contents (Elt F) → (⟨S1x128, .f32⟩ : BufTy).Contents (Elt F)),  -- %90 = slice %arg18 [0:1, 0:128]
    StableHlo.reshape main_v90 main_v91 rfl shapeCasts_S1x128_S128,  -- %91 = reshape %90
    StableHlo.nullary main_cst_17 (constant S_ .f32 0x3727C5AC#32),  -- %cst_17 = constant dense<9.99999974E-6>
    StableHlo.unary main_cst_17 main_v92 (broadcastInDim S128 ![] bcast_S_S128 : (⟨S_, .f32⟩ : BufTy).Contents (Elt F) → (⟨S128, .f32⟩ : BufTy).Contents (Elt F)),  -- %92 = broadcast_in_dim %cst_17, dims = []
    StableHlo.binary main_v91 main_v92 main_v93 (addf : (⟨S128, .f32⟩ : BufTy).Contents (Elt F) → (⟨S128, .f32⟩ : BufTy).Contents (Elt F) → (⟨S128, .f32⟩ : BufTy).Contents (Elt F)),  -- %93 = add %91, %92
    StableHlo.unary main_v93 main_v94 (Host.rsqrt : (⟨S128, .f32⟩ : BufTy).Contents (Elt F) → (⟨S128, .f32⟩ : BufTy).Contents (Elt F)),  -- %94 = rsqrt %93
    StableHlo.unary main_v94 main_v95 (broadcastInDim S1x128 ![1] bcast_S128_S1x128_1 : (⟨S128, .f32⟩ : BufTy).Contents (Elt F) → (⟨S1x128, .f32⟩ : BufTy).Contents (Elt F)),  -- %95 = broadcast_in_dim %94, dims = [1]
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),  -- %96 = broadcast_in_dim %95, dims = [0, 1]
    StableHlo.binary main_v89 main_v96 main_v97 (mulf : (⟨S100000x128, .f32⟩ : BufTy).Contents (Elt F) → (⟨S100000x128, .f32⟩ : BufTy).Contents (Elt F) → (⟨S100000x128, .f32⟩ : BufTy).Contents (Elt F)),  -- %97 = multiply %89, %96
    StableHlo.unary main_arg15 main_v98 ((extractStridedSlice S1x128 ![0, 0] · slices_S4x128_S1x128_0_0) : (⟨S4x128, .f32⟩ : BufTy).Contents (Elt F) → (⟨S1x128, .f32⟩ : BufTy).Contents (Elt F)),  -- %98 = slice %arg15 [0:1, 0:128]
    StableHlo.reshape main_v98 main_v99 rfl shapeCasts_S1x128_S128 ]  -- %99 = reshape %98

end Cert.ReferenceIdeal.RefRun

end
-- ==== Proof.RefWin2.lean ====
/- The reference program's operations as its windows print them, window 2: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 2, piece 0: 8 operations. -/
abbrev win2_0 : List (HloOp τ sig (Elt F)) :=
  [ StableHlo.unary main_v99 main_v100 (broadcastInDim S1x128 ![1] bcast_S128_S1x128_1 : (⟨S128, .f32⟩ : BufTy).Contents (Elt F) → (⟨S1x128, .f32⟩ : BufTy).Contents (Elt F)),  -- %100 = broadcast_in_dim %99, dims = [1]
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),  -- %101 = broadcast_in_dim %100, dims = [0, 1]
    StableHlo.binary main_v97 main_v101 main_v102 (mulf : (⟨S100000x128, .f32⟩ : BufTy).Contents (Elt F) → (⟨S100000x128, .f32⟩ : BufTy).Contents (Elt F) → (⟨S100000x128, .f32⟩ : BufTy).Contents (Elt F)),  -- %102 = multiply %97, %101
    StableHlo.unary main_arg16 main_v103 ((extractStridedSlice S1x128 ![0, 0] · slices_S4x128_S1x128_0_0) : (⟨S4x128, .f32⟩ : BufTy).Contents (Elt F) → (⟨S1x128, .f32⟩ : BufTy).Contents (Elt F)),  -- %103 = slice %arg16 [0:1, 0:128]
    StableHlo.reshape main_v103 main_v104 rfl shapeCasts_S1x128_S128,  -- %104 = reshape %103
    StableHlo.unary main_v104 main_v105 (broadcastInDim S1x128 ![1] bcast_S128_S1x128_1 : (⟨S128, .f32⟩ : BufTy).Contents (Elt F) → (⟨S1x128, .f32⟩ : BufTy).Contents (Elt F)),  -- %105 = broadcast_in_dim %104, dims = [1]
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),  -- %106 = broadcast_in_dim %105, dims = [0, 1]
    StableHlo.binary main_v102 main_v106 main_v107 (addf : (⟨S100000x128, .f32⟩ : BufTy).Contents (Elt F) → (⟨S100000x128, .f32⟩ : BufTy).Contents (Elt F) → (⟨S100000x128, .f32⟩ : BufTy).Contents (Elt F)) ]  -- %107 = add %102, %106

set_option maxHeartbeats 40000000 in
/-- Window 2, piece 1 (the operations of call 0): 15 operations. -/
abbrev win2_1 : List (HloOp τ sig (Elt F)) :=
  [ StableHlo.TRef.nullary (.of main_call0_cst : StableHlo.TRef sig ⟨S_, .f32⟩) (constant S_ .f32 0x00000000#32),  -- %108 = func.call @elu(%107) > %cst = constant dense<0.000000e+00>
    StableHlo.TRef.unary (.of main_call0_cst : StableHlo.TRef sig ⟨S_, .f32⟩) (.of main_call0_v0 : StableHlo.TRef sig ⟨S100000x128, .f32⟩) (broadcastInDim S100000x128 ![] bcast_S_S100000x128),  -- %108 = func.call @elu(%107) > %0 = broadcast_in_dim %cst, dims = []
    StableHlo.TRef.binary (.of main_v107 : StableHlo.TRef sig ⟨S100000x128, .f32⟩) (.of main_call0_v0 : StableHlo.TRef sig ⟨S100000x128, .f32⟩) (.of main_call0_v1 : StableHlo.TRef sig ⟨S100000x128, .i1⟩) (cmpf .ogt),  -- %108 = func.call @elu(%107) > %1 = compare GT, %arg0, %0, FLOAT
    StableHlo.TRef.nullary (.of main_call0_cst_0 : StableHlo.TRef sig ⟨S_, .f32⟩) (constant S_ .f32 0x00000000#32),  -- %108 = func.call @elu(%107) > %cst_0 = constant dense<0.000000e+00>
    StableHlo.TRef.unary (.of main_call0_cst_0 : StableHlo.TRef sig ⟨S_, .f32⟩) (.of main_call0_v2 : StableHlo.TRef sig ⟨S100000x128, .f32⟩) (broadcastInDim S100000x128 ![] bcast_S_S100000x128),  -- %108 = func.call @elu(%107) > %2 = broadcast_in_dim %cst_0, dims = []
    StableHlo.TRef.binary (.of main_v107 : StableHlo.TRef sig ⟨S100000x128, .f32⟩) (.of main_call0_v2 : StableHlo.TRef sig ⟨S100000x128, .f32⟩) (.of main_call0_v3 : StableHlo.TRef sig ⟨S100000x128, .i1⟩) (cmpf .ogt),  -- %108 = func.call @elu(%107) > %3 = compare GT, %arg0, %2, FLOAT
    StableHlo.TRef.nullary (.of main_call0_cst_1 : StableHlo.TRef sig ⟨S_, .f32⟩) (constant S_ .f32 0x00000000#32),  -- %108 = func.call @elu(%107) > %cst_1 = constant dense<0.000000e+00>
    StableHlo.TRef.unary (.of main_call0_cst_1 : StableHlo.TRef sig ⟨S_, .f32⟩) (.of main_call0_call0_v0 : StableHlo.TRef sig ⟨S_, .f32⟩) id,  -- %108 = func.call @elu(%107) > %4 = func.call @_where(%3, %cst_1, %arg0) > %0 = convert %arg1
    StableHlo.TRef.unary (.of main_call0_call0_v0 : StableHlo.TRef sig ⟨S_, .f32⟩) (.of main_call0_call0_v1 : StableHlo.TRef sig ⟨S100000x128, .f32⟩) (broadcastInDim S100000x128 ![] bcast_S_S100000x128),  -- %108 = func.call @elu(%107) > %4 = func.call @_where(%3, %cst_1, %arg0) > %1 = broadcast_in_dim %0, dims = []
    StableHlo.TRef.ternary (.of main_call0_v3 : StableHlo.TRef sig ⟨S100000x128, .i1⟩) (.of main_call0_call0_v1 : StableHlo.TRef sig ⟨S100000x128, .f32⟩) (.of main_v107 : StableHlo.TRef sig ⟨S100000x128, .f32⟩) (.of main_call0_v4 : StableHlo.TRef sig ⟨S100000x128, .f32⟩) select,  -- %108 = func.call @elu(%107) > %4 = func.call @_where(%3, %cst_1, %arg0) > %2 = select %arg0, %1, %arg2
    StableHlo.TRef.unary (.of main_call0_v4 : StableHlo.TRef sig ⟨S100000x128, .f32⟩) (.of main_call0_v5 : StableHlo.TRef sig ⟨S100000x128, .f32⟩) Host.expm1,  -- %108 = func.call @elu(%107) > %5 = exponential_minus_one %4
    StableHlo.TRef.nullary (.of main_call0_cst_2 : StableHlo.TRef sig ⟨S_, .f32⟩) (constant S_ .f32 0x3F800000#32),  -- %108 = func.call @elu(%107) > %cst_2 = constant dense<1.000000e+00>
    StableHlo.TRef.unary (.of main_call0_cst_2 : StableHlo.TRef sig ⟨S_, .f32⟩) (.of main_call0_v6 : StableHlo.TRef sig ⟨S100000x128, .f32⟩) (broadcastInDim S100000x128 ![] bcast_S_S100000x128),  -- %108 = func.call @elu(%107) > %6 = broadcast_in_dim %cst_2, dims = []
    StableHlo.TRef.binary (.of main_call0_v6 : StableHlo.TRef sig ⟨S100000x128, .f32⟩) (.of main_call0_v5 : StableHlo.TRef sig ⟨S100000x128, .f32⟩) (.of main_call0_v7 : StableHlo.TRef sig ⟨S100000x128, .f32⟩) mulf,  -- %108 = func.call @elu(%107) > %7 = multiply %6, %5
    StableHlo.TRef.ternary (.of main_call0_v1 : StableHlo.TRef sig ⟨S100000x128, .i1⟩) (.of main_v107 : StableHlo.TRef sig ⟨S100000x128, .f32⟩) (.of main_call0_v7 : StableHlo.TRef sig ⟨S100000x128, .f32⟩) (.of main_v108 : StableHlo.TRef sig ⟨S100000x128, .f32⟩) select ]  -- %108 = func.call @elu(%107) > %8 = func.call @_where_0(%1, %arg0, %7) > %0 = select %arg0, %arg1, %arg2

set_option maxHeartbeats 40000000 in
/-- Window 2, piece 2: 51 operations. -/
abbrev win2_2 : List (HloOp τ sig (Elt F)) :=
  [ StableHlo.binary main_v108 main_arg9 main_v109 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %109 = dot_general %108, %arg9, contracting_dims = [1] x [0], precision = [DEFAULT, DEFAUL
    StableHlo.nullary main_c_18 (constantI S_ 32 0#32),  -- %c_18 = constant dense<0>
    StableHlo.unary main_c_18 main_v110 (broadcastInDim S1600000 ![] bcast_S_S1600000 : (⟨S_, .i32⟩ : BufTy).Contents (Elt F) → (⟨S1600000, .i32⟩ : BufTy).Contents (Elt F)),  -- %110 = broadcast_in_dim %c_18, dims = []
    StableHlo.binary main_v38 main_v110 main_v111 (cmpi .slt : (⟨S1600000, .i32⟩ : BufTy).Contents (Elt F) → (⟨S1600000, .i32⟩ : BufTy).Contents (Elt F) → (⟨S1600000, .i1⟩ : BufTy).Contents (Elt F)),  -- %111 = compare LT, %38, %110, SIGNED
    StableHlo.nullary main_c_19 (constantI S_ 32 100000#32),  -- %c_19 = constant dense<100000>
    StableHlo.unary main_c_19 main_v112 (broadcastInDim S1600000 ![] bcast_S_S1600000 : (⟨S_, .i32⟩ : BufTy).Contents (Elt F) → (⟨S1600000, .i32⟩ : BufTy).Contents (Elt F)),  -- %112 = broadcast_in_dim %c_19, dims = []
    StableHlo.binary main_v38 main_v112 main_v113 (addi : (⟨S1600000, .i32⟩ : BufTy).Contents (Elt F) → (⟨S1600000, .i32⟩ : BufTy).Contents (Elt F) → (⟨S1600000, .i32⟩ : BufTy).Contents (Elt F)),  -- %113 = add %38, %112
    StableHlo.ternary main_v111 main_v113 main_v38 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %114 = select %111, %113, %38
    StableHlo.unary main_v114 main_v115 (broadcastInDim S1600000x1 ![0] bcast_S1600000_S1600000x1_0 : (⟨S1600000, .i32⟩ : BufTy).Contents (Elt F) → (⟨S1600000x1, .i32⟩ : BufTy).Contents (Elt F)),  -- %115 = broadcast_in_dim %114, dims = [0]
    StableHlo.binary main_v47 main_v115 main_v116 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %116 = "gather"(%47, %115)
    StableHlo.nullary main_c_20 (constantI S_ 32 0#32),  -- %c_20 = constant dense<0>
    StableHlo.unary main_c_20 main_v117 (broadcastInDim S1600000 ![] bcast_S_S1600000 : (⟨S_, .i32⟩ : BufTy).Contents (Elt F) → (⟨S1600000, .i32⟩ : BufTy).Contents (Elt F)),  -- %117 = broadcast_in_dim %c_20, dims = []
    StableHlo.binary main_v40 main_v117 main_v118 (cmpi .slt : (⟨S1600000, .i32⟩ : BufTy).Contents (Elt F) → (⟨S1600000, .i32⟩ : BufTy).Contents (Elt F) → (⟨S1600000, .i1⟩ : BufTy).Contents (Elt F)),  -- %118 = compare LT, %40, %117, SIGNED
    StableHlo.nullary main_c_21 (constantI S_ 32 100000#32),  -- %c_21 = constant dense<100000>
    StableHlo.unary main_c_21 main_v119 (broadcastInDim S1600000 ![] bcast_S_S1600000 : (⟨S_, .i32⟩ : BufTy).Contents (Elt F) → (⟨S1600000, .i32⟩ : BufTy).Contents (Elt F)),  -- %119 = broadcast_in_dim %c_21, dims = []
    StableHlo.binary main_v40 main_v119 main_v120 (addi : (⟨S1600000, .i32⟩ : BufTy).Contents (Elt F) → (⟨S1600000, .i32⟩ : BufTy).Contents (Elt F) → (⟨S1600000, .i32⟩ : BufTy).Contents (Elt F)),  -- %120 = add %40, %119
    StableHlo.ternary main_v118 main_v120 main_v40 main_v121 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %121 = select %118, %120, %40
    StableHlo.unary main_v121 main_v122 (broadcastInDim S1600000x1 ![0] bcast_S1600000_S1600000x1_0 : (⟨S1600000, .i32⟩ : BufTy).Contents (Elt F) → (⟨S1600000x1, .i32⟩ : BufTy).Contents (Elt F)),  -- %122 = broadcast_in_dim %121, dims = [0]
    StableHlo.binary main_v47 main_v122 main_v123 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %123 = "gather"(%47, %122)
    StableHlo.binary main_v116 main_v123 main_v124 (mulf : (⟨S1600000, .f32⟩ : BufTy).Contents (Elt F) → (⟨S1600000, .f32⟩ : BufTy).Contents (Elt F) → (⟨S1600000, .f32⟩ : BufTy).Contents (Elt F)),  -- %124 = multiply %116, %123
    StableHlo.nullary main_c_22 (constantI S_ 32 0#32),  -- %c_22 = constant dense<0>
    StableHlo.unary main_c_22 main_v125 (broadcastInDim S1600000 ![] bcast_S_S1600000 : (⟨S_, .i32⟩ : BufTy).Contents (Elt F) → (⟨S1600000, .i32⟩ : BufTy).Contents (Elt F)),  -- %125 = broadcast_in_dim %c_22, dims = []
    StableHlo.binary main_v38 main_v125 main_v126 (cmpi .slt : (⟨S1600000, .i32⟩ : BufTy).Contents (Elt F) → (⟨S1600000, .i32⟩ : BufTy).Contents (Elt F) → (⟨S1600000, .i1⟩ : BufTy).Contents (Elt F)),  -- %126 = compare LT, %38, %125, SIGNED
    StableHlo.nullary main_c_23 (constantI S_ 32 100000#32),  -- %c_23 = constant dense<100000>
    StableHlo.unary main_c_23 main_v127 (broadcastInDim S1600000 ![] bcast_S_S1600000 : (⟨S_, .i32⟩ : BufTy).Contents (Elt F) → (⟨S1600000, .i32⟩ : BufTy).Contents (Elt F)),  -- %127 = broadcast_in_dim %c_23, dims = []
    StableHlo.binary main_v38 main_v127 main_v128 (addi : (⟨S1600000, .i32⟩ : BufTy).Contents (Elt F) → (⟨S1600000, .i32⟩ : BufTy).Contents (Elt F) → (⟨S1600000, .i32⟩ : BufTy).Contents (Elt F)),  -- %128 = add %38, %127
    StableHlo.ternary main_v126 main_v128 main_v38 main_v129 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %129 = select %126, %128, %38
    StableHlo.unary main_v129 main_v130 (broadcastInDim S1600000x1 ![0] bcast_S1600000_S1600000x1_0 : (⟨S1600000, .i32⟩ : BufTy).Contents (Elt F) → (⟨S1600000x1, .i32⟩ : BufTy).Contents (Elt F)),  -- %130 = broadcast_in_dim %129, dims = [0]
    StableHlo.binary main_v109 main_v130 main_v131 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %131 = "gather"(%109, %130)
    StableHlo.unary main_v124 main_v132 (broadcastInDim S1600000x1 ![0] bcast_S1600000_S1600000x1_0 : (⟨S1600000, .f32⟩ : BufTy).Contents (Elt F) → (⟨S1600000x1, .f32⟩ : BufTy).Contents (Elt F)),  -- %132 = broadcast_in_dim %124, dims = [0]
    StableHlo.unary main_v132 main_v133 (broadcastInDim S1600000x128 ![0, 1] bcast_S1600000x1_S1600000x128_0_1 : (⟨S1600000x1, .f32⟩ : BufTy).Contents (Elt F) → (⟨S1600000x128, .f32⟩ : BufTy).Contents (Elt F)),  -- %133 = broadcast_in_dim %132, dims = [0, 1]
    StableHlo.binary main_v131 main_v133 main_v134 (mulf : (⟨S1600000x128, .f32⟩ : BufTy).Contents (Elt F) → (⟨S1600000x128, .f32⟩ : BufTy).Contents (Elt F) → (⟨S1600000x128, .f32⟩ : BufTy).Contents (Elt F)),  -- %134 = multiply %131, %133
    StableHlo.nullary main_cst_24 (constant S_ .f32 0x00000000#32),  -- %cst_24 = constant dense<0.000000e+00>
    StableHlo.unary main_cst_24 main_v135 (broadcastInDim S100000x128 ![] bcast_S_S100000x128 : (⟨S_, .f32⟩ : BufTy).Contents (Elt F) → (⟨S100000x128, .f32⟩ : BufTy).Contents (Elt F)),  -- %135 = broadcast_in_dim %cst_24, dims = []
    StableHlo.unary main_v40 main_v136 (broadcastInDim S1600000x1 ![0] bcast_S1600000_S1600000x1_0 : (⟨S1600000, .i32⟩ : BufTy).Contents (Elt F) → (⟨S1600000x1, .i32⟩ : BufTy).Contents (Elt F)),  -- %136 = broadcast_in_dim %40, dims = [0]
    StableHlo.ternary main_v135 main_v136 main_v134 main_v137 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),  -- %137 = "scatter"(%135, %136, %134)
    StableHlo.binary main_v47 main_v47 main_v138 (mulf : (⟨S100000, .f32⟩ : BufTy).Contents (Elt F) → (⟨S100000, .f32⟩ : BufTy).Contents (Elt F) → (⟨S100000, .f32⟩ : BufTy).Contents (Elt F)),  -- %138 = multiply %47, %47
    StableHlo.unary main_v138 main_v139 (broadcastInDim S100000x1 ![0] bcast_S100000_S100000x1_0 : (⟨S100000, .f32⟩ : BufTy).Contents (Elt F) → (⟨S100000x1, .f32⟩ : BufTy).Contents (Elt F)),  -- %139 = broadcast_in_dim %138, dims = [0]
    StableHlo.unary main_v139 main_v140 (broadcastInDim S100000x128 ![0, 1] bcast_S100000x1_S100000x128_0_1 : (⟨S100000x1, .f32⟩ : BufTy).Contents (Elt F) → (⟨S100000x128, .f32⟩ : BufTy).Contents (Elt F)),  -- %140 = broadcast_in_dim %139, dims = [0, 1]
    StableHlo.binary main_v109 main_v140 main_v141 (mulf : (⟨S100000x128, .f32⟩ : BufTy).Contents (Elt F) → (⟨S100000x128, .f32⟩ : BufTy).Contents (Elt F) → (⟨S100000x128, .f32⟩ : BufTy).Contents (Elt F)),  -- %141 = multiply %109, %140
    StableHlo.binary main_v137 main_v141 main_v142 (addf : (⟨S100000x128, .f32⟩ : BufTy).Contents (Elt F) → (⟨S100000x128, .f32⟩ : BufTy).Contents (Elt F) → (⟨S100000x128, .f32⟩ : BufTy).Contents (Elt F)),  -- %142 = add %137, %141
    StableHlo.unary main_arg10 main_v143 (broadcastInDim S1x128 ![1] bcast_S128_S1x128_1 : (⟨S128, .f32⟩ : BufTy).Contents (Elt F) → (⟨S1x128, .f32⟩ : BufTy).Contents (Elt F)),  -- %143 = broadcast_in_dim %arg10, dims = [1]
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),  -- %144 = broadcast_in_dim %143, dims = [0, 1]
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)),  -- %145 = add %142, %144
    StableHlo.unary main_arg17 main_v146 ((extractStridedSlice S1x128 ![1, 0] · slices_S4x128_S1x128_1_0) : (⟨S4x128, .f32⟩ : BufTy).Contents (Elt F) → (⟨S1x128, .f32⟩ : BufTy).Contents (Elt F)),  -- %146 = slice %arg17 [1:2, 0:128]
    StableHlo.reshape main_v146 main_v147 rfl shapeCasts_S1x128_S128,  -- %147 = reshape %146
    StableHlo.unary main_v147 main_v148 (broadcastInDim S1x128 ![1] bcast_S128_S1x128_1 : (⟨S128, .f32⟩ : BufTy).Contents (Elt F) → (⟨S1x128, .f32⟩ : BufTy).Contents (Elt F)),  -- %148 = broadcast_in_dim %147, dims = [1]
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),  -- %149 = broadcast_in_dim %148, dims = [0, 1]
    StableHlo.binary main_v145 main_v149 main_v150 (subf : (⟨S100000x128, .f32⟩ : BufTy).Contents (Elt F) → (⟨S100000x128, .f32⟩ : BufTy).Contents (Elt F) → (⟨S100000x128, .f32⟩ : BufTy).Contents (Elt F)),  -- %150 = subtract %145, %149
    StableHlo.unary main_arg18 main_v151 ((extractStridedSlice S1x128 ![1, 0] · slices_S4x128_S1x128_1_0) : (⟨S4x128, .f32⟩ : BufTy).Contents (Elt F) → (⟨S1x128, .f32⟩ : BufTy).Contents (Elt F)),  -- %151 = slice %arg18 [1:2, 0:128]
    StableHlo.reshape main_v151 main_v152 rfl shapeCasts_S1x128_S128 ]  -- %152 = reshape %151

end Cert.ReferenceIdeal.RefRun

end
-- ==== Proof.RefWin3.lean ====
/- The reference program's operations as its windows print them, window 3: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 3, piece 0: 17 operations. -/
abbrev win3_0 : List (HloOp τ sig (Elt F)) :=
  [ StableHlo.nullary main_cst_25 (constant S_ .f32 0x3727C5AC#32),  -- %cst_25 = constant dense<9.99999974E-6>
    StableHlo.unary main_cst_25 main_v153 (broadcastInDim S128 ![] bcast_S_S128 : (⟨S_, .f32⟩ : BufTy).Contents (Elt F) → (⟨S128, .f32⟩ : BufTy).Contents (Elt F)),  -- %153 = broadcast_in_dim %cst_25, dims = []
    StableHlo.binary main_v152 main_v153 main_v154 (addf : (⟨S128, .f32⟩ : BufTy).Contents (Elt F) → (⟨S128, .f32⟩ : BufTy).Contents (Elt F) → (⟨S128, .f32⟩ : BufTy).Contents (Elt F)),  -- %154 = add %152, %153
    StableHlo.unary main_v154 main_v155 (Host.rsqrt : (⟨S128, .f32⟩ : BufTy).Contents (Elt F) → (⟨S128, .f32⟩ : BufTy).Contents (Elt F)),  -- %155 = rsqrt %154
    StableHlo.unary main_v155 main_v156 (broadcastInDim S1x128 ![1] bcast_S128_S1x128_1 : (⟨S128, .f32⟩ : BufTy).Contents (Elt F) → (⟨S1x128, .f32⟩ : BufTy).Contents (Elt F)),  -- %156 = broadcast_in_dim %155, dims = [1]
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),  -- %157 = broadcast_in_dim %156, dims = [0, 1]
    StableHlo.binary main_v150 main_v157 main_v158 (mulf : (⟨S100000x128, .f32⟩ : BufTy).Contents (Elt F) → (⟨S100000x128, .f32⟩ : BufTy).Contents (Elt F) → (⟨S100000x128, .f32⟩ : BufTy).Contents (Elt F)),  -- %158 = multiply %150, %157
    StableHlo.unary main_arg15 main_v159 ((extractStridedSlice S1x128 ![1, 0] · slices_S4x128_S1x128_1_0) : (⟨S4x128, .f32⟩ : BufTy).Contents (Elt F) → (⟨S1x128, .f32⟩ : BufTy).Contents (Elt F)),  -- %159 = slice %arg15 [1:2, 0:128]
    StableHlo.reshape main_v159 main_v160 rfl shapeCasts_S1x128_S128,  -- %160 = reshape %159
    StableHlo.unary main_v160 main_v161 (broadcastInDim S1x128 ![1] bcast_S128_S1x128_1 : (⟨S128, .f32⟩ : BufTy).Contents (Elt F) → (⟨S1x128, .f32⟩ : BufTy).Contents (Elt F)),  -- %161 = broadcast_in_dim %160, dims = [1]
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),  -- %162 = broadcast_in_dim %161, dims = [0, 1]
    StableHlo.binary main_v158 main_v162 main_v163 (mulf : (⟨S100000x128, .f32⟩ : BufTy).Contents (Elt F) → (⟨S100000x128, .f32⟩ : BufTy).Contents (Elt F) → (⟨S100000x128, .f32⟩ : BufTy).Contents (Elt F)),  -- %163 = multiply %158, %162
    StableHlo.unary main_arg16 main_v164 ((extractStridedSlice S1x128 ![1, 0] · slices_S4x128_S1x128_1_0) : (⟨S4x128, .f32⟩ : BufTy).Contents (Elt F) → (⟨S1x128, .f32⟩ : BufTy).Contents (Elt F)),  -- %164 = slice %arg16 [1:2, 0:128]
    StableHlo.reshape main_v164 main_v165 rfl shapeCasts_S1x128_S128,  -- %165 = reshape %164
    StableHlo.unary main_v165 main_v166 (broadcastInDim S1x128 ![1] bcast_S128_S1x128_1 : (⟨S128, .f32⟩ : BufTy).Contents (Elt F) → (⟨S1x128, .f32⟩ : BufTy).Contents (Elt F)),  -- %166 = broadcast_in_dim %165, dims = [1]
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),  -- %167 = broadcast_in_dim %166, dims = [0, 1]
    StableHlo.binary main_v163 main_v167 main_v168 (addf : (⟨S100000x128, .f32⟩ : BufTy).Contents (Elt F) → (⟨S100000x128, .f32⟩ : BufTy).Contents (Elt F) → (⟨S100000x128, .f32⟩ : BufTy).Contents (Elt F)) ]  -- %168 = add %163, %167

set_option maxHeartbeats 40000000 in
/-- Window 3, piece 1 (the operations of call 1): 15 operations. -/
abbrev win3_1 : List (HloOp τ sig (Elt F)) :=
  [ StableHlo.TRef.nullary (.of main_call1_cst : StableHlo.TRef sig ⟨S_, .f32⟩) (constant S_ .f32 0x00000000#32),  -- %169 = func.call @elu(%168) > %cst = constant dense<0.000000e+00>
    StableHlo.TRef.unary (.of main_call1_cst : StableHlo.TRef sig ⟨S_, .f32⟩) (.of main_call1_v0 : StableHlo.TRef sig ⟨S100000x128, .f32⟩) (broadcastInDim S100000x128 ![] bcast_S_S100000x128),  -- %169 = func.call @elu(%168) > %0 = broadcast_in_dim %cst, dims = []
    StableHlo.TRef.binary (.of main_v168 : StableHlo.TRef sig ⟨S100000x128, .f32⟩) (.of main_call1_v0 : StableHlo.TRef sig ⟨S100000x128, .f32⟩) (.of main_call1_v1 : StableHlo.TRef sig ⟨S100000x128, .i1⟩) (cmpf .ogt),  -- %169 = func.call @elu(%168) > %1 = compare GT, %arg0, %0, FLOAT
    StableHlo.TRef.nullary (.of main_call1_cst_0 : StableHlo.TRef sig ⟨S_, .f32⟩) (constant S_ .f32 0x00000000#32),  -- %169 = func.call @elu(%168) > %cst_0 = constant dense<0.000000e+00>
    StableHlo.TRef.unary (.of main_call1_cst_0 : StableHlo.TRef sig ⟨S_, .f32⟩) (.of main_call1_v2 : StableHlo.TRef sig ⟨S100000x128, .f32⟩) (broadcastInDim S100000x128 ![] bcast_S_S100000x128),  -- %169 = func.call @elu(%168) > %2 = broadcast_in_dim %cst_0, dims = []
    StableHlo.TRef.binary (.of main_v168 : StableHlo.TRef sig ⟨S100000x128, .f32⟩) (.of main_call1_v2 : StableHlo.TRef sig ⟨S100000x128, .f32⟩) (.of main_call1_v3 : StableHlo.TRef sig ⟨S100000x128, .i1⟩) (cmpf .ogt),  -- %169 = func.call @elu(%168) > %3 = compare GT, %arg0, %2, FLOAT
    StableHlo.TRef.nullary (.of main_call1_cst_1 : StableHlo.TRef sig ⟨S_, .f32⟩) (constant S_ .f32 0x00000000#32),  -- %169 = func.call @elu(%168) > %cst_1 = constant dense<0.000000e+00>
    StableHlo.TRef.unary (.of main_call1_cst_1 : StableHlo.TRef sig ⟨S_, .f32⟩) (.of main_call1_call0_v0 : StableHlo.TRef sig ⟨S_, .f32⟩) id,  -- %169 = func.call @elu(%168) > %4 = func.call @_where(%3, %cst_1, %arg0) > %0 = convert %arg1
    StableHlo.TRef.unary (.of main_call1_call0_v0 : StableHlo.TRef sig ⟨S_, .f32⟩) (.of main_call1_call0_v1 : StableHlo.TRef sig ⟨S100000x128, .f32⟩) (broadcastInDim S100000x128 ![] bcast_S_S100000x128),  -- %169 = func.call @elu(%168) > %4 = func.call @_where(%3, %cst_1, %arg0) > %1 = broadcast_in_dim %0, dims = []
    StableHlo.TRef.ternary (.of main_call1_v3 : StableHlo.TRef sig ⟨S100000x128, .i1⟩) (.of main_call1_call0_v1 : StableHlo.TRef sig ⟨S100000x128, .f32⟩) (.of main_v168 : StableHlo.TRef sig ⟨S100000x128, .f32⟩) (.of main_call1_v4 : StableHlo.TRef sig ⟨S100000x128, .f32⟩) select,  -- %169 = func.call @elu(%168) > %4 = func.call @_where(%3, %cst_1, %arg0) > %2 = select %arg0, %1, %arg2
    StableHlo.TRef.unary (.of main_call1_v4 : StableHlo.TRef sig ⟨S100000x128, .f32⟩) (.of main_call1_v5 : StableHlo.TRef sig ⟨S100000x128, .f32⟩) Host.expm1,  -- %169 = func.call @elu(%168) > %5 = exponential_minus_one %4
    StableHlo.TRef.nullary (.of main_call1_cst_2 : StableHlo.TRef sig ⟨S_, .f32⟩) (constant S_ .f32 0x3F800000#32),  -- %169 = func.call @elu(%168) > %cst_2 = constant dense<1.000000e+00>
    StableHlo.TRef.unary (.of main_call1_cst_2 : StableHlo.TRef sig ⟨S_, .f32⟩) (.of main_call1_v6 : StableHlo.TRef sig ⟨S100000x128, .f32⟩) (broadcastInDim S100000x128 ![] bcast_S_S100000x128),  -- %169 = func.call @elu(%168) > %6 = broadcast_in_dim %cst_2, dims = []
    StableHlo.TRef.binary (.of main_call1_v6 : StableHlo.TRef sig ⟨S100000x128, .f32⟩) (.of main_call1_v5 : StableHlo.TRef sig ⟨S100000x128, .f32⟩) (.of main_call1_v7 : StableHlo.TRef sig ⟨S100000x128, .f32⟩) mulf,  -- %169 = func.call @elu(%168) > %7 = multiply %6, %5
    StableHlo.TRef.ternary (.of main_call1_v1 : StableHlo.TRef sig ⟨S100000x128, .i1⟩) (.of main_v168 : StableHlo.TRef sig ⟨S100000x128, .f32⟩) (.of main_call1_v7 : StableHlo.TRef sig ⟨S100000x128, .f32⟩) (.of main_v169 : StableHlo.TRef sig ⟨S100000x128, .f32⟩) select ]  -- %169 = func.call @elu(%168) > %8 = func.call @_where_0(%1, %arg0, %7) > %0 = select %arg0, %arg1, %arg2

set_option maxHeartbeats 40000000 in
/-- Window 3, piece 2: 42 operations. -/
abbrev win3_2 : List (HloOp τ sig (Elt F)) :=
  [ StableHlo.binary main_v169 main_arg11 main_v170 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %170 = dot_general %169, %arg11, contracting_dims = [1] x [0], precision = [DEFAULT, DEFAU
    StableHlo.nullary main_c_26 (constantI S_ 32 0#32),  -- %c_26 = constant dense<0>
    StableHlo.unary main_c_26 main_v171 (broadcastInDim S1600000 ![] bcast_S_S1600000 : (⟨S_, .i32⟩ : BufTy).Contents (Elt F) → (⟨S1600000, .i32⟩ : BufTy).Contents (Elt F)),  -- %171 = broadcast_in_dim %c_26, dims = []
    StableHlo.binary main_v38 main_v171 main_v172 (cmpi .slt : (⟨S1600000, .i32⟩ : BufTy).Contents (Elt F) → (⟨S1600000, .i32⟩ : BufTy).Contents (Elt F) → (⟨S1600000, .i1⟩ : BufTy).Contents (Elt F)),  -- %172 = compare LT, %38, %171, SIGNED
    StableHlo.nullary main_c_27 (constantI S_ 32 100000#32),  -- %c_27 = constant dense<100000>
    StableHlo.unary main_c_27 main_v173 (broadcastInDim S1600000 ![] bcast_S_S1600000 : (⟨S_, .i32⟩ : BufTy).Contents (Elt F) → (⟨S1600000, .i32⟩ : BufTy).Contents (Elt F)),  -- %173 = broadcast_in_dim %c_27, dims = []
    StableHlo.binary main_v38 main_v173 main_v174 (addi : (⟨S1600000, .i32⟩ : BufTy).Contents (Elt F) → (⟨S1600000, .i32⟩ : BufTy).Contents (Elt F) → (⟨S1600000, .i32⟩ : BufTy).Contents (Elt F)),  -- %174 = add %38, %173
    StableHlo.ternary main_v172 main_v174 main_v38 main_v175 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %175 = select %172, %174, %38
    StableHlo.unary main_v175 main_v176 (broadcastInDim S1600000x1 ![0] bcast_S1600000_S1600000x1_0 : (⟨S1600000, .i32⟩ : BufTy).Contents (Elt F) → (⟨S1600000x1, .i32⟩ : BufTy).Contents (Elt F)),  -- %176 = broadcast_in_dim %175, dims = [0]
    StableHlo.binary main_v47 main_v176 main_v177 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %177 = "gather"(%47, %176)
    StableHlo.nullary main_c_28 (constantI S_ 32 0#32),  -- %c_28 = constant dense<0>
    StableHlo.unary main_c_28 main_v178 (broadcastInDim S1600000 ![] bcast_S_S1600000 : (⟨S_, .i32⟩ : BufTy).Contents (Elt F) → (⟨S1600000, .i32⟩ : BufTy).Contents (Elt F)),  -- %178 = broadcast_in_dim %c_28, dims = []
    StableHlo.binary main_v40 main_v178 main_v179 (cmpi .slt : (⟨S1600000, .i32⟩ : BufTy).Contents (Elt F) → (⟨S1600000, .i32⟩ : BufTy).Contents (Elt F) → (⟨S1600000, .i1⟩ : BufTy).Contents (Elt F)),  -- %179 = compare LT, %40, %178, SIGNED
    StableHlo.nullary main_c_29 (constantI S_ 32 100000#32),  -- %c_29 = constant dense<100000>
    StableHlo.unary main_c_29 main_v180 (broadcastInDim S1600000 ![] bcast_S_S1600000 : (⟨S_, .i32⟩ : BufTy).Contents (Elt F) → (⟨S1600000, .i32⟩ : BufTy).Contents (Elt F)),  -- %180 = broadcast_in_dim %c_29, dims = []
    StableHlo.binary main_v40 main_v180 main_v181 (addi : (⟨S1600000, .i32⟩ : BufTy).Contents (Elt F) → (⟨S1600000, .i32⟩ : BufTy).Contents (Elt F) → (⟨S1600000, .i32⟩ : BufTy).Contents (Elt F)),  -- %181 = add %40, %180
    StableHlo.ternary main_v179 main_v181 main_v40 main_v182 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %182 = select %179, %181, %40
    StableHlo.unary main_v182 main_v183 (broadcastInDim S1600000x1 ![0] bcast_S1600000_S1600000x1_0 : (⟨S1600000, .i32⟩ : BufTy).Contents (Elt F) → (⟨S1600000x1, .i32⟩ : BufTy).Contents (Elt F)),  -- %183 = broadcast_in_dim %182, dims = [0]
    StableHlo.binary main_v47 main_v183 main_v184 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %184 = "gather"(%47, %183)
    StableHlo.binary main_v177 main_v184 main_v185 (mulf : (⟨S1600000, .f32⟩ : BufTy).Contents (Elt F) → (⟨S1600000, .f32⟩ : BufTy).Contents (Elt F) → (⟨S1600000, .f32⟩ : BufTy).Contents (Elt F)),  -- %185 = multiply %177, %184
    StableHlo.nullary main_c_30 (constantI S_ 32 0#32),  -- %c_30 = constant dense<0>
    StableHlo.unary main_c_30 main_v186 (broadcastInDim S1600000 ![] bcast_S_S1600000 : (⟨S_, .i32⟩ : BufTy).Contents (Elt F) → (⟨S1600000, .i32⟩ : BufTy).Contents (Elt F)),  -- %186 = broadcast_in_dim %c_30, dims = []
    StableHlo.binary main_v38 main_v186 main_v187 (cmpi .slt : (⟨S1600000, .i32⟩ : BufTy).Contents (Elt F) → (⟨S1600000, .i32⟩ : BufTy).Contents (Elt F) → (⟨S1600000, .i1⟩ : BufTy).Contents (Elt F)),  -- %187 = compare LT, %38, %186, SIGNED
    StableHlo.nullary main_c_31 (constantI S_ 32 100000#32),  -- %c_31 = constant dense<100000>
    StableHlo.unary main_c_31 main_v188 (broadcastInDim S1600000 ![] bcast_S_S1600000 : (⟨S_, .i32⟩ : BufTy).Contents (Elt F) → (⟨S1600000, .i32⟩ : BufTy).Contents (Elt F)),  -- %188 = broadcast_in_dim %c_31, dims = []
    StableHlo.binary main_v38 main_v188 main_v189 (addi : (⟨S1600000, .i32⟩ : BufTy).Contents (Elt F) → (⟨S1600000, .i32⟩ : BufTy).Contents (Elt F) → (⟨S1600000, .i32⟩ : BufTy).Contents (Elt F)),  -- %189 = add %38, %188
    StableHlo.ternary main_v187 main_v189 main_v38 main_v190 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %190 = select %187, %189, %38
    StableHlo.unary main_v190 main_v191 (broadcastInDim S1600000x1 ![0] bcast_S1600000_S1600000x1_0 : (⟨S1600000, .i32⟩ : BufTy).Contents (Elt F) → (⟨S1600000x1, .i32⟩ : BufTy).Contents (Elt F)),  -- %191 = broadcast_in_dim %190, dims = [0]
    StableHlo.binary main_v170 main_v191 main_v192 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %192 = "gather"(%170, %191)
    StableHlo.unary main_v185 main_v193 (broadcastInDim S1600000x1 ![0] bcast_S1600000_S1600000x1_0 : (⟨S1600000, .f32⟩ : BufTy).Contents (Elt F) → (⟨S1600000x1, .f32⟩ : BufTy).Contents (Elt F)),  -- %193 = broadcast_in_dim %185, dims = [0]
    StableHlo.unary main_v193 main_v194 (broadcastInDim S1600000x128 ![0, 1] bcast_S1600000x1_S1600000x128_0_1 : (⟨S1600000x1, .f32⟩ : BufTy).Contents (Elt F) → (⟨S1600000x128, .f32⟩ : BufTy).Contents (Elt F)),  -- %194 = broadcast_in_dim %193, dims = [0, 1]
    StableHlo.binary main_v192 main_v194 main_v195 (mulf : (⟨S1600000x128, .f32⟩ : BufTy).Contents (Elt F) → (⟨S1600000x128, .f32⟩ : BufTy).Contents (Elt F) → (⟨S1600000x128, .f32⟩ : BufTy).Contents (Elt F)),  -- %195 = multiply %192, %194
    StableHlo.nullary main_cst_32 (constant S_ .f32 0x00000000#32),  -- %cst_32 = constant dense<0.000000e+00>
    StableHlo.unary main_cst_32 main_v196 (broadcastInDim S100000x128 ![] bcast_S_S100000x128 : (⟨S_, .f32⟩ : BufTy).Contents (Elt F) → (⟨S100000x128, .f32⟩ : BufTy).Contents (Elt F)),  -- %196 = broadcast_in_dim %cst_32, dims = []
    StableHlo.unary main_v40 main_v197 (broadcastInDim S1600000x1 ![0] bcast_S1600000_S1600000x1_0 : (⟨S1600000, .i32⟩ : BufTy).Contents (Elt F) → (⟨S1600000x1, .i32⟩ : BufTy).Contents (Elt F)),  -- %197 = broadcast_in_dim %40, dims = [0]
    StableHlo.ternary main_v196 main_v197 main_v195 main_v198 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),  -- %198 = "scatter"(%196, %197, %195)
    StableHlo.binary main_v47 main_v47 main_v199 (mulf : (⟨S100000, .f32⟩ : BufTy).Contents (Elt F) → (⟨S100000, .f32⟩ : BufTy).Contents (Elt F) → (⟨S100000, .f32⟩ : BufTy).Contents (Elt F)),  -- %199 = multiply %47, %47
    StableHlo.unary main_v199 main_v200 (broadcastInDim S100000x1 ![0] bcast_S100000_S100000x1_0 : (⟨S100000, .f32⟩ : BufTy).Contents (Elt F) → (⟨S100000x1, .f32⟩ : BufTy).Contents (Elt F)),  -- %200 = broadcast_in_dim %199, dims = [0]
    StableHlo.unary main_v200 main_v201 (broadcastInDim S100000x128 ![0, 1] bcast_S100000x1_S100000x128_0_1 : (⟨S100000x1, .f32⟩ : BufTy).Contents (Elt F) → (⟨S100000x128, .f32⟩ : BufTy).Contents (Elt F)),  -- %201 = broadcast_in_dim %200, dims = [0, 1]
    StableHlo.binary main_v170 main_v201 main_v202 (mulf : (⟨S100000x128, .f32⟩ : BufTy).Contents (Elt F) → (⟨S100000x128, .f32⟩ : BufTy).Contents (Elt F) → (⟨S100000x128, .f32⟩ : BufTy).Contents (Elt F)),  -- %202 = multiply %170, %201
    StableHlo.binary main_v198 main_v202 main_v203 (addf : (⟨S100000x128, .f32⟩ : BufTy).Contents (Elt F) → (⟨S100000x128, .f32⟩ : BufTy).Contents (Elt F) → (⟨S100000x128, .f32⟩ : BufTy).Contents (Elt F)),  -- %203 = add %198, %202
    StableHlo.unary main_arg12 main_v204 (broadcastInDim S1x128 ![1] bcast_S128_S1x128_1 : (⟨S128, .f32⟩ : BufTy).Contents (Elt F) → (⟨S1x128, .f32⟩ : BufTy).Contents (Elt F)) ]  -- %204 = broadcast_in_dim %arg12, dims = [1]

end Cert.ReferenceIdeal.RefRun

end
-- ==== Proof.RefWin4.lean ====
/- The reference program's operations as its windows print them, window 4: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 4, piece 0: 26 operations. -/
abbrev win4_0 : List (HloOp τ sig (Elt F)) :=
  [ StableHlo.unary main_v204 main_v205 (broadcastInDim S100000x128 ![0, 1] bcast_S1x128_S100000x128_0_1 : (⟨S1x128, .f32⟩ : BufTy).Contents (Elt F) → (⟨S100000x128, .f32⟩ : BufTy).Contents (Elt F)),  -- %205 = broadcast_in_dim %204, dims = [0, 1]
    StableHlo.binary main_v203 main_v205 main_v206 (addf : (⟨S100000x128, .f32⟩ : BufTy).Contents (Elt F) → (⟨S100000x128, .f32⟩ : BufTy).Contents (Elt F) → (⟨S100000x128, .f32⟩ : BufTy).Contents (Elt F)),  -- %206 = add %203, %205
    StableHlo.unary main_arg17 main_v207 ((extractStridedSlice S1x128 ![2, 0] · slices_S4x128_S1x128_2_0) : (⟨S4x128, .f32⟩ : BufTy).Contents (Elt F) → (⟨S1x128, .f32⟩ : BufTy).Contents (Elt F)),  -- %207 = slice %arg17 [2:3, 0:128]
    StableHlo.reshape main_v207 main_v208 rfl shapeCasts_S1x128_S128,  -- %208 = reshape %207
    StableHlo.unary main_v208 main_v209 (broadcastInDim S1x128 ![1] bcast_S128_S1x128_1 : (⟨S128, .f32⟩ : BufTy).Contents (Elt F) → (⟨S1x128, .f32⟩ : BufTy).Contents (Elt F)),  -- %209 = broadcast_in_dim %208, dims = [1]
    StableHlo.unary main_v209 main_v210 (broadcastInDim S100000x128 ![0, 1] bcast_S1x128_S100000x128_0_1 : (⟨S1x128, .f32⟩ : BufTy).Contents (Elt F) → (⟨S100000x128, .f32⟩ : BufTy).Contents (Elt F)),  -- %210 = broadcast_in_dim %209, dims = [0, 1]
    StableHlo.binary main_v206 main_v210 main_v211 (subf : (⟨S100000x128, .f32⟩ : BufTy).Contents (Elt F) → (⟨S100000x128, .f32⟩ : BufTy).Contents (Elt F) → (⟨S100000x128, .f32⟩ : BufTy).Contents (Elt F)),  -- %211 = subtract %206, %210
    StableHlo.unary main_arg18 main_v212 ((extractStridedSlice S1x128 ![2, 0] · slices_S4x128_S1x128_2_0) : (⟨S4x128, .f32⟩ : BufTy).Contents (Elt F) → (⟨S1x128, .f32⟩ : BufTy).Contents (Elt F)),  -- %212 = slice %arg18 [2:3, 0:128]
    StableHlo.reshape main_v212 main_v213 rfl shapeCasts_S1x128_S128,  -- %213 = reshape %212
    StableHlo.nullary main_cst_33 (constant S_ .f32 0x3727C5AC#32),  -- %cst_33 = constant dense<9.99999974E-6>
    StableHlo.unary main_cst_33 main_v214 (broadcastInDim S128 ![] bcast_S_S128 : (⟨S_, .f32⟩ : BufTy).Contents (Elt F) → (⟨S128, .f32⟩ : BufTy).Contents (Elt F)),  -- %214 = broadcast_in_dim %cst_33, dims = []
    StableHlo.binary main_v213 main_v214 main_v215 (addf : (⟨S128, .f32⟩ : BufTy).Contents (Elt F) → (⟨S128, .f32⟩ : BufTy).Contents (Elt F) → (⟨S128, .f32⟩ : BufTy).Contents (Elt F)),  -- %215 = add %213, %214
    StableHlo.unary main_v215 main_v216 (Host.rsqrt : (⟨S128, .f32⟩ : BufTy).Contents (Elt F) → (⟨S128, .f32⟩ : BufTy).Contents (Elt F)),  -- %216 = rsqrt %215
    StableHlo.unary main_v216 main_v217 (broadcastInDim S1x128 ![1] bcast_S128_S1x128_1 : (⟨S128, .f32⟩ : BufTy).Contents (Elt F) → (⟨S1x128, .f32⟩ : BufTy).Contents (Elt F)),  -- %217 = broadcast_in_dim %216, dims = [1]
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),  -- %218 = broadcast_in_dim %217, dims = [0, 1]
    StableHlo.binary main_v211 main_v218 main_v219 (mulf : (⟨S100000x128, .f32⟩ : BufTy).Contents (Elt F) → (⟨S100000x128, .f32⟩ : BufTy).Contents (Elt F) → (⟨S100000x128, .f32⟩ : BufTy).Contents (Elt F)),  -- %219 = multiply %211, %218
    StableHlo.unary main_arg15 main_v220 ((extractStridedSlice S1x128 ![2, 0] · slices_S4x128_S1x128_2_0) : (⟨S4x128, .f32⟩ : BufTy).Contents (Elt F) → (⟨S1x128, .f32⟩ : BufTy).Contents (Elt F)),  -- %220 = slice %arg15 [2:3, 0:128]
    StableHlo.reshape main_v220 main_v221 rfl shapeCasts_S1x128_S128,  -- %221 = reshape %220
    StableHlo.unary main_v221 main_v222 (broadcastInDim S1x128 ![1] bcast_S128_S1x128_1 : (⟨S128, .f32⟩ : BufTy).Contents (Elt F) → (⟨S1x128, .f32⟩ : BufTy).Contents (Elt F)),  -- %222 = broadcast_in_dim %221, dims = [1]
    StableHlo.unary main_v222 main_v223 (broadcastInDim S100000x128 ![0, 1] bcast_S1x128_S100000x128_0_1 : (⟨S1x128, .f32⟩ : BufTy).Contents (Elt F) → (⟨S100000x128, .f32⟩ : BufTy).Contents (Elt F)),  -- %223 = broadcast_in_dim %222, dims = [0, 1]
    StableHlo.binary main_v219 main_v223 main_v224 (mulf : (⟨S100000x128, .f32⟩ : BufTy).Contents (Elt F) → (⟨S100000x128, .f32⟩ : BufTy).Contents (Elt F) → (⟨S100000x128, .f32⟩ : BufTy).Contents (Elt F)),  -- %224 = multiply %219, %223
    StableHlo.unary main_arg16 main_v225 ((extractStridedSlice S1x128 ![2, 0] · slices_S4x128_S1x128_2_0) : (⟨S4x128, .f32⟩ : BufTy).Contents (Elt F) → (⟨S1x128, .f32⟩ : BufTy).Contents (Elt F)),  -- %225 = slice %arg16 [2:3, 0:128]
    StableHlo.reshape main_v225 main_v226 rfl shapeCasts_S1x128_S128,  -- %226 = reshape %225
    StableHlo.unary main_v226 main_v227 (broadcastInDim S1x128 ![1] bcast_S128_S1x128_1 : (⟨S128, .f32⟩ : BufTy).Contents (Elt F) → (⟨S1x128, .f32⟩ : BufTy).Contents (Elt F)),  -- %227 = broadcast_in_dim %226, dims = [1]
    StableHlo.unary main_v227 main_v228 (broadcastInDim S100000x128 ![0, 1] bcast_S1x128_S100000x128_0_1 : (⟨S1x128, .f32⟩ : BufTy).Contents (Elt F) → (⟨S100000x128, .f32⟩ : BufTy).Contents (Elt F)),  -- %228 = broadcast_in_dim %227, dims = [0, 1]
    StableHlo.binary main_v224 main_v228 main_v229 (addf : (⟨S100000x128, .f32⟩ : BufTy).Contents (Elt F) → (⟨S100000x128, .f32⟩ : BufTy).Contents (Elt F) → (⟨S100000x128, .f32⟩ : BufTy).Contents (Elt F)) ]  -- %229 = add %224, %228

set_option maxHeartbeats 40000000 in
/-- Window 4, piece 1 (the operations of call 2): 15 operations. -/
abbrev win4_1 : List (HloOp τ sig (Elt F)) :=
  [ StableHlo.TRef.nullary (.of main_call2_cst : StableHlo.TRef sig ⟨S_, .f32⟩) (constant S_ .f32 0x00000000#32),  -- %230 = func.call @elu(%229) > %cst = constant dense<0.000000e+00>
    StableHlo.TRef.unary (.of main_call2_cst : StableHlo.TRef sig ⟨S_, .f32⟩) (.of main_call2_v0 : StableHlo.TRef sig ⟨S100000x128, .f32⟩) (broadcastInDim S100000x128 ![] bcast_S_S100000x128),  -- %230 = func.call @elu(%229) > %0 = broadcast_in_dim %cst, dims = []
    StableHlo.TRef.binary (.of main_v229 : StableHlo.TRef sig ⟨S100000x128, .f32⟩) (.of main_call2_v0 : StableHlo.TRef sig ⟨S100000x128, .f32⟩) (.of main_call2_v1 : StableHlo.TRef sig ⟨S100000x128, .i1⟩) (cmpf .ogt),  -- %230 = func.call @elu(%229) > %1 = compare GT, %arg0, %0, FLOAT
    StableHlo.TRef.nullary (.of main_call2_cst_0 : StableHlo.TRef sig ⟨S_, .f32⟩) (constant S_ .f32 0x00000000#32),  -- %230 = func.call @elu(%229) > %cst_0 = constant dense<0.000000e+00>
    StableHlo.TRef.unary (.of main_call2_cst_0 : StableHlo.TRef sig ⟨S_, .f32⟩) (.of main_call2_v2 : StableHlo.TRef sig ⟨S100000x128, .f32⟩) (broadcastInDim S100000x128 ![] bcast_S_S100000x128),  -- %230 = func.call @elu(%229) > %2 = broadcast_in_dim %cst_0, dims = []
    StableHlo.TRef.binary (.of main_v229 : StableHlo.TRef sig ⟨S100000x128, .f32⟩) (.of main_call2_v2 : StableHlo.TRef sig ⟨S100000x128, .f32⟩) (.of main_call2_v3 : StableHlo.TRef sig ⟨S100000x128, .i1⟩) (cmpf .ogt),  -- %230 = func.call @elu(%229) > %3 = compare GT, %arg0, %2, FLOAT
    StableHlo.TRef.nullary (.of main_call2_cst_1 : StableHlo.TRef sig ⟨S_, .f32⟩) (constant S_ .f32 0x00000000#32),  -- %230 = func.call @elu(%229) > %cst_1 = constant dense<0.000000e+00>
    StableHlo.TRef.unary (.of main_call2_cst_1 : StableHlo.TRef sig ⟨S_, .f32⟩) (.of main_call2_call0_v0 : StableHlo.TRef sig ⟨S_, .f32⟩) id,  -- %230 = func.call @elu(%229) > %4 = func.call @_where(%3, %cst_1, %arg0) > %0 = convert %arg1
    StableHlo.TRef.unary (.of main_call2_call0_v0 : StableHlo.TRef sig ⟨S_, .f32⟩) (.of main_call2_call0_v1 : StableHlo.TRef sig ⟨S100000x128, .f32⟩) (broadcastInDim S100000x128 ![] bcast_S_S100000x128),  -- %230 = func.call @elu(%229) > %4 = func.call @_where(%3, %cst_1, %arg0) > %1 = broadcast_in_dim %0, dims = []
    StableHlo.TRef.ternary (.of main_call2_v3 : StableHlo.TRef sig ⟨S100000x128, .i1⟩) (.of main_call2_call0_v1 : StableHlo.TRef sig ⟨S100000x128, .f32⟩) (.of main_v229 : StableHlo.TRef sig ⟨S100000x128, .f32⟩) (.of main_call2_v4 : StableHlo.TRef sig ⟨S100000x128, .f32⟩) select,  -- %230 = func.call @elu(%229) > %4 = func.call @_where(%3, %cst_1, %arg0) > %2 = select %arg0, %1, %arg2
    StableHlo.TRef.unary (.of main_call2_v4 : StableHlo.TRef sig ⟨S100000x128, .f32⟩) (.of main_call2_v5 : StableHlo.TRef sig ⟨S100000x128, .f32⟩) Host.expm1,  -- %230 = func.call @elu(%229) > %5 = exponential_minus_one %4
    StableHlo.TRef.nullary (.of main_call2_cst_2 : StableHlo.TRef sig ⟨S_, .f32⟩) (constant S_ .f32 0x3F800000#32),  -- %230 = func.call @elu(%229) > %cst_2 = constant dense<1.000000e+00>
    StableHlo.TRef.unary (.of main_call2_cst_2 : StableHlo.TRef sig ⟨S_, .f32⟩) (.of main_call2_v6 : StableHlo.TRef sig ⟨S100000x128, .f32⟩) (broadcastInDim S100000x128 ![] bcast_S_S100000x128),  -- %230 = func.call @elu(%229) > %6 = broadcast_in_dim %cst_2, dims = []
    StableHlo.TRef.binary (.of main_call2_v6 : StableHlo.TRef sig ⟨S100000x128, .f32⟩) (.of main_call2_v5 : StableHlo.TRef sig ⟨S100000x128, .f32⟩) (.of main_call2_v7 : StableHlo.TRef sig ⟨S100000x128, .f32⟩) mulf,  -- %230 = func.call @elu(%229) > %7 = multiply %6, %5
    StableHlo.TRef.ternary (.of main_call2_v1 : StableHlo.TRef sig ⟨S100000x128, .i1⟩) (.of main_v229 : StableHlo.TRef sig ⟨S100000x128, .f32⟩) (.of main_call2_v7 : StableHlo.TRef sig ⟨S100000x128, .f32⟩) (.of main_v230 : StableHlo.TRef sig ⟨S100000x128, .f32⟩) select ]  -- %230 = func.call @elu(%229) > %8 = func.call @_where_0(%1, %arg0, %7) > %0 = select %arg0, %arg1, %arg2

set_option maxHeartbeats 40000000 in
/-- Window 4, piece 2: 33 operations. -/
abbrev win4_2 : List (HloOp τ sig (Elt F)) :=
  [ StableHlo.binary main_v230 main_arg13 main_v231 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %231 = dot_general %230, %arg13, contracting_dims = [1] x [0], precision = [DEFAULT, DEFAU
    StableHlo.nullary main_c_34 (constantI S_ 32 0#32),  -- %c_34 = constant dense<0>
    StableHlo.unary main_c_34 main_v232 (broadcastInDim S1600000 ![] bcast_S_S1600000 : (⟨S_, .i32⟩ : BufTy).Contents (Elt F) → (⟨S1600000, .i32⟩ : BufTy).Contents (Elt F)),  -- %232 = broadcast_in_dim %c_34, dims = []
    StableHlo.binary main_v38 main_v232 main_v233 (cmpi .slt : (⟨S1600000, .i32⟩ : BufTy).Contents (Elt F) → (⟨S1600000, .i32⟩ : BufTy).Contents (Elt F) → (⟨S1600000, .i1⟩ : BufTy).Contents (Elt F)),  -- %233 = compare LT, %38, %232, SIGNED
    StableHlo.nullary main_c_35 (constantI S_ 32 100000#32),  -- %c_35 = constant dense<100000>
    StableHlo.unary main_c_35 main_v234 (broadcastInDim S1600000 ![] bcast_S_S1600000 : (⟨S_, .i32⟩ : BufTy).Contents (Elt F) → (⟨S1600000, .i32⟩ : BufTy).Contents (Elt F)),  -- %234 = broadcast_in_dim %c_35, dims = []
    StableHlo.binary main_v38 main_v234 main_v235 (addi : (⟨S1600000, .i32⟩ : BufTy).Contents (Elt F) → (⟨S1600000, .i32⟩ : BufTy).Contents (Elt F) → (⟨S1600000, .i32⟩ : BufTy).Contents (Elt F)),  -- %235 = add %38, %234
    StableHlo.ternary main_v233 main_v235 main_v38 main_v236 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %236 = select %233, %235, %38
    StableHlo.unary main_v236 main_v237 (broadcastInDim S1600000x1 ![0] bcast_S1600000_S1600000x1_0 : (⟨S1600000, .i32⟩ : BufTy).Contents (Elt F) → (⟨S1600000x1, .i32⟩ : BufTy).Contents (Elt F)),  -- %237 = broadcast_in_dim %236, dims = [0]
    StableHlo.binary main_v47 main_v237 main_v238 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %238 = "gather"(%47, %237)
    StableHlo.nullary main_c_36 (constantI S_ 32 0#32),  -- %c_36 = constant dense<0>
    StableHlo.unary main_c_36 main_v239 (broadcastInDim S1600000 ![] bcast_S_S1600000 : (⟨S_, .i32⟩ : BufTy).Contents (Elt F) → (⟨S1600000, .i32⟩ : BufTy).Contents (Elt F)),  -- %239 = broadcast_in_dim %c_36, dims = []
    StableHlo.binary main_v40 main_v239 main_v240 (cmpi .slt : (⟨S1600000, .i32⟩ : BufTy).Contents (Elt F) → (⟨S1600000, .i32⟩ : BufTy).Contents (Elt F) → (⟨S1600000, .i1⟩ : BufTy).Contents (Elt F)),  -- %240 = compare LT, %40, %239, SIGNED
    StableHlo.nullary main_c_37 (constantI S_ 32 100000#32),  -- %c_37 = constant dense<100000>
    StableHlo.unary main_c_37 main_v241 (broadcastInDim S1600000 ![] bcast_S_S1600000 : (⟨S_, .i32⟩ : BufTy).Contents (Elt F) → (⟨S1600000, .i32⟩ : BufTy).Contents (Elt F)),  -- %241 = broadcast_in_dim %c_37, dims = []
    StableHlo.binary main_v40 main_v241 main_v242 (addi : (⟨S1600000, .i32⟩ : BufTy).Contents (Elt F) → (⟨S1600000, .i32⟩ : BufTy).Contents (Elt F) → (⟨S1600000, .i32⟩ : BufTy).Contents (Elt F)),  -- %242 = add %40, %241
    StableHlo.ternary main_v240 main_v242 main_v40 main_v243 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %243 = select %240, %242, %40
    StableHlo.unary main_v243 main_v244 (broadcastInDim S1600000x1 ![0] bcast_S1600000_S1600000x1_0 : (⟨S1600000, .i32⟩ : BufTy).Contents (Elt F) → (⟨S1600000x1, .i32⟩ : BufTy).Contents (Elt F)),  -- %244 = broadcast_in_dim %243, dims = [0]
    StableHlo.binary main_v47 main_v244 main_v245 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),  -- %245 = "gather"(%47, %244)
    StableHlo.binary main_v238 main_v245 main_v246 (mulf : (⟨S1600000, .f32⟩ : BufTy).Contents (Elt F) → (⟨S1600000, .f32⟩ : BufTy).Contents (Elt F) → (⟨S1600000, .f32⟩ : BufTy).Contents (Elt F)),  -- %246 = multiply %238, %245
    StableHlo.nullary main_c_38 (constantI S_ 32 0#32),  -- %c_38 = constant dense<0>
    StableHlo.unary main_c_38 main_v247 (broadcastInDim S1600000 ![] bcast_S_S1600000 : (⟨S_, .i32⟩ : BufTy).Contents (Elt F) → (⟨S1600000, .i32⟩ : BufTy).Contents (Elt F)),  -- %247 = broadcast_in_dim %c_38, dims = []
    StableHlo.binary main_v38 main_v247 main_v248 (cmpi .slt : (⟨S1600000, .i32⟩ : BufTy).Contents (Elt F) → (⟨S1600000, .i32⟩ : BufTy).Contents (Elt F) → (⟨S1600000, .i1⟩ : BufTy).Contents (Elt F)),  -- %248 = compare LT, %38, %247, SIGNED
    StableHlo.nullary main_c_39 (constantI S_ 32 100000#32),  -- %c_39 = constant dense<100000>
    StableHlo.unary main_c_39 main_v249 (broadcastInDim S1600000 ![] bcast_S_S1600000 : (⟨S_, .i32⟩ : BufTy).Contents (Elt F) → (⟨S1600000, .i32⟩ : BufTy).Contents (Elt F)),  -- %249 = broadcast_in_dim %c_39, dims = []
    StableHlo.binary main_v38 main_v249 main_v250 (addi : (⟨S1600000, .i32⟩ : BufTy).Contents (Elt F) → (⟨S1600000, .i32⟩ : BufTy).Contents (Elt F) → (⟨S1600000, .i32⟩ : BufTy).Contents (Elt F)),  -- %250 = add %38, %249
    StableHlo.ternary main_v248 main_v250 main_v38 main_v251 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %251 = select %248, %250, %38
    StableHlo.unary main_v251 main_v252 (broadcastInDim S1600000x1 ![0] bcast_S1600000_S1600000x1_0 : (⟨S1600000, .i32⟩ : BufTy).Contents (Elt F) → (⟨S1600000x1, .i32⟩ : BufTy).Contents (Elt F)),  -- %252 = broadcast_in_dim %251, dims = [0]
    StableHlo.binary main_v231 main_v252 main_v253 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %253 = "gather"(%231, %252)
    StableHlo.unary main_v246 main_v254 (broadcastInDim S1600000x1 ![0] bcast_S1600000_S1600000x1_0 : (⟨S1600000, .f32⟩ : BufTy).Contents (Elt F) → (⟨S1600000x1, .f32⟩ : BufTy).Contents (Elt F)),  -- %254 = broadcast_in_dim %246, dims = [0]
    StableHlo.unary main_v254 main_v255 (broadcastInDim S1600000x128 ![0, 1] bcast_S1600000x1_S1600000x128_0_1 : (⟨S1600000x1, .f32⟩ : BufTy).Contents (Elt F) → (⟨S1600000x128, .f32⟩ : BufTy).Contents (Elt F)),  -- %255 = broadcast_in_dim %254, dims = [0, 1]
    StableHlo.binary main_v253 main_v255 main_v256 (mulf : (⟨S1600000x128, .f32⟩ : BufTy).Contents (Elt F) → (⟨S1600000x128, .f32⟩ : BufTy).Contents (Elt F) → (⟨S1600000x128, .f32⟩ : BufTy).Contents (Elt F)),  -- %256 = multiply %253, %255
    StableHlo.nullary main_cst_40 (constant S_ .f32 0x00000000#32) ]  -- %cst_40 = constant dense<0.000000e+00>

end Cert.ReferenceIdeal.RefRun

end
-- ==== Proof.RefWin5.lean ====
/- The reference program's operations as its windows print them, windows 5, 6: each window cut at its calls. -/
import proofs.«127358_j57011395887506_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 5, piece 0: 35 operations. -/
abbrev win5_0 : List (HloOp τ sig (Elt F)) :=
  [ StableHlo.unary main_cst_40 main_v257 (broadcastInDim S100000x128 ![] bcast_S_S100000x128 : (⟨S_, .f32⟩ : BufTy).Contents (Elt F) → (⟨S100000x128, .f32⟩ : BufTy).Contents (Elt F)),  -- %257 = broadcast_in_dim %cst_40, dims = []
    StableHlo.unary main_v40 main_v258 (broadcastInDim S1600000x1 ![0] bcast_S1600000_S1600000x1_0 : (⟨S1600000, .i32⟩ : BufTy).Contents (Elt F) → (⟨S1600000x1, .i32⟩ : BufTy).Contents (Elt F)),  -- %258 = broadcast_in_dim %40, dims = [0]
    StableHlo.ternary main_v257 main_v258 main_v256 main_v259 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),  -- %259 = "scatter"(%257, %258, %256)
    StableHlo.binary main_v47 main_v47 main_v260 (mulf : (⟨S100000, .f32⟩ : BufTy).Contents (Elt F) → (⟨S100000, .f32⟩ : BufTy).Contents (Elt F) → (⟨S100000, .f32⟩ : BufTy).Contents (Elt F)),  -- %260 = multiply %47, %47
    StableHlo.unary main_v260 main_v261 (broadcastInDim S100000x1 ![0] bcast_S100000_S100000x1_0 : (⟨S100000, .f32⟩ : BufTy).Contents (Elt F) → (⟨S100000x1, .f32⟩ : BufTy).Contents (Elt F)),  -- %261 = broadcast_in_dim %260, dims = [0]
    StableHlo.unary main_v261 main_v262 (broadcastInDim S100000x128 ![0, 1] bcast_S100000x1_S100000x128_0_1 : (⟨S100000x1, .f32⟩ : BufTy).Contents (Elt F) → (⟨S100000x128, .f32⟩ : BufTy).Contents (Elt F)),  -- %262 = broadcast_in_dim %261, dims = [0, 1]
    StableHlo.binary main_v231 main_v262 main_v263 (mulf : (⟨S100000x128, .f32⟩ : BufTy).Contents (Elt F) → (⟨S100000x128, .f32⟩ : BufTy).Contents (Elt F) → (⟨S100000x128, .f32⟩ : BufTy).Contents (Elt F)),  -- %263 = multiply %231, %262
    StableHlo.binary main_v259 main_v263 main_v264 (addf : (⟨S100000x128, .f32⟩ : BufTy).Contents (Elt F) → (⟨S100000x128, .f32⟩ : BufTy).Contents (Elt F) → (⟨S100000x128, .f32⟩ : BufTy).Contents (Elt F)),  -- %264 = add %259, %263
    StableHlo.unary main_arg14 main_v265 (broadcastInDim S1x128 ![1] bcast_S128_S1x128_1 : (⟨S128, .f32⟩ : BufTy).Contents (Elt F) → (⟨S1x128, .f32⟩ : BufTy).Contents (Elt F)),  -- %265 = broadcast_in_dim %arg14, dims = [1]
    StableHlo.unary main_v265 main_v266 (broadcastInDim S100000x128 ![0, 1] bcast_S1x128_S100000x128_0_1 : (⟨S1x128, .f32⟩ : BufTy).Contents (Elt F) → (⟨S100000x128, .f32⟩ : BufTy).Contents (Elt F)),  -- %266 = broadcast_in_dim %265, dims = [0, 1]
    StableHlo.binary main_v264 main_v266 main_v267 (addf : (⟨S100000x128, .f32⟩ : BufTy).Contents (Elt F) → (⟨S100000x128, .f32⟩ : BufTy).Contents (Elt F) → (⟨S100000x128, .f32⟩ : BufTy).Contents (Elt F)),  -- %267 = add %264, %266
    StableHlo.unary main_arg17 main_v268 ((extractStridedSlice S1x128 ![3, 0] · slices_S4x128_S1x128_3_0) : (⟨S4x128, .f32⟩ : BufTy).Contents (Elt F) → (⟨S1x128, .f32⟩ : BufTy).Contents (Elt F)),  -- %268 = slice %arg17 [3:4, 0:128]
    StableHlo.reshape main_v268 main_v269 rfl shapeCasts_S1x128_S128,  -- %269 = reshape %268
    StableHlo.unary main_v269 main_v270 (broadcastInDim S1x128 ![1] bcast_S128_S1x128_1 : (⟨S128, .f32⟩ : BufTy).Contents (Elt F) → (⟨S1x128, .f32⟩ : BufTy).Contents (Elt F)),  -- %270 = broadcast_in_dim %269, dims = [1]
    StableHlo.unary main_v270 main_v271 (broadcastInDim S100000x128 ![0, 1] bcast_S1x128_S100000x128_0_1 : (⟨S1x128, .f32⟩ : BufTy).Contents (Elt F) → (⟨S100000x128, .f32⟩ : BufTy).Contents (Elt F)),  -- %271 = broadcast_in_dim %270, dims = [0, 1]
    StableHlo.binary main_v267 main_v271 main_v272 (subf : (⟨S100000x128, .f32⟩ : BufTy).Contents (Elt F) → (⟨S100000x128, .f32⟩ : BufTy).Contents (Elt F) → (⟨S100000x128, .f32⟩ : BufTy).Contents (Elt F)),  -- %272 = subtract %267, %271
    StableHlo.unary main_arg18 main_v273 ((extractStridedSlice S1x128 ![3, 0] · slices_S4x128_S1x128_3_0) : (⟨S4x128, .f32⟩ : BufTy).Contents (Elt F) → (⟨S1x128, .f32⟩ : BufTy).Contents (Elt F)),  -- %273 = slice %arg18 [3:4, 0:128]
    StableHlo.reshape main_v273 main_v274 rfl shapeCasts_S1x128_S128,  -- %274 = reshape %273
    StableHlo.nullary main_cst_41 (constant S_ .f32 0x3727C5AC#32),  -- %cst_41 = constant dense<9.99999974E-6>
    StableHlo.unary main_cst_41 main_v275 (broadcastInDim S128 ![] bcast_S_S128 : (⟨S_, .f32⟩ : BufTy).Contents (Elt F) → (⟨S128, .f32⟩ : BufTy).Contents (Elt F)),  -- %275 = broadcast_in_dim %cst_41, dims = []
    StableHlo.binary main_v274 main_v275 main_v276 (addf : (⟨S128, .f32⟩ : BufTy).Contents (Elt F) → (⟨S128, .f32⟩ : BufTy).Contents (Elt F) → (⟨S128, .f32⟩ : BufTy).Contents (Elt F)),  -- %276 = add %274, %275
    StableHlo.unary main_v276 main_v277 (Host.rsqrt : (⟨S128, .f32⟩ : BufTy).Contents (Elt F) → (⟨S128, .f32⟩ : BufTy).Contents (Elt F)),  -- %277 = rsqrt %276
    StableHlo.unary main_v277 main_v278 (broadcastInDim S1x128 ![1] bcast_S128_S1x128_1 : (⟨S128, .f32⟩ : BufTy).Contents (Elt F) → (⟨S1x128, .f32⟩ : BufTy).Contents (Elt F)),  -- %278 = broadcast_in_dim %277, dims = [1]
    StableHlo.unary main_v278 main_v279 (broadcastInDim S100000x128 ![0, 1] bcast_S1x128_S100000x128_0_1 : (⟨S1x128, .f32⟩ : BufTy).Contents (Elt F) → (⟨S100000x128, .f32⟩ : BufTy).Contents (Elt F)),  -- %279 = broadcast_in_dim %278, dims = [0, 1]
    StableHlo.binary main_v272 main_v279 main_v280 (mulf : (⟨S100000x128, .f32⟩ : BufTy).Contents (Elt F) → (⟨S100000x128, .f32⟩ : BufTy).Contents (Elt F) → (⟨S100000x128, .f32⟩ : BufTy).Contents (Elt F)),  -- %280 = multiply %272, %279
    StableHlo.unary main_arg15 main_v281 ((extractStridedSlice S1x128 ![3, 0] · slices_S4x128_S1x128_3_0) : (⟨S4x128, .f32⟩ : BufTy).Contents (Elt F) → (⟨S1x128, .f32⟩ : BufTy).Contents (Elt F)),  -- %281 = slice %arg15 [3:4, 0:128]
    StableHlo.reshape main_v281 main_v282 rfl shapeCasts_S1x128_S128,  -- %282 = reshape %281
    StableHlo.unary main_v282 main_v283 (broadcastInDim S1x128 ![1] bcast_S128_S1x128_1 : (⟨S128, .f32⟩ : BufTy).Contents (Elt F) → (⟨S1x128, .f32⟩ : BufTy).Contents (Elt F)),  -- %283 = broadcast_in_dim %282, dims = [1]
    StableHlo.unary main_v283 main_v284 (broadcastInDim S100000x128 ![0, 1] bcast_S1x128_S100000x128_0_1 : (⟨S1x128, .f32⟩ : BufTy).Contents (Elt F) → (⟨S100000x128, .f32⟩ : BufTy).Contents (Elt F)),  -- %284 = broadcast_in_dim %283, dims = [0, 1]
    StableHlo.binary main_v280 main_v284 main_v285 (mulf : (⟨S100000x128, .f32⟩ : BufTy).Contents (Elt F) → (⟨S100000x128, .f32⟩ : BufTy).Contents (Elt F) → (⟨S100000x128, .f32⟩ : BufTy).Contents (Elt F)),  -- %285 = multiply %280, %284
    StableHlo.unary main_arg16 main_v286 ((extractStridedSlice S1x128 ![3, 0] · slices_S4x128_S1x128_3_0) : (⟨S4x128, .f32⟩ : BufTy).Contents (Elt F) → (⟨S1x128, .f32⟩ : BufTy).Contents (Elt F)),  -- %286 = slice %arg16 [3:4, 0:128]
    StableHlo.reshape main_v286 main_v287 rfl shapeCasts_S1x128_S128,  -- %287 = reshape %286
    StableHlo.unary main_v287 main_v288 (broadcastInDim S1x128 ![1] bcast_S128_S1x128_1 : (⟨S128, .f32⟩ : BufTy).Contents (Elt F) → (⟨S1x128, .f32⟩ : BufTy).Contents (Elt F)),  -- %288 = broadcast_in_dim %287, dims = [1]
    StableHlo.unary main_v288 main_v289 (broadcastInDim S100000x128 ![0, 1] bcast_S1x128_S100000x128_0_1 : (⟨S1x128, .f32⟩ : BufTy).Contents (Elt F) → (⟨S100000x128, .f32⟩ : BufTy).Contents (Elt F)),  -- %289 = broadcast_in_dim %288, dims = [0, 1]
    StableHlo.binary main_v285 main_v289 main_v290 (addf : (⟨S100000x128, .f32⟩ : BufTy).Contents (Elt F) → (⟨S100000x128, .f32⟩ : BufTy).Contents (Elt F) → (⟨S100000x128, .f32⟩ : BufTy).Contents (Elt F)) ]  -- %290 = add %285, %289

set_option maxHeartbeats 40000000 in
/-- Window 5, piece 1 (the operations of call 3): 3 operations. -/
abbrev win5_1 : List (HloOp τ sig (Elt F)) :=
  [ StableHlo.TRef.nullary (.of main_call3_cst : StableHlo.TRef sig ⟨S_, .f32⟩) (constant S_ .f32 0x00000000#32),  -- %291 = func.call @relu(%290) > %cst = constant dense<0.000000e+00>
    StableHlo.TRef.unary (.of main_call3_cst : StableHlo.TRef sig ⟨S_, .f32⟩) (.of main_call3_v0 : StableHlo.TRef sig ⟨S100000x128, .f32⟩) (broadcastInDim S100000x128 ![] bcast_S_S100000x128),  -- %291 = func.call @relu(%290) > %0 = broadcast_in_dim %cst, dims = []
    StableHlo.TRef.binary (.of main_v290 : StableHlo.TRef sig ⟨S100000x128, .f32⟩) (.of main_call3_v0 : StableHlo.TRef sig ⟨S100000x128, .f32⟩) (.of main_v291 : StableHlo.TRef sig ⟨S100000x128, .f32⟩) maximumf ]  -- %291 = func.call @relu(%290) > %1 = maximum %arg0, %0

set_option maxHeartbeats 40000000 in
/-- Window 5, piece 2: 20 operations. -/
abbrev win5_2 : List (HloOp τ sig (Elt F)) :=
  [ StableHlo.nullary main_cst_42 (constant S_ .f32 0x3F800000#32),  -- %cst_42 = constant dense<1.000000e+00>
    StableHlo.unary main_cst_42 main_v292 (broadcastInDim S100000 ![] bcast_S_S100000 : (⟨S_, .f32⟩ : BufTy).Contents (Elt F) → (⟨S100000, .f32⟩ : BufTy).Contents (Elt F)),  -- %292 = broadcast_in_dim %cst_42, dims = []
    StableHlo.nullary main_cst_43 (constant S_ .f32 0x00000000#32),  -- %cst_43 = constant dense<0.000000e+00>
    StableHlo.unary main_cst_43 main_v293 (broadcastInDim S512 ![] bcast_S_S512 : (⟨S_, .f32⟩ : BufTy).Contents (Elt F) → (⟨S512, .f32⟩ : BufTy).Contents (Elt F)),  -- %293 = broadcast_in_dim %cst_43, dims = []
    StableHlo.unary main_arg3 main_v294 (broadcastInDim S100000x1 ![0] bcast_S100000_S100000x1_0 : (⟨S100000, .i32⟩ : BufTy).Contents (Elt F) → (⟨S100000x1, .i32⟩ : BufTy).Contents (Elt F)),  -- %294 = broadcast_in_dim %arg3, dims = [0]
    StableHlo.ternary main_v293 main_v294 main_v292 main_v295 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),  -- %295 = "scatter"(%293, %294, %292)
    StableHlo.nullary main_cst_44 (constant S_ .f32 0x3F800000#32),  -- %cst_44 = constant dense<1.000000e+00>
    StableHlo.unary main_cst_44 main_v296 (broadcastInDim S512 ![] bcast_S_S512 : (⟨S_, .f32⟩ : BufTy).Contents (Elt F) → (⟨S512, .f32⟩ : BufTy).Contents (Elt F)),  -- %296 = broadcast_in_dim %cst_44, dims = []
    StableHlo.binary main_v295 main_v296 main_v297 (maximumf : (⟨S512, .f32⟩ : BufTy).Contents (Elt F) → (⟨S512, .f32⟩ : BufTy).Contents (Elt F) → (⟨S512, .f32⟩ : BufTy).Contents (Elt F)),  -- %297 = maximum %295, %296
    StableHlo.nullary main_cst_45 (constant S_ .f32 0x00000000#32),  -- %cst_45 = constant dense<0.000000e+00>
    StableHlo.unary main_cst_45 main_v298 (broadcastInDim S512x128 ![] bcast_S_S512x128 : (⟨S_, .f32⟩ : BufTy).Contents (Elt F) → (⟨S512x128, .f32⟩ : BufTy).Contents (Elt F)),  -- %298 = broadcast_in_dim %cst_45, dims = []
    StableHlo.unary main_arg3 main_v299 (broadcastInDim S100000x1 ![0] bcast_S100000_S100000x1_0 : (⟨S100000, .i32⟩ : BufTy).Contents (Elt F) → (⟨S100000x1, .i32⟩ : BufTy).Contents (Elt F)),  -- %299 = broadcast_in_dim %arg3, dims = [0]
    StableHlo.ternary main_v298 main_v299 main_v291 main_v300 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),  -- %300 = "scatter"(%298, %299, %291)
    StableHlo.unary main_v297 main_v301 (broadcastInDim S512x1 ![0] bcast_S512_S512x1_0 : (⟨S512, .f32⟩ : BufTy).Contents (Elt F) → (⟨S512x1, .f32⟩ : BufTy).Contents (Elt F)),  -- %301 = broadcast_in_dim %297, dims = [0]
    StableHlo.unary main_v301 main_v302 (broadcastInDim S512x128 ![0, 1] bcast_S512x1_S512x128_0_1 : (⟨S512x1, .f32⟩ : BufTy).Contents (Elt F) → (⟨S512x128, .f32⟩ : BufTy).Contents (Elt F)),  -- %302 = broadcast_in_dim %301, dims = [0, 1]
    StableHlo.binary main_v300 main_v302 main_v303 (Host.divf : (⟨S512x128, .f32⟩ : BufTy).Contents (Elt F) → (⟨S512x128, .f32⟩ : BufTy).Contents (Elt F) → (⟨S512x128, .f32⟩ : BufTy).Contents (Elt F)),  -- %303 = divide %300, %302
    StableHlo.binary main_v303 main_arg19 main_v304 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),  -- %304 = dot_general %303, %arg19, contracting_dims = [1] x [0], precision = [DEFAULT, DEFAU
    StableHlo.unary main_arg20 main_v305 (broadcastInDim S1x64 ![1] bcast_S64_S1x64_1 : (⟨S64, .f32⟩ : BufTy).Contents (Elt F) → (⟨S1x64, .f32⟩ : BufTy).Contents (Elt F)),  -- %305 = broadcast_in_dim %arg20, dims = [1]
    StableHlo.unary main_v305 main_v306 (broadcastInDim S512x64 ![0, 1] bcast_S1x64_S512x64_0_1 : (⟨S1x64, .f32⟩ : BufTy).Contents (Elt F) → (⟨S512x64, .f32⟩ : BufTy).Contents (Elt F)),  -- %306 = broadcast_in_dim %305, dims = [0, 1]
    StableHlo.binary main_v304 main_v306 main_v307 (addf : (⟨S512x64, .f32⟩ : BufTy).Contents (Elt F) → (⟨S512x64, .f32⟩ : BufTy).Contents (Elt F) → (⟨S512x64, .f32⟩ : BufTy).Contents (Elt F)) ]  -- %307 = add %304, %306

set_option maxHeartbeats 40000000 in
/-- Window 5, piece 3 (the operations of call 4): 15 operations. -/
abbrev win5_3 : List (HloOp τ sig (Elt F)) :=
  [ StableHlo.TRef.nullary (.of main_call4_cst : StableHlo.TRef sig ⟨S_, .f32⟩) (constant S_ .f32 0x00000000#32),  -- %308 = func.call @elu_1(%307) > %cst = constant dense<0.000000e+00>
    StableHlo.TRef.unary (.of main_call4_cst : StableHlo.TRef sig ⟨S_, .f32⟩) (.of main_call4_v0 : StableHlo.TRef sig ⟨S512x64, .f32⟩) (broadcastInDim S512x64 ![] bcast_S_S512x64),  -- %308 = func.call @elu_1(%307) > %0 = broadcast_in_dim %cst, dims = []
    StableHlo.TRef.binary (.of main_v307 : StableHlo.TRef sig ⟨S512x64, .f32⟩) (.of main_call4_v0 : StableHlo.TRef sig ⟨S512x64, .f32⟩) (.of main_call4_v1 : StableHlo.TRef sig ⟨S512x64, .i1⟩) (cmpf .ogt),  -- %308 = func.call @elu_1(%307) > %1 = compare GT, %arg0, %0, FLOAT
    StableHlo.TRef.nullary (.of main_call4_cst_0 : StableHlo.TRef sig ⟨S_, .f32⟩) (constant S_ .f32 0x00000000#32),  -- %308 = func.call @elu_1(%307) > %cst_0 = constant dense<0.000000e+00>
    StableHlo.TRef.unary (.of main_call4_cst_0 : StableHlo.TRef sig ⟨S_, .f32⟩) (.of main_call4_v2 : StableHlo.TRef sig ⟨S512x64, .f32⟩) (broadcastInDim S512x64 ![] bcast_S_S512x64),  -- %308 = func.call @elu_1(%307) > %2 = broadcast_in_dim %cst_0, dims = []
    StableHlo.TRef.binary (.of main_v307 : StableHlo.TRef sig ⟨S512x64, .f32⟩) (.of main_call4_v2 : StableHlo.TRef sig ⟨S512x64, .f32⟩) (.of main_call4_v3 : StableHlo.TRef sig ⟨S512x64, .i1⟩) (cmpf .ogt),  -- %308 = func.call @elu_1(%307) > %3 = compare GT, %arg0, %2, FLOAT
    StableHlo.TRef.nullary (.of main_call4_cst_1 : StableHlo.TRef sig ⟨S_, .f32⟩) (constant S_ .f32 0x00000000#32),  -- %308 = func.call @elu_1(%307) > %cst_1 = constant dense<0.000000e+00>
    StableHlo.TRef.unary (.of main_call4_cst_1 : StableHlo.TRef sig ⟨S_, .f32⟩) (.of main_call4_call0_v0 : StableHlo.TRef sig ⟨S_, .f32⟩) id,  -- %308 = func.call @elu_1(%307) > %4 = func.call @_where_2(%3, %cst_1, %arg0) > %0 = convert %arg1
    StableHlo.TRef.unary (.of main_call4_call0_v0 : StableHlo.TRef sig ⟨S_, .f32⟩) (.of main_call4_call0_v1 : StableHlo.TRef sig ⟨S512x64, .f32⟩) (broadcastInDim S512x64 ![] bcast_S_S512x64),  -- %308 = func.call @elu_1(%307) > %4 = func.call @_where_2(%3, %cst_1, %arg0) > %1 = broadcast_in_dim %0, dims = []
    StableHlo.TRef.ternary (.of main_call4_v3 : StableHlo.TRef sig ⟨S512x64, .i1⟩) (.of main_call4_call0_v1 : StableHlo.TRef sig ⟨S512x64, .f32⟩) (.of main_v307 : StableHlo.TRef sig ⟨S512x64, .f32⟩) (.of main_call4_v4 : StableHlo.TRef sig ⟨S512x64, .f32⟩) select,  -- %308 = func.call @elu_1(%307) > %4 = func.call @_where_2(%3, %cst_1, %arg0) > %2 = select %arg0, %1, %arg2
    StableHlo.TRef.unary (.of main_call4_v4 : StableHlo.TRef sig ⟨S512x64, .f32⟩) (.of main_call4_v5 : StableHlo.TRef sig ⟨S512x64, .f32⟩) Host.expm1,  -- %308 = func.call @elu_1(%307) > %5 = exponential_minus_one %4
    StableHlo.TRef.nullary (.of main_call4_cst_2 : StableHlo.TRef sig ⟨S_, .f32⟩) (constant S_ .f32 0x3F800000#32),  -- %308 = func.call @elu_1(%307) > %cst_2 = constant dense<1.000000e+00>
    StableHlo.TRef.unary (.of main_call4_cst_2 : StableHlo.TRef sig ⟨S_, .f32⟩) (.of main_call4_v6 : StableHlo.TRef sig ⟨S512x64, .f32⟩) (broadcastInDim S512x64 ![] bcast_S_S512x64),  -- %308 = func.call @elu_1(%307) > %6 = broadcast_in_dim %cst_2, dims = []
    StableHlo.TRef.binary (.of main_call4_v6 : StableHlo.TRef sig ⟨S512x64, .f32⟩) (.of main_call4_v5 : StableHlo.TRef sig ⟨S512x64, .f32⟩) (.of main_call4_v7 : StableHlo.TRef sig ⟨S512x64, .f32⟩) mulf,  -- %308 = func.call @elu_1(%307) > %7 = multiply %6, %5
    StableHlo.TRef.ternary (.of main_call4_v1 : StableHlo.TRef sig ⟨S512x64, .i1⟩) (.of main_v307 : StableHlo.TRef sig ⟨S512x64, .f32⟩) (.of main_call4_v7 : StableHlo.TRef sig ⟨S512x64, .f32⟩) (.of main_v308 : StableHlo.TRef sig ⟨S512x64, .f32⟩) select ]  -- %308 = func.call @elu_1(%307) > %8 = func.call @_where_3(%1, %arg0, %7) > %0 = select %arg0, %arg1, %arg2

set_option maxHeartbeats 40000000 in
/-- Window 5, piece 4: 3 operations. -/
abbrev win5_4 : List (HloOp τ sig (Elt F)) :=
  [ StableHlo.binary main_v308 main_arg21 main_v309 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),  -- %309 = dot_general %308, %arg21, contracting_dims = [1] x [0], precision = [DEFAULT, DEFAU
    StableHlo.unary main_arg22 main_v310 (broadcastInDim S1x1 ![1] bcast_S1_S1x1_1 : (⟨S1, .f32⟩ : BufTy).Contents (Elt F) → (⟨S1x1, .f32⟩ : BufTy).Contents (Elt F)),  -- %310 = broadcast_in_dim %arg22, dims = [1]
    StableHlo.unary main_v310 main_v311 (broadcastInDim S512x1 ![0, 1] bcast_S1x1_S512x1_0_1 : (⟨S1x1, .f32⟩ : BufTy).Contents (Elt F) → (⟨S512x1, .f32⟩ : BufTy).Contents (Elt F)) ]  -- %311 = broadcast_in_dim %310, dims = [0, 1]

set_option maxHeartbeats 40000000 in
/-- Window 6, piece 0: 1 operations. -/
abbrev win6_0 : List (HloOp τ sig (Elt F)) :=
  [ StableHlo.binary main_v309 main_v311 main_v312 (addf : (⟨S512x1, .f32⟩ : BufTy).Contents (Elt F) → (⟨S512x1, .f32⟩ : BufTy).Contents (Elt F) → (⟨S512x1, .f32⟩ : BufTy).Contents (Elt F)) ]  -- %312 = add %309, %311

end Cert.ReferenceIdeal.RefRun

end
-- ==== Proof.RefRun.lean ====
/- The reference program's run. @main is printed in seven windows, with three of its functions called (one of them
   calling two more); each window is the chain of its pieces, the pieces' concatenation is the operation list `ops`,
   and so @main is the straight line `seq ops`: every weakly fair execution terminates with each TensorCore buffer at
   the fold of `ops` over its launch contents. -/
import proofs.«127358_j57011395887506_2_alg».proof.Proof.RefOps
import proofs.«127358_j57011395887506_2_alg».proof.Proof.RefWin0
import proofs.«127358_j57011395887506_2_alg».proof.Proof.RefWin1
import proofs.«127358_j57011395887506_2_alg».proof.Proof.RefWin2
import proofs.«127358_j57011395887506_2_alg».proof.Proof.RefWin3
import proofs.«127358_j57011395887506_2_alg».proof.Proof.RefWin4
import proofs.«127358_j57011395887506_2_alg».proof.Proof.RefWin5
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The chain of some straight lines is the straight line of their concatenation. -/
theorem chain_map_seq {n : Nat} {t : Topo} {s : RefSig} {Val : EltTy → Type} {Λ : Labels} (ls : List (List (HloOp t s Val))) :
    (Pipeline.chain (ls.map seq) : Prog (TpuEff n t s Val Λ .tc) PUnit) = seq ls.flatten := by
  induction ls with
  | nil => rfl
  | cons a ls ih => rw [List.map_cons, Pipeline.chain_cons, ih, List.flatten_cons, seq_append]

/-- The pieces of the seven windows, in order. -/
abbrev pieces : List (List (HloOp τ sig (Elt F))) :=
  [win0_0, win1_0, win2_0, win2_1, win2_2, win3_0, win3_1, win3_2, win4_0, win4_1, win4_2, win5_0, win5_1, win5_2, win5_3, win5_4, win6_0]

/-- The pieces' concatenation is the operation list: the same 419 operations, cut at the windows and calls on one side
    and at the layers' stages on the other. -/
theorem pieces_flatten : (pieces : List (List (HloOp τ sig (Elt F)))).flatten = ops := by
  chain_rfl

/-- Window 0 is the chain of its pieces ending in the last (no closing return: its last statement is in tail position). -/
theorem part0_chain (c : Dev nD) : main_part0 (F := F) c = (Pipeline.chainK [] (seq win0_0) : Prog (TpuEff nD τ sig (Elt F) (Pipeline.Sig Λ₀ (Fin 0) fun p => (pcfgs (F := F) p).Adm) .tc) PUnit) := by
  chain_rfl

/-- Window 1 is the chain of its pieces ending in the last (no closing return: its last statement is in tail position). -/
theorem part1_chain (c : Dev nD) : main_part1 (F := F) c = (Pipeline.chainK [] (seq win1_0) : Prog (TpuEff nD τ sig (Elt F) (Pipeline.Sig Λ₀ (Fin 0) fun p => (pcfgs (F := F) p).Adm) .tc) PUnit) := by
  chain_rfl

/-- Window 2 is the chain of its pieces ending in the last (no closing return: its last statement is in tail position). -/
theorem part2_chain (c : Dev nD) : main_part2 (F := F) c = (Pipeline.chainK [seq win2_0, seq win2_1] (seq win2_2) : Prog (TpuEff nD τ sig (Elt F) (Pipeline.Sig Λ₀ (Fin 0) fun p => (pcfgs (F := F) p).Adm) .tc) PUnit) := by
  chain_rfl

/-- Window 3 is the chain of its pieces ending in the last (no closing return: its last statement is in tail position). -/
theorem part3_chain (c : Dev nD) : main_part3 (F := F) c = (Pipeline.chainK [seq win3_0, seq win3_1] (seq win3_2) : Prog (TpuEff nD τ sig (Elt F) (Pipeline.Sig Λ₀ (Fin 0) fun p => (pcfgs (F := F) p).Adm) .tc) PUnit) := by
  chain_rfl

/-- Window 4 is the chain of its pieces ending in the last (no closing return: its last statement is in tail position). -/
theorem part4_chain (c : Dev nD) : main_part4 (F := F) c = (Pipeline.chainK [seq win4_0, seq win4_1] (seq win4_2) : Prog (TpuEff nD τ sig (Elt F) (Pipeline.Sig Λ₀ (Fin 0) fun p => (pcfgs (F := F) p).Adm) .tc) PUnit) := by
  chain_rfl

/-- Window 5 is the chain of its pieces ending in the last (no closing return: its last statement is in tail position). -/
theorem part5_chain (c : Dev nD) : main_part5 (F := F) c = (Pipeline.chainK [seq win5_0, seq win5_1, seq win5_2, seq win5_3] (seq win5_4) : Prog (TpuEff nD τ sig (Elt F) (Pipeline.Sig Λ₀ (Fin 0) fun p => (pcfgs (F := F) p).Adm) .tc) PUnit) := by
  chain_rfl

/-- The last window is the chain of its one piece, closed by the return. -/
theorem part6_chain (c : Dev nD) : main_part6 (F := F) c = (Pipeline.chain [seq win6_0] : Prog (TpuEff nD τ sig (Elt F) (Pipeline.Sig Λ₀ (Fin 0) fun p => (pcfgs (F := F) p).Adm) .tc) PUnit) := by
  chain_rfl

/-- @main is the chain of its windows' pieces: the last window's equation, then each earlier one's followed by the
    re-association of its chain into the rest's. -/
theorem main_chain (c : Dev nD) : main (F := F) c = (Pipeline.chain ((pieces (F := F)).map seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [part6_chain, part5_chain, Pipeline.chainK_bind_chain, part4_chain, Pipeline.chainK_bind_chain, part3_chain, Pipeline.chainK_bind_chain,
    part2_chain, Pipeline.chainK_bind_chain, part1_chain, Pipeline.chainK_bind_chain, part0_chain, Pipeline.chainK_bind_chain]
  chain_rfl

/-- @main is the straight line of its operations. -/
theorem main_eq (c : Dev nD) : main (F := F) c = seq ops :=
  (main_chain c).trans ((chain_map_seq _).trans (congrArg seq pieces_flatten))

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main on
    the TensorCores terminates, and every final state has each TensorCore buffer at the fold of the operations over
    its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefKeep.lean ====
/- Which buffers a line of operations leaves as they were: every reference outside a list holding each reference the
   line writes. Lines compose: the concatenation of two lines keeps what is outside both lists. -/
import Idealize.ShloMosaic.Lib.StableHlo.Run

namespace Cert.ReferenceIdeal.RefRun

open Idealize.ShloMosaic Idealize.ShloMosaic.TcCoe Idealize.SL.Sem Idealize.ShloMosaic.StableHlo

variable {t : Topo} {s : RefSig} {Val : EltTy → Type}

/-- A single written reference that is in the list is, as a set of device buffers, within the list's. -/
theorem writes_sub_of_mem {W : List (Ref s .tc)} {y : Ref s .tc} (h : y ∈ W) :
    ({(Proc.devRef .tc y : DevRef t s)} : Finset (DevRef t s)) ⊆ (W.map (Proc.devRef (τ := t) .tc)).toFinset :=
  Finset.singleton_subset_iff.2 (List.mem_toFinset.2 (List.mem_map_of_mem h))

/-- The line `l` leaves every reference outside `W` as it was, from any contents. -/
def Keeps (l : List (HloOp t s Val)) (W : List (Ref s .tc)) : Prop :=
  ∀ (V : Valuation t s Val) (r : Ref s .tc), r ∉ W → after l V (Proc.devRef .tc r) = V (Proc.devRef .tc r)

/-- A line whose operations write within `W` keeps what is outside `W`. -/
theorem Keeps.of_writes_sub {l : List (HloOp t s Val)} {W : List (Ref s .tc)}
    (h : l.Forall fun op => op.writes ⊆ (W.map (Proc.devRef (τ := t) .tc)).toFinset) : Keeps l W :=
  fun V _ hr => after_of_writes_sub l V h hr

/-- Two lines one after the other keep what is outside both lists. -/
theorem Keeps.append {a b : List (HloOp t s Val)} {Wa Wb : List (Ref s .tc)} (ha : Keeps a Wa) (hb : Keeps b Wb) :
    Keeps (a ++ b) (Wa ++ Wb) := by
  intro V r h
  have split : ∀ (x y : List (HloOp t s Val)) (U : Valuation t s Val), after (x ++ y) U = after y (after x U) := by
    intro x
    induction x with
    | nil => intro _ _; rfl
    | cons op x ih => intro y U; simp only [List.cons_append, after_cons, ih]
  rw [split, hb _ _ (fun hm => h (List.mem_append_right _ hm)), ha _ _ (fun hm => h (List.mem_append_left _ hm))]

/-- Keeping is monotone in the list. -/
theorem Keeps.mono {l : List (HloOp t s Val)} {W W' : List (Ref s .tc)} (h : Keeps l W) (hW : ∀ r ∈ W, r ∈ W') : Keeps l W' :=
  fun V r hr => h V r (fun hm => hr (hW r hm))

end Cert.ReferenceIdeal.RefRun
-- ==== Proof.RefWrites0.lean ====
/- The references written by the operations of part 0 of the reference's operation list, segment by segment, and that each segment keeps every other reference. -/
import proofs.«127358_j57011395887506_2_alg».proof.Proof.RefOps0
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `pre` write, in order. -/
abbrev pre_writes : List (Ref sig .tc) :=
  [main_cst, main_v0, main_cst_0, main_v1, main_v2, main_v3, main_cst_1, main_v4, main_v5, main_cst_2, main_v6, main_v7, main_v8, main_v9, main_v10, main_v11, main_v12, main_v13, main_v14, main_v15, main_v16, main_v17, main_cst_3, main_v18, main_cst_4, main_v19, main_v20, main_v21, main_v22, main_v23, main_v24, main_cst_5, main_v25, main_v26, main_v27, main_v28, main_c, main_v29, main_v30, main_c_6, main_v31, main_v32, main_v33, main_v34, main_v35, main_v36, main_v37, main_v38, main_v39, main_v40, main_cst_7, main_v41, main_cst_8, main_v42, main_v43, main_v44, main_cst_9, main_v45, main_v46, main_v47]

set_option maxHeartbeats 40000000 in
/-- Each operation of `pre` writes within that list. -/
theorem pre_writes_sub : (pre : List (HloOp τ sig (Elt F))).Forall fun op => op.writes ⊆ (pre_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `pre` keeps every reference it does not write. -/
theorem pre_keeps : Keeps (pre (F := F)) pre_writes := Keeps.of_writes_sub pre_writes_sub

end Cert.ReferenceIdeal.RefRun

end
-- ==== Proof.RefWrites1.lean ====
/- The references written by the operations of part 1 of the reference's operation list, segment by segment, and that each segment keeps every other reference. -/
import proofs.«127358_j57011395887506_2_alg».proof.Proof.RefOps1
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `dense0` write, in order. -/
abbrev dense0_writes : List (Ref sig .tc) :=
  [main_v48]

set_option maxHeartbeats 40000000 in
/-- Each operation of `dense0` writes within that list. -/
theorem dense0_writes_sub : (dense0 : List (HloOp τ sig (Elt F))).Forall fun op => op.writes ⊆ (dense0_writes.map (Proc.devRef (τ := τ) .tc)).toFinset :=
  writes_sub_of_mem (by decide)

/-- `dense0` keeps every reference it does not write. -/
theorem dense0_keeps : Keeps (dense0 (F := F)) dense0_writes := Keeps.of_writes_sub dense0_writes_sub

/-- The references the operations of `agg0` write, in order. -/
abbrev agg0_writes : List (Ref sig .tc) :=
  [main_c_10, main_v49, main_v50, main_c_11, main_v51, main_v52, main_v53, main_v54, main_v55, main_c_12, main_v56, main_v57, main_c_13, main_v58, main_v59, main_v60, main_v61, main_v62, main_v63, main_c_14, main_v64, main_v65, main_c_15, main_v66, main_v67, main_v68, main_v69, main_v70, main_v71, main_v72, main_v73, main_cst_16, main_v74, main_v75, main_v76]

set_option maxHeartbeats 40000000 in
/-- Each operation of `agg0` writes within that list. -/
theorem agg0_writes_sub : (agg0 : List (HloOp τ sig (Elt F))).Forall fun op => op.writes ⊆ (agg0_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `agg0` keeps every reference it does not write. -/
theorem agg0_keeps : Keeps (agg0 (F := F)) agg0_writes := Keeps.of_writes_sub agg0_writes_sub

/-- The references the operations of `norm0` write, in order. -/
abbrev norm0_writes : List (Ref sig .tc) :=
  [main_v77, main_v78, main_v79, main_v80, main_v81, main_v82, main_v83, main_v84, main_v85, main_v86, main_v87, main_v88, main_v89, main_v90, main_v91, main_cst_17, main_v92, main_v93, main_v94, main_v95, main_v96, main_v97, main_v98, main_v99, main_v100, main_v101, main_v102, main_v103, main_v104, main_v105, main_v106, main_v107, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v108]

set_option maxHeartbeats 40000000 in
/-- Each operation of `norm0` writes within that list. -/
theorem norm0_writes_sub : (norm0 : List (HloOp τ sig (Elt F))).Forall fun op => op.writes ⊆ (norm0_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `norm0` keeps every reference it does not write. -/
theorem norm0_keeps : Keeps (norm0 (F := F)) norm0_writes := Keeps.of_writes_sub norm0_writes_sub

end Cert.ReferenceIdeal.RefRun

end
-- ==== Proof.RefWrites2.lean ====
/- The references written by the operations of part 2 of the reference's operation list, segment by segment, and that each segment keeps every other reference. -/
import proofs.«127358_j57011395887506_2_alg».proof.Proof.RefOps2
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `dense1` write, in order. -/
abbrev dense1_writes : List (Ref sig .tc) :=
  [main_v109]

set_option maxHeartbeats 40000000 in
/-- Each operation of `dense1` writes within that list. -/
theorem dense1_writes_sub : (dense1 : List (HloOp τ sig (Elt F))).Forall fun op => op.writes ⊆ (dense1_writes.map (Proc.devRef (τ := τ) .tc)).toFinset :=
  writes_sub_of_mem (by decide)

/-- `dense1` keeps every reference it does not write. -/
theorem dense1_keeps : Keeps (dense1 (F := F)) dense1_writes := Keeps.of_writes_sub dense1_writes_sub

/-- The references the operations of `agg1` write, in order. -/
abbrev agg1_writes : List (Ref sig .tc) :=
  [main_c_18, main_v110, main_v111, main_c_19, main_v112, main_v113, main_v114, main_v115, main_v116, main_c_20, main_v117, main_v118, main_c_21, main_v119, main_v120, main_v121, main_v122, main_v123, main_v124, main_c_22, main_v125, main_v126, main_c_23, main_v127, main_v128, main_v129, main_v130, main_v131, main_v132, main_v133, main_v134, main_cst_24, main_v135, main_v136, main_v137]

set_option maxHeartbeats 40000000 in
/-- Each operation of `agg1` writes within that list. -/
theorem agg1_writes_sub : (agg1 : List (HloOp τ sig (Elt F))).Forall fun op => op.writes ⊆ (agg1_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `agg1` keeps every reference it does not write. -/
theorem agg1_keeps : Keeps (agg1 (F := F)) agg1_writes := Keeps.of_writes_sub agg1_writes_sub

/-- The references the operations of `norm1` write, in order. -/
abbrev norm1_writes : List (Ref sig .tc) :=
  [main_v138, main_v139, main_v140, main_v141, main_v142, main_v143, main_v144, main_v145, main_v146, main_v147, main_v148, main_v149, main_v150, main_v151, main_v152, main_cst_25, main_v153, main_v154, main_v155, main_v156, main_v157, main_v158, main_v159, main_v160, main_v161, main_v162, main_v163, main_v164, main_v165, main_v166, main_v167, main_v168, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v169]

set_option maxHeartbeats 40000000 in
/-- Each operation of `norm1` writes within that list. -/
theorem norm1_writes_sub : (norm1 : List (HloOp τ sig (Elt F))).Forall fun op => op.writes ⊆ (norm1_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `norm1` keeps every reference it does not write. -/
theorem norm1_keeps : Keeps (norm1 (F := F)) norm1_writes := Keeps.of_writes_sub norm1_writes_sub

end Cert.ReferenceIdeal.RefRun

end
-- ==== Proof.RefWrites3.lean ====
/- The references written by the operations of part 3 of the reference's operation list, segment by segment, and that each segment keeps every other reference. -/
import proofs.«127358_j57011395887506_2_alg».proof.Proof.RefOps3
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `dense2` write, in order. -/
abbrev dense2_writes : List (Ref sig .tc) :=
  [main_v170]

set_option maxHeartbeats 40000000 in
/-- Each operation of `dense2` writes within that list. -/
theorem dense2_writes_sub : (dense2 : List (HloOp τ sig (Elt F))).Forall fun op => op.writes ⊆ (dense2_writes.map (Proc.devRef (τ := τ) .tc)).toFinset :=
  writes_sub_of_mem (by decide)

/-- `dense2` keeps every reference it does not write. -/
theorem dense2_keeps : Keeps (dense2 (F := F)) dense2_writes := Keeps.of_writes_sub dense2_writes_sub

/-- The references the operations of `agg2` write, in order. -/
abbrev agg2_writes : List (Ref sig .tc) :=
  [main_c_26, main_v171, main_v172, main_c_27, main_v173, main_v174, main_v175, main_v176, main_v177, main_c_28, main_v178, main_v179, main_c_29, main_v180, main_v181, main_v182, main_v183, main_v184, main_v185, main_c_30, main_v186, main_v187, main_c_31, main_v188, main_v189, main_v190, main_v191, main_v192, main_v193, main_v194, main_v195, main_cst_32, main_v196, main_v197, main_v198]

set_option maxHeartbeats 40000000 in
/-- Each operation of `agg2` writes within that list. -/
theorem agg2_writes_sub : (agg2 : List (HloOp τ sig (Elt F))).Forall fun op => op.writes ⊆ (agg2_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `agg2` keeps every reference it does not write. -/
theorem agg2_keeps : Keeps (agg2 (F := F)) agg2_writes := Keeps.of_writes_sub agg2_writes_sub

/-- The references the operations of `norm2` write, in order. -/
abbrev norm2_writes : List (Ref sig .tc) :=
  [main_v199, main_v200, main_v201, main_v202, main_v203, main_v204, main_v205, main_v206, main_v207, main_v208, main_v209, main_v210, main_v211, main_v212, main_v213, main_cst_33, main_v214, main_v215, main_v216, main_v217, main_v218, main_v219, main_v220, main_v221, main_v222, main_v223, main_v224, main_v225, main_v226, main_v227, main_v228, main_v229, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v230]

set_option maxHeartbeats 40000000 in
/-- Each operation of `norm2` writes within that list. -/
theorem norm2_writes_sub : (norm2 : List (HloOp τ sig (Elt F))).Forall fun op => op.writes ⊆ (norm2_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `norm2` keeps every reference it does not write. -/
theorem norm2_keeps : Keeps (norm2 (F := F)) norm2_writes := Keeps.of_writes_sub norm2_writes_sub

end Cert.ReferenceIdeal.RefRun

end
-- ==== Proof.RefWrites4.lean ====
/- The references written by the operations of part 4 of the reference's operation list, segment by segment, and that each segment keeps every other reference. -/
import proofs.«127358_j57011395887506_2_alg».proof.Proof.RefOps4
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `dense3` write, in order. -/
abbrev dense3_writes : List (Ref sig .tc) :=
  [main_v231]

set_option maxHeartbeats 40000000 in
/-- Each operation of `dense3` writes within that list. -/
theorem dense3_writes_sub : (dense3 : List (HloOp τ sig (Elt F))).Forall fun op => op.writes ⊆ (dense3_writes.map (Proc.devRef (τ := τ) .tc)).toFinset :=
  writes_sub_of_mem (by decide)

/-- `dense3` keeps every reference it does not write. -/
theorem dense3_keeps : Keeps (dense3 (F := F)) dense3_writes := Keeps.of_writes_sub dense3_writes_sub

/-- The references the operations of `agg3` write, in order. -/
abbrev agg3_writes : List (Ref sig .tc) :=
  [main_c_34, main_v232, main_v233, main_c_35, main_v234, main_v235, main_v236, main_v237, main_v238, main_c_36, main_v239, main_v240, main_c_37, main_v241, main_v242, main_v243, main_v244, main_v245, main_v246, main_c_38, main_v247, main_v248, main_c_39, main_v249, main_v250, main_v251, main_v252, main_v253, main_v254, main_v255, main_v256, main_cst_40, main_v257, main_v258, main_v259]

set_option maxHeartbeats 40000000 in
/-- Each operation of `agg3` writes within that list. -/
theorem agg3_writes_sub : (agg3 : List (HloOp τ sig (Elt F))).Forall fun op => op.writes ⊆ (agg3_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `agg3` keeps every reference it does not write. -/
theorem agg3_keeps : Keeps (agg3 (F := F)) agg3_writes := Keeps.of_writes_sub agg3_writes_sub

/-- The references the operations of `norm3` write, in order. -/
abbrev norm3_writes : List (Ref sig .tc) :=
  [main_v260, main_v261, main_v262, main_v263, main_v264, main_v265, main_v266, main_v267, main_v268, main_v269, main_v270, main_v271, main_v272, main_v273, main_v274, main_cst_41, main_v275, main_v276, main_v277, main_v278, main_v279, main_v280, main_v281, main_v282, main_v283, main_v284, main_v285, main_v286, main_v287, main_v288, main_v289, main_v290, main_call3_cst, main_call3_v0, main_v291]

set_option maxHeartbeats 40000000 in
/-- Each operation of `norm3` writes within that list. -/
theorem norm3_writes_sub : (norm3 : List (HloOp τ sig (Elt F))).Forall fun op => op.writes ⊆ (norm3_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `norm3` keeps every reference it does not write. -/
theorem norm3_keeps : Keeps (norm3 (F := F)) norm3_writes := Keeps.of_writes_sub norm3_writes_sub

end Cert.ReferenceIdeal.RefRun

end
-- ==== Proof.RefWrites5.lean ====
/- The references written by the operations of part 5 of the reference's operation list, segment by segment, and that each segment keeps every other reference. -/
import proofs.«127358_j57011395887506_2_alg».proof.Proof.RefOps5
import proofs.«127358_j57011395887506_2_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the operations of `tail` write, in order. -/
abbrev tail_writes : List (Ref sig .tc) :=
  [main_cst_42, main_v292, main_cst_43, main_v293, main_v294, main_v295, main_cst_44, main_v296, main_v297, main_cst_45, main_v298, main_v299, main_v300, main_v301, main_v302, main_v303, main_v304, main_v305, main_v306, main_v307, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v308, main_v309, main_v310, main_v311, main_v312]

set_option maxHeartbeats 40000000 in
/-- Each operation of `tail` writes within that list. -/
theorem tail_writes_sub : (tail : List (HloOp τ sig (Elt F))).Forall fun op => op.writes ⊆ (tail_writes.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- `tail` keeps every reference it does not write. -/
theorem tail_keeps : Keeps (tail (F := F)) tail_writes := Keeps.of_writes_sub tail_writes_sub

end Cert.ReferenceIdeal.RefRun

end
-- ==== Proof.RefFrame.lean ====
/- The reference's frame: @main runs to completion from any memory and leaves its 23 argument arrays as they were.
   No operation of the line writes an argument: each segment writes only its own statements' buffers, so the fold of
   the whole line at an argument is the launch contents there. -/
import proofs.«127358_j57011395887506_2_alg».proof.Proof.RefRun
import proofs.«127358_j57011395887506_2_alg».proof.Proof.RefWrites0
import proofs.«127358_j57011395887506_2_alg».proof.Proof.RefWrites1
import proofs.«127358_j57011395887506_2_alg».proof.Proof.RefWrites2
import proofs.«127358_j57011395887506_2_alg».proof.Proof.RefWrites3
import proofs.«127358_j57011395887506_2_alg».proof.Proof.RefWrites4
import proofs.«127358_j57011395887506_2_alg».proof.Proof.RefWrites5
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references the whole line writes, segment by segment. -/
abbrev ops_writes : List (Ref sig .tc) :=
  pre_writes ++ dense0_writes ++ agg0_writes ++ norm0_writes ++ dense1_writes ++ agg1_writes ++ norm1_writes ++ dense2_writes ++ agg2_writes ++ norm2_writes ++ dense3_writes ++ agg3_writes ++ norm3_writes ++ tail_writes

/-- The whole line keeps every reference it does not write. -/
theorem ops_keeps : Keeps (ops (F := F)) ops_writes :=
  (((((((((((((pre_keeps.append dense0_keeps).append agg0_keeps).append norm0_keeps).append dense1_keeps).append agg1_keeps).append norm1_keeps).append dense2_keeps).append agg2_keeps).append norm2_keeps).append dense3_keeps).append agg3_keeps).append norm3_keeps).append tail_keeps)

/-- Argument 0 is not written. -/
theorem arg_kept_0 (V : Valuation τ sig (Elt F)) : after ops V (Proc.devRef .tc main_arg0) = V (Proc.devRef .tc main_arg0) :=
  ops_keeps V main_arg0 (by decide)
/-- Argument 1 is not written. -/
theorem arg_kept_1 (V : Valuation τ sig (Elt F)) : after ops V (Proc.devRef .tc main_arg1) = V (Proc.devRef .tc main_arg1) :=
  ops_keeps V main_arg1 (by decide)
/-- Argument 2 is not written. -/
theorem arg_kept_2 (V : Valuation τ sig (Elt F)) : after ops V (Proc.devRef .tc main_arg2) = V (Proc.devRef .tc main_arg2) :=
  ops_keeps V main_arg2 (by decide)
/-- Argument 3 is not written. -/
theorem arg_kept_3 (V : Valuation τ sig (Elt F)) : after ops V (Proc.devRef .tc main_arg3) = V (Proc.devRef .tc main_arg3) :=
  ops_keeps V main_arg3 (by decide)
/-- Argument 4 is not written. -/
theorem arg_kept_4 (V : Valuation τ sig (Elt F)) : after ops V (Proc.devRef .tc main_arg4) = V (Proc.devRef .tc main_arg4) :=
  ops_keeps V main_arg4 (by decide)
/-- Argument 5 is not written. -/
theorem arg_kept_5 (V : Valuation τ sig (Elt F)) : after ops V (Proc.devRef .tc main_arg5) = V (Proc.devRef .tc main_arg5) :=
  ops_keeps V main_arg5 (by decide)
/-- Argument 6 is not written. -/
theorem arg_kept_6 (V : Valuation τ sig (Elt F)) : after ops V (Proc.devRef .tc main_arg6) = V (Proc.devRef .tc main_arg6) :=
  ops_keeps V main_arg6 (by decide)
/-- Argument 7 is not written. -/
theorem arg_kept_7 (V : Valuation τ sig (Elt F)) : after ops V (Proc.devRef .tc main_arg7) = V (Proc.devRef .tc main_arg7) :=
  ops_keeps V main_arg7 (by decide)
/-- Argument 8 is not written. -/
theorem arg_kept_8 (V : Valuation τ sig (Elt F)) : after ops V (Proc.devRef .tc main_arg8) = V (Proc.devRef .tc main_arg8) :=
  ops_keeps V main_arg8 (by decide)
/-- Argument 9 is not written. -/
theorem arg_kept_9 (V : Valuation τ sig (Elt F)) : after ops V (Proc.devRef .tc main_arg9) = V (Proc.devRef .tc main_arg9) :=
  ops_keeps V main_arg9 (by decide)
/-- Argument 10 is not written. -/
theorem arg_kept_10 (V : Valuation τ sig (Elt F)) : after ops V (Proc.devRef .tc main_arg10) = V (Proc.devRef .tc main_arg10) :=
  ops_keeps V main_arg10 (by decide)
/-- Argument 11 is not written. -/
theorem arg_kept_11 (V : Valuation τ sig (Elt F)) : after ops V (Proc.devRef .tc main_arg11) = V (Proc.devRef .tc main_arg11) :=
  ops_keeps V main_arg11 (by decide)
/-- Argument 12 is not written. -/
theorem arg_kept_12 (V : Valuation τ sig (Elt F)) : after ops V (Proc.devRef .tc main_arg12) = V (Proc.devRef .tc main_arg12) :=
  ops_keeps V main_arg12 (by decide)
/-- Argument 13 is not written. -/
theorem arg_kept_13 (V : Valuation τ sig (Elt F)) : after ops V (Proc.devRef .tc main_arg13) = V (Proc.devRef .tc main_arg13) :=
  ops_keeps V main_arg13 (by decide)
/-- Argument 14 is not written. -/
theorem arg_kept_14 (V : Valuation τ sig (Elt F)) : after ops V (Proc.devRef .tc main_arg14) = V (Proc.devRef .tc main_arg14) :=
  ops_keeps V main_arg14 (by decide)
/-- Argument 15 is not written. -/
theorem arg_kept_15 (V : Valuation τ sig (Elt F)) : after ops V (Proc.devRef .tc main_arg15) = V (Proc.devRef .tc main_arg15) :=
  ops_keeps V main_arg15 (by decide)
/-- Argument 16 is not written. -/
theorem arg_kept_16 (V : Valuation τ sig (Elt F)) : after ops V (Proc.devRef .tc main_arg16) = V (Proc.devRef .tc main_arg16) :=
  ops_keeps V main_arg16 (by decide)
/-- Argument 17 is not written. -/
theorem arg_kept_17 (V : Valuation τ sig (Elt F)) : after ops V (Proc.devRef .tc main_arg17) = V (Proc.devRef .tc main_arg17) :=
  ops_keeps V main_arg17 (by decide)
/-- Argument 18 is not written. -/
theorem arg_kept_18 (V : Valuation τ sig (Elt F)) : after ops V (Proc.devRef .tc main_arg18) = V (Proc.devRef .tc main_arg18) :=
  ops_keeps V main_arg18 (by decide)
/-- Argument 19 is not written. -/
theorem arg_kept_19 (V : Valuation τ sig (Elt F)) : after ops V (Proc.devRef .tc main_arg19) = V (Proc.devRef .tc main_arg19) :=
  ops_keeps V main_arg19 (by decide)
/-- Argument 20 is not written. -/
theorem arg_kept_20 (V : Valuation τ sig (Elt F)) : after ops V (Proc.devRef .tc main_arg20) = V (Proc.devRef .tc main_arg20) :=
  ops_keeps V main_arg20 (by decide)
/-- Argument 21 is not written. -/
theorem arg_kept_21 (V : Valuation τ sig (Elt F)) : after ops V (Proc.devRef .tc main_arg21) = V (Proc.devRef .tc main_arg21) :=
  ops_keeps V main_arg21 (by decide)
/-- Argument 22 is not written. -/
theorem arg_kept_22 (V : Valuation τ sig (Elt F)) : after ops V (Proc.devRef .tc main_arg22) = V (Proc.devRef .tc main_arg22) :=
  ops_keeps V main_arg22 (by decide)

/-- On every device, from any memory with zero counters: every weakly fair execution of @main terminates, and every final
    state has each of the 23 argument arrays at its launch contents. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (defs (F := Ideal)) _ _).mono (fun _ h c =>
    ⟨(h c main_arg0).trans (arg_kept_0 _),
     (h c main_arg1).trans (arg_kept_1 _),
     (h c main_arg2).trans (arg_kept_2 _),
     (h c main_arg3).trans (arg_kept_3 _),
     (h c main_arg4).trans (arg_kept_4 _),
     (h c main_arg5).trans (arg_kept_5 _),
     (h c main_arg6).trans (arg_kept_6 _),
     (h c main_arg7).trans (arg_kept_7 _),
     (h c main_arg8).trans (arg_kept_8 _),
     (h c main_arg9).trans (arg_kept_9 _),
     (h c main_arg10).trans (arg_kept_10 _),
     (h c main_arg11).trans (arg_kept_11 _),
     (h c main_arg12).trans (arg_kept_12 _),
     (h c main_arg13).trans (arg_kept_13 _),
     (h c main_arg14).trans (arg_kept_14 _),
     (h c main_arg15).trans (arg_kept_15 _),
     (h c main_arg16).trans (arg_kept_16 _),
     (h c main_arg17).trans (arg_kept_17 _),
     (h c main_arg18).trans (arg_kept_18 _),
     (h c main_arg19).trans (arg_kept_19 _),
     (h c main_arg20).trans (arg_kept_20 _),
     (h c main_arg21).trans (arg_kept_21 _),
     (h c main_arg22).trans (arg_kept_22 _)⟩)
    (run_all m ρ)

end Cert.ReferenceIdeal.RefRun

end
-- ==== Proof.LayerTerms.lean ====
/-
  The pieces of one graph-convolution layer as the kernel program's host stretches compute them, named once.
  A layer aggregates, for every node, the projected features of its in-neighbours, each scaled by the edge's
  coefficient dinv[src]·dinv[dst]: the projected rows are gathered by source, multiplied by the coefficient column
  broadcast over the 128 features, and scatter-added by destination into zeros (negative indices wrap, as jax's
  indexing does).  The per-node and per-feature parameters reach the normalisation as a column [N,1] and as rows
  [1,128]: a vector re-laid as a row, or one row of a [4,128] table cut out and re-laid.
-/
import proofs.«127358_j57011395887506_2_alg».proof.Proof.Gen.KernelIdeal
import Idealize.ShloMosaic.PureOps.Ideal

noncomputable section

namespace Cert.KernelIdeal.Terms

open Cert.KernelIdeal Cert.KernelIdeal.Gen
open Idealize.ShloMosaic Idealize.ShloMosaic.TcCoe Idealize.ShloMosaic.StableHlo Idealize.SL.Sem

/-- An edge-index array with negative entries wrapped by the number of nodes, as a column of gather indices. -/
def wrapIdx (ix : IVec S1600000 32) : IVec S1600000x1 32 :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- The edge coefficients dinv[src]·dinv[dst], one per edge. -/
def edgeCoef (dinv : FVec Ideal S100000 .f32) (src dst : IVec S1600000 32) :
    FVec Ideal S1600000 .f32 :=
  mulf (Host.gather gather_S100000_S1600000x1_S1600000_n_0_n_n_0_1_1 dinv (wrapIdx src))
    (Host.gather gather_S100000_S1600000x1_S1600000_n_0_n_n_0_1_1 dinv (wrapIdx dst))

/-- The aggregation over the edges: gathered projected rows times the coefficient (given as an [E,128] array),
    scatter-added by destination into zeros. -/
def aggregate (hw : FVec Ideal S100000x128 .f32) (src dst : IVec S1600000 32)
    (coefWide : FVec Ideal S1600000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0#32))
    (broadcastInDim S1600000x1 ![0] bcast_S1600000_S1600000x1_0 dst)
    (mulf (Host.gather gather_S100000x128_S1600000x1_S1600000x128_1_0_n_n_0_1_1128 hw (wrapIdx src)) coefWide)

/-- A coefficient column [E,1] spread over the 128 features. -/
def widen (col : FVec Ideal S1600000x1 .f32) : FVec Ideal S1600000x128 .f32 :=
  broadcastInDim S1600000x128 ![0, 1] bcast_S1600000x1_S1600000x128_0_1 col

/-- A per-edge vector re-laid as a column. -/
def edgeCol (v : FVec Ideal S1600000 .f32) : FVec Ideal S1600000x1 .f32 :=
  shapeCast S1600000x1 v shapeCasts_S1600000_S1600000x1

/-- A per-node vector re-laid as a column. -/
def nodeCol (v : FVec Ideal S100000 .f32) : FVec Ideal S100000x1 .f32 :=
  shapeCast S100000x1 v shapeCasts_S100000_S100000x1

/-- A per-feature vector re-laid as a row. -/
def featRow (v : FVec Ideal S128 .f32) : FVec Ideal S1x128 .f32 :=
  shapeCast S1x128 v shapeCasts_S128_S1x128

/-- Row 0 … 3 of a [4,128] parameter table, as a row [1,128] (cut out, flattened, re-laid). -/
def tableRow0 (G : FVec Ideal S4x128 .f32) : FVec Ideal S1x128 .f32 :=
  featRow (shapeCast S128 (extractStridedSlice S1x128 ![0, 0] G slices_S4x128_S1x128_0_0) shapeCasts_S1x128_S128)
def tableRow1 (G : FVec Ideal S4x128 .f32) : FVec Ideal S1x128 .f32 :=
  featRow (shapeCast S128 (extractStridedSlice S1x128 ![1, 0] G slices_S4x128_S1x128_1_0) shapeCasts_S1x128_S128)
def tableRow2 (G : FVec Ideal S4x128 .f32) : FVec Ideal S1x128 .f32 :=
  featRow (shapeCast S128 (extractStridedSlice S1x128 ![2, 0] G slices_S4x128_S1x128_2_0) shapeCasts_S1x128_S128)
def tableRow3 (G : FVec Ideal S4x128 .f32) : FVec Ideal S1x128 .f32 :=
  featRow (shapeCast S128 (extractStridedSlice S1x128 ![3, 0] G slices_S4x128_S1x128_3_0) shapeCasts_S1x128_S128)

end Cert.KernelIdeal.Terms

end
-- ==== Proof.KernelStretches.lean ====
/-
  What the kernel program's host stretches leave, read off any entry contents: before the first layer the self-loop
  column dinv² and the edge-coefficient column; between a layer's dense product and its normalisation the aggregation
  over the edges and the layer's parameters laid out as rows.
-/
import proofs.«127358_j57011395887506_2_alg».proof.Proof.Gen.KernelIdeal.Launch
import proofs.«127358_j57011395887506_2_alg».proof.Proof.LayerTerms
import Idealize.ShloMosaic.Lib.StableHlo.Run

set_option maxHeartbeats 4000000
set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem
open Cert.KernelIdeal.Terms

local notation "⟪" b "⟫" => Proc.devRef (τ := τ) (sig := sig) Proc.tc b

/-! ## Before the first layer -/

/-- The self-loop column is the square of the inverse-root degrees, as a column. -/
theorem selfcol_pre (W : Valuation τ sig (Elt Ideal)) :
    after (hostOps0 (F := Ideal)) W ⟪main_v49⟫
      = nodeCol (mulf (after (hostOps0 (F := Ideal)) W ⟪main_v47⟫) (after (hostOps0 (F := Ideal)) W ⟪main_v47⟫)) := by
  after_results_simp; rfl
/-- The coefficient column is dinv[src]·dinv[dst], as a column. -/
theorem coef_pre (W : Valuation τ sig (Elt Ideal)) :
    after (hostOps0 (F := Ideal)) W ⟪main_v65⟫
      = edgeCol (edgeCoef (after (hostOps0 (F := Ideal)) W ⟪main_v47⟫) (after (hostOps0 (F := Ideal)) W ⟪main_v38⟫)
          (after (hostOps0 (F := Ideal)) W ⟪main_v40⟫)) := by
  after_results_simp; rfl

/-! ## Layer 0: the stretch between its dense product and its normalisation -/

theorem agg0 (W : Valuation τ sig (Elt Ideal)) :
    after (hostOps1 (F := Ideal)) W ⟪main_v78⟫ = aggregate (W ⟪main_v66⟫) (W ⟪main_v38⟫) (W ⟪main_v40⟫) (widen (W ⟪main_v65⟫)) := by
  after_results_simp; rfl
theorem bias0 (W : Valuation τ sig (Elt Ideal)) : after (hostOps1 (F := Ideal)) W ⟪main_v79⟫ = featRow (W ⟪main_arg8⟫) := by
  after_results_simp; rfl
theorem gamma0 (W : Valuation τ sig (Elt Ideal)) : after (hostOps1 (F := Ideal)) W ⟪main_v82⟫ = tableRow0 (W ⟪main_arg15⟫) := by
  after_results_simp; rfl
theorem beta0 (W : Valuation τ sig (Elt Ideal)) : after (hostOps1 (F := Ideal)) W ⟪main_v85⟫ = tableRow0 (W ⟪main_arg16⟫) := by
  after_results_simp; rfl
theorem mean0 (W : Valuation τ sig (Elt Ideal)) : after (hostOps1 (F := Ideal)) W ⟪main_v88⟫ = tableRow0 (W ⟪main_arg17⟫) := by
  after_results_simp; rfl
theorem var0 (W : Valuation τ sig (Elt Ideal)) : after (hostOps1 (F := Ideal)) W ⟪main_v91⟫ = tableRow0 (W ⟪main_arg18⟫) := by
  after_results_simp; rfl
theorem proj0_kept (W : Valuation τ sig (Elt Ideal)) : after (hostOps1 (F := Ideal)) W ⟪main_v66⟫ = W ⟪main_v66⟫ := by
  after_results_simp
theorem selfcol0_kept (W : Valuation τ sig (Elt Ideal)) : after (hostOps1 (F := Ideal)) W ⟪main_v49⟫ = W ⟪main_v49⟫ := by
  after_results_simp

/-! ## Layer 1: the stretch between its dense product and its normalisation -/

theorem agg1 (W : Valuation τ sig (Elt Ideal)) :
    after (hostOps3 (F := Ideal)) W ⟪main_v105⟫ = aggregate (W ⟪main_v93⟫) (W ⟪main_v38⟫) (W ⟪main_v40⟫) (widen (W ⟪main_v65⟫)) := by
  after_results_simp; rfl
theorem bias1 (W : Valuation τ sig (Elt Ideal)) : after (hostOps3 (F := Ideal)) W ⟪main_v106⟫ = featRow (W ⟪main_arg10⟫) := by
  after_results_simp; rfl
theorem gamma1 (W : Valuation τ sig (Elt Ideal)) : after (hostOps3 (F := Ideal)) W ⟪main_v109⟫ = tableRow1 (W ⟪main_arg15⟫) := by
  after_results_simp; rfl
theorem beta1 (W : Valuation τ sig (Elt Ideal)) : after (hostOps3 (F := Ideal)) W ⟪main_v112⟫ = tableRow1 (W ⟪main_arg16⟫) := by
  after_results_simp; rfl
theorem mean1 (W : Valuation τ sig (Elt Ideal)) : after (hostOps3 (F := Ideal)) W ⟪main_v115⟫ = tableRow1 (W ⟪main_arg17⟫) := by
  after_results_simp; rfl
theorem var1 (W : Valuation τ sig (Elt Ideal)) : after (hostOps3 (F := Ideal)) W ⟪main_v118⟫ = tableRow1 (W ⟪main_arg18⟫) := by
  after_results_simp; rfl
theorem proj1_kept (W : Valuation τ sig (Elt Ideal)) : after (hostOps3 (F := Ideal)) W ⟪main_v93⟫ = W ⟪main_v93⟫ := by
  after_results_simp
theorem selfcol1_kept (W : Valuation τ sig (Elt Ideal)) : after (hostOps3 (F := Ideal)) W ⟪main_v49⟫ = W ⟪main_v49⟫ := by
  after_results_simp

/-! ## Layer 2: the stretch between its dense product and its normalisation -/

theorem agg2 (W : Valuation τ sig (Elt Ideal)) :
    after (hostOps5 (F := Ideal)) W ⟪main_v132⟫ = aggregate (W ⟪main_v120⟫) (W ⟪main_v38⟫) (W ⟪main_v40⟫) (widen (W ⟪main_v65⟫)) := by
  after_results_simp; rfl
theorem bias2 (W : Valuation τ sig (Elt Ideal)) : after (hostOps5 (F := Ideal)) W ⟪main_v133⟫ = featRow (W ⟪main_arg12⟫) := by
  after_results_simp; rfl
theorem gamma2 (W : Valuation τ sig (Elt Ideal)) : after (hostOps5 (F := Ideal)) W ⟪main_v136⟫ = tableRow2 (W ⟪main_arg15⟫) := by
  after_results_simp; rfl
theorem beta2 (W : Valuation τ sig (Elt Ideal)) : after (hostOps5 (F := Ideal)) W ⟪main_v139⟫ = tableRow2 (W ⟪main_arg16⟫) := by
  after_results_simp; rfl
theorem mean2 (W : Valuation τ sig (Elt Ideal)) : after (hostOps5 (F := Ideal)) W ⟪main_v142⟫ = tableRow2 (W ⟪main_arg17⟫) := by
  after_results_simp; rfl
theorem var2 (W : Valuation τ sig (Elt Ideal)) : after (hostOps5 (F := Ideal)) W ⟪main_v145⟫ = tableRow2 (W ⟪main_arg18⟫) := by
  after_results_simp; rfl
theorem proj2_kept (W : Valuation τ sig (Elt Ideal)) : after (hostOps5 (F := Ideal)) W ⟪main_v120⟫ = W ⟪main_v120⟫ := by
  after_results_simp
theorem selfcol2_kept (W : Valuation τ sig (Elt Ideal)) : after (hostOps5 (F := Ideal)) W ⟪main_v49⟫ = W ⟪main_v49⟫ := by
  after_results_simp

/-! ## Layer 3: the stretch between its dense product and its normalisation -/

theorem agg3 (W : Valuation τ sig (Elt Ideal)) :
    after (hostOps7 (F := Ideal)) W ⟪main_v159⟫ = aggregate (W ⟪main_v147⟫) (W ⟪main_v38⟫) (W ⟪main_v40⟫) (widen (W ⟪main_v65⟫)) := by
  after_results_simp; rfl
theorem bias3 (W : Valuation τ sig (Elt Ideal)) : after (hostOps7 (F := Ideal)) W ⟪main_v160⟫ = featRow (W ⟪main_arg14⟫) := by
  after_results_simp; rfl
theorem gamma3 (W : Valuation τ sig (Elt Ideal)) : after (hostOps7 (F := Ideal)) W ⟪main_v163⟫ = tableRow3 (W ⟪main_arg15⟫) := by
  after_results_simp; rfl
theorem beta3 (W : Valuation τ sig (Elt Ideal)) : after (hostOps7 (F := Ideal)) W ⟪main_v166⟫ = tableRow3 (W ⟪main_arg16⟫) := by
  after_results_simp; rfl
theorem mean3 (W : Valuation τ sig (Elt Ideal)) : after (hostOps7 (F := Ideal)) W ⟪main_v169⟫ = tableRow3 (W ⟪main_arg17⟫) := by
  after_results_simp; rfl
theorem var3 (W : Valuation τ sig (Elt Ideal)) : after (hostOps7 (F := Ideal)) W ⟪main_v172⟫ = tableRow3 (W ⟪main_arg18⟫) := by
  after_results_simp; rfl
theorem proj3_kept (W : Valuation τ sig (Elt Ideal)) : after (hostOps7 (F := Ideal)) W ⟪main_v147⟫ = W ⟪main_v147⟫ := by
  after_results_simp
theorem selfcol3_kept (W : Valuation τ sig (Elt Ideal)) : after (hostOps7 (F := Ideal)) W ⟪main_v49⟫ = W ⟪main_v49⟫ := by
  after_results_simp

end Cert.KernelIdeal.Stretch

end
-- ==== Proof.StageSpec.lean ====
/-
  The per-node normalisation and activation stage of a graph-convolution layer, as ONE function of its argument
  arrays, index by index. For node `r` and feature `c`

      out[r, c] = act (((((agg[r, c] + hw[r, c] · d2[r, 0]) + b[0, c]) − rm[0, c]) · rsqrt (rv[0, c] + ε)) · g[0, c] + be[0, c])

  where `agg` is the aggregated neighbourhood, `hw` the node's own transformed features, `d2` the squared inverse
  square-root degree (one column), `b` the bias row, `rm` / `rv` the running mean and variance rows, `g` / `be` the
  scale and shift rows, and `ε` the f32 word of 1e-5. `act` is the exponential linear unit
  (`x` above zero, `exp (min x 0) − 1` otherwise) in the hidden layers and `max x 0` in the last one. The grouping is
  exactly the one both programs compute, so no algebraic law of the extended reals is used: the two spellings of the
  exponential linear unit (a select on `x > 0` over `exp (min x 0) − 1`, and a select over `1 · expm1 (select … 0 x)`)
  are shown equal to `elu` by the case `0 < x`.
-/
import Idealize.ShloMosaic.PureOps.Ideal
import Idealize.ShloMosaic.PureOps.Ideal.Laws
import Idealize.ShloMosaic.Lib.IdealHost
import Idealize.ShloMosaic.Lib.ValueIdx

noncomputable section

namespace Cert.Stage

open Idealize.ShloMosaic Idealize.ShloMosaic.ValueIdx

/-- The variance offset: the f32 word of 1e-5, kept as its word (the same word on both sides, never evaluated). -/
def eps : EReal := Ideal.ofBits .f32 0x3727C5AC#32

/-- The exponential linear unit on the extended reals. -/
def elu (x : EReal) : EReal := if 0 < x then x else Ideal.exp (min x 0) - 1

/-- The rectifier on the extended reals. -/
def relu (x : EReal) : EReal := max x 0

/-- The affine normalisation of one entry, in the grouping both programs compute. -/
def affine (agg hw d2 b g be rm rv : EReal) : EReal :=
  ((((agg + hw * d2) + b) - rm) * Ideal.rsqrt (rv + eps)) * g + be

/-- The normalisation stage followed by the exponential linear unit, index by index. -/
def eluStage (agg hw : (⟨2, ![100000, 128]⟩ : Shape).Idx → EReal) (d2 : (⟨2, ![100000, 1]⟩ : Shape).Idx → EReal)
    (b g be rm rv : (⟨2, ![1, 128]⟩ : Shape).Idx → EReal) : (⟨2, ![100000, 128]⟩ : Shape).Idx → EReal :=
  fun i => elu (affine (agg i) (hw i) (d2 (ix2 (n0 := 100000) (n1 := 1) (i 0) 0))
    (b (ix2 (n0 := 1) (n1 := 128) 0 (i 1))) (g (ix2 (n0 := 1) (n1 := 128) 0 (i 1))) (be (ix2 (n0 := 1) (n1 := 128) 0 (i 1)))
    (rm (ix2 (n0 := 1) (n1 := 128) 0 (i 1))) (rv (ix2 (n0 := 1) (n1 := 128) 0 (i 1))))

/-- The normalisation stage followed by the rectifier, index by index. -/
def reluStage (agg hw : (⟨2, ![100000, 128]⟩ : Shape).Idx → EReal) (d2 : (⟨2, ![100000, 1]⟩ : Shape).Idx → EReal)
    (b g be rm rv : (⟨2, ![1, 128]⟩ : Shape).Idx → EReal) : (⟨2, ![100000, 128]⟩ : Shape).Idx → EReal :=
  fun i => relu (affine (agg i) (hw i) (d2 (ix2 (n0 := 100000) (n1 := 1) (i 0) 0))
    (b (ix2 (n0 := 1) (n1 := 128) 0 (i 1))) (g (ix2 (n0 := 1) (n1 := 128) 0 (i 1))) (be (ix2 (n0 := 1) (n1 := 128) 0 (i 1)))
    (rm (ix2 (n0 := 1) (n1 := 128) 0 (i 1))) (rv (ix2 (n0 := 1) (n1 := 128) 0 (i 1))))

/-- The stage at an index given by its coordinates. -/
theorem eluStage_apply (agg hw : (⟨2, ![100000, 128]⟩ : Shape).Idx → EReal) (d2 : (⟨2, ![100000, 1]⟩ : Shape).Idx → EReal)
    (b g be rm rv : (⟨2, ![1, 128]⟩ : Shape).Idx → EReal) (r : Fin 100000) (c : Fin 128) :
    eluStage agg hw d2 b g be rm rv (ix2 r c) = elu (affine (agg (ix2 r c)) (hw (ix2 r c)) (d2 (ix2 r 0))
      (b (ix2 0 c)) (g (ix2 0 c)) (be (ix2 0 c)) (rm (ix2 0 c)) (rv (ix2 0 c))) := rfl

theorem reluStage_apply (agg hw : (⟨2, ![100000, 128]⟩ : Shape).Idx → EReal) (d2 : (⟨2, ![100000, 1]⟩ : Shape).Idx → EReal)
    (b g be rm rv : (⟨2, ![1, 128]⟩ : Shape).Idx → EReal) (r : Fin 100000) (c : Fin 128) :
    reluStage agg hw d2 b g be rm rv (ix2 r c) = relu (affine (agg (ix2 r c)) (hw (ix2 r c)) (d2 (ix2 r 0))
      (b (ix2 0 c)) (g (ix2 0 c)) (be (ix2 0 c)) (rm (ix2 0 c)) (rv (ix2 0 c))) := rfl

/-- A select on the comparison `x > 0` is the `if` on `0 < x`. -/
theorem select_ogt_zero {α : Type} (x : EReal) (a b : α) :
    Scalar.select (Ideal.cmp .ogt x (Ideal.ofBits .f32 0x00000000#32)) a b = if 0 < x then a else b := by
  rw [Ideal.ofBits_zero_f32]
  unfold Scalar.select Ideal.cmp
  by_cases h : (0 : EReal) < x
  · simp [h]
  · simp [h]

/-- The exponential linear unit as a select on `x > 0` between `x` and `exp (min x 0) − 1`, the constants as f32 words. -/
theorem elu_select_min (x : EReal) :
    Scalar.select (Ideal.cmp .ogt x (Ideal.ofBits .f32 0x00000000#32)) x
      (Ideal.exp (min x (Ideal.ofBits .f32 0x00000000#32)) - Ideal.ofBits .f32 0x3F800000#32) = elu x := by
  rw [select_ogt_zero, Ideal.ofBits_zero_f32, Ideal.ofBits_one_f32]
  rfl

/-- The exponential linear unit as a select on `x > 0` between `x` and `1 · (exp y − 1)` with `y` the select on `x > 0`
    between `0` and `x`: where `x` is not above zero, `y = x = min x 0`. -/
theorem elu_select_expm1 (x : EReal) :
    Scalar.select (Ideal.cmp .ogt x (Ideal.ofBits .f32 0x00000000#32)) x
      (Ideal.ofBits .f32 0x3F800000#32 * (Ideal.exp (Scalar.select (Ideal.cmp .ogt x (Ideal.ofBits .f32 0x00000000#32))
        (Ideal.ofBits .f32 0x00000000#32) x) - 1)) = elu x := by
  rw [select_ogt_zero, select_ogt_zero, Ideal.ofBits_zero_f32, Ideal.ofBits_one_f32, one_mul]
  unfold elu
  by_cases h : (0 : EReal) < x
  · rw [if_pos h, if_pos h]
  · rw [if_neg h, if_neg h, if_neg h, min_eq_left (not_lt.mp h)]

/-- The rectifier with the zero as its f32 word. -/
theorem relu_max_word (x : EReal) : max x (Ideal.ofBits .f32 0x00000000#32) = relu x := by
  rw [Ideal.ofBits_zero_f32]; rfl

end Cert.Stage

end
-- ==== Proof.Dense128.lean ====
/- The three later dense products of the kernel program, h·W with h of 100000 rows and 128 columns and W square of
   128, share their dimension numbers, on the kernel's side (blocks of 5000 rows) and on the host's (the whole array).
   Here: one entry of a block product and one entry of the host's product as the same sum over the 128 columns, and
   the whole product as one function of the two arrays. -/
import proofs.«127358_j57011395887506_2_alg».proof.Proof.Gen.KernelIdeal.Frame
import proofs.«127358_j57011395887506_2_alg».proof.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense
open Cert.KernelIdeal Cert.KernelIdeal.Gen

theorem hz128 : (![0, 0] : Fin 2 → Nat) = fun _ => 0 := funext fun a => by fin_cases a <;> rfl

section Kern

theorem klhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem klhs_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
theorem krhs_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
theorem krhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- One entry of a block product into a zero accumulator, the operands passed through the change of format that is the
    identity on the extended reals: row p of the loaded rows against column q of the weight. -/
theorem block128_apply (x0 : Vec Ideal S5000x128 .f32) (x1 : Vec Ideal S128x128 .f32) (p : Fin 5000) (q : Fin 128) :
    matmul (F := Ideal) dot_S5000x128_S128x128_S5000x128_1_0_0_1_n_n none (truncf .bf16 x0 bitsLt_bf16_f32) (truncf .bf16 x1 bitsLt_bf16_f32) (constant S5000x128 .f32 0x00000000#32) (ix2 p q)
      = ∑ k : Fin 128, x0 (ix2 p k) * x1 (ix2 k q) := by
  refine (Ideal.matmul_constant_zero_apply dot_S5000x128_S128x128_S5000x128_1_0_0_1_n_n none (truncf .bf16 x0 bitsLt_bf16_f32) (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact klhs_0 _ _
    | ⟨1, _⟩ => exact (klhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (krhs_0 _ _).trans hk
    | ⟨1, _⟩ => exact krhs_1 _ _)
  rw [el, er]
  rfl

end Kern

section Ref
variable [Cert.ReferenceIdeal.Facts₀]

theorem rlhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch from List.not_mem_nil), dif_pos (show (0 : Fin Cert.ReferenceIdeal.S100000x128.rank) ∈ Cert.ReferenceIdeal.dot_S100000x128_S128x128_S100000x128_1_0_0_1_n_n.lhsNonContracting from List.mem_singleton.mpr rfl)]
  rfl
theorem rlhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, Nat.one_pos⟩).val :=
  Cert.ReferenceIdeal.dot_S100000x128_S128x128_S100000x128_1_0_0_1_n_n.lhsIdx_val_of_single rfl i q
theorem rrhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, Nat.one_pos⟩).val :=
  Cert.ReferenceIdeal.dot_S100000x128_S128x128_S100000x128_1_0_0_1_n_n.rhsIdx_val_of_single rfl i q
theorem rrhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch from List.not_mem_nil), dif_pos (show (1 : Fin Cert.ReferenceIdeal.S128x128.rank) ∈ Cert.ReferenceIdeal.dot_S100000x128_S128x128_S100000x128_1_0_0_1_n_n.rhsNonContracting from List.mem_singleton.mpr rfl)]
  rfl

/-- One entry of the whole product as the host computes it: row p of the array against column q of the weight. -/
theorem ref128_apply (l : FVec Ideal Cert.ReferenceIdeal.S100000x128 .f32) (r : FVec Ideal Cert.ReferenceIdeal.S128x128 .f32) (p : Fin 100000) (q : Fin 128) :
    Host.dotGeneral (F := Ideal) Cert.ReferenceIdeal.dot_S100000x128_S128x128_S100000x128_1_0_0_1_n_n none l r (ix2 p q) = ∑ k : Fin 128, l (ix2 p k) * r (ix2 k q) := by
  refine (Ideal.dotGeneral_apply Cert.ReferenceIdeal.dot_S100000x128_S128x128_S100000x128_1_0_0_1_n_n none .single l r (ix2 p q)).trans ?_
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact rlhs_0 _ _
    | ⟨1, _⟩ => exact (rlhs_1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (rrhs_0 _ _).trans hk
    | ⟨1, _⟩ => exact rrhs_1 _ _)
  rw [el, er]

end Ref

/-- The whole product as one function of the two arrays: entry (r, q) is the sum over the 128 columns of the row's
    entries times the weight's column. -/
def prod128 (a : Vec Ideal S100000x128 .f32) (w : Vec Ideal S128x128 .f32) : Vec Ideal S100000x128 .f32 :=
  fun i => ∑ k : Fin 128, a (ix2 (i 0 : Fin 100000) k) * w (ix2 k (i 1 : Fin 128))

theorem prod128_apply (a : Vec Ideal S100000x128 .f32) (w : Vec Ideal S128x128 .f32) (i : S100000x128.Idx) (r : Fin 100000) (q : Fin 128)
    (h0 : (i 0).val = r.val) (h1 : (i 1).val = q.val) : prod128 a w i = ∑ k : Fin 128, a (ix2 r k) * w (ix2 k q) := by
  obtain rfl : i = ix2 r q := funext fun d => Fin.ext (by
    match d with
    | ⟨0, _⟩ => exact h0
    | ⟨1, _⟩ => exact h1)
  rfl

/-- The host's product of the two whole arrays is that function. -/
theorem ref128_eq [Cert.ReferenceIdeal.Facts₀] (a : Vec Ideal S100000x128 .f32) (w : Vec Ideal S128x128 .f32) :
    prod128 a w = Host.dotGeneral (F := Ideal) (φ₁ := .f32) (φ₂ := .f32) Cert.ReferenceIdeal.dot_S100000x128_S128x128_S100000x128_1_0_0_1_n_n none a w := by
  funext i
  obtain ⟨p, q, rfl⟩ : ∃ (p : Fin 100000) (q : Fin 128), i = ix2 p q := ⟨i 0, i 1, @eq_ix2 100000 128 i⟩
  exact (ref128_apply _ _ p q).symm

end Cert.KernelIdeal.Dense
-- ==== Proof.Dense6.lean ====
/- Dense product number four of the kernel program, h·W with h of 100000 rows and 128 columns and W square of 128, computed
   5000 rows at a time over 20 grid points, is the host's one dot_general of the two whole arrays: every entry (r, q) of
   the result is the sum over the 128 columns k of h(r, k)·W(k, q), whichever block r falls in. -/
import proofs.«127358_j57011395887506_2_alg».proof.Proof.Gen.KernelIdeal.Frame
import proofs.«127358_j57011395887506_2_alg».proof.ReferenceIdeal
import proofs.«127358_j57011395887506_2_alg».proof.Proof.Dense128
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense
open Cert.KernelIdeal Cert.KernelIdeal.Gen

/-- One entry of the block product: row p of the loaded rows against column q of the weight. -/
theorem pay6_apply (x0 : Vec Ideal S5000x128 .f32) (x1 : Vec Ideal S128x128 .f32) (p : Fin 5000) (q : Fin 128) :
    Gen.k6_pay1 (F := Ideal) x0 x1 (ix2 p q) = ∑ k : Fin 128, x0 (ix2 p k) * x1 (ix2 k q) := by
  unfold Gen.k6_pay1
  rw [shapeCast_self]
  exact block128_apply x0 x1 p q

/-- The printed index maps over the 20 grid points: the rows window and the result window sit at block (t, 0), the
    weight window at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt20_6 (t : Fin cfg6.N) : t.val < 20 := Nat.lt_of_lt_of_eq t.isLt Gen.N_6

/-- Entry (p, k) of the rows block at point t is entry (5000·t + p, k) of the array. -/
theorem rows6 (V : (c : Dev nD) → (b : Ref sig .tc) → Buf (Elt Ideal) ((c : Thread nD τ).loc b)) (c : Dev nD) (t : Fin cfg6.N)
    (p : Fin 5000) (k : Fin 128) (r : Fin 100000) (hr : r.val = t.val * 5000 + p.val) :
    Gen.iblk6 V c 0 t (ix2 p k) = V c (Pipeline.arrRef spec6 0) (ix2 r k) := by
  obtain ⟨e0, e1, -, -, -, -⟩ := idx_facts6 t
  show V c (Pipeline.arrRef spec6 0) (((cfg6.win 0).blk t).view.emb (ix2 p k)) = _
  refine congrArg (V c (Pipeline.arrRef spec6 0)) (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

/-- The weight block at every point is the whole weight. -/
theorem weight6 (V : (c : Dev nD) → (b : Ref sig .tc) → Buf (Elt Ideal) ((c : Thread nD τ).loc b)) (c : Dev nD) (t : Fin cfg6.N)
    (k : Fin 128) (q : Fin 128) :
    Gen.iblk6 V c 1 t (ix2 k q) = V c (Pipeline.arrRef spec6 1) (ix2 k q) := by
  obtain ⟨-, -, e2, e3, -, -⟩ := idx_facts6 t
  show V c (Pipeline.arrRef spec6 1) (((cfg6.win 1).blk t).view.emb (ix2 k q)) = _
  refine congrArg (V c (Pipeline.arrRef spec6 1)) (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

/-- Entry (p, q) of the result block at point t sits at (5000·t + p, q) in the result array. -/
theorem out_emb6 (t : Fin cfg6.N) (p : Fin 5000) (q : Fin 128) (r : Fin 100000) (hr : r.val = t.val * 5000 + p.val) :
    ((cfg6.win 2).blk t).view.emb (ix2 p q) = (ix2 r q : S100000x128.Idx) := by
  obtain ⟨-, -, -, -, e4, e5⟩ := idx_facts6 t
  refine funext fun a => Fin.ext ?_
  match a with
  | ⟨0, _⟩ => show win6_2.index t (0 : Fin 2) * 5000 + 1 * p.val = r.val; omega
  | ⟨1, _⟩ => show win6_2.index t (1 : Fin 2) * 128 + 1 * q.val = q.val; omega

/-- What grid point t writes back is block t of the whole product: rows 5000·t … 5000·t + 4999. -/
theorem flushed6_eq (V : (c : Dev nD) → (b : Ref sig .tc) → Buf (Elt Ideal) ((c : Thread nD τ).loc b)) (c : Dev nD) (t : Fin cfg6.N) :
    (Gen.dat6 (F := Ideal) V c).flushed 2 t
      = ((cfg6.win 2).blk t).view.read (Elt Ideal) (prod128 (V c (Pipeline.arrRef spec6 0)) (V c (Pipeline.arrRef spec6 1))) := by
  show (cfg6.win 2).cut (grid6.coords t) ((Gen.dat6 V c).after 2 t) = _
  rw [Gen.after6_2]
  unfold Gen.out6_2
  rw [View.canon_unit_zero hz128]
  simp only [View.ld_unit_zero (S := S5000x128) hz128, View.ld_unit_zero (S := S128x128) hz128]
  have hN := lt20_6 t
  funext j
  obtain ⟨p, q, rfl⟩ : ∃ (p : Fin 5000) (q : Fin 128), j = ix2 p q := ⟨j 0, j 1, @eq_ix2 5000 128 j⟩
  have hp : p.val < 5000 := p.isLt
  show Gen.k6_pay1 (F := Ideal) (Gen.iblk6 V c 0 t) (Gen.iblk6 V c 1 t) (ix2 p q)
    = prod128 (V c (Pipeline.arrRef spec6 0)) (V c (Pipeline.arrRef spec6 1)) (((cfg6.win 2).blk t).view.emb (ix2 p q))
  rw [out_emb6 t p q ⟨t.val * 5000 + p.val, by omega⟩ rfl]
  refine (pay6_apply (Gen.iblk6 V c 0 t) (Gen.iblk6 V c 1 t) p q).trans ?_
  refine Eq.symm ((prod128_apply _ _ _ ⟨t.val * 5000 + p.val, by omega⟩ q rfl rfl).trans ?_)
  refine Finset.sum_congr rfl fun k _ => ?_
  rw [rows6 V c t p k ⟨t.val * 5000 + p.val, by omega⟩ rfl, weight6 V c t k q]

/-- An index of the result array is in point t's block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v147).slice (win6_2.rect t)).set ↔ _
  rw [View.set_slice_whole, Rect.mem_set_unit]
  exact Iff.rfl

/-- Row r of the result is written by grid point r / 5000. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ : ∃ t : Fin cfg6.N, t.val = (i 0).val / 5000 :=
    ⟨⟨(i 0).val / 5000, Nat.lt_of_lt_of_eq (show (i 0).val / 5000 < 20 by omega) Gen.N_6.symm⟩, rfl⟩
  obtain ⟨-, -, -, -, e4, e5⟩ := idx_facts6 t
  refine ⟨t, Gen.flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- So the result array ends holding the whole product. -/
theorem arr6 (V : (c : Dev nD) → (b : Ref sig .tc) → Buf (Elt Ideal) ((c : Thread nD τ).loc b)) (c : Dev nD) :
    (Gen.dat6 (F := Ideal) V c).arrAt 2 cfg6.N = prod128 (V c (Pipeline.arrRef spec6 0)) (V c (Pipeline.arrRef spec6 1)) :=
  (Gen.dat6 (F := Ideal) V c).arrAt_eq_of_cover 2 _ (fun t _ => flushed6_eq V c t) cover6

/-- The result array of this dense product is the host's dot_general of the two arrays the region finds. -/
theorem dense6 [Cert.ReferenceIdeal.Facts₀] (V : (c : Dev nD) → (b : Ref sig .tc) → Buf (Elt Ideal) ((c : Thread nD τ).loc b)) (c : Dev nD) :
    (Gen.dat6 (F := Ideal) V c).arrAt 2 cfg6.N
      = Host.dotGeneral (F := Ideal) (φ₁ := .f32) (φ₂ := .f32) Cert.ReferenceIdeal.dot_S100000x128_S128x128_S100000x128_1_0_0_1_n_n none (V c (Pipeline.arrRef spec6 0)) (V c (Pipeline.arrRef spec6 1)) :=
  (arr6 V c).trans (ref128_eq _ _)

end Cert.KernelIdeal.Dense
-- ==== Proof.NormCommon.lean ====
/-
  Two small facts shared by the four normalisation regions: the zero offsets of a whole-block access, and the
  keep-dimensions column broadcast read at an index.
-/
import Idealize.ShloMosaic.Lib.Pipeline.Value
import Idealize.ShloMosaic.Lib.ValueLayout

namespace Cert.KernelIdeal.Norm

open Idealize.ShloMosaic Idealize.ShloMosaic.ValueIdx

/-- The offsets `(0, 0)` of a whole-block load or store are the zero function. -/
theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Norm
-- ==== Proof.Norm7.lean ====
/-
  Region 7 (the fourth layer's normalisation and rectifier): the twenty blocks of 5000 rows that the grid's points write
  back, assembled into the whole [100000,128] array as ONE index-by-index function of the region's eight argument
  arrays, `Cert.Stage.reluStage`. Point `t` computes rows `5000 t … 5000 t + 4999`: each entry `(p, q)` of its block from
  entry `(p, q)` of the two row-blocked inputs, entry `(p, 0)` of the degree column's block, and entry `(0, q)` of the
  five parameter rows, which every point sees whole. Row `r` of the array is written by point `r / 5000` alone.
-/
import proofs.«127358_j57011395887506_2_alg».proof.Proof.Gen.KernelIdeal.Frame
import proofs.«127358_j57011395887506_2_alg».proof.Proof.StageSpec
import proofs.«127358_j57011395887506_2_alg».proof.Proof.NormCommon
import Idealize.ShloMosaic.Lib.Pipeline.Value
import Idealize.ShloMosaic.Lib.ValueLayout

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of a block -/

/-- The body's stored value at entry `(p, q)` of a block: the pointwise operations read through, the column broadcast at
    `(p, 0)` and the five row broadcasts at `(0, q)`, then the maximum with zero. The loads arrive in the order bias,
    variance, mean, scale, shift. -/
theorem act7_apply (x0 x1 : Vec Ideal S5000x128 .f32) (x2 : Vec Ideal S5000x1 .f32) (x3 x4 x5 x6 x7 : Vec Ideal S1x128 .f32)
    (p : Fin 5000) (q : Fin 128) :
    k7_pay1 x0 x1 x2 x3 x7 x6 x4 x5 (ix2 p q) = Cert.Stage.relu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  unfold k7_pay1
  simp only [shapeCast_self]
  rw [maximumf_apply, addf_apply, mulf_apply, mulf_apply, subf_apply, addf_apply, addf_apply, mulf_apply,
    broadcastTo_a1_ab_apply, broadcastTo_1b_ab_apply, broadcastTo_1b_ab_apply, broadcastTo_1b_ab_apply,
    broadcastTo_1b_ab_apply, broadcastTo_1b_ab_apply]
  exact Cert.Stage.relu_max_word _

/-- What the body leaves in the output's staging buffer, at `(p, q)`: its one whole-block store of that value of the
    whole-block loads. -/
theorem out7_8_apply (x0 x1 : Vec Ideal S5000x128 .f32) (x2 : Vec Ideal S5000x1 .f32) (x3 x4 x5 x6 x7 : Vec Ideal S1x128 .f32)
    (p : Fin 5000) (q : Fin 128) :
    out7_8 x0 x1 x2 x3 x4 x5 x6 x7 (ix2 p q)
      = Cert.Stage.relu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  unfold out7_8
  rw [View.canon_unit_zero hz]
  simp only [View.ld_unit_zero (S := S5000x128) hz, View.ld_unit_zero (S := S5000x1) hz, View.ld_unit_zero (S := S1x128) hz]
  exact act7_apply x0 x1 x2 x3 x4 x5 x6 x7 p q

/-- One entry of a block of the stage: if the loaded blocks hold the arrays' entries of row `r` (the column's at
    `(r, 0)`, the parameter rows' at `(0, q)`), the body's stored value at `(p, q)` is the stage at `(r, q)`. -/
theorem point7 (x0 x1 : Vec Ideal S5000x128 .f32) (x2 : Vec Ideal S5000x1 .f32) (x3 x4 x5 x6 x7 : Vec Ideal S1x128 .f32)
    (A0 A1 : S100000x128.Idx → EReal) (A2 : S100000x1.Idx → EReal) (A3 A4 A5 A6 A7 : S1x128.Idx → EReal)
    (p : Fin 5000) (q : Fin 128) (r : Fin 100000)
    (h0 : x0 (ix2 p q) = A0 (ix2 r q)) (h1 : x1 (ix2 p q) = A1 (ix2 r q)) (h2 : x2 (ix2 p 0) = A2 (ix2 r 0))
    (h3 : x3 (ix2 0 q) = A3 (ix2 0 q)) (h4 : x4 (ix2 0 q) = A4 (ix2 0 q)) (h5 : x5 (ix2 0 q) = A5 (ix2 0 q))
    (h6 : x6 (ix2 0 q) = A6 (ix2 0 q)) (h7 : x7 (ix2 0 q) = A7 (ix2 0 q)) :
    out7_8 x0 x1 x2 x3 x4 x5 x6 x7 (ix2 p q) = Cert.Stage.reluStage A0 A1 A2 A3 A4 A5 A6 A7 (ix2 r q) := by
  rw [out7_8_apply, Cert.Stage.reluStage_apply, h0, h1, h2, h3, h4, h5, h6, h7]

/-! ## The blocks, read off the arrays as the region finds them -/

section Blocks
variable (V : (c : Dev nD) → (b : Ref sig .tc) → Buf (Elt Ideal) ((c : Thread nD τ).loc b))

/-- The grid has twenty points. -/
theorem hN7 : cfg7.N = 20 := N_7

/-- The printed index maps over the grid: the row-blocked windows sit at block `t`, the parameter rows at block 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = t.val ∧ win7_8.index t (1 : Fin 2) = 0 :=
  (by decide +kernel : ∀ t : Fin grid7.N, _)

/-- Window 0's block at point `t`, entry `(p, q)`, is its array's entry of row `5000 t + p`. -/
theorem iblk7_0_apply (c : Dev nD) (t : Fin cfg7.N) (p : Fin 5000) (q : Fin 128) (r : Fin 100000)
    (hr : r.val = t.val * 5000 + p.val) :
    (iblk7 V c 0 t : Vec Ideal S5000x128 .f32) (ix2 p q)
      = (V c (Pipeline.arrRef spec7 0) : S100000x128.Idx → EReal) (ix2 r q) := by
  obtain ⟨e0, e1, -, -, -, -, -, -, -, -, -, -, -, -, -, -, -, -⟩ := idx_facts7 t
  unfold iblk7
  rw [View.read_apply]
  show (V c (Pipeline.arrRef spec7 0) : S100000x128.Idx → EReal) _ = _
  refine congrArg (V c (Pipeline.arrRef spec7 0) : S100000x128.Idx → EReal) (funext fun a => Fin.ext ?_)
  match a with
  | ⟨0, _⟩ => show win7_0.index t 0 * 5000 + 1 * p.val = r.val; rw [e0, hr]; omega
  | ⟨1, _⟩ => show win7_0.index t 1 * 128 + 1 * q.val = q.val; rw [e1]; omega

/-- Window 1's block at point `t`, entry `(p, q)`, is its array's entry of row `5000 t + p`. -/
theorem iblk7_1_apply (c : Dev nD) (t : Fin cfg7.N) (p : Fin 5000) (q : Fin 128) (r : Fin 100000)
    (hr : r.val = t.val * 5000 + p.val) :
    (iblk7 V c 1 t : Vec Ideal S5000x128 .f32) (ix2 p q)
      = (V c (Pipeline.arrRef spec7 1) : S100000x128.Idx → EReal) (ix2 r q) := by
  obtain ⟨-, -, e0, e1, -, -, -, -, -, -, -, -, -, -, -, -, -, -⟩ := idx_facts7 t
  unfold iblk7
  rw [View.read_apply]
  show (V c (Pipeline.arrRef spec7 1) : S100000x128.Idx → EReal) _ = _
  refine congrArg (V c (Pipeline.arrRef spec7 1) : S100000x128.Idx → EReal) (funext fun a => Fin.ext ?_)
  match a with
  | ⟨0, _⟩ => show win7_1.index t 0 * 5000 + 1 * p.val = r.val; rw [e0, hr]; omega
  | ⟨1, _⟩ => show win7_1.index t 1 * 128 + 1 * q.val = q.val; rw [e1]; omega

/-- Window 2's block at point `t`, entry `(p, q)`, is its array's entry of row `5000 t + p`. -/
theorem iblk7_2_apply (c : Dev nD) (t : Fin cfg7.N) (p : Fin 5000) (q : Fin 1) (r : Fin 100000)
    (hr : r.val = t.val * 5000 + p.val) :
    (iblk7 V c 2 t : Vec Ideal S5000x1 .f32) (ix2 p q)
      = (V c (Pipeline.arrRef spec7 2) : S100000x1.Idx → EReal) (ix2 r q) := by
  obtain ⟨-, -, -, -, e0, e1, -, -, -, -, -, -, -, -, -, -, -, -⟩ := idx_facts7 t
  unfold iblk7
  rw [View.read_apply]
  show (V c (Pipeline.arrRef spec7 2) : S100000x1.Idx → EReal) _ = _
  refine congrArg (V c (Pipeline.arrRef spec7 2) : S100000x1.Idx → EReal) (funext fun a => Fin.ext ?_)
  match a with
  | ⟨0, _⟩ => show win7_2.index t 0 * 5000 + 1 * p.val = r.val; rw [e0, hr]; omega
  | ⟨1, _⟩ => show win7_2.index t 1 * 1 + 1 * q.val = q.val; rw [e1]; omega

/-- Window 3's block at every point is its whole one-row array. -/
theorem iblk7_3_apply (c : Dev nD) (t : Fin cfg7.N) (q : Fin 128) :
    (iblk7 V c 3 t : Vec Ideal S1x128 .f32) (ix2 (0 : Fin 1) q)
      = (V c (Pipeline.arrRef spec7 3) : S1x128.Idx → EReal) (ix2 (0 : Fin 1) q) := by
  obtain ⟨-, -, -, -, -, -, e0, e1, -, -, -, -, -, -, -, -, -, -⟩ := idx_facts7 t
  unfold iblk7
  rw [View.read_apply]
  show (V c (Pipeline.arrRef spec7 3) : S1x128.Idx → EReal) _ = _
  refine congrArg (V c (Pipeline.arrRef spec7 3) : S1x128.Idx → EReal) (funext fun a => Fin.ext ?_)
  match a with
  | ⟨0, _⟩ => show win7_3.index t 0 * 1 + 1 * 0 = 0; rw [e0]
  | ⟨1, _⟩ => show win7_3.index t 1 * 128 + 1 * q.val = q.val; rw [e1]; omega

/-- Window 4's block at every point is its whole one-row array. -/
theorem iblk7_4_apply (c : Dev nD) (t : Fin cfg7.N) (q : Fin 128) :
    (iblk7 V c 4 t : Vec Ideal S1x128 .f32) (ix2 (0 : Fin 1) q)
      = (V c (Pipeline.arrRef spec7 4) : S1x128.Idx → EReal) (ix2 (0 : Fin 1) q) := by
  obtain ⟨-, -, -, -, -, -, -, -, e0, e1, -, -, -, -, -, -, -, -⟩ := idx_facts7 t
  unfold iblk7
  rw [View.read_apply]
  show (V c (Pipeline.arrRef spec7 4) : S1x128.Idx → EReal) _ = _
  refine congrArg (V c (Pipeline.arrRef spec7 4) : S1x128.Idx → EReal) (funext fun a => Fin.ext ?_)
  match a with
  | ⟨0, _⟩ => show win7_4.index t 0 * 1 + 1 * 0 = 0; rw [e0]
  | ⟨1, _⟩ => show win7_4.index t 1 * 128 + 1 * q.val = q.val; rw [e1]; omega

/-- Window 5's block at every point is its whole one-row array. -/
theorem iblk7_5_apply (c : Dev nD) (t : Fin cfg7.N) (q : Fin 128) :
    (iblk7 V c 5 t : Vec Ideal S1x128 .f32) (ix2 (0 : Fin 1) q)
      = (V c (Pipeline.arrRef spec7 5) : S1x128.Idx → EReal) (ix2 (0 : Fin 1) q) := by
  obtain ⟨-, -, -, -, -, -, -, -, -, -, e0, e1, -, -, -, -, -, -⟩ := idx_facts7 t
  unfold iblk7
  rw [View.read_apply]
  show (V c (Pipeline.arrRef spec7 5) : S1x128.Idx → EReal) _ = _
  refine congrArg (V c (Pipeline.arrRef spec7 5) : S1x128.Idx → EReal) (funext fun a => Fin.ext ?_)
  match a with
  | ⟨0, _⟩ => show win7_5.index t 0 * 1 + 1 * 0 = 0; rw [e0]
  | ⟨1, _⟩ => show win7_5.index t 1 * 128 + 1 * q.val = q.val; rw [e1]; omega

/-- Window 6's block at every point is its whole one-row array. -/
theorem iblk7_6_apply (c : Dev nD) (t : Fin cfg7.N) (q : Fin 128) :
    (iblk7 V c 6 t : Vec Ideal S1x128 .f32) (ix2 (0 : Fin 1) q)
      = (V c (Pipeline.arrRef spec7 6) : S1x128.Idx → EReal) (ix2 (0 : Fin 1) q) := by
  obtain ⟨-, -, -, -, -, -, -, -, -, -, -, -, e0, e1, -, -, -, -⟩ := idx_facts7 t
  unfold iblk7
  rw [View.read_apply]
  show (V c (Pipeline.arrRef spec7 6) : S1x128.Idx → EReal) _ = _
  refine congrArg (V c (Pipeline.arrRef spec7 6) : S1x128.Idx → EReal) (funext fun a => Fin.ext ?_)
  match a with
  | ⟨0, _⟩ => show win7_6.index t 0 * 1 + 1 * 0 = 0; rw [e0]
  | ⟨1, _⟩ => show win7_6.index t 1 * 128 + 1 * q.val = q.val; rw [e1]; omega

/-- Window 7's block at every point is its whole one-row array. -/
theorem iblk7_7_apply (c : Dev nD) (t : Fin cfg7.N) (q : Fin 128) :
    (iblk7 V c 7 t : Vec Ideal S1x128 .f32) (ix2 (0 : Fin 1) q)
      = (V c (Pipeline.arrRef spec7 7) : S1x128.Idx → EReal) (ix2 (0 : Fin 1) q) := by
  obtain ⟨-, -, -, -, -, -, -, -, -, -, -, -, -, -, e0, e1, -, -⟩ := idx_facts7 t
  unfold iblk7
  rw [View.read_apply]
  show (V c (Pipeline.arrRef spec7 7) : S1x128.Idx → EReal) _ = _
  refine congrArg (V c (Pipeline.arrRef spec7 7) : S1x128.Idx → EReal) (funext fun a => Fin.ext ?_)
  match a with
  | ⟨0, _⟩ => show win7_7.index t 0 * 1 + 1 * 0 = 0; rw [e0]
  | ⟨1, _⟩ => show win7_7.index t 1 * 128 + 1 * q.val = q.val; rw [e1]; omega

/-- Entry `(p, q)` of the output's block at point `t` sits at row `5000 t + p`, column `q` of the array. -/
theorem emb7_8 (t : Fin cfg7.N) (p : Fin 5000) (q : Fin 128) (r : Fin 100000) (hr : r.val = t.val * 5000 + p.val) :
    ((cfg7.win 8).blk t).view.emb (ix2 p q : S5000x128.Idx) = (ix2 r q : S100000x128.Idx) := by
  obtain ⟨-, -, -, -, -, -, -, -, -, -, -, -, -, -, -, -, e0, e1⟩ := idx_facts7 t
  refine funext fun a => Fin.ext ?_
  match a with
  | ⟨0, _⟩ => show win7_8.index t 0 * 5000 + 1 * p.val = r.val; rw [e0, hr]; omega
  | ⟨1, _⟩ => show win7_8.index t 1 * 128 + 1 * q.val = q.val; rw [e1]; omega

/-- A function of the array's index read through the output's block at point `t`, at `(p, q)`, is the function at
    row `5000 t + p`, column `q`. -/
theorem read7_8_apply (G : S100000x128.Idx → EReal) (t : Fin cfg7.N) (p : Fin 5000) (q : Fin 128) (r : Fin 100000)
    (hr : r.val = t.val * 5000 + p.val) :
    (((cfg7.win 8).blk t).view.read (Elt Ideal) G : Vec Ideal S5000x128 .f32) (ix2 p q) = G (ix2 r q) := by
  rw [View.read_apply]
  show G _ = _
  exact congrArg G (emb7_8 t p q r hr)

/-! ## From blocks to the array -/

/-- What point `t` writes back is block `t` of the stage of the argument arrays as the region finds them. -/
theorem flushed7_eq (c : Dev nD) (t : Fin cfg7.N) :
    (dat7 (F := Ideal) V c).flushed 8 t = ((cfg7.win 8).blk t).view.read (Elt Ideal)
      (Cert.Stage.reluStage (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7))) := by
  show (cfg7.win 8).cut (grid7.coords t) ((dat7 V c).after 8 t) = _
  rw [after7_8]
  funext j
  obtain ⟨p, q, rfl⟩ : ∃ (p : Fin 5000) (q : Fin 128), j = (ix2 p q : S5000x128.Idx) :=
    ⟨j 0, j 1, eq_ix2 (n0 := 5000) (n1 := 128) j⟩
  have ht : t.val < 20 := hN7 ▸ t.isLt
  have hr : t.val * 5000 + p.val < 100000 := by have := p.isLt; omega
  exact (point7 (iblk7 V c 0 t) (iblk7 V c 1 t) (iblk7 V c 2 t) (iblk7 V c 3 t) (iblk7 V c 4 t) (iblk7 V c 5 t)
      (iblk7 V c 6 t) (iblk7 V c 7 t)
      (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7)) p q ⟨t.val * 5000 + p.val, hr⟩
      (iblk7_0_apply V c t p q _ rfl) (iblk7_1_apply V c t p q _ rfl) (iblk7_2_apply V c t p 0 _ rfl)
      (iblk7_3_apply V c t q) (iblk7_4_apply V c t q) (iblk7_5_apply V c t q) (iblk7_6_apply V c t q)
      (iblk7_7_apply V c t q)).trans
    (read7_8_apply _ t p q ⟨t.val * 5000 + p.val, hr⟩ rfl).symm

/-- An index of the array is in point `t`'s block iff each coordinate is in the block's range on its axis. -/
theorem mem_blk7_8 (t : Fin cfg7.N) (i : S100000x128.Idx) :
    i ∈ ((cfg7.win 8).blk t).view.set ↔ ∀ a : Fin 2, win7_8.index t a * S5000x128.size a ≤ (i a).val
      ∧ (i a).val < win7_8.index t a * S5000x128.size a + S5000x128.size a := by
  show i ∈ ((View.whole main_v173).slice (win7_8.rect t)).set ↔ _
  rw [View.set_slice_whole, Rect.mem_set_unit]
  exact Iff.rfl

/-- Row `r` of the array lies in the block of point `r / 5000`: the twenty blocks tile the array. -/
theorem tiles7_8 (i : S100000x128.Idx) :
    ∃ t : Fin cfg7.N, (cfg7.win 8).flush t = true ∧ i ∈ ((cfg7.win 8).blk t).view.set := by
  have hi0 : (i 0).val < 100000 := (i 0).isLt
  have hi1 : (i 1).val < 128 := (i 1).isLt
  obtain ⟨t, ht⟩ : ∃ t : Fin cfg7.N, t.val = (i 0).val / 5000 := ⟨⟨(i 0).val / 5000, by rw [hN7]; omega⟩, rfl⟩
  obtain ⟨-, -, -, -, -, -, -, -, -, -, -, -, -, -, -, -, e0, e1⟩ := idx_facts7 t
  refine ⟨t, flush7_8 t, ?_⟩
  rw [mem_blk7_8]
  intro a
  match a with
  | ⟨0, _⟩ => show win7_8.index t 0 * 5000 ≤ (i 0).val ∧ (i 0).val < win7_8.index t 0 * 5000 + 5000; rw [e0, ht]; omega
  | ⟨1, _⟩ => show win7_8.index t 1 * 128 ≤ (i 1).val ∧ (i 1).val < win7_8.index t 1 * 128 + 128; rw [e1]; omega

/-- After region 7's twenty write-backs its output array is the normalisation stage of the region's argument arrays as
    it finds them. -/
theorem norm7 (c : Dev nD) :
    (Gen.dat7 (F := Ideal) V c).arrAt 8 cfg7.N
      = Cert.Stage.reluStage (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7)) :=
  (dat7 (F := Ideal) V c).arrAt_eq_of_cover 8 _ (fun t _ => flushed7_eq V c t) tiles7_8

end Blocks

end Cert.KernelIdeal.Norm

end
-- ==== Proof.Dense4.lean ====
/- Dense product number three of the kernel program, h·W with h of 100000 rows and 128 columns and W square of 128, computed
   5000 rows at a time over 20 grid points, is the host's one dot_general of the two whole arrays: every entry (r, q) of
   the result is the sum over the 128 columns k of h(r, k)·W(k, q), whichever block r falls in. -/
import proofs.«127358_j57011395887506_2_alg».proof.Proof.Gen.KernelIdeal.Frame
import proofs.«127358_j57011395887506_2_alg».proof.ReferenceIdeal
import proofs.«127358_j57011395887506_2_alg».proof.Proof.Dense128
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense
open Cert.KernelIdeal Cert.KernelIdeal.Gen

/-- One entry of the block product: row p of the loaded rows against column q of the weight. -/
theorem pay4_apply (x0 : Vec Ideal S5000x128 .f32) (x1 : Vec Ideal S128x128 .f32) (p : Fin 5000) (q : Fin 128) :
    Gen.k4_pay1 (F := Ideal) x0 x1 (ix2 p q) = ∑ k : Fin 128, x0 (ix2 p k) * x1 (ix2 k q) := by
  unfold Gen.k4_pay1
  rw [shapeCast_self]
  exact block128_apply x0 x1 p q

/-- The printed index maps over the 20 grid points: the rows window and the result window sit at block (t, 0), the
    weight window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt20_4 (t : Fin cfg4.N) : t.val < 20 := Nat.lt_of_lt_of_eq t.isLt Gen.N_4

/-- Entry (p, k) of the rows block at point t is entry (5000·t + p, k) of the array. -/
theorem rows4 (V : (c : Dev nD) → (b : Ref sig .tc) → Buf (Elt Ideal) ((c : Thread nD τ).loc b)) (c : Dev nD) (t : Fin cfg4.N)
    (p : Fin 5000) (k : Fin 128) (r : Fin 100000) (hr : r.val = t.val * 5000 + p.val) :
    Gen.iblk4 V c 0 t (ix2 p k) = V c (Pipeline.arrRef spec4 0) (ix2 r k) := by
  obtain ⟨e0, e1, -, -, -, -⟩ := idx_facts4 t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The weight block at every point is the whole weight. -/
theorem weight4 (V : (c : Dev nD) → (b : Ref sig .tc) → Buf (Elt Ideal) ((c : Thread nD τ).loc b)) (c : Dev nD) (t : Fin cfg4.N)
    (k : Fin 128) (q : Fin 128) :
    Gen.iblk4 V c 1 t (ix2 k q) = V c (Pipeline.arrRef spec4 1) (ix2 k q) := by
  obtain ⟨-, -, e2, e3, -, -⟩ := idx_facts4 t
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- Entry (p, q) of the result block at point t sits at (5000·t + p, q) in the result array. -/
theorem out_emb4 (t : Fin cfg4.N) (p : Fin 5000) (q : Fin 128) (r : Fin 100000) (hr : r.val = t.val * 5000 + p.val) :
    ((cfg4.win 2).blk t).view.emb (ix2 p q) = (ix2 r q : S100000x128.Idx) := by
  obtain ⟨-, -, -, -, e4, e5⟩ := idx_facts4 t
  refine funext fun a => Fin.ext ?_
  match a with
  | ⟨0, _⟩ => show win4_2.index t (0 : Fin 2) * 5000 + 1 * p.val = r.val; omega
  | ⟨1, _⟩ => show win4_2.index t (1 : Fin 2) * 128 + 1 * q.val = q.val; omega

/-- What grid point t writes back is block t of the whole product: rows 5000·t … 5000·t + 4999. -/
theorem flushed4_eq (V : (c : Dev nD) → (b : Ref sig .tc) → Buf (Elt Ideal) ((c : Thread nD τ).loc b)) (c : Dev nD) (t : Fin cfg4.N) :
    (Gen.dat4 (F := Ideal) V c).flushed 2 t
      = ((cfg4.win 2).blk t).view.read (Elt Ideal) (prod128 (V c (Pipeline.arrRef spec4 0)) (V c (Pipeline.arrRef spec4 1))) := by
  show (cfg4.win 2).cut (grid4.coords t) ((Gen.dat4 V c).after 2 t) = _
  rw [Gen.after4_2]
  unfold Gen.out4_2
  rw [View.canon_unit_zero hz128]
  simp only [View.ld_unit_zero (S := S5000x128) hz128, View.ld_unit_zero (S := S128x128) hz128]
  have hN := lt20_4 t
  funext j
  obtain ⟨p, q, rfl⟩ : ∃ (p : Fin 5000) (q : Fin 128), j = ix2 p q := ⟨j 0, j 1, @eq_ix2 5000 128 j⟩
  have hp : p.val < 5000 := p.isLt
  show Gen.k4_pay1 (F := Ideal) (Gen.iblk4 V c 0 t) (Gen.iblk4 V c 1 t) (ix2 p q)
    = prod128 (V c (Pipeline.arrRef spec4 0)) (V c (Pipeline.arrRef spec4 1)) (((cfg4.win 2).blk t).view.emb (ix2 p q))
  rw [out_emb4 t p q ⟨t.val * 5000 + p.val, by omega⟩ rfl]
  refine (pay4_apply (Gen.iblk4 V c 0 t) (Gen.iblk4 V c 1 t) p q).trans ?_
  refine Eq.symm ((prod128_apply _ _ _ ⟨t.val * 5000 + p.val, by omega⟩ q rfl rfl).trans ?_)
  refine Finset.sum_congr rfl fun k _ => ?_
  rw [rows4 V c t p k ⟨t.val * 5000 + p.val, by omega⟩ rfl, weight4 V c t k q]

/-- An index of the result array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v120).slice (win4_2.rect t)).set ↔ _
  rw [View.set_slice_whole, Rect.mem_set_unit]
  exact Iff.rfl

/-- Row r of the result is written by grid point r / 5000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, Nat.lt_of_lt_of_eq (show (i 0).val / 5000 < 20 by omega) Gen.N_4.symm⟩, rfl⟩
  obtain ⟨-, -, -, -, e4, e5⟩ := idx_facts4 t
  refine ⟨t, Gen.flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- So the result array ends holding the whole product. -/
theorem arr4 (V : (c : Dev nD) → (b : Ref sig .tc) → Buf (Elt Ideal) ((c : Thread nD τ).loc b)) (c : Dev nD) :
    (Gen.dat4 (F := Ideal) V c).arrAt 2 cfg4.N = prod128 (V c (Pipeline.arrRef spec4 0)) (V c (Pipeline.arrRef spec4 1)) :=
  (Gen.dat4 (F := Ideal) V c).arrAt_eq_of_cover 2 _ (fun t _ => flushed4_eq V c t) cover4

/-- The result array of this dense product is the host's dot_general of the two arrays the region finds. -/
theorem dense4 [Cert.ReferenceIdeal.Facts₀] (V : (c : Dev nD) → (b : Ref sig .tc) → Buf (Elt Ideal) ((c : Thread nD τ).loc b)) (c : Dev nD) :
    (Gen.dat4 (F := Ideal) V c).arrAt 2 cfg4.N
      = Host.dotGeneral (F := Ideal) (φ₁ := .f32) (φ₂ := .f32) Cert.ReferenceIdeal.dot_S100000x128_S128x128_S100000x128_1_0_0_1_n_n none (V c (Pipeline.arrRef spec4 0)) (V c (Pipeline.arrRef spec4 1)) :=
  (arr4 V c).trans (ref128_eq _ _)

end Cert.KernelIdeal.Dense
-- ==== Proof.Norm5.lean ====
/-
  Region 5 (the third layer's normalisation and exponential linear unit): the twenty blocks of 5000 rows that the grid's points write
  back, assembled into the whole [100000,128] array as ONE index-by-index function of the region's eight argument
  arrays, `Cert.Stage.eluStage`. Point `t` computes rows `5000 t … 5000 t + 4999`: each entry `(p, q)` of its block from
  entry `(p, q)` of the two row-blocked inputs, entry `(p, 0)` of the degree column's block, and entry `(0, q)` of the
  five parameter rows, which every point sees whole. Row `r` of the array is written by point `r / 5000` alone.
-/
import proofs.«127358_j57011395887506_2_alg».proof.Proof.Gen.KernelIdeal.Frame
import proofs.«127358_j57011395887506_2_alg».proof.Proof.StageSpec
import proofs.«127358_j57011395887506_2_alg».proof.Proof.NormCommon
import Idealize.ShloMosaic.Lib.Pipeline.Value
import Idealize.ShloMosaic.Lib.ValueLayout

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of a block -/

/-- The affine part of the body's arithmetic at entry `(p, q)` of a block: the pointwise operations read through, the
    column broadcast at `(p, 0)` and the five row broadcasts at `(0, q)`. The loads arrive in the order bias, variance,
    mean, scale, shift. -/
theorem affine5_apply (x0 x1 : Vec Ideal S5000x128 .f32) (x2 : Vec Ideal S5000x1 .f32) (x3 x4 x5 x6 x7 : Vec Ideal S1x128 .f32)
    (p : Fin 5000) (q : Fin 128) :
    k5_pay2 x0 x1 x2 x3 x7 x6 x4 x5 (ix2 p q) = Cert.Stage.affine (x0 (ix2 p q)) (x1 (ix2 p q)) (x2 (ix2 p 0)) (x3 (ix2 0 q)) (x4 (ix2 0 q))
          (x5 (ix2 0 q)) (x6 (ix2 0 q)) (x7 (ix2 0 q)) := by
  unfold k5_pay2
  simp only [shapeCast_self]
  rw [addf_apply, mulf_apply, mulf_apply, subf_apply, addf_apply, addf_apply, mulf_apply,
    broadcastTo_a1_ab_apply, broadcastTo_1b_ab_apply, broadcastTo_1b_ab_apply, broadcastTo_1b_ab_apply,
    broadcastTo_1b_ab_apply, broadcastTo_1b_ab_apply]
  rfl

/-- The body's stored value at `(p, q)`: the select on `x > 0` between `x` and `exp (min x 0) − 1` of the affine part. -/
theorem act5_apply (x0 x1 : Vec Ideal S5000x128 .f32) (x2 : Vec Ideal S5000x1 .f32) (x3 x4 x5 x6 x7 : Vec Ideal S1x128 .f32)
    (p : Fin 5000) (q : Fin 128) :
    k5_pay1 (k5_pay2 x0 x1 x2 x3 x7 x6 x4 x5) (k5_pay3 x0 x1 x2 x3 x7 x6 x4 x5) (k5_pay4 x0 x1 x2 x3 x7 x6 x4 x5) (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  rw [← affine5_apply x0 x1 x2 x3 x4 x5 x6 x7 p q]
  exact Cert.Stage.elu_select_min (k5_pay2 x0 x1 x2 x3 x7 x6 x4 x5 (ix2 p q))

/-- What the body leaves in the output's staging buffer, at `(p, q)`: its one whole-block store of that value of the
    whole-block loads. -/
theorem out5_8_apply (x0 x1 : Vec Ideal S5000x128 .f32) (x2 : Vec Ideal S5000x1 .f32) (x3 x4 x5 x6 x7 : Vec Ideal S1x128 .f32)
    (p : Fin 5000) (q : Fin 128) :
    out5_8 x0 x1 x2 x3 x4 x5 x6 x7 (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  unfold out5_8
  rw [View.canon_unit_zero hz]
  simp only [View.ld_unit_zero (S := S5000x128) hz, View.ld_unit_zero (S := S5000x1) hz, View.ld_unit_zero (S := S1x128) hz]
  exact act5_apply x0 x1 x2 x3 x4 x5 x6 x7 p q

/-- One entry of a block of the stage: if the loaded blocks hold the arrays' entries of row `r` (the column's at
    `(r, 0)`, the parameter rows' at `(0, q)`), the body's stored value at `(p, q)` is the stage at `(r, q)`. -/
theorem point5 (x0 x1 : Vec Ideal S5000x128 .f32) (x2 : Vec Ideal S5000x1 .f32) (x3 x4 x5 x6 x7 : Vec Ideal S1x128 .f32)
    (A0 A1 : S100000x128.Idx → EReal) (A2 : S100000x1.Idx → EReal) (A3 A4 A5 A6 A7 : S1x128.Idx → EReal)
    (p : Fin 5000) (q : Fin 128) (r : Fin 100000)
    (h0 : x0 (ix2 p q) = A0 (ix2 r q)) (h1 : x1 (ix2 p q) = A1 (ix2 r q)) (h2 : x2 (ix2 p 0) = A2 (ix2 r 0))
    (h3 : x3 (ix2 0 q) = A3 (ix2 0 q)) (h4 : x4 (ix2 0 q) = A4 (ix2 0 q)) (h5 : x5 (ix2 0 q) = A5 (ix2 0 q))
    (h6 : x6 (ix2 0 q) = A6 (ix2 0 q)) (h7 : x7 (ix2 0 q) = A7 (ix2 0 q)) :
    out5_8 x0 x1 x2 x3 x4 x5 x6 x7 (ix2 p q) = Cert.Stage.eluStage A0 A1 A2 A3 A4 A5 A6 A7 (ix2 r q) := by
  rw [out5_8_apply, Cert.Stage.eluStage_apply, h0, h1, h2, h3, h4, h5, h6, h7]

/-! ## The blocks, read off the arrays as the region finds them -/

section Blocks
variable (V : (c : Dev nD) → (b : Ref sig .tc) → Buf (Elt Ideal) ((c : Thread nD τ).loc b))

/-- The grid has twenty points. -/
theorem hN5 : cfg5.N = 20 := N_5

/-- The printed index maps over the grid: the row-blocked windows sit at block `t`, the parameter rows at block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- Window 0's block at point `t`, entry `(p, q)`, is its array's entry of row `5000 t + p`. -/
theorem iblk5_0_apply (c : Dev nD) (t : Fin cfg5.N) (p : Fin 5000) (q : Fin 128) (r : Fin 100000)
    (hr : r.val = t.val * 5000 + p.val) :
    (iblk5 V c 0 t : Vec Ideal S5000x128 .f32) (ix2 p q)
      = (V c (Pipeline.arrRef spec5 0) : S100000x128.Idx → EReal) (ix2 r q) := by
  obtain ⟨e0, e1, -, -, -, -, -, -, -, -, -, -, -, -, -, -, -, -⟩ := idx_facts5 t
  unfold iblk5
  rw [View.read_apply]
  show (V c (Pipeline.arrRef spec5 0) : S100000x128.Idx → EReal) _ = _
  refine congrArg (V c (Pipeline.arrRef spec5 0) : S100000x128.Idx → EReal) (funext fun a => Fin.ext ?_)
  match a with
  | ⟨0, _⟩ => show win5_0.index t 0 * 5000 + 1 * p.val = r.val; rw [e0, hr]; omega
  | ⟨1, _⟩ => show win5_0.index t 1 * 128 + 1 * q.val = q.val; rw [e1]; omega

/-- Window 1's block at point `t`, entry `(p, q)`, is its array's entry of row `5000 t + p`. -/
theorem iblk5_1_apply (c : Dev nD) (t : Fin cfg5.N) (p : Fin 5000) (q : Fin 128) (r : Fin 100000)
    (hr : r.val = t.val * 5000 + p.val) :
    (iblk5 V c 1 t : Vec Ideal S5000x128 .f32) (ix2 p q)
      = (V c (Pipeline.arrRef spec5 1) : S100000x128.Idx → EReal) (ix2 r q) := by
  obtain ⟨-, -, e0, e1, -, -, -, -, -, -, -, -, -, -, -, -, -, -⟩ := idx_facts5 t
  unfold iblk5
  rw [View.read_apply]
  show (V c (Pipeline.arrRef spec5 1) : S100000x128.Idx → EReal) _ = _
  refine congrArg (V c (Pipeline.arrRef spec5 1) : S100000x128.Idx → EReal) (funext fun a => Fin.ext ?_)
  match a with
  | ⟨0, _⟩ => show win5_1.index t 0 * 5000 + 1 * p.val = r.val; rw [e0, hr]; omega
  | ⟨1, _⟩ => show win5_1.index t 1 * 128 + 1 * q.val = q.val; rw [e1]; omega

/-- Window 2's block at point `t`, entry `(p, q)`, is its array's entry of row `5000 t + p`. -/
theorem iblk5_2_apply (c : Dev nD) (t : Fin cfg5.N) (p : Fin 5000) (q : Fin 1) (r : Fin 100000)
    (hr : r.val = t.val * 5000 + p.val) :
    (iblk5 V c 2 t : Vec Ideal S5000x1 .f32) (ix2 p q)
      = (V c (Pipeline.arrRef spec5 2) : S100000x1.Idx → EReal) (ix2 r q) := by
  obtain ⟨-, -, -, -, e0, e1, -, -, -, -, -, -, -, -, -, -, -, -⟩ := idx_facts5 t
  unfold iblk5
  rw [View.read_apply]
  show (V c (Pipeline.arrRef spec5 2) : S100000x1.Idx → EReal) _ = _
  refine congrArg (V c (Pipeline.arrRef spec5 2) : S100000x1.Idx → EReal) (funext fun a => Fin.ext ?_)
  match a with
  | ⟨0, _⟩ => show win5_2.index t 0 * 5000 + 1 * p.val = r.val; rw [e0, hr]; omega
  | ⟨1, _⟩ => show win5_2.index t 1 * 1 + 1 * q.val = q.val; rw [e1]; omega

/-- Window 3's block at every point is its whole one-row array. -/
theorem iblk5_3_apply (c : Dev nD) (t : Fin cfg5.N) (q : Fin 128) :
    (iblk5 V c 3 t : Vec Ideal S1x128 .f32) (ix2 (0 : Fin 1) q)
      = (V c (Pipeline.arrRef spec5 3) : S1x128.Idx → EReal) (ix2 (0 : Fin 1) q) := by
  obtain ⟨-, -, -, -, -, -, e0, e1, -, -, -, -, -, -, -, -, -, -⟩ := idx_facts5 t
  unfold iblk5
  rw [View.read_apply]
  show (V c (Pipeline.arrRef spec5 3) : S1x128.Idx → EReal) _ = _
  refine congrArg (V c (Pipeline.arrRef spec5 3) : S1x128.Idx → EReal) (funext fun a => Fin.ext ?_)
  match a with
  | ⟨0, _⟩ => show win5_3.index t 0 * 1 + 1 * 0 = 0; rw [e0]
  | ⟨1, _⟩ => show win5_3.index t 1 * 128 + 1 * q.val = q.val; rw [e1]; omega

/-- Window 4's block at every point is its whole one-row array. -/
theorem iblk5_4_apply (c : Dev nD) (t : Fin cfg5.N) (q : Fin 128) :
    (iblk5 V c 4 t : Vec Ideal S1x128 .f32) (ix2 (0 : Fin 1) q)
      = (V c (Pipeline.arrRef spec5 4) : S1x128.Idx → EReal) (ix2 (0 : Fin 1) q) := by
  obtain ⟨-, -, -, -, -, -, -, -, e0, e1, -, -, -, -, -, -, -, -⟩ := idx_facts5 t
  unfold iblk5
  rw [View.read_apply]
  show (V c (Pipeline.arrRef spec5 4) : S1x128.Idx → EReal) _ = _
  refine congrArg (V c (Pipeline.arrRef spec5 4) : S1x128.Idx → EReal) (funext fun a => Fin.ext ?_)
  match a with
  | ⟨0, _⟩ => show win5_4.index t 0 * 1 + 1 * 0 = 0; rw [e0]
  | ⟨1, _⟩ => show win5_4.index t 1 * 128 + 1 * q.val = q.val; rw [e1]; omega

/-- Window 5's block at every point is its whole one-row array. -/
theorem iblk5_5_apply (c : Dev nD) (t : Fin cfg5.N) (q : Fin 128) :
    (iblk5 V c 5 t : Vec Ideal S1x128 .f32) (ix2 (0 : Fin 1) q)
      = (V c (Pipeline.arrRef spec5 5) : S1x128.Idx → EReal) (ix2 (0 : Fin 1) q) := by
  obtain ⟨-, -, -, -, -, -, -, -, -, -, e0, e1, -, -, -, -, -, -⟩ := idx_facts5 t
  unfold iblk5
  rw [View.read_apply]
  show (V c (Pipeline.arrRef spec5 5) : S1x128.Idx → EReal) _ = _
  refine congrArg (V c (Pipeline.arrRef spec5 5) : S1x128.Idx → EReal) (funext fun a => Fin.ext ?_)
  match a with
  | ⟨0, _⟩ => show win5_5.index t 0 * 1 + 1 * 0 = 0; rw [e0]
  | ⟨1, _⟩ => show win5_5.index t 1 * 128 + 1 * q.val = q.val; rw [e1]; omega

/-- Window 6's block at every point is its whole one-row array. -/
theorem iblk5_6_apply (c : Dev nD) (t : Fin cfg5.N) (q : Fin 128) :
    (iblk5 V c 6 t : Vec Ideal S1x128 .f32) (ix2 (0 : Fin 1) q)
      = (V c (Pipeline.arrRef spec5 6) : S1x128.Idx → EReal) (ix2 (0 : Fin 1) q) := by
  obtain ⟨-, -, -, -, -, -, -, -, -, -, -, -, e0, e1, -, -, -, -⟩ := idx_facts5 t
  unfold iblk5
  rw [View.read_apply]
  show (V c (Pipeline.arrRef spec5 6) : S1x128.Idx → EReal) _ = _
  refine congrArg (V c (Pipeline.arrRef spec5 6) : S1x128.Idx → EReal) (funext fun a => Fin.ext ?_)
  match a with
  | ⟨0, _⟩ => show win5_6.index t 0 * 1 + 1 * 0 = 0; rw [e0]
  | ⟨1, _⟩ => show win5_6.index t 1 * 128 + 1 * q.val = q.val; rw [e1]; omega

/-- Window 7's block at every point is its whole one-row array. -/
theorem iblk5_7_apply (c : Dev nD) (t : Fin cfg5.N) (q : Fin 128) :
    (iblk5 V c 7 t : Vec Ideal S1x128 .f32) (ix2 (0 : Fin 1) q)
      = (V c (Pipeline.arrRef spec5 7) : S1x128.Idx → EReal) (ix2 (0 : Fin 1) q) := by
  obtain ⟨-, -, -, -, -, -, -, -, -, -, -, -, -, -, e0, e1, -, -⟩ := idx_facts5 t
  unfold iblk5
  rw [View.read_apply]
  show (V c (Pipeline.arrRef spec5 7) : S1x128.Idx → EReal) _ = _
  refine congrArg (V c (Pipeline.arrRef spec5 7) : S1x128.Idx → EReal) (funext fun a => Fin.ext ?_)
  match a with
  | ⟨0, _⟩ => show win5_7.index t 0 * 1 + 1 * 0 = 0; rw [e0]
  | ⟨1, _⟩ => show win5_7.index t 1 * 128 + 1 * q.val = q.val; rw [e1]; omega

/-- Entry `(p, q)` of the output's block at point `t` sits at row `5000 t + p`, column `q` of the array. -/
theorem emb5_8 (t : Fin cfg5.N) (p : Fin 5000) (q : Fin 128) (r : Fin 100000) (hr : r.val = t.val * 5000 + p.val) :
    ((cfg5.win 8).blk t).view.emb (ix2 p q : S5000x128.Idx) = (ix2 r q : S100000x128.Idx) := by
  obtain ⟨-, -, -, -, -, -, -, -, -, -, -, -, -, -, -, -, e0, e1⟩ := idx_facts5 t
  refine funext fun a => Fin.ext ?_
  match a with
  | ⟨0, _⟩ => show win5_8.index t 0 * 5000 + 1 * p.val = r.val; rw [e0, hr]; omega
  | ⟨1, _⟩ => show win5_8.index t 1 * 128 + 1 * q.val = q.val; rw [e1]; omega

/-- A function of the array's index read through the output's block at point `t`, at `(p, q)`, is the function at
    row `5000 t + p`, column `q`. -/
theorem read5_8_apply (G : S100000x128.Idx → EReal) (t : Fin cfg5.N) (p : Fin 5000) (q : Fin 128) (r : Fin 100000)
    (hr : r.val = t.val * 5000 + p.val) :
    (((cfg5.win 8).blk t).view.read (Elt Ideal) G : Vec Ideal S5000x128 .f32) (ix2 p q) = G (ix2 r q) := by
  rw [View.read_apply]
  show G _ = _
  exact congrArg G (emb5_8 t p q r hr)

/-! ## From blocks to the array -/

/-- What point `t` writes back is block `t` of the stage of the argument arrays as the region finds them. -/
theorem flushed5_eq (c : Dev nD) (t : Fin cfg5.N) :
    (dat5 (F := Ideal) V c).flushed 8 t = ((cfg5.win 8).blk t).view.read (Elt Ideal)
      (Cert.Stage.eluStage (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7))) := by
  show (cfg5.win 8).cut (grid5.coords t) ((dat5 V c).after 8 t) = _
  rw [after5_8]
  funext j
  obtain ⟨p, q, rfl⟩ : ∃ (p : Fin 5000) (q : Fin 128), j = (ix2 p q : S5000x128.Idx) :=
    ⟨j 0, j 1, eq_ix2 (n0 := 5000) (n1 := 128) j⟩
  have ht : t.val < 20 := hN5 ▸ t.isLt
  have hr : t.val * 5000 + p.val < 100000 := by have := p.isLt; omega
  exact (point5 (iblk5 V c 0 t) (iblk5 V c 1 t) (iblk5 V c 2 t) (iblk5 V c 3 t) (iblk5 V c 4 t) (iblk5 V c 5 t)
      (iblk5 V c 6 t) (iblk5 V c 7 t)
      (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7)) p q ⟨t.val * 5000 + p.val, hr⟩
      (iblk5_0_apply V c t p q _ rfl) (iblk5_1_apply V c t p q _ rfl) (iblk5_2_apply V c t p 0 _ rfl)
      (iblk5_3_apply V c t q) (iblk5_4_apply V c t q) (iblk5_5_apply V c t q) (iblk5_6_apply V c t q)
      (iblk5_7_apply V c t q)).trans
    (read5_8_apply _ t p q ⟨t.val * 5000 + p.val, hr⟩ rfl).symm

/-- An index of the array is in point `t`'s block iff each coordinate is in the block's range on its axis. -/
theorem mem_blk5_8 (t : Fin cfg5.N) (i : S100000x128.Idx) :
    i ∈ ((cfg5.win 8).blk t).view.set ↔ ∀ a : Fin 2, win5_8.index t a * S5000x128.size a ≤ (i a).val
      ∧ (i a).val < win5_8.index t a * S5000x128.size a + S5000x128.size a := by
  show i ∈ ((View.whole main_v146).slice (win5_8.rect t)).set ↔ _
  rw [View.set_slice_whole, Rect.mem_set_unit]
  exact Iff.rfl

/-- Row `r` of the array lies in the block of point `r / 5000`: the twenty blocks tile the array. -/
theorem tiles5_8 (i : S100000x128.Idx) :
    ∃ t : Fin cfg5.N, (cfg5.win 8).flush t = true ∧ i ∈ ((cfg5.win 8).blk t).view.set := by
  have hi0 : (i 0).val < 100000 := (i 0).isLt
  have hi1 : (i 1).val < 128 := (i 1).isLt
  obtain ⟨t, ht⟩ : ∃ t : Fin cfg5.N, t.val = (i 0).val / 5000 := ⟨⟨(i 0).val / 5000, by rw [hN5]; omega⟩, rfl⟩
  obtain ⟨-, -, -, -, -, -, -, -, -, -, -, -, -, -, -, -, e0, e1⟩ := idx_facts5 t
  refine ⟨t, flush5_8 t, ?_⟩
  rw [mem_blk5_8]
  intro a
  match a with
  | ⟨0, _⟩ => show win5_8.index t 0 * 5000 ≤ (i 0).val ∧ (i 0).val < win5_8.index t 0 * 5000 + 5000; rw [e0, ht]; omega
  | ⟨1, _⟩ => show win5_8.index t 1 * 128 ≤ (i 1).val ∧ (i 1).val < win5_8.index t 1 * 128 + 128; rw [e1]; omega

/-- After region 5's twenty write-backs its output array is the normalisation stage of the region's argument arrays as
    it finds them. -/
theorem norm5 (c : Dev nD) :
    (Gen.dat5 (F := Ideal) V c).arrAt 8 cfg5.N
      = Cert.Stage.eluStage (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7)) :=
  (dat5 (F := Ideal) V c).arrAt_eq_of_cover 8 _ (fun t _ => flushed5_eq V c t) tiles5_8

end Blocks

end Cert.KernelIdeal.Norm

end
-- ==== Proof.Dense2.lean ====
/- Dense product number two of the kernel program, h·W with h of 100000 rows and 128 columns and W square of 128, computed
   5000 rows at a time over 20 grid points, is the host's one dot_general of the two whole arrays: every entry (r, q) of
   the result is the sum over the 128 columns k of h(r, k)·W(k, q), whichever block r falls in. -/
import proofs.«127358_j57011395887506_2_alg».proof.Proof.Gen.KernelIdeal.Frame
import proofs.«127358_j57011395887506_2_alg».proof.ReferenceIdeal
import proofs.«127358_j57011395887506_2_alg».proof.Proof.Dense128
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense
open Cert.KernelIdeal Cert.KernelIdeal.Gen

/-- One entry of the block product: row p of the loaded rows against column q of the weight. -/
theorem pay2_apply (x0 : Vec Ideal S5000x128 .f32) (x1 : Vec Ideal S128x128 .f32) (p : Fin 5000) (q : Fin 128) :
    Gen.k2_pay1 (F := Ideal) x0 x1 (ix2 p q) = ∑ k : Fin 128, x0 (ix2 p k) * x1 (ix2 k q) := by
  unfold Gen.k2_pay1
  rw [shapeCast_self]
  exact block128_apply x0 x1 p q

/-- The printed index maps over the 20 grid points: the rows window and the result window sit at block (t, 0), the
    weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt20_2 (t : Fin cfg2.N) : t.val < 20 := Nat.lt_of_lt_of_eq t.isLt Gen.N_2

/-- Entry (p, k) of the rows block at point t is entry (5000·t + p, k) of the array. -/
theorem rows2 (V : (c : Dev nD) → (b : Ref sig .tc) → Buf (Elt Ideal) ((c : Thread nD τ).loc b)) (c : Dev nD) (t : Fin cfg2.N)
    (p : Fin 5000) (k : Fin 128) (r : Fin 100000) (hr : r.val = t.val * 5000 + p.val) :
    Gen.iblk2 V c 0 t (ix2 p k) = V c (Pipeline.arrRef spec2 0) (ix2 r k) := by
  obtain ⟨e0, e1, -, -, -, -⟩ := idx_facts2 t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight block at every point is the whole weight. -/
theorem weight2 (V : (c : Dev nD) → (b : Ref sig .tc) → Buf (Elt Ideal) ((c : Thread nD τ).loc b)) (c : Dev nD) (t : Fin cfg2.N)
    (k : Fin 128) (q : Fin 128) :
    Gen.iblk2 V c 1 t (ix2 k q) = V c (Pipeline.arrRef spec2 1) (ix2 k q) := by
  obtain ⟨-, -, e2, e3, -, -⟩ := idx_facts2 t
  show V c (Pipeline.arrRef spec2 1) (((cfg2.win 1).blk t).view.emb (ix2 k q)) = _
  refine congrArg (V c (Pipeline.arrRef spec2 1)) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Entry (p, q) of the result block at point t sits at (5000·t + p, q) in the result array. -/
theorem out_emb2 (t : Fin cfg2.N) (p : Fin 5000) (q : Fin 128) (r : Fin 100000) (hr : r.val = t.val * 5000 + p.val) :
    ((cfg2.win 2).blk t).view.emb (ix2 p q) = (ix2 r q : S100000x128.Idx) := by
  obtain ⟨-, -, -, -, e4, e5⟩ := idx_facts2 t
  refine funext fun a => Fin.ext ?_
  match a with
  | ⟨0, _⟩ => show win2_2.index t (0 : Fin 2) * 5000 + 1 * p.val = r.val; omega
  | ⟨1, _⟩ => show win2_2.index t (1 : Fin 2) * 128 + 1 * q.val = q.val; omega

/-- What grid point t writes back is block t of the whole product: rows 5000·t … 5000·t + 4999. -/
theorem flushed2_eq (V : (c : Dev nD) → (b : Ref sig .tc) → Buf (Elt Ideal) ((c : Thread nD τ).loc b)) (c : Dev nD) (t : Fin cfg2.N) :
    (Gen.dat2 (F := Ideal) V c).flushed 2 t
      = ((cfg2.win 2).blk t).view.read (Elt Ideal) (prod128 (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero hz128]
  simp only [View.ld_unit_zero (S := S5000x128) hz128, View.ld_unit_zero (S := S128x128) hz128]
  have hN := lt20_2 t
  funext j
  obtain ⟨p, q, rfl⟩ : ∃ (p : Fin 5000) (q : Fin 128), j = ix2 p q := ⟨j 0, j 1, @eq_ix2 5000 128 j⟩
  have hp : p.val < 5000 := p.isLt
  show Gen.k2_pay1 (F := Ideal) (Gen.iblk2 V c 0 t) (Gen.iblk2 V c 1 t) (ix2 p q)
    = prod128 (V c (Pipeline.arrRef spec2 0)) (V c (Pipeline.arrRef spec2 1)) (((cfg2.win 2).blk t).view.emb (ix2 p q))
  rw [out_emb2 t p q ⟨t.val * 5000 + p.val, by omega⟩ rfl]
  refine (pay2_apply (Gen.iblk2 V c 0 t) (Gen.iblk2 V c 1 t) p q).trans ?_
  refine Eq.symm ((prod128_apply _ _ _ ⟨t.val * 5000 + p.val, by omega⟩ q rfl rfl).trans ?_)
  refine Finset.sum_congr rfl fun k _ => ?_
  rw [rows2 V c t p k ⟨t.val * 5000 + p.val, by omega⟩ rfl, weight2 V c t k q]

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v93).slice (win2_2.rect t)).set ↔ _
  rw [View.set_slice_whole, Rect.mem_set_unit]
  exact Iff.rfl

/-- Row r of the result is written by grid point r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (show (i 0).val / 5000 < 20 by omega) Gen.N_2.symm⟩, rfl⟩
  obtain ⟨-, -, -, -, e4, e5⟩ := idx_facts2 t
  refine ⟨t, Gen.flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- So the result array ends holding the whole product. -/
theorem arr2 (V : (c : Dev nD) → (b : Ref sig .tc) → Buf (Elt Ideal) ((c : Thread nD τ).loc b)) (c : Dev nD) :
    (Gen.dat2 (F := Ideal) V c).arrAt 2 cfg2.N = prod128 (V c (Pipeline.arrRef spec2 0)) (V c (Pipeline.arrRef spec2 1)) :=
  (Gen.dat2 (F := Ideal) V c).arrAt_eq_of_cover 2 _ (fun t _ => flushed2_eq V c t) cover2

/-- The result array of this dense product is the host's dot_general of the two arrays the region finds. -/
theorem dense2 [Cert.ReferenceIdeal.Facts₀] (V : (c : Dev nD) → (b : Ref sig .tc) → Buf (Elt Ideal) ((c : Thread nD τ).loc b)) (c : Dev nD) :
    (Gen.dat2 (F := Ideal) V c).arrAt 2 cfg2.N
      = Host.dotGeneral (F := Ideal) (φ₁ := .f32) (φ₂ := .f32) Cert.ReferenceIdeal.dot_S100000x128_S128x128_S100000x128_1_0_0_1_n_n none (V c (Pipeline.arrRef spec2 0)) (V c (Pipeline.arrRef spec2 1)) :=
  (arr2 V c).trans (ref128_eq _ _)

end Cert.KernelIdeal.Dense
-- ==== Proof.Norm3.lean ====
/-
  Region 3 (the second layer's normalisation and exponential linear unit): the twenty blocks of 5000 rows that the grid's points write
  back, assembled into the whole [100000,128] array as ONE index-by-index function of the region's eight argument
  arrays, `Cert.Stage.eluStage`. Point `t` computes rows `5000 t … 5000 t + 4999`: each entry `(p, q)` of its block from
  entry `(p, q)` of the two row-blocked inputs, entry `(p, 0)` of the degree column's block, and entry `(0, q)` of the
  five parameter rows, which every point sees whole. Row `r` of the array is written by point `r / 5000` alone.
-/
import proofs.«127358_j57011395887506_2_alg».proof.Proof.Gen.KernelIdeal.Frame
import proofs.«127358_j57011395887506_2_alg».proof.Proof.StageSpec
import proofs.«127358_j57011395887506_2_alg».proof.Proof.NormCommon
import Idealize.ShloMosaic.Lib.Pipeline.Value
import Idealize.ShloMosaic.Lib.ValueLayout

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of a block -/

/-- The affine part of the body's arithmetic at entry `(p, q)` of a block: the pointwise operations read through, the
    column broadcast at `(p, 0)` and the five row broadcasts at `(0, q)`. The loads arrive in the order bias, variance,
    mean, scale, shift. -/
theorem affine3_apply (x0 x1 : Vec Ideal S5000x128 .f32) (x2 : Vec Ideal S5000x1 .f32) (x3 x4 x5 x6 x7 : Vec Ideal S1x128 .f32)
    (p : Fin 5000) (q : Fin 128) :
    k3_pay2 x0 x1 x2 x3 x7 x6 x4 x5 (ix2 p q) = Cert.Stage.affine (x0 (ix2 p q)) (x1 (ix2 p q)) (x2 (ix2 p 0)) (x3 (ix2 0 q)) (x4 (ix2 0 q))
          (x5 (ix2 0 q)) (x6 (ix2 0 q)) (x7 (ix2 0 q)) := by
  unfold k3_pay2
  simp only [shapeCast_self]
  rw [addf_apply, mulf_apply, mulf_apply, subf_apply, addf_apply, addf_apply, mulf_apply,
    broadcastTo_a1_ab_apply, broadcastTo_1b_ab_apply, broadcastTo_1b_ab_apply, broadcastTo_1b_ab_apply,
    broadcastTo_1b_ab_apply, broadcastTo_1b_ab_apply]
  rfl

/-- The body's stored value at `(p, q)`: the select on `x > 0` between `x` and `exp (min x 0) − 1` of the affine part. -/
theorem act3_apply (x0 x1 : Vec Ideal S5000x128 .f32) (x2 : Vec Ideal S5000x1 .f32) (x3 x4 x5 x6 x7 : Vec Ideal S1x128 .f32)
    (p : Fin 5000) (q : Fin 128) :
    k3_pay1 (k3_pay2 x0 x1 x2 x3 x7 x6 x4 x5) (k3_pay3 x0 x1 x2 x3 x7 x6 x4 x5) (k3_pay4 x0 x1 x2 x3 x7 x6 x4 x5) (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  rw [← affine3_apply x0 x1 x2 x3 x4 x5 x6 x7 p q]
  exact Cert.Stage.elu_select_min (k3_pay2 x0 x1 x2 x3 x7 x6 x4 x5 (ix2 p q))

/-- What the body leaves in the output's staging buffer, at `(p, q)`: its one whole-block store of that value of the
    whole-block loads. -/
theorem out3_8_apply (x0 x1 : Vec Ideal S5000x128 .f32) (x2 : Vec Ideal S5000x1 .f32) (x3 x4 x5 x6 x7 : Vec Ideal S1x128 .f32)
    (p : Fin 5000) (q : Fin 128) :
    out3_8 x0 x1 x2 x3 x4 x5 x6 x7 (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  unfold out3_8
  rw [View.canon_unit_zero hz]
  simp only [View.ld_unit_zero (S := S5000x128) hz, View.ld_unit_zero (S := S5000x1) hz, View.ld_unit_zero (S := S1x128) hz]
  exact act3_apply x0 x1 x2 x3 x4 x5 x6 x7 p q

/-- One entry of a block of the stage: if the loaded blocks hold the arrays' entries of row `r` (the column's at
    `(r, 0)`, the parameter rows' at `(0, q)`), the body's stored value at `(p, q)` is the stage at `(r, q)`. -/
theorem point3 (x0 x1 : Vec Ideal S5000x128 .f32) (x2 : Vec Ideal S5000x1 .f32) (x3 x4 x5 x6 x7 : Vec Ideal S1x128 .f32)
    (A0 A1 : S100000x128.Idx → EReal) (A2 : S100000x1.Idx → EReal) (A3 A4 A5 A6 A7 : S1x128.Idx → EReal)
    (p : Fin 5000) (q : Fin 128) (r : Fin 100000)
    (h0 : x0 (ix2 p q) = A0 (ix2 r q)) (h1 : x1 (ix2 p q) = A1 (ix2 r q)) (h2 : x2 (ix2 p 0) = A2 (ix2 r 0))
    (h3 : x3 (ix2 0 q) = A3 (ix2 0 q)) (h4 : x4 (ix2 0 q) = A4 (ix2 0 q)) (h5 : x5 (ix2 0 q) = A5 (ix2 0 q))
    (h6 : x6 (ix2 0 q) = A6 (ix2 0 q)) (h7 : x7 (ix2 0 q) = A7 (ix2 0 q)) :
    out3_8 x0 x1 x2 x3 x4 x5 x6 x7 (ix2 p q) = Cert.Stage.eluStage A0 A1 A2 A3 A4 A5 A6 A7 (ix2 r q) := by
  rw [out3_8_apply, Cert.Stage.eluStage_apply, h0, h1, h2, h3, h4, h5, h6, h7]

/-! ## The blocks, read off the arrays as the region finds them -/

section Blocks
variable (V : (c : Dev nD) → (b : Ref sig .tc) → Buf (Elt Ideal) ((c : Thread nD τ).loc b))

/-- The grid has twenty points. -/
theorem hN3 : cfg3.N = 20 := N_3

/-- The printed index maps over the grid: the row-blocked windows sit at block `t`, the parameter rows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Window 0's block at point `t`, entry `(p, q)`, is its array's entry of row `5000 t + p`. -/
theorem iblk3_0_apply (c : Dev nD) (t : Fin cfg3.N) (p : Fin 5000) (q : Fin 128) (r : Fin 100000)
    (hr : r.val = t.val * 5000 + p.val) :
    (iblk3 V c 0 t : Vec Ideal S5000x128 .f32) (ix2 p q)
      = (V c (Pipeline.arrRef spec3 0) : S100000x128.Idx → EReal) (ix2 r q) := by
  obtain ⟨e0, e1, -, -, -, -, -, -, -, -, -, -, -, -, -, -, -, -⟩ := idx_facts3 t
  unfold iblk3
  rw [View.read_apply]
  show (V c (Pipeline.arrRef spec3 0) : S100000x128.Idx → EReal) _ = _
  refine congrArg (V c (Pipeline.arrRef spec3 0) : S100000x128.Idx → EReal) (funext fun a => Fin.ext ?_)
  match a with
  | ⟨0, _⟩ => show win3_0.index t 0 * 5000 + 1 * p.val = r.val; rw [e0, hr]; omega
  | ⟨1, _⟩ => show win3_0.index t 1 * 128 + 1 * q.val = q.val; rw [e1]; omega

/-- Window 1's block at point `t`, entry `(p, q)`, is its array's entry of row `5000 t + p`. -/
theorem iblk3_1_apply (c : Dev nD) (t : Fin cfg3.N) (p : Fin 5000) (q : Fin 128) (r : Fin 100000)
    (hr : r.val = t.val * 5000 + p.val) :
    (iblk3 V c 1 t : Vec Ideal S5000x128 .f32) (ix2 p q)
      = (V c (Pipeline.arrRef spec3 1) : S100000x128.Idx → EReal) (ix2 r q) := by
  obtain ⟨-, -, e0, e1, -, -, -, -, -, -, -, -, -, -, -, -, -, -⟩ := idx_facts3 t
  unfold iblk3
  rw [View.read_apply]
  show (V c (Pipeline.arrRef spec3 1) : S100000x128.Idx → EReal) _ = _
  refine congrArg (V c (Pipeline.arrRef spec3 1) : S100000x128.Idx → EReal) (funext fun a => Fin.ext ?_)
  match a with
  | ⟨0, _⟩ => show win3_1.index t 0 * 5000 + 1 * p.val = r.val; rw [e0, hr]; omega
  | ⟨1, _⟩ => show win3_1.index t 1 * 128 + 1 * q.val = q.val; rw [e1]; omega

/-- Window 2's block at point `t`, entry `(p, q)`, is its array's entry of row `5000 t + p`. -/
theorem iblk3_2_apply (c : Dev nD) (t : Fin cfg3.N) (p : Fin 5000) (q : Fin 1) (r : Fin 100000)
    (hr : r.val = t.val * 5000 + p.val) :
    (iblk3 V c 2 t : Vec Ideal S5000x1 .f32) (ix2 p q)
      = (V c (Pipeline.arrRef spec3 2) : S100000x1.Idx → EReal) (ix2 r q) := by
  obtain ⟨-, -, -, -, e0, e1, -, -, -, -, -, -, -, -, -, -, -, -⟩ := idx_facts3 t
  unfold iblk3
  rw [View.read_apply]
  show (V c (Pipeline.arrRef spec3 2) : S100000x1.Idx → EReal) _ = _
  refine congrArg (V c (Pipeline.arrRef spec3 2) : S100000x1.Idx → EReal) (funext fun a => Fin.ext ?_)
  match a with
  | ⟨0, _⟩ => show win3_2.index t 0 * 5000 + 1 * p.val = r.val; rw [e0, hr]; omega
  | ⟨1, _⟩ => show win3_2.index t 1 * 1 + 1 * q.val = q.val; rw [e1]; omega

/-- Window 3's block at every point is its whole one-row array. -/
theorem iblk3_3_apply (c : Dev nD) (t : Fin cfg3.N) (q : Fin 128) :
    (iblk3 V c 3 t : Vec Ideal S1x128 .f32) (ix2 (0 : Fin 1) q)
      = (V c (Pipeline.arrRef spec3 3) : S1x128.Idx → EReal) (ix2 (0 : Fin 1) q) := by
  obtain ⟨-, -, -, -, -, -, e0, e1, -, -, -, -, -, -, -, -, -, -⟩ := idx_facts3 t
  unfold iblk3
  rw [View.read_apply]
  show (V c (Pipeline.arrRef spec3 3) : S1x128.Idx → EReal) _ = _
  refine congrArg (V c (Pipeline.arrRef spec3 3) : S1x128.Idx → EReal) (funext fun a => Fin.ext ?_)
  match a with
  | ⟨0, _⟩ => show win3_3.index t 0 * 1 + 1 * 0 = 0; rw [e0]
  | ⟨1, _⟩ => show win3_3.index t 1 * 128 + 1 * q.val = q.val; rw [e1]; omega

/-- Window 4's block at every point is its whole one-row array. -/
theorem iblk3_4_apply (c : Dev nD) (t : Fin cfg3.N) (q : Fin 128) :
    (iblk3 V c 4 t : Vec Ideal S1x128 .f32) (ix2 (0 : Fin 1) q)
      = (V c (Pipeline.arrRef spec3 4) : S1x128.Idx → EReal) (ix2 (0 : Fin 1) q) := by
  obtain ⟨-, -, -, -, -, -, -, -, e0, e1, -, -, -, -, -, -, -, -⟩ := idx_facts3 t
  unfold iblk3
  rw [View.read_apply]
  show (V c (Pipeline.arrRef spec3 4) : S1x128.Idx → EReal) _ = _
  refine congrArg (V c (Pipeline.arrRef spec3 4) : S1x128.Idx → EReal) (funext fun a => Fin.ext ?_)
  match a with
  | ⟨0, _⟩ => show win3_4.index t 0 * 1 + 1 * 0 = 0; rw [e0]
  | ⟨1, _⟩ => show win3_4.index t 1 * 128 + 1 * q.val = q.val; rw [e1]; omega

/-- Window 5's block at every point is its whole one-row array. -/
theorem iblk3_5_apply (c : Dev nD) (t : Fin cfg3.N) (q : Fin 128) :
    (iblk3 V c 5 t : Vec Ideal S1x128 .f32) (ix2 (0 : Fin 1) q)
      = (V c (Pipeline.arrRef spec3 5) : S1x128.Idx → EReal) (ix2 (0 : Fin 1) q) := by
  obtain ⟨-, -, -, -, -, -, -, -, -, -, e0, e1, -, -, -, -, -, -⟩ := idx_facts3 t
  unfold iblk3
  rw [View.read_apply]
  show (V c (Pipeline.arrRef spec3 5) : S1x128.Idx → EReal) _ = _
  refine congrArg (V c (Pipeline.arrRef spec3 5) : S1x128.Idx → EReal) (funext fun a => Fin.ext ?_)
  match a with
  | ⟨0, _⟩ => show win3_5.index t 0 * 1 + 1 * 0 = 0; rw [e0]
  | ⟨1, _⟩ => show win3_5.index t 1 * 128 + 1 * q.val = q.val; rw [e1]; omega

/-- Window 6's block at every point is its whole one-row array. -/
theorem iblk3_6_apply (c : Dev nD) (t : Fin cfg3.N) (q : Fin 128) :
    (iblk3 V c 6 t : Vec Ideal S1x128 .f32) (ix2 (0 : Fin 1) q)
      = (V c (Pipeline.arrRef spec3 6) : S1x128.Idx → EReal) (ix2 (0 : Fin 1) q) := by
  obtain ⟨-, -, -, -, -, -, -, -, -, -, -, -, e0, e1, -, -, -, -⟩ := idx_facts3 t
  unfold iblk3
  rw [View.read_apply]
  show (V c (Pipeline.arrRef spec3 6) : S1x128.Idx → EReal) _ = _
  refine congrArg (V c (Pipeline.arrRef spec3 6) : S1x128.Idx → EReal) (funext fun a => Fin.ext ?_)
  match a with
  | ⟨0, _⟩ => show win3_6.index t 0 * 1 + 1 * 0 = 0; rw [e0]
  | ⟨1, _⟩ => show win3_6.index t 1 * 128 + 1 * q.val = q.val; rw [e1]; omega

/-- Window 7's block at every point is its whole one-row array. -/
theorem iblk3_7_apply (c : Dev nD) (t : Fin cfg3.N) (q : Fin 128) :
    (iblk3 V c 7 t : Vec Ideal S1x128 .f32) (ix2 (0 : Fin 1) q)
      = (V c (Pipeline.arrRef spec3 7) : S1x128.Idx → EReal) (ix2 (0 : Fin 1) q) := by
  obtain ⟨-, -, -, -, -, -, -, -, -, -, -, -, -, -, e0, e1, -, -⟩ := idx_facts3 t
  unfold iblk3
  rw [View.read_apply]
  show (V c (Pipeline.arrRef spec3 7) : S1x128.Idx → EReal) _ = _
  refine congrArg (V c (Pipeline.arrRef spec3 7) : S1x128.Idx → EReal) (funext fun a => Fin.ext ?_)
  match a with
  | ⟨0, _⟩ => show win3_7.index t 0 * 1 + 1 * 0 = 0; rw [e0]
  | ⟨1, _⟩ => show win3_7.index t 1 * 128 + 1 * q.val = q.val; rw [e1]; omega

/-- Entry `(p, q)` of the output's block at point `t` sits at row `5000 t + p`, column `q` of the array. -/
theorem emb3_8 (t : Fin cfg3.N) (p : Fin 5000) (q : Fin 128) (r : Fin 100000) (hr : r.val = t.val * 5000 + p.val) :
    ((cfg3.win 8).blk t).view.emb (ix2 p q : S5000x128.Idx) = (ix2 r q : S100000x128.Idx) := by
  obtain ⟨-, -, -, -, -, -, -, -, -, -, -, -, -, -, -, -, e0, e1⟩ := idx_facts3 t
  refine funext fun a => Fin.ext ?_
  match a with
  | ⟨0, _⟩ => show win3_8.index t 0 * 5000 + 1 * p.val = r.val; rw [e0, hr]; omega
  | ⟨1, _⟩ => show win3_8.index t 1 * 128 + 1 * q.val = q.val; rw [e1]; omega

/-- A function of the array's index read through the output's block at point `t`, at `(p, q)`, is the function at
    row `5000 t + p`, column `q`. -/
theorem read3_8_apply (G : S100000x128.Idx → EReal) (t : Fin cfg3.N) (p : Fin 5000) (q : Fin 128) (r : Fin 100000)
    (hr : r.val = t.val * 5000 + p.val) :
    (((cfg3.win 8).blk t).view.read (Elt Ideal) G : Vec Ideal S5000x128 .f32) (ix2 p q) = G (ix2 r q) := by
  rw [View.read_apply]
  show G _ = _
  exact congrArg G (emb3_8 t p q r hr)

/-! ## From blocks to the array -/

/-- What point `t` writes back is block `t` of the stage of the argument arrays as the region finds them. -/
theorem flushed3_eq (c : Dev nD) (t : Fin cfg3.N) :
    (dat3 (F := Ideal) V c).flushed 8 t = ((cfg3.win 8).blk t).view.read (Elt Ideal)
      (Cert.Stage.eluStage (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7))) := by
  show (cfg3.win 8).cut (grid3.coords t) ((dat3 V c).after 8 t) = _
  rw [after3_8]
  funext j
  obtain ⟨p, q, rfl⟩ : ∃ (p : Fin 5000) (q : Fin 128), j = (ix2 p q : S5000x128.Idx) :=
    ⟨j 0, j 1, eq_ix2 (n0 := 5000) (n1 := 128) j⟩
  have ht : t.val < 20 := hN3 ▸ t.isLt
  have hr : t.val * 5000 + p.val < 100000 := by have := p.isLt; omega
  exact (point3 (iblk3 V c 0 t) (iblk3 V c 1 t) (iblk3 V c 2 t) (iblk3 V c 3 t) (iblk3 V c 4 t) (iblk3 V c 5 t)
      (iblk3 V c 6 t) (iblk3 V c 7 t)
      (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) p q ⟨t.val * 5000 + p.val, hr⟩
      (iblk3_0_apply V c t p q _ rfl) (iblk3_1_apply V c t p q _ rfl) (iblk3_2_apply V c t p 0 _ rfl)
      (iblk3_3_apply V c t q) (iblk3_4_apply V c t q) (iblk3_5_apply V c t q) (iblk3_6_apply V c t q)
      (iblk3_7_apply V c t q)).trans
    (read3_8_apply _ t p q ⟨t.val * 5000 + p.val, hr⟩ rfl).symm

/-- An index of the array is in point `t`'s block iff each coordinate is in the block's range on its axis. -/
theorem mem_blk3_8 (t : Fin cfg3.N) (i : S100000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v119).slice (win3_8.rect t)).set ↔ _
  rw [View.set_slice_whole, Rect.mem_set_unit]
  exact Iff.rfl

/-- Row `r` of the array lies in the block of point `r / 5000`: the twenty blocks tile the array. -/
theorem tiles3_8 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  obtain ⟨t, ht⟩ : ∃ t : Fin cfg3.N, t.val = (i 0).val / 5000 := ⟨⟨(i 0).val / 5000, by rw [hN3]; omega⟩, rfl⟩
  obtain ⟨-, -, -, -, -, -, -, -, -, -, -, -, -, -, -, -, e0, e1⟩ := idx_facts3 t
  refine ⟨t, flush3_8 t, ?_⟩
  rw [mem_blk3_8]
  intro a
  match a with
  | ⟨0, _⟩ => show win3_8.index t 0 * 5000 ≤ (i 0).val ∧ (i 0).val < win3_8.index t 0 * 5000 + 5000; rw [e0, ht]; omega
  | ⟨1, _⟩ => show win3_8.index t 1 * 128 ≤ (i 1).val ∧ (i 1).val < win3_8.index t 1 * 128 + 128; rw [e1]; omega

/-- After region 3's twenty write-backs its output array is the normalisation stage of the region's argument arrays as
    it finds them. -/
theorem norm3 (c : Dev nD) :
    (Gen.dat3 (F := Ideal) V c).arrAt 8 cfg3.N
      = Cert.Stage.eluStage (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) :=
  (dat3 (F := Ideal) V c).arrAt_eq_of_cover 8 _ (fun t _ => flushed3_eq V c t) tiles3_8

end Blocks

end Cert.KernelIdeal.Norm

end
-- ==== Proof.Dense0.lean ====
/- The first dense product of the kernel program, h·W with h of 100000 rows and 129 columns and W of 129 rows and 128
   columns, computed 5000 rows at a time over 20 grid points, is the host's one dot_general of the two whole arrays:
   every entry (r, q) of the result is the sum over the 129 columns k of h(r, k)·W(k, q), whichever block r falls in. -/
import proofs.«127358_j57011395887506_2_alg».proof.Proof.Gen.KernelIdeal.Frame
import proofs.«127358_j57011395887506_2_alg».proof.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Dense
open Cert.KernelIdeal Cert.KernelIdeal.Gen

theorem lhs0_0 (i : S5000x128.Idx) (q : dot_S5000x129_S129x128_S5000x128_1_0_0_1_n_n.contr.Idx) :
    (dot_S5000x129_S129x128_S5000x128_1_0_0_1_n_n.lhsIdx i q 0).val = (i 0).val := by
  unfold DotDims.lhsIdx
  rw [dif_neg (show ¬(0 : Fin S5000x129.rank) ∈ dot_S5000x129_S129x128_S5000x128_1_0_0_1_n_n.lhsBatch by decide), dif_pos (show (0 : Fin S5000x129.rank) ∈ dot_S5000x129_S129x128_S5000x128_1_0_0_1_n_n.lhsNonContracting by decide)]
  rfl
theorem lhs0_1 (i : S5000x128.Idx) (q : dot_S5000x129_S129x128_S5000x128_1_0_0_1_n_n.contr.Idx) :
    (dot_S5000x129_S129x128_S5000x128_1_0_0_1_n_n.lhsIdx i q 1).val = (q ⟨0, by decide⟩).val :=
  dot_S5000x129_S129x128_S5000x128_1_0_0_1_n_n.lhsIdx_val_of_single rfl i q
theorem rhs0_0 (i : S5000x128.Idx) (q : dot_S5000x129_S129x128_S5000x128_1_0_0_1_n_n.contr.Idx) :
    (dot_S5000x129_S129x128_S5000x128_1_0_0_1_n_n.rhsIdx i q 0).val = (q ⟨0, by decide⟩).val :=
  dot_S5000x129_S129x128_S5000x128_1_0_0_1_n_n.rhsIdx_val_of_single rfl i q
theorem rhs0_1 (i : S5000x128.Idx) (q : dot_S5000x129_S129x128_S5000x128_1_0_0_1_n_n.contr.Idx) :
    (dot_S5000x129_S129x128_S5000x128_1_0_0_1_n_n.rhsIdx i q 1).val = (i 1).val := by
  unfold DotDims.rhsIdx
  rw [dif_neg (show ¬(1 : Fin S129x128.rank) ∈ dot_S5000x129_S129x128_S5000x128_1_0_0_1_n_n.rhsBatch by decide), dif_pos (show (1 : Fin S129x128.rank) ∈ dot_S5000x129_S129x128_S5000x128_1_0_0_1_n_n.rhsNonContracting by decide)]
  rfl

/-- One entry of the block product: row p of the loaded rows against column q of the weight. -/
theorem pay0_apply (x0 : Vec Ideal S5000x129 .f32) (x1 : Vec Ideal S129x128 .f32) (p : Fin 5000) (q : Fin 128) :
    k0_pay1 (F := Ideal) x0 x1 (ix2 p q) = ∑ k : Fin 129, x0 (ix2 p k) * x1 (ix2 k q) := by
  unfold k0_pay1
  rw [shapeCast_self]
  refine (Ideal.matmul_constant_zero_apply dot_S5000x129_S129x128_S5000x128_1_0_0_1_n_n none (truncf .bf16 x0 bitsLt_bf16_f32) (truncf .bf16 x1 bitsLt_bf16_f32) (ix2 p q)).trans ?_
  rw [← Equiv.sum_comp (contrEquiv1 dot_S5000x129_S129x128_S5000x128_1_0_0_1_n_n 129 rfl rfl).symm]
  refine Finset.sum_congr rfl fun k _ => ?_
  have hk := contrEquiv1_symm_val dot_S5000x129_S129x128_S5000x128_1_0_0_1_n_n 129 rfl rfl k
  have el : dot_S5000x129_S129x128_S5000x128_1_0_0_1_n_n.lhsIdx (ix2 p q) ((contrEquiv1 dot_S5000x129_S129x128_S5000x128_1_0_0_1_n_n 129 rfl rfl).symm k) = ix2 p k := funext fun a => Fin.ext (by
    match a with
    | ⟨0, _⟩ => exact lhs0_0 _ _
    | ⟨1, _⟩ => exact (lhs0_1 _ _).trans hk)
  have er : dot_S5000x129_S129x128_S5000x128_1_0_0_1_n_n.rhsIdx (ix2 p q) ((contrEquiv1 dot_S5000x129_S129x128_S5000x128_1_0_0_1_n_n 129 rfl rfl).symm k) = ix2 k q := funext fun a => Fin.ext (by
    match a with
    | ⟨0, _⟩ => exact (rhs0_0 _ _).trans hk
    | ⟨1, _⟩ => exact rhs0_1 _ _)
  rw [el, er]
  rfl

section Ref
variable [Cert.ReferenceIdeal.Facts₀]

theorem rlhs0_0 (i : Cert.ReferenceIdeal.S100000x128.Idx) (q : Cert.ReferenceIdeal.dot_S100000x129_S129x128_S100000x128_1_0_0_1_n_n.contr.Idx) :
    (Cert.ReferenceIdeal.dot_S100000x129_S129x128_S100000x128_1_0_0_1_n_n.lhsIdx i q 0).val = (i 0).val := by
  unfold DotDims.lhsIdx
  rw [dif_neg (show ¬(0 : Fin Cert.ReferenceIdeal.S100000x129.rank) ∈ Cert.ReferenceIdeal.dot_S100000x129_S129x128_S100000x128_1_0_0_1_n_n.lhsBatch from List.not_mem_nil), dif_pos (show (0 : Fin Cert.ReferenceIdeal.S100000x129.rank) ∈ Cert.ReferenceIdeal.dot_S100000x129_S129x128_S100000x128_1_0_0_1_n_n.lhsNonContracting from List.mem_singleton.mpr rfl)]
  rfl
theorem rlhs0_1 (i : Cert.ReferenceIdeal.S100000x128.Idx) (q : Cert.ReferenceIdeal.dot_S100000x129_S129x128_S100000x128_1_0_0_1_n_n.contr.Idx) :
    (Cert.ReferenceIdeal.dot_S100000x129_S129x128_S100000x128_1_0_0_1_n_n.lhsIdx i q 1).val = (q ⟨0, Nat.one_pos⟩).val :=
  Cert.ReferenceIdeal.dot_S100000x129_S129x128_S100000x128_1_0_0_1_n_n.lhsIdx_val_of_single rfl i q
theorem rrhs0_0 (i : Cert.ReferenceIdeal.S100000x128.Idx) (q : Cert.ReferenceIdeal.dot_S100000x129_S129x128_S100000x128_1_0_0_1_n_n.contr.Idx) :
    (Cert.ReferenceIdeal.dot_S100000x129_S129x128_S100000x128_1_0_0_1_n_n.rhsIdx i q 0).val = (q ⟨0, Nat.one_pos⟩).val :=
  Cert.ReferenceIdeal.dot_S100000x129_S129x128_S100000x128_1_0_0_1_n_n.rhsIdx_val_of_single rfl i q
theorem rrhs0_1 (i : Cert.ReferenceIdeal.S100000x128.Idx) (q : Cert.ReferenceIdeal.dot_S100000x129_S129x128_S100000x128_1_0_0_1_n_n.contr.Idx) :
    (Cert.ReferenceIdeal.dot_S100000x129_S129x128_S100000x128_1_0_0_1_n_n.rhsIdx i q 1).val = (i 1).val := by
  unfold DotDims.rhsIdx
  rw [dif_neg (show ¬(1 : Fin Cert.ReferenceIdeal.S129x128.rank) ∈ Cert.ReferenceIdeal.dot_S100000x129_S129x128_S100000x128_1_0_0_1_n_n.rhsBatch from List.not_mem_nil), dif_pos (show (1 : Fin Cert.ReferenceIdeal.S129x128.rank) ∈ Cert.ReferenceIdeal.dot_S100000x129_S129x128_S100000x128_1_0_0_1_n_n.rhsNonContracting from List.mem_singleton.mpr rfl)]
  rfl

/-- One entry of the whole product as the host computes it: row p of the array against column q of the weight. -/
theorem ref0_apply (l : FVec Ideal Cert.ReferenceIdeal.S100000x129 .f32) (r : FVec Ideal Cert.ReferenceIdeal.S129x128 .f32) (p : Fin 100000) (q : Fin 128) :
    Host.dotGeneral (F := Ideal) Cert.ReferenceIdeal.dot_S100000x129_S129x128_S100000x128_1_0_0_1_n_n none l r (ix2 p q) = ∑ k : Fin 129, l (ix2 p k) * r (ix2 k q) := by
  refine (Ideal.dotGeneral_apply Cert.ReferenceIdeal.dot_S100000x129_S129x128_S100000x128_1_0_0_1_n_n none .single l r (ix2 p q)).trans ?_
  rw [← Equiv.sum_comp (contrEquiv1 Cert.ReferenceIdeal.dot_S100000x129_S129x128_S100000x128_1_0_0_1_n_n 129 rfl rfl).symm]
  refine Finset.sum_congr rfl fun k _ => ?_
  have hk := contrEquiv1_symm_val Cert.ReferenceIdeal.dot_S100000x129_S129x128_S100000x128_1_0_0_1_n_n 129 rfl rfl k
  have el : Cert.ReferenceIdeal.dot_S100000x129_S129x128_S100000x128_1_0_0_1_n_n.lhsIdx (ix2 p q) ((contrEquiv1 Cert.ReferenceIdeal.dot_S100000x129_S129x128_S100000x128_1_0_0_1_n_n 129 rfl rfl).symm k) = ix2 p k := funext fun a => Fin.ext (by
    match a with
    | ⟨0, _⟩ => exact rlhs0_0 _ _
    | ⟨1, _⟩ => exact (rlhs0_1 _ _).trans hk)
  have er : Cert.ReferenceIdeal.dot_S100000x129_S129x128_S100000x128_1_0_0_1_n_n.rhsIdx (ix2 p q) ((contrEquiv1 Cert.ReferenceIdeal.dot_S100000x129_S129x128_S100000x128_1_0_0_1_n_n 129 rfl rfl).symm k) = ix2 k q := funext fun a => Fin.ext (by
    match a with
    | ⟨0, _⟩ => exact (rrhs0_0 _ _).trans hk
    | ⟨1, _⟩ => exact rrhs0_1 _ _)
  rw [el, er]

end Ref

/-- The whole product as one function of the two arrays: entry (r, q) is the sum over the 129 columns of the row's
    entries times the weight's column. -/
def prod0 (a : Vec Ideal S100000x129 .f32) (w : Vec Ideal S129x128 .f32) : Vec Ideal S100000x128 .f32 :=
  fun i => ∑ k : Fin 129, a (ix2 (i 0 : Fin 100000) k) * w (ix2 k (i 1 : Fin 128))

theorem prod0_apply (a : Vec Ideal S100000x129 .f32) (w : Vec Ideal S129x128 .f32) (i : S100000x128.Idx) (r : Fin 100000) (q : Fin 128)
    (h0 : (i 0).val = r.val) (h1 : (i 1).val = q.val) : prod0 a w i = ∑ k : Fin 129, a (ix2 r k) * w (ix2 k q) := by
  obtain rfl : i = ix2 r q := funext fun d => Fin.ext (by
    match d with
    | ⟨0, _⟩ => exact h0
    | ⟨1, _⟩ => exact h1)
  rfl

theorem hz0 : (![0, 0] : Fin 2 → Nat) = fun _ => 0 := funext fun a => by fin_cases a <;> rfl

/-- The printed index maps over the 20 grid points: the rows window and the result window sit at block (t, 0), the
    weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt20_0 (t : Fin cfg0.N) : t.val < 20 := Nat.lt_of_lt_of_eq t.isLt Gen.N_0

/-- Entry (p, k) of the rows block at point t is entry (5000·t + p, k) of the array. -/
theorem rows0 (V : (c : Dev nD) → (b : Ref sig .tc) → Buf (Elt Ideal) ((c : Thread nD τ).loc b)) (c : Dev nD) (t : Fin cfg0.N)
    (p : Fin 5000) (k : Fin 129) (r : Fin 100000) (hr : r.val = t.val * 5000 + p.val) :
    Gen.iblk0 V c 0 t (ix2 p k) = V c (Pipeline.arrRef spec0 0) (ix2 r k) := by
  obtain ⟨e0, e1, -, -, -, -⟩ := idx_facts0 t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 5000 + 1 * p.val = r.val; omega
  | ⟨1, _⟩ => show win0_0.index t (1 : Fin 2) * 129 + 1 * k.val = k.val; omega

/-- The weight block at every point is the whole weight. -/
theorem weight0 (V : (c : Dev nD) → (b : Ref sig .tc) → Buf (Elt Ideal) ((c : Thread nD τ).loc b)) (c : Dev nD) (t : Fin cfg0.N)
    (k : Fin 129) (q : Fin 128) :
    Gen.iblk0 V c 1 t (ix2 k q) = V c (Pipeline.arrRef spec0 1) (ix2 k q) := by
  obtain ⟨-, -, e2, e3, -, -⟩ := idx_facts0 t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 129 + 1 * k.val = k.val; omega
  | ⟨1, _⟩ => show win0_1.index t (1 : Fin 2) * 128 + 1 * q.val = q.val; omega

/-- Entry (p, q) of the result block at point t sits at (5000·t + p, q) in the result array. -/
theorem out_emb0 (t : Fin cfg0.N) (p : Fin 5000) (q : Fin 128) (r : Fin 100000) (hr : r.val = t.val * 5000 + p.val) :
    ((cfg0.win 2).blk t).view.emb (ix2 p q) = (ix2 r q : S100000x128.Idx) := by
  obtain ⟨-, -, -, -, e4, e5⟩ := idx_facts0 t
  refine funext fun a => Fin.ext ?_
  match a with
  | ⟨0, _⟩ => show win0_2.index t (0 : Fin 2) * 5000 + 1 * p.val = r.val; omega
  | ⟨1, _⟩ => show win0_2.index t (1 : Fin 2) * 128 + 1 * q.val = q.val; omega

/-- What grid point t writes back is block t of the whole product: rows 5000·t … 5000·t + 4999. -/
theorem flushed0_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero hz0]
  simp only [View.ld_unit_zero (S := S5000x129) hz0, View.ld_unit_zero (S := S129x128) hz0]
  have hN := lt20_0 t
  funext j
  obtain ⟨p, q, rfl⟩ : ∃ (p : Fin 5000) (q : Fin 128), j = ix2 p q := ⟨j 0, j 1, @eq_ix2 5000 128 j⟩
  have hp : p.val < 5000 := p.isLt
  show Gen.k0_pay1 (F := Ideal) (Gen.iblk0 V c 0 t) (Gen.iblk0 V c 1 t) (ix2 p q)
    = prod0 (V c (Pipeline.arrRef spec0 0)) (V c (Pipeline.arrRef spec0 1)) (((cfg0.win 2).blk t).view.emb (ix2 p q))
  rw [out_emb0 t p q ⟨t.val * 5000 + p.val, by omega⟩ rfl]
  refine (pay0_apply (Gen.iblk0 V c 0 t) (Gen.iblk0 V c 1 t) p q).trans ?_
  refine Eq.symm ((prod0_apply _ _ _ ⟨t.val * 5000 + p.val, by omega⟩ q rfl rfl).trans ?_)
  refine Finset.sum_congr rfl fun k _ => ?_
  rw [rows0 V c t p k ⟨t.val * 5000 + p.val, by omega⟩ rfl, weight0 V c t k q]

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v66).slice (win0_2.rect t)).set ↔ _
  rw [View.set_slice_whole, Rect.mem_set_unit]
  exact Iff.rfl

/-- Row r of the result is written by grid point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (show (i 0).val / 5000 < 20 by omega) Gen.N_0.symm⟩, rfl⟩
  obtain ⟨-, -, -, -, e4, e5⟩ := idx_facts0 t
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- So the result array ends holding the whole product. -/
theorem arr0 (V : (c : Dev nD) → (b : Ref sig .tc) → Buf (Elt Ideal) ((c : Thread nD τ).loc b)) (c : Dev nD) :
    (Gen.dat0 (F := Ideal) V c).arrAt 2 cfg0.N = prod0 (V c (Pipeline.arrRef spec0 0)) (V c (Pipeline.arrRef spec0 1)) :=
  (Gen.dat0 (F := Ideal) V c).arrAt_eq_of_cover 2 _ (fun t _ => flushed0_eq V c t) cover0

theorem dense0 [Cert.ReferenceIdeal.Facts₀] (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) Cert.ReferenceIdeal.dot_S100000x129_S129x128_S100000x128_1_0_0_1_n_n none (V c (Pipeline.arrRef spec0 0)) (V c (Pipeline.arrRef spec0 1)) := by
  rw [arr0]
  funext i
  obtain ⟨p, q, rfl⟩ : ∃ (p : Fin 100000) (q : Fin 128), i = ix2 p q := ⟨i 0, i 1, @eq_ix2 100000 128 i⟩
  exact (ref0_apply _ _ p q).symm

end Cert.KernelIdeal.Dense
-- ==== Proof.Norm1.lean ====
/-
  Region 1 (the first layer's normalisation and exponential linear unit): the twenty blocks of 5000 rows that the grid's points write
  back, assembled into the whole [100000,128] array as ONE index-by-index function of the region's eight argument
  arrays, `Cert.Stage.eluStage`. Point `t` computes rows `5000 t … 5000 t + 4999`: each entry `(p, q)` of its block from
  entry `(p, q)` of the two row-blocked inputs, entry `(p, 0)` of the degree column's block, and entry `(0, q)` of the
  five parameter rows, which every point sees whole. Row `r` of the array is written by point `r / 5000` alone.
-/
import proofs.«127358_j57011395887506_2_alg».proof.Proof.Gen.KernelIdeal.Frame
import proofs.«127358_j57011395887506_2_alg».proof.Proof.StageSpec
import proofs.«127358_j57011395887506_2_alg».proof.Proof.NormCommon
import Idealize.ShloMosaic.Lib.Pipeline.Value
import Idealize.ShloMosaic.Lib.ValueLayout

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry of a block -/

/-- The affine part of the body's arithmetic at entry `(p, q)` of a block: the pointwise operations read through, the
    column broadcast at `(p, 0)` and the five row broadcasts at `(0, q)`. The loads arrive in the order bias, variance,
    mean, scale, shift. -/
theorem affine1_apply (x0 x1 : Vec Ideal S5000x128 .f32) (x2 : Vec Ideal S5000x1 .f32) (x3 x4 x5 x6 x7 : Vec Ideal S1x128 .f32)
    (p : Fin 5000) (q : Fin 128) :
    k1_pay2 x0 x1 x2 x3 x7 x6 x4 x5 (ix2 p q) = Cert.Stage.affine (x0 (ix2 p q)) (x1 (ix2 p q)) (x2 (ix2 p 0)) (x3 (ix2 0 q)) (x4 (ix2 0 q))
          (x5 (ix2 0 q)) (x6 (ix2 0 q)) (x7 (ix2 0 q)) := by
  unfold k1_pay2
  simp only [shapeCast_self]
  rw [addf_apply, mulf_apply, mulf_apply, subf_apply, addf_apply, addf_apply, mulf_apply,
    broadcastTo_a1_ab_apply, broadcastTo_1b_ab_apply, broadcastTo_1b_ab_apply, broadcastTo_1b_ab_apply,
    broadcastTo_1b_ab_apply, broadcastTo_1b_ab_apply]
  rfl

/-- The body's stored value at `(p, q)`: the select on `x > 0` between `x` and `exp (min x 0) − 1` of the affine part. -/
theorem act1_apply (x0 x1 : Vec Ideal S5000x128 .f32) (x2 : Vec Ideal S5000x1 .f32) (x3 x4 x5 x6 x7 : Vec Ideal S1x128 .f32)
    (p : Fin 5000) (q : Fin 128) :
    k1_pay1 (k1_pay2 x0 x1 x2 x3 x7 x6 x4 x5) (k1_pay3 x0 x1 x2 x3 x7 x6 x4 x5) (k1_pay4 x0 x1 x2 x3 x7 x6 x4 x5) (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  rw [← affine1_apply x0 x1 x2 x3 x4 x5 x6 x7 p q]
  exact Cert.Stage.elu_select_min (k1_pay2 x0 x1 x2 x3 x7 x6 x4 x5 (ix2 p q))

/-- What the body leaves in the output's staging buffer, at `(p, q)`: its one whole-block store of that value of the
    whole-block loads. -/
theorem out1_8_apply (x0 x1 : Vec Ideal S5000x128 .f32) (x2 : Vec Ideal S5000x1 .f32) (x3 x4 x5 x6 x7 : Vec Ideal S1x128 .f32)
    (p : Fin 5000) (q : Fin 128) :
    out1_8 x0 x1 x2 x3 x4 x5 x6 x7 (ix2 p q)
      = Cert.Stage.elu (Cert.Stage.affine (x0 (ix2 p q)) (x1 (ix2 p q)) (x2 (ix2 p 0)) (x3 (ix2 0 q)) (x4 (ix2 0 q))
          (x5 (ix2 0 q)) (x6 (ix2 0 q)) (x7 (ix2 0 q))) := by
  unfold out1_8
  rw [View.canon_unit_zero hz]
  simp only [View.ld_unit_zero (S := S5000x128) hz, View.ld_unit_zero (S := S5000x1) hz, View.ld_unit_zero (S := S1x128) hz]
  exact act1_apply x0 x1 x2 x3 x4 x5 x6 x7 p q

/-- One entry of a block of the stage: if the loaded blocks hold the arrays' entries of row `r` (the column's at
    `(r, 0)`, the parameter rows' at `(0, q)`), the body's stored value at `(p, q)` is the stage at `(r, q)`. -/
theorem point1 (x0 x1 : Vec Ideal S5000x128 .f32) (x2 : Vec Ideal S5000x1 .f32) (x3 x4 x5 x6 x7 : Vec Ideal S1x128 .f32)
    (A0 A1 : S100000x128.Idx → EReal) (A2 : S100000x1.Idx → EReal) (A3 A4 A5 A6 A7 : S1x128.Idx → EReal)
    (p : Fin 5000) (q : Fin 128) (r : Fin 100000)
    (h0 : x0 (ix2 p q) = A0 (ix2 r q)) (h1 : x1 (ix2 p q) = A1 (ix2 r q)) (h2 : x2 (ix2 p 0) = A2 (ix2 r 0))
    (h3 : x3 (ix2 0 q) = A3 (ix2 0 q)) (h4 : x4 (ix2 0 q) = A4 (ix2 0 q)) (h5 : x5 (ix2 0 q) = A5 (ix2 0 q))
    (h6 : x6 (ix2 0 q) = A6 (ix2 0 q)) (h7 : x7 (ix2 0 q) = A7 (ix2 0 q)) :
    out1_8 x0 x1 x2 x3 x4 x5 x6 x7 (ix2 p q) = Cert.Stage.eluStage A0 A1 A2 A3 A4 A5 A6 A7 (ix2 r q) := by
  rw [out1_8_apply, Cert.Stage.eluStage_apply, h0, h1, h2, h3, h4, h5, h6, h7]

/-! ## The blocks, read off the arrays as the region finds them -/

section Blocks
variable (V : (c : Dev nD) → (b : Ref sig .tc) → Buf (Elt Ideal) ((c : Thread nD τ).loc b))

/-- The grid has twenty points. -/
theorem hN1 : cfg1.N = 20 := N_1

/-- The printed index maps over the grid: the row-blocked windows sit at block `t`, the parameter rows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Window 0's block at point `t`, entry `(p, q)`, is its array's entry of row `5000 t + p`. -/
theorem iblk1_0_apply (c : Dev nD) (t : Fin cfg1.N) (p : Fin 5000) (q : Fin 128) (r : Fin 100000)
    (hr : r.val = t.val * 5000 + p.val) :
    (iblk1 V c 0 t : Vec Ideal S5000x128 .f32) (ix2 p q)
      = (V c (Pipeline.arrRef spec1 0) : S100000x128.Idx → EReal) (ix2 r q) := by
  obtain ⟨e0, e1, -, -, -, -, -, -, -, -, -, -, -, -, -, -, -, -⟩ := idx_facts1 t
  unfold iblk1
  rw [View.read_apply]
  show (V c (Pipeline.arrRef spec1 0) : S100000x128.Idx → EReal) _ = _
  refine congrArg (V c (Pipeline.arrRef spec1 0) : S100000x128.Idx → EReal) (funext fun a => Fin.ext ?_)
  match a with
  | ⟨0, _⟩ => show win1_0.index t 0 * 5000 + 1 * p.val = r.val; rw [e0, hr]; omega
  | ⟨1, _⟩ => show win1_0.index t 1 * 128 + 1 * q.val = q.val; rw [e1]; omega

/-- Window 1's block at point `t`, entry `(p, q)`, is its array's entry of row `5000 t + p`. -/
theorem iblk1_1_apply (c : Dev nD) (t : Fin cfg1.N) (p : Fin 5000) (q : Fin 128) (r : Fin 100000)
    (hr : r.val = t.val * 5000 + p.val) :
    (iblk1 V c 1 t : Vec Ideal S5000x128 .f32) (ix2 p q)
      = (V c (Pipeline.arrRef spec1 1) : S100000x128.Idx → EReal) (ix2 r q) := by
  obtain ⟨-, -, e0, e1, -, -, -, -, -, -, -, -, -, -, -, -, -, -⟩ := idx_facts1 t
  unfold iblk1
  rw [View.read_apply]
  show (V c (Pipeline.arrRef spec1 1) : S100000x128.Idx → EReal) _ = _
  refine congrArg (V c (Pipeline.arrRef spec1 1) : S100000x128.Idx → EReal) (funext fun a => Fin.ext ?_)
  match a with
  | ⟨0, _⟩ => show win1_1.index t 0 * 5000 + 1 * p.val = r.val; rw [e0, hr]; omega
  | ⟨1, _⟩ => show win1_1.index t 1 * 128 + 1 * q.val = q.val; rw [e1]; omega

/-- Window 2's block at point `t`, entry `(p, q)`, is its array's entry of row `5000 t + p`. -/
theorem iblk1_2_apply (c : Dev nD) (t : Fin cfg1.N) (p : Fin 5000) (q : Fin 1) (r : Fin 100000)
    (hr : r.val = t.val * 5000 + p.val) :
    (iblk1 V c 2 t : Vec Ideal S5000x1 .f32) (ix2 p q)
      = (V c (Pipeline.arrRef spec1 2) : S100000x1.Idx → EReal) (ix2 r q) := by
  obtain ⟨-, -, -, -, e0, e1, -, -, -, -, -, -, -, -, -, -, -, -⟩ := idx_facts1 t
  unfold iblk1
  rw [View.read_apply]
  show (V c (Pipeline.arrRef spec1 2) : S100000x1.Idx → EReal) _ = _
  refine congrArg (V c (Pipeline.arrRef spec1 2) : S100000x1.Idx → EReal) (funext fun a => Fin.ext ?_)
  match a with
  | ⟨0, _⟩ => show win1_2.index t 0 * 5000 + 1 * p.val = r.val; rw [e0, hr]; omega
  | ⟨1, _⟩ => show win1_2.index t 1 * 1 + 1 * q.val = q.val; rw [e1]; omega

/-- Window 3's block at every point is its whole one-row array. -/
theorem iblk1_3_apply (c : Dev nD) (t : Fin cfg1.N) (q : Fin 128) :
    (iblk1 V c 3 t : Vec Ideal S1x128 .f32) (ix2 (0 : Fin 1) q)
      = (V c (Pipeline.arrRef spec1 3) : S1x128.Idx → EReal) (ix2 (0 : Fin 1) q) := by
  obtain ⟨-, -, -, -, -, -, e0, e1, -, -, -, -, -, -, -, -, -, -⟩ := idx_facts1 t
  unfold iblk1
  rw [View.read_apply]
  show (V c (Pipeline.arrRef spec1 3) : S1x128.Idx → EReal) _ = _
  refine congrArg (V c (Pipeline.arrRef spec1 3) : S1x128.Idx → EReal) (funext fun a => Fin.ext ?_)
  match a with
  | ⟨0, _⟩ => show win1_3.index t 0 * 1 + 1 * 0 = 0; rw [e0]
  | ⟨1, _⟩ => show win1_3.index t 1 * 128 + 1 * q.val = q.val; rw [e1]; omega

/-- Window 4's block at every point is its whole one-row array. -/
theorem iblk1_4_apply (c : Dev nD) (t : Fin cfg1.N) (q : Fin 128) :
    (iblk1 V c 4 t : Vec Ideal S1x128 .f32) (ix2 (0 : Fin 1) q)
      = (V c (Pipeline.arrRef spec1 4) : S1x128.Idx → EReal) (ix2 (0 : Fin 1) q) := by
  obtain ⟨-, -, -, -, -, -, -, -, e0, e1, -, -, -, -, -, -, -, -⟩ := idx_facts1 t
  unfold iblk1
  rw [View.read_apply]
  show (V c (Pipeline.arrRef spec1 4) : S1x128.Idx → EReal) _ = _
  refine congrArg (V c (Pipeline.arrRef spec1 4) : S1x128.Idx → EReal) (funext fun a => Fin.ext ?_)
  match a with
  | ⟨0, _⟩ => show win1_4.index t 0 * 1 + 1 * 0 = 0; rw [e0]
  | ⟨1, _⟩ => show win1_4.index t 1 * 128 + 1 * q.val = q.val; rw [e1]; omega

/-- Window 5's block at every point is its whole one-row array. -/
theorem iblk1_5_apply (c : Dev nD) (t : Fin cfg1.N) (q : Fin 128) :
    (iblk1 V c 5 t : Vec Ideal S1x128 .f32) (ix2 (0 : Fin 1) q)
      = (V c (Pipeline.arrRef spec1 5) : S1x128.Idx → EReal) (ix2 (0 : Fin 1) q) := by
  obtain ⟨-, -, -, -, -, -, -, -, -, -, e0, e1, -, -, -, -, -, -⟩ := idx_facts1 t
  unfold iblk1
  rw [View.read_apply]
  show (V c (Pipeline.arrRef spec1 5) : S1x128.Idx → EReal) _ = _
  refine congrArg (V c (Pipeline.arrRef spec1 5) : S1x128.Idx → EReal) (funext fun a => Fin.ext ?_)
  match a with
  | ⟨0, _⟩ => show win1_5.index t 0 * 1 + 1 * 0 = 0; rw [e0]
  | ⟨1, _⟩ => show win1_5.index t 1 * 128 + 1 * q.val = q.val; rw [e1]; omega

/-- Window 6's block at every point is its whole one-row array. -/
theorem iblk1_6_apply (c : Dev nD) (t : Fin cfg1.N) (q : Fin 128) :
    (iblk1 V c 6 t : Vec Ideal S1x128 .f32) (ix2 (0 : Fin 1) q)
      = (V c (Pipeline.arrRef spec1 6) : S1x128.Idx → EReal) (ix2 (0 : Fin 1) q) := by
  obtain ⟨-, -, -, -, -, -, -, -, -, -, -, -, e0, e1, -, -, -, -⟩ := idx_facts1 t
  unfold iblk1
  rw [View.read_apply]
  show (V c (Pipeline.arrRef spec1 6) : S1x128.Idx → EReal) _ = _
  refine congrArg (V c (Pipeline.arrRef spec1 6) : S1x128.Idx → EReal) (funext fun a => Fin.ext ?_)
  match a with
  | ⟨0, _⟩ => show win1_6.index t 0 * 1 + 1 * 0 = 0; rw [e0]
  | ⟨1, _⟩ => show win1_6.index t 1 * 128 + 1 * q.val = q.val; rw [e1]; omega

/-- Window 7's block at every point is its whole one-row array. -/
theorem iblk1_7_apply (c : Dev nD) (t : Fin cfg1.N) (q : Fin 128) :
    (iblk1 V c 7 t : Vec Ideal S1x128 .f32) (ix2 (0 : Fin 1) q)
      = (V c (Pipeline.arrRef spec1 7) : S1x128.Idx → EReal) (ix2 (0 : Fin 1) q) := by
  obtain ⟨-, -, -, -, -, -, -, -, -, -, -, -, -, -, e0, e1, -, -⟩ := idx_facts1 t
  unfold iblk1
  rw [View.read_apply]
  show (V c (Pipeline.arrRef spec1 7) : S1x128.Idx → EReal) _ = _
  refine congrArg (V c (Pipeline.arrRef spec1 7) : S1x128.Idx → EReal) (funext fun a => Fin.ext ?_)
  match a with
  | ⟨0, _⟩ => show win1_7.index t 0 * 1 + 1 * 0 = 0; rw [e0]
  | ⟨1, _⟩ => show win1_7.index t 1 * 128 + 1 * q.val = q.val; rw [e1]; omega

/-- Entry `(p, q)` of the output's block at point `t` sits at row `5000 t + p`, column `q` of the array. -/
theorem emb1_8 (t : Fin cfg1.N) (p : Fin 5000) (q : Fin 128) (r : Fin 100000) (hr : r.val = t.val * 5000 + p.val) :
    ((cfg1.win 8).blk t).view.emb (ix2 p q : S5000x128.Idx) = (ix2 r q : S100000x128.Idx) := by
  obtain ⟨-, -, -, -, -, -, -, -, -, -, -, -, -, -, -, -, e0, e1⟩ := idx_facts1 t
  refine funext fun a => Fin.ext ?_
  match a with
  | ⟨0, _⟩ => show win1_8.index t 0 * 5000 + 1 * p.val = r.val; rw [e0, hr]; omega
  | ⟨1, _⟩ => show win1_8.index t 1 * 128 + 1 * q.val = q.val; rw [e1]; omega

/-- A function of the array's index read through the output's block at point `t`, at `(p, q)`, is the function at
    row `5000 t + p`, column `q`. -/
theorem read1_8_apply (G : S100000x128.Idx → EReal) (t : Fin cfg1.N) (p : Fin 5000) (q : Fin 128) (r : Fin 100000)
    (hr : r.val = t.val * 5000 + p.val) :
    (((cfg1.win 8).blk t).view.read (Elt Ideal) G : Vec Ideal S5000x128 .f32) (ix2 p q) = G (ix2 r q) := by
  rw [View.read_apply]
  show G _ = _
  exact congrArg G (emb1_8 t p q r hr)

/-! ## From blocks to the array -/

/-- What point `t` writes back is block `t` of the stage of the argument arrays as the region finds them. -/
theorem flushed1_eq (c : Dev nD) (t : Fin cfg1.N) :
    (dat1 (F := Ideal) V c).flushed 8 t = ((cfg1.win 8).blk t).view.read (Elt Ideal)
      (Cert.Stage.eluStage (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7))) := by
  show (cfg1.win 8).cut (grid1.coords t) ((dat1 V c).after 8 t) = _
  rw [after1_8]
  funext j
  obtain ⟨p, q, rfl⟩ : ∃ (p : Fin 5000) (q : Fin 128), j = (ix2 p q : S5000x128.Idx) :=
    ⟨j 0, j 1, eq_ix2 (n0 := 5000) (n1 := 128) j⟩
  have ht : t.val < 20 := hN1 ▸ t.isLt
  have hr : t.val * 5000 + p.val < 100000 := by have := p.isLt; omega
  exact (point1 (iblk1 V c 0 t) (iblk1 V c 1 t) (iblk1 V c 2 t) (iblk1 V c 3 t) (iblk1 V c 4 t) (iblk1 V c 5 t)
      (iblk1 V c 6 t) (iblk1 V c 7 t)
      (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) p q ⟨t.val * 5000 + p.val, hr⟩
      (iblk1_0_apply V c t p q _ rfl) (iblk1_1_apply V c t p q _ rfl) (iblk1_2_apply V c t p 0 _ rfl)
      (iblk1_3_apply V c t q) (iblk1_4_apply V c t q) (iblk1_5_apply V c t q) (iblk1_6_apply V c t q)
      (iblk1_7_apply V c t q)).trans
    (read1_8_apply _ t p q ⟨t.val * 5000 + p.val, hr⟩ rfl).symm

/-- An index of the array is in point `t`'s block iff each coordinate is in the block's range on its axis. -/
theorem mem_blk1_8 (t : Fin cfg1.N) (i : S100000x128.Idx) :
    i ∈ ((cfg1.win 8).blk t).view.set ↔ ∀ a : Fin 2, win1_8.index t a * S5000x128.size a ≤ (i a).val
      ∧ (i a).val < win1_8.index t a * S5000x128.size a + S5000x128.size a := by
  show i ∈ ((View.whole main_v92).slice (win1_8.rect t)).set ↔ _
  rw [View.set_slice_whole, Rect.mem_set_unit]
  exact Iff.rfl

/-- Row `r` of the array lies in the block of point `r / 5000`: the twenty blocks tile the array. -/
theorem tiles1_8 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN1]; omega⟩, rfl⟩
  obtain ⟨-, -, -, -, -, -, -, -, -, -, -, -, -, -, -, -, e0, e1⟩ := idx_facts1 t
  refine ⟨t, flush1_8 t, ?_⟩
  rw [mem_blk1_8]
  intro a
  match a with
  | ⟨0, _⟩ => show win1_8.index t 0 * 5000 ≤ (i 0).val ∧ (i 0).val < win1_8.index t 0 * 5000 + 5000; rw [e0, ht]; omega
  | ⟨1, _⟩ => show win1_8.index t 1 * 128 ≤ (i 1).val ∧ (i 1).val < win1_8.index t 1 * 128 + 128; rw [e1]; omega

/-- After region 1's twenty write-backs its output array is the normalisation stage of the region's argument arrays as
    it finds them. -/
theorem norm1 (c : Dev nD) :
    (Gen.dat1 (F := Ideal) V c).arrAt 8 cfg1.N
      = Cert.Stage.eluStage (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) :=
  (dat1 (F := Ideal) V c).arrAt_eq_of_cover 8 _ (fun t _ => flushed1_eq V c t) tiles1_8

end Blocks

end Cert.KernelIdeal.Norm

end
-- ==== Proof.KernelLayer0.lean ====
/-
  Layer 0 of the kernel program, read off the boundary contents.
  The dense region leaves the projection h·W of the layer's input features; the host stretch aggregates it over the
  edges and lays the layer's parameters out as rows; the normalisation region leaves
  act(((agg + hw·dinv² + b) − mean)·rsqrt(var + ε)·γ + β), node by node and feature by feature (act = ELU).  Every other
  live buffer (edge rows, coefficient column, self-loop column, arguments) passes through the three steps unchanged.
-/
import proofs.«127358_j57011395887506_2_alg».proof.Proof.Gen.KernelIdeal.Frame
import proofs.«127358_j57011395887506_2_alg».proof.Proof.Gen.ReferenceIdeal
import proofs.«127358_j57011395887506_2_alg».proof.Proof.KernelStretches
import proofs.«127358_j57011395887506_2_alg».proof.Proof.StageSpec
import proofs.«127358_j57011395887506_2_alg».proof.Proof.Dense0
import proofs.«127358_j57011395887506_2_alg».proof.Proof.Norm1

set_option maxHeartbeats 4000000
set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem
open Cert.KernelIdeal.Terms Cert.KernelIdeal.Stretch

local notation "⟪" b "⟫" => Proc.devRef (τ := τ) (sig := sig) Proc.tc b

variable (m : (ℓ : Loc nD τ sig) → Buf (Elt Ideal) ℓ) (ρ : Dev nD → PrngReg) (c : Dev nD)

/-- An argument array is as launched when the first layer is entered: no operation of the preamble writes it. -/
theorem arg_at_launch (b : Ref sig .tc)
    (h : after (hostOps0 (F := Ideal)) (W0 m ρ c) ⟪b⟫ = W0 m ρ c ⟪b⟫) : W1 m ρ c ⟪b⟫ = m ((c : Thread nD τ).loc b) := h

/-- A buffer that neither region of the layer stages nor its host stretch writes passes through the layer. -/
theorem through0 (b : Ref sig .tc) (ha : ∀ w, Pipeline.arrRef spec0 w ≠ b)
    (hh : after (hostOps1 (F := Ideal)) (W2 m ρ c) ⟪b⟫ = W2 m ρ c ⟪b⟫) (hb : ∀ w, Pipeline.arrRef spec1 w ≠ b) :
    W4 m ρ c ⟪b⟫ = W1 m ρ c ⟪b⟫ :=
  (W4_of_ne m ρ c b hb).trans (hh.trans (W2_of_ne m ρ c b ha))

/-! ## What the layer finds -/

theorem entry0_w : W1 m ρ c ⟪main_arg7⟫ = m ((c : Thread nD τ).loc main_arg7) := (arg_at_launch m ρ c main_arg7 (by after_results_simp))
theorem entry0_v38 : W1 m ρ c ⟪main_v38⟫ = W1 m ρ c ⟪main_v38⟫ := rfl
theorem entry0_v40 : W1 m ρ c ⟪main_v40⟫ = W1 m ρ c ⟪main_v40⟫ := rfl
theorem entry0_v65 : W1 m ρ c ⟪main_v65⟫ = W1 m ρ c ⟪main_v65⟫ := rfl
theorem entry0_v49 : W1 m ρ c ⟪main_v49⟫ = W1 m ρ c ⟪main_v49⟫ := rfl
theorem entry0_arg8 : W1 m ρ c ⟪main_arg8⟫ = m ((c : Thread nD τ).loc main_arg8) := (arg_at_launch m ρ c main_arg8 (by after_results_simp))
theorem entry0_arg15 : W1 m ρ c ⟪main_arg15⟫ = m ((c : Thread nD τ).loc main_arg15) := (arg_at_launch m ρ c main_arg15 (by after_results_simp))
theorem entry0_arg16 : W1 m ρ c ⟪main_arg16⟫ = m ((c : Thread nD τ).loc main_arg16) := (arg_at_launch m ρ c main_arg16 (by after_results_simp))
theorem entry0_arg17 : W1 m ρ c ⟪main_arg17⟫ = m ((c : Thread nD τ).loc main_arg17) := (arg_at_launch m ρ c main_arg17 (by after_results_simp))
theorem entry0_arg18 : W1 m ρ c ⟪main_arg18⟫ = m ((c : Thread nD τ).loc main_arg18) := (arg_at_launch m ρ c main_arg18 (by after_results_simp))

/-! ## The dense product -/

/-- The projection h·W the dense region leaves, of the features the layer finds. -/
def proj0 : FVec Ideal S100000x128 .f32 :=
  Host.dotGeneral (F := Ideal) (φ₁ := .f32) (φ₂ := .f32) Cert.ReferenceIdeal.dot_S100000x129_S129x128_S100000x128_1_0_0_1_n_n none
    (W1 m ρ c ⟪main_v36⟫) (m ((c : Thread nD τ).loc main_arg7))

theorem proj0_eq : W2 m ρ c ⟪main_v66⟫ = proj0 m ρ c := by
  rw [show W2 m ρ c ⟪main_v66⟫ = (dat0 (V1 m ρ) c).arrAt 2 cfg0.N from W2_arr m ρ c 2, Cert.KernelIdeal.Dense.dense0 (V1 m ρ) c]
  unfold proj0
  rw [← entry0_w m ρ c]

/-! ## The layer's result -/

theorem layer0 :
    W4 m ρ c ⟪main_v92⟫ = Cert.Stage.eluStage
      (aggregate (proj0 m ρ c) (W1 m ρ c ⟪main_v38⟫) (W1 m ρ c ⟪main_v40⟫) (widen (W1 m ρ c ⟪main_v65⟫)))
      (proj0 m ρ c) (W1 m ρ c ⟪main_v49⟫) (featRow (m ((c : Thread nD τ).loc main_arg8)))
      (tableRow0 (m ((c : Thread nD τ).loc main_arg15))) (tableRow0 (m ((c : Thread nD τ).loc main_arg16)))
      (tableRow0 (m ((c : Thread nD τ).loc main_arg17))) (tableRow0 (m ((c : Thread nD τ).loc main_arg18))) := by
  have e38 : W2 m ρ c ⟪main_v38⟫ = W1 m ρ c ⟪main_v38⟫ := (W2_of_ne m ρ c main_v38 (by decide)).trans (entry0_v38 m ρ c)
  have e40 : W2 m ρ c ⟪main_v40⟫ = W1 m ρ c ⟪main_v40⟫ := (W2_of_ne m ρ c main_v40 (by decide)).trans (entry0_v40 m ρ c)
  have e65 : W2 m ρ c ⟪main_v65⟫ = W1 m ρ c ⟪main_v65⟫ := (W2_of_ne m ρ c main_v65 (by decide)).trans (entry0_v65 m ρ c)
  have e49 : W2 m ρ c ⟪main_v49⟫ = W1 m ρ c ⟪main_v49⟫ := (W2_of_ne m ρ c main_v49 (by decide)).trans (entry0_v49 m ρ c)
  have ab : W2 m ρ c ⟪main_arg8⟫ = m ((c : Thread nD τ).loc main_arg8) := (W2_of_ne m ρ c main_arg8 (by decide)).trans (entry0_arg8 m ρ c)
  have a15 : W2 m ρ c ⟪main_arg15⟫ = m ((c : Thread nD τ).loc main_arg15) := (W2_of_ne m ρ c main_arg15 (by decide)).trans (entry0_arg15 m ρ c)
  have a16 : W2 m ρ c ⟪main_arg16⟫ = m ((c : Thread nD τ).loc main_arg16) := (W2_of_ne m ρ c main_arg16 (by decide)).trans (entry0_arg16 m ρ c)
  have a17 : W2 m ρ c ⟪main_arg17⟫ = m ((c : Thread nD τ).loc main_arg17) := (W2_of_ne m ρ c main_arg17 (by decide)).trans (entry0_arg17 m ρ c)
  have a18 : W2 m ρ c ⟪main_arg18⟫ = m ((c : Thread nD τ).loc main_arg18) := (W2_of_ne m ρ c main_arg18 (by decide)).trans (entry0_arg18 m ρ c)
  rw [show W4 m ρ c ⟪main_v92⟫ = (dat1 (V3 m ρ) c).arrAt 8 cfg1.N from W4_arr m ρ c 8, Cert.KernelIdeal.Norm.norm1 (V3 m ρ) c]
  show Cert.Stage.eluStage (after (hostOps1 (F := Ideal)) (W2 m ρ c) ⟪main_v78⟫) (after (hostOps1 (F := Ideal)) (W2 m ρ c) ⟪main_v66⟫)
    (after (hostOps1 (F := Ideal)) (W2 m ρ c) ⟪main_v49⟫) (after (hostOps1 (F := Ideal)) (W2 m ρ c) ⟪main_v79⟫)
    (after (hostOps1 (F := Ideal)) (W2 m ρ c) ⟪main_v82⟫) (after (hostOps1 (F := Ideal)) (W2 m ρ c) ⟪main_v85⟫)
    (after (hostOps1 (F := Ideal)) (W2 m ρ c) ⟪main_v88⟫) (after (hostOps1 (F := Ideal)) (W2 m ρ c) ⟪main_v91⟫) = _
  rw [agg0, proj0_kept, selfcol0_kept, bias0, gamma0, beta0, mean0, var0, proj0_eq, e38, e40, e65, e49, ab, a15, a16, a17, a18]

/-! ## What the layer leaves for the later ones -/

/-- The self-loop column is an input window of the normalisation region, which leaves its inputs as it found them. -/
theorem exit0_v49 : W4 m ρ c ⟪main_v49⟫ = W1 m ρ c ⟪main_v49⟫ :=
  ((W4_arr m ρ c 2).trans (((dat1 (V3 m ρ) c).arrAt_in 2 rfl _).trans (A_eq1 (V3 m ρ) c 2))).trans
    ((selfcol0_kept (W2 m ρ c)).trans ((W2_of_ne m ρ c main_v49 (by decide)).trans (entry0_v49 m ρ c)))
theorem exit0_v38 : W4 m ρ c ⟪main_v38⟫ = W1 m ρ c ⟪main_v38⟫ :=
  (through0 m ρ c main_v38 (by decide) (by after_results_simp) (by decide)).trans (entry0_v38 m ρ c)
theorem exit0_v40 : W4 m ρ c ⟪main_v40⟫ = W1 m ρ c ⟪main_v40⟫ :=
  (through0 m ρ c main_v40 (by decide) (by after_results_simp) (by decide)).trans (entry0_v40 m ρ c)
theorem exit0_v65 : W4 m ρ c ⟪main_v65⟫ = W1 m ρ c ⟪main_v65⟫ :=
  (through0 m ρ c main_v65 (by decide) (by after_results_simp) (by decide)).trans (entry0_v65 m ρ c)
theorem exit0_arg9 : W4 m ρ c ⟪main_arg9⟫ = m ((c : Thread nD τ).loc main_arg9) :=
  (through0 m ρ c main_arg9 (by decide) (by after_results_simp) (by decide)).trans (arg_at_launch m ρ c main_arg9 (by after_results_simp))
theorem exit0_arg10 : W4 m ρ c ⟪main_arg10⟫ = m ((c : Thread nD τ).loc main_arg10) :=
  (through0 m ρ c main_arg10 (by decide) (by after_results_simp) (by decide)).trans (arg_at_launch m ρ c main_arg10 (by after_results_simp))
theorem exit0_arg11 : W4 m ρ c ⟪main_arg11⟫ = m ((c : Thread nD τ).loc main_arg11) :=
  (through0 m ρ c main_arg11 (by decide) (by after_results_simp) (by decide)).trans (arg_at_launch m ρ c main_arg11 (by after_results_simp))
theorem exit0_arg12 : W4 m ρ c ⟪main_arg12⟫ = m ((c : Thread nD τ).loc main_arg12) :=
  (through0 m ρ c main_arg12 (by decide) (by after_results_simp) (by decide)).trans (arg_at_launch m ρ c main_arg12 (by after_results_simp))
theorem exit0_arg13 : W4 m ρ c ⟪main_arg13⟫ = m ((c : Thread nD τ).loc main_arg13) :=
  (through0 m ρ c main_arg13 (by decide) (by after_results_simp) (by decide)).trans (arg_at_launch m ρ c main_arg13 (by after_results_simp))
theorem exit0_arg14 : W4 m ρ c ⟪main_arg14⟫ = m ((c : Thread nD τ).loc main_arg14) :=
  (through0 m ρ c main_arg14 (by decide) (by after_results_simp) (by decide)).trans (arg_at_launch m ρ c main_arg14 (by after_results_simp))
theorem exit0_arg15 : W4 m ρ c ⟪main_arg15⟫ = m ((c : Thread nD τ).loc main_arg15) :=
  (through0 m ρ c main_arg15 (by decide) (by after_results_simp) (by decide)).trans (entry0_arg15 m ρ c)
theorem exit0_arg16 : W4 m ρ c ⟪main_arg16⟫ = m ((c : Thread nD τ).loc main_arg16) :=
  (through0 m ρ c main_arg16 (by decide) (by after_results_simp) (by decide)).trans (entry0_arg16 m ρ c)
theorem exit0_arg17 : W4 m ρ c ⟪main_arg17⟫ = m ((c : Thread nD τ).loc main_arg17) :=
  (through0 m ρ c main_arg17 (by decide) (by after_results_simp) (by decide)).trans (entry0_arg17 m ρ c)
theorem exit0_arg18 : W4 m ρ c ⟪main_arg18⟫ = m ((c : Thread nD τ).loc main_arg18) :=
  (through0 m ρ c main_arg18 (by decide) (by after_results_simp) (by decide)).trans (entry0_arg18 m ρ c)
theorem exit0_arg3 : W4 m ρ c ⟪main_arg3⟫ = m ((c : Thread nD τ).loc main_arg3) :=
  (through0 m ρ c main_arg3 (by decide) (by after_results_simp) (by decide)).trans (arg_at_launch m ρ c main_arg3 (by after_results_simp))
theorem exit0_arg19 : W4 m ρ c ⟪main_arg19⟫ = m ((c : Thread nD τ).loc main_arg19) :=
  (through0 m ρ c main_arg19 (by decide) (by after_results_simp) (by decide)).trans (arg_at_launch m ρ c main_arg19 (by after_results_simp))
theorem exit0_arg20 : W4 m ρ c ⟪main_arg20⟫ = m ((c : Thread nD τ).loc main_arg20) :=
  (through0 m ρ c main_arg20 (by decide) (by after_results_simp) (by decide)).trans (arg_at_launch m ρ c main_arg20 (by after_results_simp))
theorem exit0_arg21 : W4 m ρ c ⟪main_arg21⟫ = m ((c : Thread nD τ).loc main_arg21) :=
  (through0 m ρ c main_arg21 (by decide) (by after_results_simp) (by decide)).trans (arg_at_launch m ρ c main_arg21 (by after_results_simp))
theorem exit0_arg22 : W4 m ρ c ⟪main_arg22⟫ = m ((c : Thread nD τ).loc main_arg22) :=
  (through0 m ρ c main_arg22 (by decide) (by after_results_simp) (by decide)).trans (arg_at_launch m ρ c main_arg22 (by after_results_simp))

end Cert.KernelIdeal.Layers

end
-- ==== Proof.KernelLayer1.lean ====
/-
  Layer 1 of the kernel program, read off the boundary contents.
  The dense region leaves the projection h·W of the layer's input features; the host stretch aggregates it over the
  edges and lays the layer's parameters out as rows; the normalisation region leaves
  act(((agg + hw·dinv² + b) − mean)·rsqrt(var + ε)·γ + β), node by node and feature by feature (act = ELU).  Every other
  live buffer (edge rows, coefficient column, self-loop column, arguments) passes through the three steps unchanged.
-/
import proofs.«127358_j57011395887506_2_alg».proof.Proof.Gen.KernelIdeal.Frame
import proofs.«127358_j57011395887506_2_alg».proof.Proof.Gen.ReferenceIdeal
import proofs.«127358_j57011395887506_2_alg».proof.Proof.KernelStretches
import proofs.«127358_j57011395887506_2_alg».proof.Proof.StageSpec
import proofs.«127358_j57011395887506_2_alg».proof.Proof.Dense2
import proofs.«127358_j57011395887506_2_alg».proof.Proof.Norm3
import proofs.«127358_j57011395887506_2_alg».proof.Proof.KernelLayer0

set_option maxHeartbeats 4000000
set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem
open Cert.KernelIdeal.Terms Cert.KernelIdeal.Stretch

local notation "⟪" b "⟫" => Proc.devRef (τ := τ) (sig := sig) Proc.tc b

variable (m : (ℓ : Loc nD τ sig) → Buf (Elt Ideal) ℓ) (ρ : Dev nD → PrngReg) (c : Dev nD)

/-- A buffer that neither region of the layer stages nor its host stretch writes passes through the layer. -/
theorem through1 (b : Ref sig .tc) (ha : ∀ w, Pipeline.arrRef spec2 w ≠ b)
    (hh : after (hostOps3 (F := Ideal)) (W5 m ρ c) ⟪b⟫ = W5 m ρ c ⟪b⟫) (hb : ∀ w, Pipeline.arrRef spec3 w ≠ b) :
    W7 m ρ c ⟪b⟫ = W4 m ρ c ⟪b⟫ :=
  (W7_of_ne m ρ c b hb).trans (hh.trans (W5_of_ne m ρ c b ha))

/-! ## What the layer finds -/

theorem entry1_w : W4 m ρ c ⟪main_arg9⟫ = m ((c : Thread nD τ).loc main_arg9) := (Cert.KernelIdeal.Layers.exit0_arg9 m ρ c)
theorem entry1_v38 : W4 m ρ c ⟪main_v38⟫ = W1 m ρ c ⟪main_v38⟫ := (Cert.KernelIdeal.Layers.exit0_v38 m ρ c)
theorem entry1_v40 : W4 m ρ c ⟪main_v40⟫ = W1 m ρ c ⟪main_v40⟫ := (Cert.KernelIdeal.Layers.exit0_v40 m ρ c)
theorem entry1_v65 : W4 m ρ c ⟪main_v65⟫ = W1 m ρ c ⟪main_v65⟫ := (Cert.KernelIdeal.Layers.exit0_v65 m ρ c)
theorem entry1_v49 : W4 m ρ c ⟪main_v49⟫ = W1 m ρ c ⟪main_v49⟫ := (Cert.KernelIdeal.Layers.exit0_v49 m ρ c)
theorem entry1_arg10 : W4 m ρ c ⟪main_arg10⟫ = m ((c : Thread nD τ).loc main_arg10) := (Cert.KernelIdeal.Layers.exit0_arg10 m ρ c)
theorem entry1_arg15 : W4 m ρ c ⟪main_arg15⟫ = m ((c : Thread nD τ).loc main_arg15) := (Cert.KernelIdeal.Layers.exit0_arg15 m ρ c)
theorem entry1_arg16 : W4 m ρ c ⟪main_arg16⟫ = m ((c : Thread nD τ).loc main_arg16) := (Cert.KernelIdeal.Layers.exit0_arg16 m ρ c)
theorem entry1_arg17 : W4 m ρ c ⟪main_arg17⟫ = m ((c : Thread nD τ).loc main_arg17) := (Cert.KernelIdeal.Layers.exit0_arg17 m ρ c)
theorem entry1_arg18 : W4 m ρ c ⟪main_arg18⟫ = m ((c : Thread nD τ).loc main_arg18) := (Cert.KernelIdeal.Layers.exit0_arg18 m ρ c)

/-! ## The dense product -/

/-- The projection h·W the dense region leaves, of the features the layer finds. -/
def proj1 : FVec Ideal S100000x128 .f32 :=
  Host.dotGeneral (F := Ideal) (φ₁ := .f32) (φ₂ := .f32) Cert.ReferenceIdeal.dot_S100000x128_S128x128_S100000x128_1_0_0_1_n_n none
    (W4 m ρ c ⟪main_v92⟫) (m ((c : Thread nD τ).loc main_arg9))

theorem proj1_eq : W5 m ρ c ⟪main_v93⟫ = proj1 m ρ c := by
  rw [show W5 m ρ c ⟪main_v93⟫ = (dat2 (V4 m ρ) c).arrAt 2 cfg2.N from W5_arr m ρ c 2, Cert.KernelIdeal.Dense.dense2 (V4 m ρ) c]
  unfold proj1
  rw [← entry1_w m ρ c]

/-! ## The layer's result -/

theorem layer1 :
    W7 m ρ c ⟪main_v119⟫ = Cert.Stage.eluStage
      (aggregate (proj1 m ρ c) (W1 m ρ c ⟪main_v38⟫) (W1 m ρ c ⟪main_v40⟫) (widen (W1 m ρ c ⟪main_v65⟫)))
      (proj1 m ρ c) (W1 m ρ c ⟪main_v49⟫) (featRow (m ((c : Thread nD τ).loc main_arg10)))
      (tableRow1 (m ((c : Thread nD τ).loc main_arg15))) (tableRow1 (m ((c : Thread nD τ).loc main_arg16)))
      (tableRow1 (m ((c : Thread nD τ).loc main_arg17))) (tableRow1 (m ((c : Thread nD τ).loc main_arg18))) := by
  have e38 : W5 m ρ c ⟪main_v38⟫ = W1 m ρ c ⟪main_v38⟫ := (W5_of_ne m ρ c main_v38 (by decide)).trans (entry1_v38 m ρ c)
  have e40 : W5 m ρ c ⟪main_v40⟫ = W1 m ρ c ⟪main_v40⟫ := (W5_of_ne m ρ c main_v40 (by decide)).trans (entry1_v40 m ρ c)
  have e65 : W5 m ρ c ⟪main_v65⟫ = W1 m ρ c ⟪main_v65⟫ := (W5_of_ne m ρ c main_v65 (by decide)).trans (entry1_v65 m ρ c)
  have e49 : W5 m ρ c ⟪main_v49⟫ = W1 m ρ c ⟪main_v49⟫ := (W5_of_ne m ρ c main_v49 (by decide)).trans (entry1_v49 m ρ c)
  have ab : W5 m ρ c ⟪main_arg10⟫ = m ((c : Thread nD τ).loc main_arg10) := (W5_of_ne m ρ c main_arg10 (by decide)).trans (entry1_arg10 m ρ c)
  have a15 : W5 m ρ c ⟪main_arg15⟫ = m ((c : Thread nD τ).loc main_arg15) := (W5_of_ne m ρ c main_arg15 (by decide)).trans (entry1_arg15 m ρ c)
  have a16 : W5 m ρ c ⟪main_arg16⟫ = m ((c : Thread nD τ).loc main_arg16) := (W5_of_ne m ρ c main_arg16 (by decide)).trans (entry1_arg16 m ρ c)
  have a17 : W5 m ρ c ⟪main_arg17⟫ = m ((c : Thread nD τ).loc main_arg17) := (W5_of_ne m ρ c main_arg17 (by decide)).trans (entry1_arg17 m ρ c)
  have a18 : W5 m ρ c ⟪main_arg18⟫ = m ((c : Thread nD τ).loc main_arg18) := (W5_of_ne m ρ c main_arg18 (by decide)).trans (entry1_arg18 m ρ c)
  rw [show W7 m ρ c ⟪main_v119⟫ = (dat3 (V6 m ρ) c).arrAt 8 cfg3.N from W7_arr m ρ c 8, Cert.KernelIdeal.Norm.norm3 (V6 m ρ) c]
  show Cert.Stage.eluStage (after (hostOps3 (F := Ideal)) (W5 m ρ c) ⟪main_v105⟫) (after (hostOps3 (F := Ideal)) (W5 m ρ c) ⟪main_v93⟫)
    (after (hostOps3 (F := Ideal)) (W5 m ρ c) ⟪main_v49⟫) (after (hostOps3 (F := Ideal)) (W5 m ρ c) ⟪main_v106⟫)
    (after (hostOps3 (F := Ideal)) (W5 m ρ c) ⟪main_v109⟫) (after (hostOps3 (F := Ideal)) (W5 m ρ c) ⟪main_v112⟫)
    (after (hostOps3 (F := Ideal)) (W5 m ρ c) ⟪main_v115⟫) (after (hostOps3 (F := Ideal)) (W5 m ρ c) ⟪main_v118⟫) = _
  rw [agg1, proj1_kept, selfcol1_kept, bias1, gamma1, beta1, mean1, var1, proj1_eq, e38, e40, e65, e49, ab, a15, a16, a17, a18]

/-! ## What the layer leaves for the later ones -/

/-- The self-loop column is an input window of the normalisation region, which leaves its inputs as it found them. -/
theorem exit1_v49 : W7 m ρ c ⟪main_v49⟫ = W1 m ρ c ⟪main_v49⟫ :=
  ((W7_arr m ρ c 2).trans (((dat3 (V6 m ρ) c).arrAt_in 2 rfl _).trans (A_eq3 (V6 m ρ) c 2))).trans
    ((selfcol1_kept (W5 m ρ c)).trans ((W5_of_ne m ρ c main_v49 (by decide)).trans (entry1_v49 m ρ c)))
theorem exit1_v38 : W7 m ρ c ⟪main_v38⟫ = W1 m ρ c ⟪main_v38⟫ :=
  (through1 m ρ c main_v38 (by decide) (by after_results_simp) (by decide)).trans (entry1_v38 m ρ c)
theorem exit1_v40 : W7 m ρ c ⟪main_v40⟫ = W1 m ρ c ⟪main_v40⟫ :=
  (through1 m ρ c main_v40 (by decide) (by after_results_simp) (by decide)).trans (entry1_v40 m ρ c)
theorem exit1_v65 : W7 m ρ c ⟪main_v65⟫ = W1 m ρ c ⟪main_v65⟫ :=
  (through1 m ρ c main_v65 (by decide) (by after_results_simp) (by decide)).trans (entry1_v65 m ρ c)
theorem exit1_arg11 : W7 m ρ c ⟪main_arg11⟫ = m ((c : Thread nD τ).loc main_arg11) :=
  (through1 m ρ c main_arg11 (by decide) (by after_results_simp) (by decide)).trans (exit0_arg11 m ρ c)
theorem exit1_arg12 : W7 m ρ c ⟪main_arg12⟫ = m ((c : Thread nD τ).loc main_arg12) :=
  (through1 m ρ c main_arg12 (by decide) (by after_results_simp) (by decide)).trans (exit0_arg12 m ρ c)
theorem exit1_arg13 : W7 m ρ c ⟪main_arg13⟫ = m ((c : Thread nD τ).loc main_arg13) :=
  (through1 m ρ c main_arg13 (by decide) (by after_results_simp) (by decide)).trans (exit0_arg13 m ρ c)
theorem exit1_arg14 : W7 m ρ c ⟪main_arg14⟫ = m ((c : Thread nD τ).loc main_arg14) :=
  (through1 m ρ c main_arg14 (by decide) (by after_results_simp) (by decide)).trans (exit0_arg14 m ρ c)
theorem exit1_arg15 : W7 m ρ c ⟪main_arg15⟫ = m ((c : Thread nD τ).loc main_arg15) :=
  (through1 m ρ c main_arg15 (by decide) (by after_results_simp) (by decide)).trans (entry1_arg15 m ρ c)
theorem exit1_arg16 : W7 m ρ c ⟪main_arg16⟫ = m ((c : Thread nD τ).loc main_arg16) :=
  (through1 m ρ c main_arg16 (by decide) (by after_results_simp) (by decide)).trans (entry1_arg16 m ρ c)
theorem exit1_arg17 : W7 m ρ c ⟪main_arg17⟫ = m ((c : Thread nD τ).loc main_arg17) :=
  (through1 m ρ c main_arg17 (by decide) (by after_results_simp) (by decide)).trans (entry1_arg17 m ρ c)
theorem exit1_arg18 : W7 m ρ c ⟪main_arg18⟫ = m ((c : Thread nD τ).loc main_arg18) :=
  (through1 m ρ c main_arg18 (by decide) (by after_results_simp) (by decide)).trans (entry1_arg18 m ρ c)
theorem exit1_arg3 : W7 m ρ c ⟪main_arg3⟫ = m ((c : Thread nD τ).loc main_arg3) :=
  (through1 m ρ c main_arg3 (by decide) (by after_results_simp) (by decide)).trans (exit0_arg3 m ρ c)
theorem exit1_arg19 : W7 m ρ c ⟪main_arg19⟫ = m ((c : Thread nD τ).loc main_arg19) :=
  (through1 m ρ c main_arg19 (by decide) (by after_results_simp) (by decide)).trans (exit0_arg19 m ρ c)
theorem exit1_arg20 : W7 m ρ c ⟪main_arg20⟫ = m ((c : Thread nD τ).loc main_arg20) :=
  (through1 m ρ c main_arg20 (by decide) (by after_results_simp) (by decide)).trans (exit0_arg20 m ρ c)
theorem exit1_arg21 : W7 m ρ c ⟪main_arg21⟫ = m ((c : Thread nD τ).loc main_arg21) :=
  (through1 m ρ c main_arg21 (by decide) (by after_results_simp) (by decide)).trans (exit0_arg21 m ρ c)
theorem exit1_arg22 : W7 m ρ c ⟪main_arg22⟫ = m ((c : Thread nD τ).loc main_arg22) :=
  (through1 m ρ c main_arg22 (by decide) (by after_results_simp) (by decide)).trans (exit0_arg22 m ρ c)

end Cert.KernelIdeal.Layers

end
-- ==== Proof.KernelLayer2.lean ====
/-
  Layer 2 of the kernel program, read off the boundary contents.
  The dense region leaves the projection h·W of the layer's input features; the host stretch aggregates it over the
  edges and lays the layer's parameters out as rows; the normalisation region leaves
  act(((agg + hw·dinv² + b) − mean)·rsqrt(var + ε)·γ + β), node by node and feature by feature (act = ELU).  Every other
  live buffer (edge rows, coefficient column, self-loop column, arguments) passes through the three steps unchanged.
-/
import proofs.«127358_j57011395887506_2_alg».proof.Proof.Gen.KernelIdeal.Frame
import proofs.«127358_j57011395887506_2_alg».proof.Proof.Gen.ReferenceIdeal
import proofs.«127358_j57011395887506_2_alg».proof.Proof.KernelStretches
import proofs.«127358_j57011395887506_2_alg».proof.Proof.StageSpec
import proofs.«127358_j57011395887506_2_alg».proof.Proof.Dense4
import proofs.«127358_j57011395887506_2_alg».proof.Proof.Norm5
import proofs.«127358_j57011395887506_2_alg».proof.Proof.KernelLayer1

set_option maxHeartbeats 4000000
set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem
open Cert.KernelIdeal.Terms Cert.KernelIdeal.Stretch

local notation "⟪" b "⟫" => Proc.devRef (τ := τ) (sig := sig) Proc.tc b

variable (m : (ℓ : Loc nD τ sig) → Buf (Elt Ideal) ℓ) (ρ : Dev nD → PrngReg) (c : Dev nD)

/-- A buffer that neither region of the layer stages nor its host stretch writes passes through the layer. -/
theorem through2 (b : Ref sig .tc) (ha : ∀ w, Pipeline.arrRef spec4 w ≠ b)
    (hh : after (hostOps5 (F := Ideal)) (W8 m ρ c) ⟪b⟫ = W8 m ρ c ⟪b⟫) (hb : ∀ w, Pipeline.arrRef spec5 w ≠ b) :
    W10 m ρ c ⟪b⟫ = W7 m ρ c ⟪b⟫ :=
  (W10_of_ne m ρ c b hb).trans (hh.trans (W8_of_ne m ρ c b ha))

/-! ## What the layer finds -/

theorem entry2_w : W7 m ρ c ⟪main_arg11⟫ = m ((c : Thread nD τ).loc main_arg11) := (Cert.KernelIdeal.Layers.exit1_arg11 m ρ c)
theorem entry2_v38 : W7 m ρ c ⟪main_v38⟫ = W1 m ρ c ⟪main_v38⟫ := (Cert.KernelIdeal.Layers.exit1_v38 m ρ c)
theorem entry2_v40 : W7 m ρ c ⟪main_v40⟫ = W1 m ρ c ⟪main_v40⟫ := (Cert.KernelIdeal.Layers.exit1_v40 m ρ c)
theorem entry2_v65 : W7 m ρ c ⟪main_v65⟫ = W1 m ρ c ⟪main_v65⟫ := (Cert.KernelIdeal.Layers.exit1_v65 m ρ c)
theorem entry2_v49 : W7 m ρ c ⟪main_v49⟫ = W1 m ρ c ⟪main_v49⟫ := (Cert.KernelIdeal.Layers.exit1_v49 m ρ c)
theorem entry2_arg12 : W7 m ρ c ⟪main_arg12⟫ = m ((c : Thread nD τ).loc main_arg12) := (Cert.KernelIdeal.Layers.exit1_arg12 m ρ c)
theorem entry2_arg15 : W7 m ρ c ⟪main_arg15⟫ = m ((c : Thread nD τ).loc main_arg15) := (Cert.KernelIdeal.Layers.exit1_arg15 m ρ c)
theorem entry2_arg16 : W7 m ρ c ⟪main_arg16⟫ = m ((c : Thread nD τ).loc main_arg16) := (Cert.KernelIdeal.Layers.exit1_arg16 m ρ c)
theorem entry2_arg17 : W7 m ρ c ⟪main_arg17⟫ = m ((c : Thread nD τ).loc main_arg17) := (Cert.KernelIdeal.Layers.exit1_arg17 m ρ c)
theorem entry2_arg18 : W7 m ρ c ⟪main_arg18⟫ = m ((c : Thread nD τ).loc main_arg18) := (Cert.KernelIdeal.Layers.exit1_arg18 m ρ c)

/-! ## The dense product -/

/-- The projection h·W the dense region leaves, of the features the layer finds. -/
def proj2 : FVec Ideal S100000x128 .f32 :=
  Host.dotGeneral (F := Ideal) (φ₁ := .f32) (φ₂ := .f32) Cert.ReferenceIdeal.dot_S100000x128_S128x128_S100000x128_1_0_0_1_n_n none
    (W7 m ρ c ⟪main_v119⟫) (m ((c : Thread nD τ).loc main_arg11))

theorem proj2_eq : W8 m ρ c ⟪main_v120⟫ = proj2 m ρ c := by
  rw [show W8 m ρ c ⟪main_v120⟫ = (dat4 (V7 m ρ) c).arrAt 2 cfg4.N from W8_arr m ρ c 2, Cert.KernelIdeal.Dense.dense4 (V7 m ρ) c]
  unfold proj2
  rw [← entry2_w m ρ c]

/-! ## The layer's result -/

theorem layer2 :
    W10 m ρ c ⟪main_v146⟫ = Cert.Stage.eluStage
      (aggregate (proj2 m ρ c) (W1 m ρ c ⟪main_v38⟫) (W1 m ρ c ⟪main_v40⟫) (widen (W1 m ρ c ⟪main_v65⟫)))
      (proj2 m ρ c) (W1 m ρ c ⟪main_v49⟫) (featRow (m ((c : Thread nD τ).loc main_arg12)))
      (tableRow2 (m ((c : Thread nD τ).loc main_arg15))) (tableRow2 (m ((c : Thread nD τ).loc main_arg16)))
      (tableRow2 (m ((c : Thread nD τ).loc main_arg17))) (tableRow2 (m ((c : Thread nD τ).loc main_arg18))) := by
  have e38 : W8 m ρ c ⟪main_v38⟫ = W1 m ρ c ⟪main_v38⟫ := (W8_of_ne m ρ c main_v38 (by decide)).trans (entry2_v38 m ρ c)
  have e40 : W8 m ρ c ⟪main_v40⟫ = W1 m ρ c ⟪main_v40⟫ := (W8_of_ne m ρ c main_v40 (by decide)).trans (entry2_v40 m ρ c)
  have e65 : W8 m ρ c ⟪main_v65⟫ = W1 m ρ c ⟪main_v65⟫ := (W8_of_ne m ρ c main_v65 (by decide)).trans (entry2_v65 m ρ c)
  have e49 : W8 m ρ c ⟪main_v49⟫ = W1 m ρ c ⟪main_v49⟫ := (W8_of_ne m ρ c main_v49 (by decide)).trans (entry2_v49 m ρ c)
  have ab : W8 m ρ c ⟪main_arg12⟫ = m ((c : Thread nD τ).loc main_arg12) := (W8_of_ne m ρ c main_arg12 (by decide)).trans (entry2_arg12 m ρ c)
  have a15 : W8 m ρ c ⟪main_arg15⟫ = m ((c : Thread nD τ).loc main_arg15) := (W8_of_ne m ρ c main_arg15 (by decide)).trans (entry2_arg15 m ρ c)
  have a16 : W8 m ρ c ⟪main_arg16⟫ = m ((c : Thread nD τ).loc main_arg16) := (W8_of_ne m ρ c main_arg16 (by decide)).trans (entry2_arg16 m ρ c)
  have a17 : W8 m ρ c ⟪main_arg17⟫ = m ((c : Thread nD τ).loc main_arg17) := (W8_of_ne m ρ c main_arg17 (by decide)).trans (entry2_arg17 m ρ c)
  have a18 : W8 m ρ c ⟪main_arg18⟫ = m ((c : Thread nD τ).loc main_arg18) := (W8_of_ne m ρ c main_arg18 (by decide)).trans (entry2_arg18 m ρ c)
  rw [show W10 m ρ c ⟪main_v146⟫ = (dat5 (V9 m ρ) c).arrAt 8 cfg5.N from W10_arr m ρ c 8, Cert.KernelIdeal.Norm.norm5 (V9 m ρ) c]
  show Cert.Stage.eluStage (after (hostOps5 (F := Ideal)) (W8 m ρ c) ⟪main_v132⟫) (after (hostOps5 (F := Ideal)) (W8 m ρ c) ⟪main_v120⟫)
    (after (hostOps5 (F := Ideal)) (W8 m ρ c) ⟪main_v49⟫) (after (hostOps5 (F := Ideal)) (W8 m ρ c) ⟪main_v133⟫)
    (after (hostOps5 (F := Ideal)) (W8 m ρ c) ⟪main_v136⟫) (after (hostOps5 (F := Ideal)) (W8 m ρ c) ⟪main_v139⟫)
    (after (hostOps5 (F := Ideal)) (W8 m ρ c) ⟪main_v142⟫) (after (hostOps5 (F := Ideal)) (W8 m ρ c) ⟪main_v145⟫) = _
  rw [agg2, proj2_kept, selfcol2_kept, bias2, gamma2, beta2, mean2, var2, proj2_eq, e38, e40, e65, e49, ab, a15, a16, a17, a18]

/-! ## What the layer leaves for the later ones -/

/-- The self-loop column is an input window of the normalisation region, which leaves its inputs as it found them. -/
theorem exit2_v49 : W10 m ρ c ⟪main_v49⟫ = W1 m ρ c ⟪main_v49⟫ :=
  ((W10_arr m ρ c 2).trans (((dat5 (V9 m ρ) c).arrAt_in 2 rfl _).trans (A_eq5 (V9 m ρ) c 2))).trans
    ((selfcol2_kept (W8 m ρ c)).trans ((W8_of_ne m ρ c main_v49 (by decide)).trans (entry2_v49 m ρ c)))
theorem exit2_v38 : W10 m ρ c ⟪main_v38⟫ = W1 m ρ c ⟪main_v38⟫ :=
  (through2 m ρ c main_v38 (by decide) (by after_results_simp) (by decide)).trans (entry2_v38 m ρ c)
theorem exit2_v40 : W10 m ρ c ⟪main_v40⟫ = W1 m ρ c ⟪main_v40⟫ :=
  (through2 m ρ c main_v40 (by decide) (by after_results_simp) (by decide)).trans (entry2_v40 m ρ c)
theorem exit2_v65 : W10 m ρ c ⟪main_v65⟫ = W1 m ρ c ⟪main_v65⟫ :=
  (through2 m ρ c main_v65 (by decide) (by after_results_simp) (by decide)).trans (entry2_v65 m ρ c)
theorem exit2_arg13 : W10 m ρ c ⟪main_arg13⟫ = m ((c : Thread nD τ).loc main_arg13) :=
  (through2 m ρ c main_arg13 (by decide) (by after_results_simp) (by decide)).trans (exit1_arg13 m ρ c)
theorem exit2_arg14 : W10 m ρ c ⟪main_arg14⟫ = m ((c : Thread nD τ).loc main_arg14) :=
  (through2 m ρ c main_arg14 (by decide) (by after_results_simp) (by decide)).trans (exit1_arg14 m ρ c)
theorem exit2_arg15 : W10 m ρ c ⟪main_arg15⟫ = m ((c : Thread nD τ).loc main_arg15) :=
  (through2 m ρ c main_arg15 (by decide) (by after_results_simp) (by decide)).trans (entry2_arg15 m ρ c)
theorem exit2_arg16 : W10 m ρ c ⟪main_arg16⟫ = m ((c : Thread nD τ).loc main_arg16) :=
  (through2 m ρ c main_arg16 (by decide) (by after_results_simp) (by decide)).trans (entry2_arg16 m ρ c)
theorem exit2_arg17 : W10 m ρ c ⟪main_arg17⟫ = m ((c : Thread nD τ).loc main_arg17) :=
  (through2 m ρ c main_arg17 (by decide) (by after_results_simp) (by decide)).trans (entry2_arg17 m ρ c)
theorem exit2_arg18 : W10 m ρ c ⟪main_arg18⟫ = m ((c : Thread nD τ).loc main_arg18) :=
  (through2 m ρ c main_arg18 (by decide) (by after_results_simp) (by decide)).trans (entry2_arg18 m ρ c)
theorem exit2_arg3 : W10 m ρ c ⟪main_arg3⟫ = m ((c : Thread nD τ).loc main_arg3) :=
  (through2 m ρ c main_arg3 (by decide) (by after_results_simp) (by decide)).trans (exit1_arg3 m ρ c)
theorem exit2_arg19 : W10 m ρ c ⟪main_arg19⟫ = m ((c : Thread nD τ).loc main_arg19) :=
  (through2 m ρ c main_arg19 (by decide) (by after_results_simp) (by decide)).trans (exit1_arg19 m ρ c)
theorem exit2_arg20 : W10 m ρ c ⟪main_arg20⟫ = m ((c : Thread nD τ).loc main_arg20) :=
  (through2 m ρ c main_arg20 (by decide) (by after_results_simp) (by decide)).trans (exit1_arg20 m ρ c)
theorem exit2_arg21 : W10 m ρ c ⟪main_arg21⟫ = m ((c : Thread nD τ).loc main_arg21) :=
  (through2 m ρ c main_arg21 (by decide) (by after_results_simp) (by decide)).trans (exit1_arg21 m ρ c)
theorem exit2_arg22 : W10 m ρ c ⟪main_arg22⟫ = m ((c : Thread nD τ).loc main_arg22) :=
  (through2 m ρ c main_arg22 (by decide) (by after_results_simp) (by decide)).trans (exit1_arg22 m ρ c)

end Cert.KernelIdeal.Layers

end
-- ==== Proof.KernelLayer3.lean ====
/-
  Layer 3 of the kernel program, read off the boundary contents.
  The dense region leaves the projection h·W of the layer's input features; the host stretch aggregates it over the
  edges and lays the layer's parameters out as rows; the normalisation region leaves
  act(((agg + hw·dinv² + b) − mean)·rsqrt(var + ε)·γ + β), node by node and feature by feature (act = ReLU).  Every other
  live buffer (edge rows, coefficient column, self-loop column, arguments) passes through the three steps unchanged.
-/
import proofs.«127358_j57011395887506_2_alg».proof.Proof.Gen.KernelIdeal.Frame
import proofs.«127358_j57011395887506_2_alg».proof.Proof.Gen.ReferenceIdeal
import proofs.«127358_j57011395887506_2_alg».proof.Proof.KernelStretches
import proofs.«127358_j57011395887506_2_alg».proof.Proof.StageSpec
import proofs.«127358_j57011395887506_2_alg».proof.Proof.Dense6
import proofs.«127358_j57011395887506_2_alg».proof.Proof.Norm7
import proofs.«127358_j57011395887506_2_alg».proof.Proof.KernelLayer2

set_option maxHeartbeats 4000000
set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem
open Cert.KernelIdeal.Terms Cert.KernelIdeal.Stretch

local notation "⟪" b "⟫" => Proc.devRef (τ := τ) (sig := sig) Proc.tc b

variable (m : (ℓ : Loc nD τ sig) → Buf (Elt Ideal) ℓ) (ρ : Dev nD → PrngReg) (c : Dev nD)

/-- A buffer that neither region of the layer stages nor its host stretch writes passes through the layer. -/
theorem through3 (b : Ref sig .tc) (ha : ∀ w, Pipeline.arrRef spec6 w ≠ b)
    (hh : after (hostOps7 (F := Ideal)) (W11 m ρ c) ⟪b⟫ = W11 m ρ c ⟪b⟫) (hb : ∀ w, Pipeline.arrRef spec7 w ≠ b) :
    W13 m ρ c ⟪b⟫ = W10 m ρ c ⟪b⟫ :=
  (W13_of_ne m ρ c b hb).trans (hh.trans (W11_of_ne m ρ c b ha))

/-! ## What the layer finds -/

theorem entry3_w : W10 m ρ c ⟪main_arg13⟫ = m ((c : Thread nD τ).loc main_arg13) := (Cert.KernelIdeal.Layers.exit2_arg13 m ρ c)
theorem entry3_v38 : W10 m ρ c ⟪main_v38⟫ = W1 m ρ c ⟪main_v38⟫ := (Cert.KernelIdeal.Layers.exit2_v38 m ρ c)
theorem entry3_v40 : W10 m ρ c ⟪main_v40⟫ = W1 m ρ c ⟪main_v40⟫ := (Cert.KernelIdeal.Layers.exit2_v40 m ρ c)
theorem entry3_v65 : W10 m ρ c ⟪main_v65⟫ = W1 m ρ c ⟪main_v65⟫ := (Cert.KernelIdeal.Layers.exit2_v65 m ρ c)
theorem entry3_v49 : W10 m ρ c ⟪main_v49⟫ = W1 m ρ c ⟪main_v49⟫ := (Cert.KernelIdeal.Layers.exit2_v49 m ρ c)
theorem entry3_arg14 : W10 m ρ c ⟪main_arg14⟫ = m ((c : Thread nD τ).loc main_arg14) := (Cert.KernelIdeal.Layers.exit2_arg14 m ρ c)
theorem entry3_arg15 : W10 m ρ c ⟪main_arg15⟫ = m ((c : Thread nD τ).loc main_arg15) := (Cert.KernelIdeal.Layers.exit2_arg15 m ρ c)
theorem entry3_arg16 : W10 m ρ c ⟪main_arg16⟫ = m ((c : Thread nD τ).loc main_arg16) := (Cert.KernelIdeal.Layers.exit2_arg16 m ρ c)
theorem entry3_arg17 : W10 m ρ c ⟪main_arg17⟫ = m ((c : Thread nD τ).loc main_arg17) := (Cert.KernelIdeal.Layers.exit2_arg17 m ρ c)
theorem entry3_arg18 : W10 m ρ c ⟪main_arg18⟫ = m ((c : Thread nD τ).loc main_arg18) := (Cert.KernelIdeal.Layers.exit2_arg18 m ρ c)

/-! ## The dense product -/

/-- The projection h·W the dense region leaves, of the features the layer finds. -/
def proj3 : FVec Ideal S100000x128 .f32 :=
  Host.dotGeneral (F := Ideal) (φ₁ := .f32) (φ₂ := .f32) Cert.ReferenceIdeal.dot_S100000x128_S128x128_S100000x128_1_0_0_1_n_n none
    (W10 m ρ c ⟪main_v146⟫) (m ((c : Thread nD τ).loc main_arg13))

theorem proj3_eq : W11 m ρ c ⟪main_v147⟫ = proj3 m ρ c := by
  rw [show W11 m ρ c ⟪main_v147⟫ = (dat6 (V10 m ρ) c).arrAt 2 cfg6.N from W11_arr m ρ c 2, Cert.KernelIdeal.Dense.dense6 (V10 m ρ) c]
  unfold proj3
  rw [← entry3_w m ρ c]

/-! ## The layer's result -/

theorem layer3 :
    W13 m ρ c ⟪main_v173⟫ = Cert.Stage.reluStage
      (aggregate (proj3 m ρ c) (W1 m ρ c ⟪main_v38⟫) (W1 m ρ c ⟪main_v40⟫) (widen (W1 m ρ c ⟪main_v65⟫)))
      (proj3 m ρ c) (W1 m ρ c ⟪main_v49⟫) (featRow (m ((c : Thread nD τ).loc main_arg14)))
      (tableRow3 (m ((c : Thread nD τ).loc main_arg15))) (tableRow3 (m ((c : Thread nD τ).loc main_arg16)))
      (tableRow3 (m ((c : Thread nD τ).loc main_arg17))) (tableRow3 (m ((c : Thread nD τ).loc main_arg18))) := by
  have e38 : W11 m ρ c ⟪main_v38⟫ = W1 m ρ c ⟪main_v38⟫ := (W11_of_ne m ρ c main_v38 (by decide)).trans (entry3_v38 m ρ c)
  have e40 : W11 m ρ c ⟪main_v40⟫ = W1 m ρ c ⟪main_v40⟫ := (W11_of_ne m ρ c main_v40 (by decide)).trans (entry3_v40 m ρ c)
  have e65 : W11 m ρ c ⟪main_v65⟫ = W1 m ρ c ⟪main_v65⟫ := (W11_of_ne m ρ c main_v65 (by decide)).trans (entry3_v65 m ρ c)
  have e49 : W11 m ρ c ⟪main_v49⟫ = W1 m ρ c ⟪main_v49⟫ := (W11_of_ne m ρ c main_v49 (by decide)).trans (entry3_v49 m ρ c)
  have ab : W11 m ρ c ⟪main_arg14⟫ = m ((c : Thread nD τ).loc main_arg14) := (W11_of_ne m ρ c main_arg14 (by decide)).trans (entry3_arg14 m ρ c)
  have a15 : W11 m ρ c ⟪main_arg15⟫ = m ((c : Thread nD τ).loc main_arg15) := (W11_of_ne m ρ c main_arg15 (by decide)).trans (entry3_arg15 m ρ c)
  have a16 : W11 m ρ c ⟪main_arg16⟫ = m ((c : Thread nD τ).loc main_arg16) := (W11_of_ne m ρ c main_arg16 (by decide)).trans (entry3_arg16 m ρ c)
  have a17 : W11 m ρ c ⟪main_arg17⟫ = m ((c : Thread nD τ).loc main_arg17) := (W11_of_ne m ρ c main_arg17 (by decide)).trans (entry3_arg17 m ρ c)
  have a18 : W11 m ρ c ⟪main_arg18⟫ = m ((c : Thread nD τ).loc main_arg18) := (W11_of_ne m ρ c main_arg18 (by decide)).trans (entry3_arg18 m ρ c)
  rw [show W13 m ρ c ⟪main_v173⟫ = (dat7 (V12 m ρ) c).arrAt 8 cfg7.N from W13_arr m ρ c 8, Cert.KernelIdeal.Norm.norm7 (V12 m ρ) c]
  show Cert.Stage.reluStage (after (hostOps7 (F := Ideal)) (W11 m ρ c) ⟪main_v159⟫) (after (hostOps7 (F := Ideal)) (W11 m ρ c) ⟪main_v147⟫)
    (after (hostOps7 (F := Ideal)) (W11 m ρ c) ⟪main_v49⟫) (after (hostOps7 (F := Ideal)) (W11 m ρ c) ⟪main_v160⟫)
    (after (hostOps7 (F := Ideal)) (W11 m ρ c) ⟪main_v163⟫) (after (hostOps7 (F := Ideal)) (W11 m ρ c) ⟪main_v166⟫)
    (after (hostOps7 (F := Ideal)) (W11 m ρ c) ⟪main_v169⟫) (after (hostOps7 (F := Ideal)) (W11 m ρ c) ⟪main_v172⟫) = _
  rw [agg3, proj3_kept, selfcol3_kept, bias3, gamma3, beta3, mean3, var3, proj3_eq, e38, e40, e65, e49, ab, a15, a16, a17, a18]

/-! ## What the layer leaves for the later ones -/
theorem exit3_arg3 : W13 m ρ c ⟪main_arg3⟫ = m ((c : Thread nD τ).loc main_arg3) :=
  (through3 m ρ c main_arg3 (by decide) (by after_results_simp) (by decide)).trans (exit2_arg3 m ρ c)
theorem exit3_arg19 : W13 m ρ c ⟪main_arg19⟫ = m ((c : Thread nD τ).loc main_arg19) :=
  (through3 m ρ c main_arg19 (by decide) (by after_results_simp) (by decide)).trans (exit2_arg19 m ρ c)
theorem exit3_arg20 : W13 m ρ c ⟪main_arg20⟫ = m ((c : Thread nD τ).loc main_arg20) :=
  (through3 m ρ c main_arg20 (by decide) (by after_results_simp) (by decide)).trans (exit2_arg20 m ρ c)
theorem exit3_arg21 : W13 m ρ c ⟪main_arg21⟫ = m ((c : Thread nD τ).loc main_arg21) :=
  (through3 m ρ c main_arg21 (by decide) (by after_results_simp) (by decide)).trans (exit2_arg21 m ρ c)
theorem exit3_arg22 : W13 m ρ c ⟪main_arg22⟫ = m ((c : Thread nD τ).loc main_arg22) :=
  (through3 m ρ c main_arg22 (by decide) (by after_results_simp) (by decide)).trans (exit2_arg22 m ρ c)

end Cert.KernelIdeal.Layers

end
-- ==== Proof.KernelCoefficients.lean ====
/-
  What the first layer finds of the kernel program's preamble: the edge-coefficient column is dinv[src]·dinv[dst]
  re-laid as a column, and the self-loop column is dinv² re-laid as a column, both over the inverse-root degrees and
  edge rows the preamble leaves.
-/
import proofs.«127358_j57011395887506_2_alg».proof.Proof.Gen.KernelIdeal.Frame
import proofs.«127358_j57011395887506_2_alg».proof.Proof.KernelStretches

set_option maxHeartbeats 1000000
set_option maxRecDepth 16384

noncomputable section

namespace Cert.KernelIdeal.Layers

open Cert.KernelIdeal Cert.KernelIdeal.Gen
open Idealize.ShloMosaic Idealize.ShloMosaic.TcCoe Idealize.ShloMosaic.StableHlo Idealize.SL.Sem
open Cert.KernelIdeal.Terms Cert.KernelIdeal.Stretch

local notation "⟪" b "⟫" => Proc.devRef (τ := τ) (sig := sig) Proc.tc b

variable (m : (ℓ : Loc nD τ sig) → Buf (Elt Ideal) ℓ) (ρ : Dev nD → PrngReg) (c : Dev nD)

theorem coef_entry :
    W1 m ρ c ⟪main_v65⟫ = edgeCol (edgeCoef (W1 m ρ c ⟪main_v47⟫) (W1 m ρ c ⟪main_v38⟫) (W1 m ρ c ⟪main_v40⟫)) :=
  coef_pre (W0 m ρ c)

theorem selfcol_entry : W1 m ρ c ⟪main_v49⟫ = nodeCol (mulf (W1 m ρ c ⟪main_v47⟫) (W1 m ρ c ⟪main_v47⟫)) :=
  selfcol_pre (W0 m ρ c)

end Cert.KernelIdeal.Layers

end
-- ==== Proof.RefLayers.lean ====
/- The reference's layers, stage by stage, for every valuation of the buffers: each dense stage is one product, each
   aggregation stage is the same function `aggR` of the product, the inverse square roots of the degrees and the edges'
   endpoints, and every stage leaves the live buffers (endpoints, inverse square roots, arguments) as they were. -/
import proofs.«127358_j57011395887506_2_alg».proof.Proof.RefFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The dense stages -/

/-- Layer 0's dense stage: the product of its input with its weights. -/
theorem ref_dense0 (W : Valuation τ sig (Elt F)) :
    after dense0 W (Proc.devRef .tc main_v48) = Host.dotGeneral dot_S100000x129_S129x128_S100000x128_1_0_0_1_n_n none (W (Proc.devRef .tc main_v36)) (W (Proc.devRef .tc main_arg7)) := by
  after_results_simp <;> rfl

/-- Layer 1's dense stage: the product of its input with its weights. -/
theorem ref_dense1 (W : Valuation τ sig (Elt F)) :
    after dense1 W (Proc.devRef .tc main_v109) = Host.dotGeneral dot_S100000x128_S128x128_S100000x128_1_0_0_1_n_n none (W (Proc.devRef .tc main_v108)) (W (Proc.devRef .tc main_arg9)) := by
  after_results_simp <;> rfl

/-- Layer 2's dense stage: the product of its input with its weights. -/
theorem ref_dense2 (W : Valuation τ sig (Elt F)) :
    after dense2 W (Proc.devRef .tc main_v170) = Host.dotGeneral dot_S100000x128_S128x128_S100000x128_1_0_0_1_n_n none (W (Proc.devRef .tc main_v169)) (W (Proc.devRef .tc main_arg11)) := by
  after_results_simp <;> rfl

/-- Layer 3's dense stage: the product of its input with its weights. -/
theorem ref_dense3 (W : Valuation τ sig (Elt F)) :
    after dense3 W (Proc.devRef .tc main_v231) = Host.dotGeneral dot_S100000x128_S128x128_S100000x128_1_0_0_1_n_n none (W (Proc.devRef .tc main_v230)) (W (Proc.devRef .tc main_arg13)) := by
  after_results_simp <;> rfl

/-! ## The aggregation stages -/

/-- A vector of edge endpoints, the negative ones moved up by the number of nodes (an index counted from the end). -/
def wrapIdx (i : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
    ((cmpi .slt : (⟨S1600000, .i32⟩ : BufTy).Contents (Elt F) → (⟨S1600000, .i32⟩ : BufTy).Contents (Elt F) → (⟨S1600000, .i1⟩ : BufTy).Contents (Elt F)) i
      ((broadcastInDim S1600000 ![] bcast_S_S1600000 : (⟨S_, .i32⟩ : BufTy).Contents (Elt F) → (⟨S1600000, .i32⟩ : BufTy).Contents (Elt F)) (constantI S_ 32 0#32)))
    ((addi : (⟨S1600000, .i32⟩ : BufTy).Contents (Elt F) → (⟨S1600000, .i32⟩ : BufTy).Contents (Elt F) → (⟨S1600000, .i32⟩ : BufTy).Contents (Elt F)) i
      ((broadcastInDim S1600000 ![] bcast_S_S1600000 : (⟨S_, .i32⟩ : BufTy).Contents (Elt F) → (⟨S1600000, .i32⟩ : BufTy).Contents (Elt F)) (constantI S_ 32 100000#32)))
    i

/-- A vector over the edges as a one-column matrix. -/
def edgeCol {e : EltTy} (v : (⟨S1600000, e⟩ : BufTy).Contents (Elt F)) : (⟨S1600000x1, e⟩ : BufTy).Contents (Elt F) :=
  (broadcastInDim S1600000x1 ![0] bcast_S1600000_S1600000x1_0 : (⟨S1600000, e⟩ : BufTy).Contents (Elt F) → (⟨S1600000x1, e⟩ : BufTy).Contents (Elt F)) v

/-- The edges' coefficients: the product of the two endpoints' inverse square roots of the degree. -/
def edgeCoef (dinv : (⟨S100000, .f32⟩ : BufTy).Contents (Elt F)) (src dst : (⟨S1600000, .i32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F))
    (Host.gather gather_S100000_S1600000x1_S1600000_n_0_n_n_0_1_1 dinv (edgeCol (wrapIdx src)))
    (Host.gather gather_S100000_S1600000x1_S1600000_n_0_n_n_0_1_1 dinv (edgeCol (wrapIdx dst)))

/-- The aggregation over the edges: each edge's source row of `hw`, scaled by the edge's coefficient, added into the
    row of the edge's target, from zeros. -/
def aggR (hw : (⟨S100000x128, .f32⟩ : BufTy).Contents (Elt F)) (dinv : (⟨S100000, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    ((broadcastInDim S100000x128 ![] bcast_S_S100000x128 : (⟨S_, .f32⟩ : BufTy).Contents (Elt F) → (⟨S100000x128, .f32⟩ : BufTy).Contents (Elt F)) (constant S_ .f32 0x00000000#32))
    (edgeCol dst)
    ((mulf : (⟨S1600000x128, .f32⟩ : BufTy).Contents (Elt F) → (⟨S1600000x128, .f32⟩ : BufTy).Contents (Elt F) → (⟨S1600000x128, .f32⟩ : BufTy).Contents (Elt F))
      (Host.gather gather_S100000x128_S1600000x1_S1600000x128_1_0_n_n_0_1_1128 hw (edgeCol (wrapIdx src)))
      ((broadcastInDim S1600000x128 ![0, 1] bcast_S1600000x1_S1600000x128_0_1 : (⟨S1600000x1, .f32⟩ : BufTy).Contents (Elt F) → (⟨S1600000x128, .f32⟩ : BufTy).Contents (Elt F))
        (edgeCol (edgeCoef dinv src dst))))

/-- Layer 0's aggregation stage is `aggR` of its product, the inverse square roots and the endpoints. -/
theorem ref_agg0 (W : Valuation τ sig (Elt F)) :
    after agg0 W (Proc.devRef .tc main_v76) = aggR (W (Proc.devRef .tc main_v48)) (W (Proc.devRef .tc main_v47)) (W (Proc.devRef .tc main_v38)) (W (Proc.devRef .tc main_v40)) := by
  after_results_simp <;> rfl

/-- Layer 1's aggregation stage is `aggR` of its product, the inverse square roots and the endpoints. -/
theorem ref_agg1 (W : Valuation τ sig (Elt F)) :
    after agg1 W (Proc.devRef .tc main_v137) = aggR (W (Proc.devRef .tc main_v109)) (W (Proc.devRef .tc main_v47)) (W (Proc.devRef .tc main_v38)) (W (Proc.devRef .tc main_v40)) := by
  after_results_simp <;> rfl

/-- Layer 2's aggregation stage is `aggR` of its product, the inverse square roots and the endpoints. -/
theorem ref_agg2 (W : Valuation τ sig (Elt F)) :
    after agg2 W (Proc.devRef .tc main_v198) = aggR (W (Proc.devRef .tc main_v170)) (W (Proc.devRef .tc main_v47)) (W (Proc.devRef .tc main_v38)) (W (Proc.devRef .tc main_v40)) := by
  after_results_simp <;> rfl

/-- Layer 3's aggregation stage is `aggR` of its product, the inverse square roots and the endpoints. -/
theorem ref_agg3 (W : Valuation τ sig (Elt F)) :
    after agg3 W (Proc.devRef .tc main_v259) = aggR (W (Proc.devRef .tc main_v231)) (W (Proc.devRef .tc main_v47)) (W (Proc.devRef .tc main_v38)) (W (Proc.devRef .tc main_v40)) := by
  after_results_simp <;> rfl

/-! ## What a stage keeps -/

/-- The program's 23 arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- The buffers every layer reads and none writes: the edges' sources %38 and targets %40, the inverse square roots of
    the degrees %47, and the arguments. -/
abbrev live : List (Ref sig .tc) := [main_v38, main_v40, main_v47, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem args_not_pre : ∀ b ∈ args, b ∉ pre_writes := by decide
theorem live_not_dense0 : ∀ b ∈ live, b ∉ dense0_writes := by decide
theorem live_not_agg0 : ∀ b ∈ live, b ∉ agg0_writes := by decide
theorem live_not_norm0 : ∀ b ∈ live, b ∉ norm0_writes := by decide
theorem live_not_dense1 : ∀ b ∈ live, b ∉ dense1_writes := by decide
theorem live_not_agg1 : ∀ b ∈ live, b ∉ agg1_writes := by decide
theorem live_not_norm1 : ∀ b ∈ live, b ∉ norm1_writes := by decide
theorem live_not_dense2 : ∀ b ∈ live, b ∉ dense2_writes := by decide
theorem live_not_agg2 : ∀ b ∈ live, b ∉ agg2_writes := by decide
theorem live_not_norm2 : ∀ b ∈ live, b ∉ norm2_writes := by decide
theorem live_not_dense3 : ∀ b ∈ live, b ∉ dense3_writes := by decide
theorem live_not_agg3 : ∀ b ∈ live, b ∉ agg3_writes := by decide
theorem live_not_norm3 : ∀ b ∈ live, b ∉ norm3_writes := by decide
theorem live_not_tail : ∀ b ∈ live, b ∉ tail_writes := by decide

/-- The preamble keeps the arguments. -/
theorem kept_pre (W : Valuation τ sig (Elt F)) : ∀ b ∈ args, after pre W (Proc.devRef .tc b) = W (Proc.devRef .tc b) :=
  fun b hb => pre_keeps W b (args_not_pre b hb)

/-- `dense0` keeps the live buffers. -/
theorem kept_dense0 (W : Valuation τ sig (Elt F)) : ∀ b ∈ live, after dense0 W (Proc.devRef .tc b) = W (Proc.devRef .tc b) :=
  fun b hb => dense0_keeps W b (live_not_dense0 b hb)
/-- `agg0` keeps the live buffers. -/
theorem kept_agg0 (W : Valuation τ sig (Elt F)) : ∀ b ∈ live, after agg0 W (Proc.devRef .tc b) = W (Proc.devRef .tc b) :=
  fun b hb => agg0_keeps W b (live_not_agg0 b hb)
/-- `norm0` keeps the live buffers. -/
theorem kept_norm0 (W : Valuation τ sig (Elt F)) : ∀ b ∈ live, after norm0 W (Proc.devRef .tc b) = W (Proc.devRef .tc b) :=
  fun b hb => norm0_keeps W b (live_not_norm0 b hb)
/-- `dense1` keeps the live buffers. -/
theorem kept_dense1 (W : Valuation τ sig (Elt F)) : ∀ b ∈ live, after dense1 W (Proc.devRef .tc b) = W (Proc.devRef .tc b) :=
  fun b hb => dense1_keeps W b (live_not_dense1 b hb)
/-- `agg1` keeps the live buffers. -/
theorem kept_agg1 (W : Valuation τ sig (Elt F)) : ∀ b ∈ live, after agg1 W (Proc.devRef .tc b) = W (Proc.devRef .tc b) :=
  fun b hb => agg1_keeps W b (live_not_agg1 b hb)
/-- `norm1` keeps the live buffers. -/
theorem kept_norm1 (W : Valuation τ sig (Elt F)) : ∀ b ∈ live, after norm1 W (Proc.devRef .tc b) = W (Proc.devRef .tc b) :=
  fun b hb => norm1_keeps W b (live_not_norm1 b hb)
/-- `dense2` keeps the live buffers. -/
theorem kept_dense2 (W : Valuation τ sig (Elt F)) : ∀ b ∈ live, after dense2 W (Proc.devRef .tc b) = W (Proc.devRef .tc b) :=
  fun b hb => dense2_keeps W b (live_not_dense2 b hb)
/-- `agg2` keeps the live buffers. -/
theorem kept_agg2 (W : Valuation τ sig (Elt F)) : ∀ b ∈ live, after agg2 W (Proc.devRef .tc b) = W (Proc.devRef .tc b) :=
  fun b hb => agg2_keeps W b (live_not_agg2 b hb)
/-- `norm2` keeps the live buffers. -/
theorem kept_norm2 (W : Valuation τ sig (Elt F)) : ∀ b ∈ live, after norm2 W (Proc.devRef .tc b) = W (Proc.devRef .tc b) :=
  fun b hb => norm2_keeps W b (live_not_norm2 b hb)
/-- `dense3` keeps the live buffers. -/
theorem kept_dense3 (W : Valuation τ sig (Elt F)) : ∀ b ∈ live, after dense3 W (Proc.devRef .tc b) = W (Proc.devRef .tc b) :=
  fun b hb => dense3_keeps W b (live_not_dense3 b hb)
/-- `agg3` keeps the live buffers. -/
theorem kept_agg3 (W : Valuation τ sig (Elt F)) : ∀ b ∈ live, after agg3 W (Proc.devRef .tc b) = W (Proc.devRef .tc b) :=
  fun b hb => agg3_keeps W b (live_not_agg3 b hb)
/-- `norm3` keeps the live buffers. -/
theorem kept_norm3 (W : Valuation τ sig (Elt F)) : ∀ b ∈ live, after norm3 W (Proc.devRef .tc b) = W (Proc.devRef .tc b) :=
  fun b hb => norm3_keeps W b (live_not_norm3 b hb)
/-- `tail` keeps the live buffers. -/
theorem kept_tail (W : Valuation τ sig (Elt F)) : ∀ b ∈ live, after tail W (Proc.devRef .tc b) = W (Proc.devRef .tc b) :=
  fun b hb => tail_keeps W b (live_not_tail b hb)

/-- Layer 0 as a whole keeps the live buffers. -/
theorem kept_layer0 (W : Valuation τ sig (Elt F)) :
    ∀ b ∈ live, after norm0 (after agg0 (after dense0 W)) (Proc.devRef .tc b) = W (Proc.devRef .tc b) :=
  fun b hb => by rw [kept_norm0 _ b hb, kept_agg0 _ b hb, kept_dense0 _ b hb]
/-- Layer 1 as a whole keeps the live buffers. -/
theorem kept_layer1 (W : Valuation τ sig (Elt F)) :
    ∀ b ∈ live, after norm1 (after agg1 (after dense1 W)) (Proc.devRef .tc b) = W (Proc.devRef .tc b) :=
  fun b hb => by rw [kept_norm1 _ b hb, kept_agg1 _ b hb, kept_dense1 _ b hb]
/-- Layer 2 as a whole keeps the live buffers. -/
theorem kept_layer2 (W : Valuation τ sig (Elt F)) :
    ∀ b ∈ live, after norm2 (after agg2 (after dense2 W)) (Proc.devRef .tc b) = W (Proc.devRef .tc b) :=
  fun b hb => by rw [kept_norm2 _ b hb, kept_agg2 _ b hb, kept_dense2 _ b hb]
/-- Layer 3 as a whole keeps the live buffers. -/
theorem kept_layer3 (W : Valuation τ sig (Elt F)) :
    ∀ b ∈ live, after norm3 (after agg3 (after dense3 W)) (Proc.devRef .tc b) = W (Proc.devRef .tc b) :=
  fun b hb => by rw [kept_norm3 _ b hb, kept_agg3 _ b hb, kept_dense3 _ b hb]

/-! ## Inside a layer: the product survives the aggregation, and the aggregate in terms of the layer's entry -/

/-- Layer 0's aggregation stage keeps the layer's product. -/
theorem hw_kept_0 (W : Valuation τ sig (Elt F)) :
    after agg0 (after dense0 W) (Proc.devRef .tc main_v48) = after dense0 W (Proc.devRef .tc main_v48) :=
  agg0_keeps _ main_v48 (by decide)

/-- Layer 0's aggregate from the layer's entry contents. -/
theorem ref_agg0_entry (W : Valuation τ sig (Elt F)) :
    after agg0 (after dense0 W) (Proc.devRef .tc main_v76)
      = aggR (Host.dotGeneral dot_S100000x129_S129x128_S100000x128_1_0_0_1_n_n none (W (Proc.devRef .tc main_v36)) (W (Proc.devRef .tc main_arg7))) (W (Proc.devRef .tc main_v47)) (W (Proc.devRef .tc main_v38)) (W (Proc.devRef .tc main_v40)) := by
  rw [ref_agg0, ref_dense0, dense0_keeps W main_v47 (by decide), dense0_keeps W main_v38 (by decide), dense0_keeps W main_v40 (by decide)]

/-- Layer 1's aggregation stage keeps the layer's product. -/
theorem hw_kept_1 (W : Valuation τ sig (Elt F)) :
    after agg1 (after dense1 W) (Proc.devRef .tc main_v109) = after dense1 W (Proc.devRef .tc main_v109) :=
  agg1_keeps _ main_v109 (by decide)

/-- Layer 1's aggregate from the layer's entry contents. -/
theorem ref_agg1_entry (W : Valuation τ sig (Elt F)) :
    after agg1 (after dense1 W) (Proc.devRef .tc main_v137)
      = aggR (Host.dotGeneral dot_S100000x128_S128x128_S100000x128_1_0_0_1_n_n none (W (Proc.devRef .tc main_v108)) (W (Proc.devRef .tc main_arg9))) (W (Proc.devRef .tc main_v47)) (W (Proc.devRef .tc main_v38)) (W (Proc.devRef .tc main_v40)) := by
  rw [ref_agg1, ref_dense1, dense1_keeps W main_v47 (by decide), dense1_keeps W main_v38 (by decide), dense1_keeps W main_v40 (by decide)]

/-- Layer 2's aggregation stage keeps the layer's product. -/
theorem hw_kept_2 (W : Valuation τ sig (Elt F)) :
    after agg2 (after dense2 W) (Proc.devRef .tc main_v170) = after dense2 W (Proc.devRef .tc main_v170) :=
  agg2_keeps _ main_v170 (by decide)

/-- Layer 2's aggregate from the layer's entry contents. -/
theorem ref_agg2_entry (W : Valuation τ sig (Elt F)) :
    after agg2 (after dense2 W) (Proc.devRef .tc main_v198)
      = aggR (Host.dotGeneral dot_S100000x128_S128x128_S100000x128_1_0_0_1_n_n none (W (Proc.devRef .tc main_v169)) (W (Proc.devRef .tc main_arg11))) (W (Proc.devRef .tc main_v47)) (W (Proc.devRef .tc main_v38)) (W (Proc.devRef .tc main_v40)) := by
  rw [ref_agg2, ref_dense2, dense2_keeps W main_v47 (by decide), dense2_keeps W main_v38 (by decide), dense2_keeps W main_v40 (by decide)]

/-- Layer 3's aggregation stage keeps the layer's product. -/
theorem hw_kept_3 (W : Valuation τ sig (Elt F)) :
    after agg3 (after dense3 W) (Proc.devRef .tc main_v231) = after dense3 W (Proc.devRef .tc main_v231) :=
  agg3_keeps _ main_v231 (by decide)

/-- Layer 3's aggregate from the layer's entry contents. -/
theorem ref_agg3_entry (W : Valuation τ sig (Elt F)) :
    after agg3 (after dense3 W) (Proc.devRef .tc main_v259)
      = aggR (Host.dotGeneral dot_S100000x128_S128x128_S100000x128_1_0_0_1_n_n none (W (Proc.devRef .tc main_v230)) (W (Proc.devRef .tc main_arg13))) (W (Proc.devRef .tc main_v47)) (W (Proc.devRef .tc main_v38)) (W (Proc.devRef .tc main_v40)) := by
  rw [ref_agg3, ref_dense3, dense3_keeps W main_v47 (by decide), dense3_keeps W main_v38 (by decide), dense3_keeps W main_v40 (by decide)]

end Cert.ReferenceIdeal.RefRun

end
-- ==== Proof.AggregateBridge.lean ====
/- The aggregation of one graph-convolution layer, as the kernel program's host operations spell it and as the reference
   spells it, is one function of the projected features, the inverse square roots of the degrees and the edges'
   endpoints.  The two spellings differ only in how a vector with one entry per edge becomes a one-column matrix: re-laid
   (a reshape [E] → [E,1]) or broadcast along the long axis; both put the vector's entry e at (e, 0). -/
import proofs.«127358_j57011395887506_2_alg».proof.Proof.LayerTerms
import proofs.«127358_j57011395887506_2_alg».proof.Proof.RefLayers
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.Bridge
open Cert.KernelIdeal Cert.KernelIdeal.Gen

/-- A vector over the edges re-laid as a one-column matrix is the vector broadcast along the column's long axis: both
    read entry (e, 0) as the vector's entry e. -/
theorem col_eq {α : Type} (v : S1600000.Idx → α) :
    shapeCast S1600000x1 v shapeCasts_S1600000_S1600000x1 = broadcastInDim S1600000x1 ![0] bcast_S1600000_S1600000x1_0 v := by
  funext j
  obtain ⟨e, z, rfl⟩ : ∃ (e : Fin 1600000) (z : Fin 1), j = ix2 e z := ⟨j 0, j 1, @eq_ix2 1600000 1 j⟩
  have hz : z.val = 0 := by have := z.isLt; omega
  refine (shapeCast_apply v shapeCasts_S1600000_S1600000x1 (ix2 e z) (ix1 e) ?_).trans
    (broadcastInDim_apply ![0] bcast_S1600000_S1600000x1_0 v (ix2 e z) (ix1 e) ?_).symm
  · rw [Shape.rowMajor_val_two, Shape.rowMajor_val_one]
    show e.val = e.val * 1 + z.val
    omega
  · intro a
    match a with
    | ⟨0, _⟩ =>
      show e.val = if (1600000 : Nat) = 1 then 0 else e.val
      rw [if_neg (by decide)]

/-- The same for a vector over the nodes. -/
theorem nodecol_eq (v : FVec Ideal S100000 .f32) :
    Cert.KernelIdeal.Terms.nodeCol v = broadcastInDim S100000x1 ![0] bcast_S100000_S100000x1_0 v := by
  unfold Cert.KernelIdeal.Terms.nodeCol
  funext j
  obtain ⟨e, z, rfl⟩ : ∃ (e : Fin 100000) (z : Fin 1), j = ix2 e z := ⟨j 0, j 1, @eq_ix2 100000 1 j⟩
  have hz : z.val = 0 := by have := z.isLt; omega
  refine (shapeCast_apply v shapeCasts_S100000_S100000x1 (ix2 e z) (ix1 e) ?_).trans
    (broadcastInDim_apply ![0] bcast_S100000_S100000x1_0 v (ix2 e z) (ix1 e) ?_).symm
  · rw [Shape.rowMajor_val_two, Shape.rowMajor_val_one]
    show e.val = e.val * 1 + z.val
    omega
  · intro a
    match a with
    | ⟨0, _⟩ =>
      show e.val = if (100000 : Nat) = 1 then 0 else e.val
      rw [if_neg (by decide)]

/-- One layer's aggregation as the kernel program's host operations compute it is the reference's: the same gathered rows,
    the same coefficients dinv[src]·dinv[dst] spread over the 128 features, the same scatter-add by destination into
    zeros; only the coefficient vector's way to a column differs (re-laid on one side, broadcast on the other). -/
theorem aggregate_bridge (hw : FVec Ideal S100000x128 .f32) (dinv : FVec Ideal S100000 .f32) (src dst : IVec S1600000 32) :
    Cert.KernelIdeal.Terms.aggregate hw src dst (Cert.KernelIdeal.Terms.widen (Cert.KernelIdeal.Terms.edgeCol (Cert.KernelIdeal.Terms.edgeCoef dinv src dst)))
      = Cert.ReferenceIdeal.RefRun.aggR (F := Ideal) hw dinv src dst := by
  unfold Cert.KernelIdeal.Terms.aggregate Cert.KernelIdeal.Terms.widen Cert.KernelIdeal.Terms.edgeCol
  rw [col_eq]
  rfl

end Cert.Bridge
-- ==== Proof.RefNormLib.lean ====
/-
  The reference's normalisation and activation of one layer, read at an index. The reference computes the stage by
  whole-array operations: the squared inverse square-root degree broadcast over the columns through a [100000,1]
  column, the bias and row `k` of the four parameter tables (a slice of one row, flattened to 128 entries) broadcast
  over the rows through a [1,128] row, the variance row offset by the f32 word of 1e-5 and passed through the
  reciprocal square root, then the activation: the exponential linear unit as a select on `x > 0` over
  `1 · expm1 (select (x > 0) 0 x)`, or the maximum with zero. At entry `(r, c)` every broadcast reads one entry of its
  operand, so the chain is `Cert.Stage.affine` of the entries `(r, c)`, `r`, `c` and `(k, c)` of its inputs in the very
  grouping of the stage, under `Cert.Stage.elu` or `Cert.Stage.relu`. The kernel program's host operations spell the
  same column and rows as reshapes (a vector reshaped to a column, a vector or a flattened row slice reshaped to a
  row); those read the same entries.
-/
import proofs.«127358_j57011395887506_2_alg».proof.Proof.Gen.ReferenceIdeal
import proofs.«127358_j57011395887506_2_alg».proof.Proof.Gen.KernelIdeal
import proofs.«127358_j57011395887506_2_alg».proof.Proof.StageSpec
import Idealize.ShloMosaic.Lib.Pipeline.Value
import Idealize.ShloMosaic.Lib.ValueLayout

noncomputable section

namespace Cert.ReferenceIdeal.RefNorm

open Cert.ReferenceIdeal Cert.ReferenceIdeal.Gen Idealize.ShloMosaic Idealize.ShloMosaic.TcCoe Idealize.SL.Sem
open Idealize.ShloMosaic.StableHlo Idealize.ShloMosaic.ValueIdx

/-! ## The reference's operation chain as terms -/

/-- Row `k` of a [4,128] parameter table as a vector of 128: the slice of that row, reshaped. -/
def row (k : ℕ) (hs : S4x128.Slices ![k, 0] S1x128) (x : FVec Ideal S4x128 .f32) : FVec Ideal S128 .f32 :=
  fun i => shapeCast S128 (extractStridedSlice S1x128 ![k, 0] x hs) shapeCasts_S1x128_S128 i

/-- A vector of 128 broadcast over the 100000 rows, through a [1,128] row. -/
def overRows (z : FVec Ideal S128 .f32) : FVec Ideal S100000x128 .f32 :=
  broadcastInDim S100000x128 ![0, 1] bcast_S1x128_S100000x128_0_1 (broadcastInDim S1x128 ![1] bcast_S128_S1x128_1 z)

/-- A vector of 100000 broadcast over the 128 columns, through a [100000,1] column. -/
def overCols (z : FVec Ideal S100000 .f32) : FVec Ideal S100000x128 .f32 :=
  broadcastInDim S100000x128 ![0, 1] bcast_S100000x1_S100000x128_0_1 (broadcastInDim S100000x1 ![0] bcast_S100000_S100000x1_0 z)

/-- The reference's affine normalisation of layer `k`, operation by operation. -/
def refAffine (k : ℕ) (hs : S4x128.Slices ![k, 0] S1x128) (A0 A1 : FVec Ideal S100000x128 .f32) (dg : FVec Ideal S100000 .f32)
    (bias : FVec Ideal S128 .f32) (G Be Rm Rv : FVec Ideal S4x128 .f32) : FVec Ideal S100000x128 .f32 :=
  addf (mulf (mulf (subf (addf (addf A0 (mulf A1 (overCols (mulf dg dg)))) (overRows bias)) (overRows (row k hs Rm)))
    (overRows (Host.rsqrt (addf (row k hs Rv) (broadcastInDim S128 ![] bcast_S_S128 (constant (F := Ideal) S_ .f32 0x3727C5AC#32))))))
    (overRows (row k hs G))) (overRows (row k hs Be))

/-- The reference's exponential linear unit, operation by operation. -/
def refElu (X : FVec Ideal S100000x128 .f32) : FVec Ideal S100000x128 .f32 :=
  select (cmpf .ogt X (broadcastInDim S100000x128 ![] bcast_S_S100000x128 (constant (F := Ideal) S_ .f32 0x00000000#32))) X
    (mulf (broadcastInDim S100000x128 ![] bcast_S_S100000x128 (constant (F := Ideal) S_ .f32 0x3F800000#32))
      (Host.expm1 (select (cmpf .ogt X (broadcastInDim S100000x128 ![] bcast_S_S100000x128 (constant (F := Ideal) S_ .f32 0x00000000#32)))
        (broadcastInDim S100000x128 ![] bcast_S_S100000x128 (id (constant (F := Ideal) S_ .f32 0x00000000#32))) X)))

/-- The reference's rectifier. -/
def refRelu (X : FVec Ideal S100000x128 .f32) : FVec Ideal S100000x128 .f32 :=
  maximumf X (broadcastInDim S100000x128 ![] bcast_S_S100000x128 (constant (F := Ideal) S_ .f32 0x00000000#32))

/-! ## The chain read at an index -/

section Reads
variable {α : Type}

/-- A scalar broadcast over the [100000,128] array reads the scalar everywhere. -/
theorem bcast_scalar_full (x : S_.Idx → α) (i : S100000x128.Idx) :
    broadcastInDim S100000x128 ![] bcast_S_S100000x128 x i = x ix0 :=
  broadcastInDim_apply _ _ x i ix0 (fun a => a.elim0)

/-- A scalar broadcast over a vector of 128 reads the scalar everywhere. -/
theorem bcast_scalar_vec (x : S_.Idx → α) (i : S128.Idx) :
    broadcastInDim S128 ![] bcast_S_S128 x i = x ix0 :=
  broadcastInDim_apply _ _ x i ix0 (fun a => a.elim0)

/-- A [1,128] row broadcast over the rows reads, at `(r, c)`, the row at `c`. -/
theorem bcast_row_full (y : S1x128.Idx → α) (r : Fin 100000) (c : Fin 128) :
    broadcastInDim S100000x128 ![0, 1] bcast_S1x128_S100000x128_0_1 y (ix2 r c) = y (ix2 (0 : Fin 1) c) :=
  broadcastInDim_apply _ _ y (ix2 r c) (ix2 (0 : Fin 1) c) (fun a => by
    match a with
    | ⟨0, _⟩ => rfl
    | ⟨1, _⟩ => rfl)

/-- A vector of 128 as a [1,128] row reads, at `(0, c)`, the vector at `c`. -/
theorem bcast_vec_row (z : S128.Idx → α) (c : Fin 128) :
    broadcastInDim S1x128 ![1] bcast_S128_S1x128_1 z (ix2 (0 : Fin 1) c) = z (ix1 c) :=
  broadcastInDim_apply _ _ z (ix2 (0 : Fin 1) c) (ix1 c) (fun a => by
    match a with
    | ⟨0, _⟩ => rfl)

/-- A [100000,1] column broadcast over the columns reads, at `(r, c)`, the column at `r`. -/
theorem bcast_col_full (y : S100000x1.Idx → α) (r : Fin 100000) (c : Fin 128) :
    broadcastInDim S100000x128 ![0, 1] bcast_S100000x1_S100000x128_0_1 y (ix2 r c) = y (ix2 r (0 : Fin 1)) :=
  broadcastInDim_apply _ _ y (ix2 r c) (ix2 r (0 : Fin 1)) (fun a => by
    match a with
    | ⟨0, _⟩ => rfl
    | ⟨1, _⟩ => rfl)

/-- A vector of 100000 as a [100000,1] column reads, at `(r, 0)`, the vector at `r`. -/
theorem bcast_vec_col (z : S100000.Idx → α) (r : Fin 100000) :
    broadcastInDim S100000x1 ![0] bcast_S100000_S100000x1_0 z (ix2 r (0 : Fin 1)) = z (ix1 r) :=
  broadcastInDim_apply _ _ z (ix2 r (0 : Fin 1)) (ix1 r) (fun a => by
    match a with
    | ⟨0, _⟩ => rfl)

end Reads

/-- Row `k` of a parameter table, at `c`, is the table's entry `(k, c)`. -/
theorem row_apply (k : ℕ) (hs : S4x128.Slices ![k, 0] S1x128) (x : FVec Ideal S4x128 .f32) (kk : Fin 4) (hkk : kk.val = k)
    (c : Fin 128) : row k hs x (ix1 c) = x (ix2 kk c) :=
  (shapeCast_1a_a_apply _ _ c).trans (slice2_axis0_apply k x hs (0 : Fin 1) c kk (by rw [hkk]; rfl))

theorem overRows_apply (z : FVec Ideal S128 .f32) (r : Fin 100000) (c : Fin 128) : overRows z (ix2 r c) = z (ix1 c) :=
  (bcast_row_full _ r c).trans (bcast_vec_row z c)

theorem overCols_apply (z : FVec Ideal S100000 .f32) (r : Fin 100000) (c : Fin 128) : overCols z (ix2 r c) = z (ix1 r) :=
  (bcast_col_full _ r c).trans (bcast_vec_col z r)

/-- The reference's affine chain at `(r, c)`: the squared degree entry of node `r`, the bias entry of feature `c`, and
    row `k` of the four parameter tables at `c`, in the stage's grouping. -/
theorem refAffine_apply (k : ℕ) (hs : S4x128.Slices ![k, 0] S1x128) (kk : Fin 4) (hkk : kk.val = k)
    (A0 A1 : FVec Ideal S100000x128 .f32) (dg : FVec Ideal S100000 .f32)
    (bias : FVec Ideal S128 .f32) (G Be Rm Rv : FVec Ideal S4x128 .f32) (r : Fin 100000) (c : Fin 128) :
    refAffine k hs A0 A1 dg bias G Be Rm Rv (ix2 r c)
      = Cert.Stage.affine (A0 (ix2 r c)) (A1 (ix2 r c)) (dg (ix1 r) * dg (ix1 r)) (bias (ix1 c)) (G (ix2 kk c))
          (Be (ix2 kk c)) (Rm (ix2 kk c)) (Rv (ix2 kk c)) := by
  unfold refAffine
  rw [addf_apply, mulf_apply, mulf_apply, subf_apply, addf_apply, addf_apply, mulf_apply,
    overCols_apply, overRows_apply, overRows_apply, overRows_apply, overRows_apply, overRows_apply, mulf_apply,
    row_apply k hs Rm kk hkk, row_apply k hs G kk hkk, row_apply k hs Be kk hkk]
  show _ * Ideal.rsqrt (row k hs Rv (ix1 c) + broadcastInDim S128 ![] bcast_S_S128 (constant (F := Ideal) S_ .f32 0x3727C5AC#32) (ix1 c)) * _ + _ = _
  rw [row_apply k hs Rv kk hkk, bcast_scalar_vec]
  rfl

/-- The reference's exponential linear unit at an index is `Cert.Stage.elu` of the entry. -/
theorem refElu_apply (X : FVec Ideal S100000x128 .f32) (i : S100000x128.Idx) : refElu X i = Cert.Stage.elu (X i) := by
  unfold refElu
  rw [select_apply, cmpf_apply, mulf_apply, bcast_scalar_full, bcast_scalar_full]
  show Scalar.select _ _ (_ * (Ideal.exp (select _ _ X i) - 1)) = _
  rw [select_apply, cmpf_apply, bcast_scalar_full, bcast_scalar_full]
  exact Cert.Stage.elu_select_expm1 (X i)

/-- The reference's rectifier at an index is `Cert.Stage.relu` of the entry. -/
theorem refRelu_apply (X : FVec Ideal S100000x128 .f32) (i : S100000x128.Idx) : refRelu X i = Cert.Stage.relu (X i) := by
  unfold refRelu
  rw [maximumf_apply, bcast_scalar_full]
  exact Cert.Stage.relu_max_word (X i)

/-! ## The kernel program's host spelling of the same entries -/

/-- A vector of 100000 reshaped to a column reads, at `(r, 0)`, the vector at `r`. -/
theorem kcol_apply (v : Cert.KernelIdeal.S100000.Idx → EReal) (h : Cert.KernelIdeal.S100000.ShapeCasts Cert.KernelIdeal.S100000x1)
    (r : Fin 100000) : shapeCast Cert.KernelIdeal.S100000x1 v h (ix2 r (0 : Fin 1)) = v (ix1 r) :=
  shapeCast_apply v h _ _ (by
    rw [Shape.rowMajor_val_two, Shape.rowMajor_val_one]
    show r.val = r.val * 1 + 0
    omega)

/-- A vector of 128 reshaped to a row reads, at `(0, c)`, the vector at `c`. -/
theorem kvec_row_apply (v : Cert.KernelIdeal.S128.Idx → EReal) (h : Cert.KernelIdeal.S128.ShapeCasts Cert.KernelIdeal.S1x128)
    (c : Fin 128) : shapeCast Cert.KernelIdeal.S1x128 v h (ix2 (0 : Fin 1) c) = v (ix1 c) :=
  shapeCast_a_1a_apply v h 0 c

/-- Row `k` of a parameter table sliced, flattened and reshaped to a row reads, at `(0, c)`, the table's entry `(k, c)`. -/
theorem krow_apply (k : ℕ) (hs : Cert.KernelIdeal.S4x128.Slices ![k, 0] Cert.KernelIdeal.S1x128)
    (h1 : Cert.KernelIdeal.S1x128.ShapeCasts Cert.KernelIdeal.S128) (h2 : Cert.KernelIdeal.S128.ShapeCasts Cert.KernelIdeal.S1x128)
    (x : Cert.KernelIdeal.S4x128.Idx → EReal) (kk : Fin 4) (hkk : kk.val = k) (c : Fin 128) :
    shapeCast Cert.KernelIdeal.S1x128 (shapeCast Cert.KernelIdeal.S128
      (extractStridedSlice Cert.KernelIdeal.S1x128 ![k, 0] x hs) h1) h2 (ix2 (0 : Fin 1) c) = x (ix2 kk c) :=
  (shapeCast_a_1a_apply _ h2 0 c).trans ((shapeCast_1a_a_apply _ h1 c).trans
    (slice2_axis0_apply k x hs (0 : Fin 1) c kk (by rw [hkk]; rfl)))

end Cert.ReferenceIdeal.RefNorm

end
-- ==== Proof.RefNorm.lean ====
/-
  The four layers of the reference, normalisation segment by normalisation segment: each segment's result buffer ends
  at `Cert.Stage.eluStage` (layers 0 to 2) or `Cert.Stage.reluStage` (layer 3) of the segment's inputs, with the degree
  column, the bias row and the four parameter rows spelt as the kernel program's host operations compute them. Each
  proof reads the segment's fold as the composed term of its operations, then that term at an index.
-/
import proofs.«127358_j57011395887506_2_alg».proof.Proof.RefOps
import proofs.«127358_j57011395887506_2_alg».proof.Proof.RefNormLib
import Idealize.ShloMosaic.Lib.StableHlo.Run

noncomputable section

namespace Cert.ReferenceIdeal.RefNorm

open Cert.ReferenceIdeal Cert.ReferenceIdeal.Gen Idealize.ShloMosaic Idealize.ShloMosaic.TcCoe Idealize.SL.Sem
open Idealize.ShloMosaic.StableHlo Idealize.ShloMosaic.ValueIdx

/-- Layer 0's normalisation segment leaves its result at the chain of its operations over the segment's inputs. -/
theorem ref_run0 (W : Valuation τ sig (Elt Ideal)) :
    after (RefRun.norm0 (F := Ideal)) W (Proc.devRef .tc main_v108)
      = refElu (refAffine 0 slices_S4x128_S1x128_0_0 (W (Proc.devRef .tc main_v76)) (W (Proc.devRef .tc main_v48))
          (W (Proc.devRef .tc main_v47)) (W (Proc.devRef .tc main_arg8)) (W (Proc.devRef .tc main_arg15))
          (W (Proc.devRef .tc main_arg16)) (W (Proc.devRef .tc main_arg17)) (W (Proc.devRef .tc main_arg18))) := by
  after_results_simp
  rfl

/-- Layer 0 of the reference: its normalisation segment computes the stage of the aggregate, the node's own product,
    the squared inverse square-root degree as a column, the bias as a row, and row 0 of the scale, shift, mean and
    variance tables as rows — each spelt as the kernel program's host operations compute them. -/
theorem ref_norm0 (W : Valuation τ sig (Elt Ideal)) :
    after (RefRun.norm0 (F := Ideal)) W (Proc.devRef .tc main_v108)
      = Cert.Stage.eluStage (W (Proc.devRef .tc main_v76)) (W (Proc.devRef .tc main_v48))
          (shapeCast Cert.KernelIdeal.S100000x1 (mulf (F := Ideal) (s := Cert.KernelIdeal.S100000) (φ := .f32)
            (W (Proc.devRef .tc main_v47)) (W (Proc.devRef .tc main_v47))) Cert.KernelIdeal.Facts₀.shapeCasts_S100000_S100000x1)
          (shapeCast Cert.KernelIdeal.S1x128 (W (Proc.devRef .tc main_arg8)) Cert.KernelIdeal.Facts₀.shapeCasts_S128_S1x128)
          (shapeCast Cert.KernelIdeal.S1x128 (shapeCast Cert.KernelIdeal.S128 (extractStridedSlice Cert.KernelIdeal.S1x128 ![0, 0]
            (W (Proc.devRef .tc main_arg15)) Cert.KernelIdeal.Facts₀.slices_S4x128_S1x128_0_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![0, 0]
            (W (Proc.devRef .tc main_arg16)) Cert.KernelIdeal.Facts₀.slices_S4x128_S1x128_0_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![0, 0]
            (W (Proc.devRef .tc main_arg17)) Cert.KernelIdeal.Facts₀.slices_S4x128_S1x128_0_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![0, 0]
            (W (Proc.devRef .tc main_arg18)) Cert.KernelIdeal.Facts₀.slices_S4x128_S1x128_0_0) Cert.KernelIdeal.Facts₀.shapeCasts_S1x128_S128)
            Cert.KernelIdeal.Facts₀.shapeCasts_S128_S1x128) := by
  rw [ref_run0]
  funext i
  obtain ⟨r, c, rfl⟩ : ∃ (r : Fin 100000) (c : Fin 128), i = ix2 r c := ⟨i 0, i 1, eq_ix2 i⟩
  rw [Cert.Stage.eluStage_apply, refElu_apply, refAffine_apply 0 _ 0 rfl, kcol_apply, kvec_row_apply,
    krow_apply 0 _ _ _ _ 0 rfl, krow_apply 0 _ _ _ _ 0 rfl, krow_apply 0 _ _ _ _ 0 rfl,
    krow_apply 0 _ _ _ _ 0 rfl, mulf_apply]

/-- Layer 1's normalisation segment leaves its result at the chain of its operations over the segment's inputs. -/
theorem ref_run1 (W : Valuation τ sig (Elt Ideal)) :
    after (RefRun.norm1 (F := Ideal)) W (Proc.devRef .tc main_v169)
      = refElu (refAffine 1 slices_S4x128_S1x128_1_0 (W (Proc.devRef .tc main_v137)) (W (Proc.devRef .tc main_v109))
          (W (Proc.devRef .tc main_v47)) (W (Proc.devRef .tc main_arg10)) (W (Proc.devRef .tc main_arg15))
          (W (Proc.devRef .tc main_arg16)) (W (Proc.devRef .tc main_arg17)) (W (Proc.devRef .tc main_arg18))) := by
  after_results_simp
  rfl

/-- Layer 1 of the reference: its normalisation segment computes the stage of the aggregate, the node's own product,
    the squared inverse square-root degree as a column, the bias as a row, and row 1 of the scale, shift, mean and
    variance tables as rows — each spelt as the kernel program's host operations compute them. -/
theorem ref_norm1 (W : Valuation τ sig (Elt Ideal)) :
    after (RefRun.norm1 (F := Ideal)) W (Proc.devRef .tc main_v169)
      = Cert.Stage.eluStage (W (Proc.devRef .tc main_v137)) (W (Proc.devRef .tc main_v109))
          (shapeCast Cert.KernelIdeal.S100000x1 (mulf (F := Ideal) (s := Cert.KernelIdeal.S100000) (φ := .f32)
            (W (Proc.devRef .tc main_v47)) (W (Proc.devRef .tc main_v47))) Cert.KernelIdeal.Facts₀.shapeCasts_S100000_S100000x1)
          (shapeCast Cert.KernelIdeal.S1x128 (W (Proc.devRef .tc main_arg10)) Cert.KernelIdeal.Facts₀.shapeCasts_S128_S1x128)
          (shapeCast Cert.KernelIdeal.S1x128 (shapeCast Cert.KernelIdeal.S128 (extractStridedSlice Cert.KernelIdeal.S1x128 ![1, 0]
            (W (Proc.devRef .tc main_arg15)) Cert.KernelIdeal.Facts₀.slices_S4x128_S1x128_1_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![1, 0]
            (W (Proc.devRef .tc main_arg16)) Cert.KernelIdeal.Facts₀.slices_S4x128_S1x128_1_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![1, 0]
            (W (Proc.devRef .tc main_arg17)) Cert.KernelIdeal.Facts₀.slices_S4x128_S1x128_1_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![1, 0]
            (W (Proc.devRef .tc main_arg18)) Cert.KernelIdeal.Facts₀.slices_S4x128_S1x128_1_0) Cert.KernelIdeal.Facts₀.shapeCasts_S1x128_S128)
            Cert.KernelIdeal.Facts₀.shapeCasts_S128_S1x128) := by
  rw [ref_run1]
  funext i
  obtain ⟨r, c, rfl⟩ : ∃ (r : Fin 100000) (c : Fin 128), i = ix2 r c := ⟨i 0, i 1, eq_ix2 i⟩
  rw [Cert.Stage.eluStage_apply, refElu_apply, refAffine_apply 1 _ 1 rfl, kcol_apply, kvec_row_apply,
    krow_apply 1 _ _ _ _ 1 rfl, krow_apply 1 _ _ _ _ 1 rfl, krow_apply 1 _ _ _ _ 1 rfl,
    krow_apply 1 _ _ _ _ 1 rfl, mulf_apply]

/-- Layer 2's normalisation segment leaves its result at the chain of its operations over the segment's inputs. -/
theorem ref_run2 (W : Valuation τ sig (Elt Ideal)) :
    after (RefRun.norm2 (F := Ideal)) W (Proc.devRef .tc main_v230)
      = refElu (refAffine 2 slices_S4x128_S1x128_2_0 (W (Proc.devRef .tc main_v198)) (W (Proc.devRef .tc main_v170))
          (W (Proc.devRef .tc main_v47)) (W (Proc.devRef .tc main_arg12)) (W (Proc.devRef .tc main_arg15))
          (W (Proc.devRef .tc main_arg16)) (W (Proc.devRef .tc main_arg17)) (W (Proc.devRef .tc main_arg18))) := by
  after_results_simp
  rfl

/-- Layer 2 of the reference: its normalisation segment computes the stage of the aggregate, the node's own product,
    the squared inverse square-root degree as a column, the bias as a row, and row 2 of the scale, shift, mean and
    variance tables as rows — each spelt as the kernel program's host operations compute them. -/
theorem ref_norm2 (W : Valuation τ sig (Elt Ideal)) :
    after (RefRun.norm2 (F := Ideal)) W (Proc.devRef .tc main_v230)
      = Cert.Stage.eluStage (W (Proc.devRef .tc main_v198)) (W (Proc.devRef .tc main_v170))
          (shapeCast Cert.KernelIdeal.S100000x1 (mulf (F := Ideal) (s := Cert.KernelIdeal.S100000) (φ := .f32)
            (W (Proc.devRef .tc main_v47)) (W (Proc.devRef .tc main_v47))) Cert.KernelIdeal.Facts₀.shapeCasts_S100000_S100000x1)
          (shapeCast Cert.KernelIdeal.S1x128 (W (Proc.devRef .tc main_arg12)) Cert.KernelIdeal.Facts₀.shapeCasts_S128_S1x128)
          (shapeCast Cert.KernelIdeal.S1x128 (shapeCast Cert.KernelIdeal.S128 (extractStridedSlice Cert.KernelIdeal.S1x128 ![2, 0]
            (W (Proc.devRef .tc main_arg15)) Cert.KernelIdeal.Facts₀.slices_S4x128_S1x128_2_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![2, 0]
            (W (Proc.devRef .tc main_arg16)) Cert.KernelIdeal.Facts₀.slices_S4x128_S1x128_2_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![2, 0]
            (W (Proc.devRef .tc main_arg17)) Cert.KernelIdeal.Facts₀.slices_S4x128_S1x128_2_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![2, 0]
            (W (Proc.devRef .tc main_arg18)) Cert.KernelIdeal.Facts₀.slices_S4x128_S1x128_2_0) Cert.KernelIdeal.Facts₀.shapeCasts_S1x128_S128)
            Cert.KernelIdeal.Facts₀.shapeCasts_S128_S1x128) := by
  rw [ref_run2]
  funext i
  obtain ⟨r, c, rfl⟩ : ∃ (r : Fin 100000) (c : Fin 128), i = ix2 r c := ⟨i 0, i 1, eq_ix2 i⟩
  rw [Cert.Stage.eluStage_apply, refElu_apply, refAffine_apply 2 _ 2 rfl, kcol_apply, kvec_row_apply,
    krow_apply 2 _ _ _ _ 2 rfl, krow_apply 2 _ _ _ _ 2 rfl, krow_apply 2 _ _ _ _ 2 rfl,
    krow_apply 2 _ _ _ _ 2 rfl, mulf_apply]

/-- Layer 3's normalisation segment leaves its result at the chain of its operations over the segment's inputs. -/
theorem ref_run3 (W : Valuation τ sig (Elt Ideal)) :
    after (RefRun.norm3 (F := Ideal)) W (Proc.devRef .tc main_v291)
      = refRelu (refAffine 3 slices_S4x128_S1x128_3_0 (W (Proc.devRef .tc main_v259)) (W (Proc.devRef .tc main_v231))
          (W (Proc.devRef .tc main_v47)) (W (Proc.devRef .tc main_arg14)) (W (Proc.devRef .tc main_arg15))
          (W (Proc.devRef .tc main_arg16)) (W (Proc.devRef .tc main_arg17)) (W (Proc.devRef .tc main_arg18))) := by
  after_results_simp
  rfl

/-- Layer 3 of the reference: its normalisation segment computes the stage of the aggregate, the node's own product,
    the squared inverse square-root degree as a column, the bias as a row, and row 3 of the scale, shift, mean and
    variance tables as rows — each spelt as the kernel program's host operations compute them. -/
theorem ref_norm3 (W : Valuation τ sig (Elt Ideal)) :
    after (RefRun.norm3 (F := Ideal)) W (Proc.devRef .tc main_v291)
      = Cert.Stage.reluStage (W (Proc.devRef .tc main_v259)) (W (Proc.devRef .tc main_v231))
          (shapeCast Cert.KernelIdeal.S100000x1 (mulf (F := Ideal) (s := Cert.KernelIdeal.S100000) (φ := .f32)
            (W (Proc.devRef .tc main_v47)) (W (Proc.devRef .tc main_v47))) Cert.KernelIdeal.Facts₀.shapeCasts_S100000_S100000x1)
          (shapeCast Cert.KernelIdeal.S1x128 (W (Proc.devRef .tc main_arg14)) Cert.KernelIdeal.Facts₀.shapeCasts_S128_S1x128)
          (shapeCast Cert.KernelIdeal.S1x128 (shapeCast Cert.KernelIdeal.S128 (extractStridedSlice Cert.KernelIdeal.S1x128 ![3, 0]
            (W (Proc.devRef .tc main_arg15)) Cert.KernelIdeal.Facts₀.slices_S4x128_S1x128_3_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![3, 0]
            (W (Proc.devRef .tc main_arg16)) Cert.KernelIdeal.Facts₀.slices_S4x128_S1x128_3_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![3, 0]
            (W (Proc.devRef .tc main_arg17)) Cert.KernelIdeal.Facts₀.slices_S4x128_S1x128_3_0) Cert.KernelIdeal.Facts₀.shapeCasts_S1x128_S128)
            Cert.KernelIdeal.Facts₀.shapeCasts_S128_S1x128)
          (shapeCast Cert.KernelIdeal.S1x128 (shapeCast Cert.KernelIdeal.S128 (extractStridedSlice Cert.KernelIdeal.S1x128 ![3, 0]
            (W (Proc.devRef .tc main_arg18)) Cert.KernelIdeal.Facts₀.slices_S4x128_S1x128_3_0) Cert.KernelIdeal.Facts₀.shapeCasts_S1x128_S128)
            Cert.KernelIdeal.Facts₀.shapeCasts_S128_S1x128) := by
  rw [ref_run3]
  funext i
  obtain ⟨r, c, rfl⟩ : ∃ (r : Fin 100000) (c : Fin 128), i = ix2 r c := ⟨i 0, i 1, eq_ix2 i⟩
  rw [Cert.Stage.reluStage_apply, refRelu_apply, refAffine_apply 3 _ 3 rfl, kcol_apply, kvec_row_apply,
    krow_apply 3 _ _ _ _ 3 rfl, krow_apply 3 _ _ _ _ 3 rfl, krow_apply 3 _ _ _ _ 3 rfl,
    krow_apply 3 _ _ _ _ 3 rfl, mulf_apply]

end Cert.ReferenceIdeal.RefNorm

end
-- ==== Proof.RefLayerResults.lean ====
/- Each layer of the reference as one function of the layer's entry contents: the normalisation-and-activation stage
   applied to the aggregate `aggR` of the layer's product, the product itself, the squared inverse square roots of the
   degrees as a column, and the layer's parameter rows. -/
import proofs.«127358_j57011395887506_2_alg».proof.Proof.RefLayers
import proofs.«127358_j57011395887506_2_alg».proof.Proof.LayerTerms
import proofs.«127358_j57011395887506_2_alg».proof.Proof.StageSpec
import proofs.«127358_j57011395887506_2_alg».proof.Proof.RefNorm

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Layer 0 from its entry contents, given the normalisation stage's equation: the stage reads the aggregate, the
    product, the inverse square roots and the parameters where the aggregation stage left them, and these are the
    entry's (the two earlier stages write none of them). -/
theorem ref_layer0_of
    (hnorm : ∀ W' : Valuation τ sig (Elt Ideal), after norm0 W' (Proc.devRef .tc main_v108)
      = Cert.Stage.eluStage (W' (Proc.devRef .tc main_v76)) (W' (Proc.devRef .tc main_v48)) (Cert.KernelIdeal.Terms.nodeCol (mulf (F := Ideal) (W' (Proc.devRef .tc main_v47)) (W' (Proc.devRef .tc main_v47))))
        (Cert.KernelIdeal.Terms.featRow (W' (Proc.devRef .tc main_arg8)))
        (Cert.KernelIdeal.Terms.tableRow0 (W' (Proc.devRef .tc main_arg15))) (Cert.KernelIdeal.Terms.tableRow0 (W' (Proc.devRef .tc main_arg16)))
        (Cert.KernelIdeal.Terms.tableRow0 (W' (Proc.devRef .tc main_arg17))) (Cert.KernelIdeal.Terms.tableRow0 (W' (Proc.devRef .tc main_arg18))))
    (W : Valuation τ sig (Elt Ideal)) :
    after norm0 (after agg0 (after dense0 W)) (Proc.devRef .tc main_v108)
      = Cert.Stage.eluStage (aggR (F := Ideal) (Host.dotGeneral (F := Ideal) (φ₁ := .f32) (φ₂ := .f32) dot_S100000x129_S129x128_S100000x128_1_0_0_1_n_n none (W (Proc.devRef .tc main_v36)) (W (Proc.devRef .tc main_arg7))) (W (Proc.devRef .tc main_v47)) (W (Proc.devRef .tc main_v38)) (W (Proc.devRef .tc main_v40)))
        (Host.dotGeneral (F := Ideal) (φ₁ := .f32) (φ₂ := .f32) dot_S100000x129_S129x128_S100000x128_1_0_0_1_n_n none (W (Proc.devRef .tc main_v36)) (W (Proc.devRef .tc main_arg7))) (Cert.KernelIdeal.Terms.nodeCol (mulf (F := Ideal) (W (Proc.devRef .tc main_v47)) (W (Proc.devRef .tc main_v47))))
        (Cert.KernelIdeal.Terms.featRow (W (Proc.devRef .tc main_arg8)))
        (Cert.KernelIdeal.Terms.tableRow0 (W (Proc.devRef .tc main_arg15))) (Cert.KernelIdeal.Terms.tableRow0 (W (Proc.devRef .tc main_arg16)))
        (Cert.KernelIdeal.Terms.tableRow0 (W (Proc.devRef .tc main_arg17))) (Cert.KernelIdeal.Terms.tableRow0 (W (Proc.devRef .tc main_arg18))) := by
  rw [hnorm, ref_agg0_entry, hw_kept_0, ref_dense0,
    agg0_keeps (after dense0 W) main_v47 (by decide), dense0_keeps W main_v47 (by decide),
    agg0_keeps (after dense0 W) main_arg8 (by decide), dense0_keeps W main_arg8 (by decide),
    agg0_keeps (after dense0 W) main_arg15 (by decide), dense0_keeps W main_arg15 (by decide),
    agg0_keeps (after dense0 W) main_arg16 (by decide), dense0_keeps W main_arg16 (by decide),
    agg0_keeps (after dense0 W) main_arg17 (by decide), dense0_keeps W main_arg17 (by decide),
    agg0_keeps (after dense0 W) main_arg18 (by decide), dense0_keeps W main_arg18 (by decide)]

/-- Layer 1 from its entry contents, given the normalisation stage's equation: the stage reads the aggregate, the
    product, the inverse square roots and the parameters where the aggregation stage left them, and these are the
    entry's (the two earlier stages write none of them). -/
theorem ref_layer1_of
    (hnorm : ∀ W' : Valuation τ sig (Elt Ideal), after norm1 W' (Proc.devRef .tc main_v169)
      = Cert.Stage.eluStage (W' (Proc.devRef .tc main_v137)) (W' (Proc.devRef .tc main_v109)) (Cert.KernelIdeal.Terms.nodeCol (mulf (F := Ideal) (W' (Proc.devRef .tc main_v47)) (W' (Proc.devRef .tc main_v47))))
        (Cert.KernelIdeal.Terms.featRow (W' (Proc.devRef .tc main_arg10)))
        (Cert.KernelIdeal.Terms.tableRow1 (W' (Proc.devRef .tc main_arg15))) (Cert.KernelIdeal.Terms.tableRow1 (W' (Proc.devRef .tc main_arg16)))
        (Cert.KernelIdeal.Terms.tableRow1 (W' (Proc.devRef .tc main_arg17))) (Cert.KernelIdeal.Terms.tableRow1 (W' (Proc.devRef .tc main_arg18))))
    (W : Valuation τ sig (Elt Ideal)) :
    after norm1 (after agg1 (after dense1 W)) (Proc.devRef .tc main_v169)
      = Cert.Stage.eluStage (aggR (F := Ideal) (Host.dotGeneral (F := Ideal) (φ₁ := .f32) (φ₂ := .f32) dot_S100000x128_S128x128_S100000x128_1_0_0_1_n_n none (W (Proc.devRef .tc main_v108)) (W (Proc.devRef .tc main_arg9))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v108)) (W (Proc.devRef .tc main_arg9))) (Cert.KernelIdeal.Terms.nodeCol (mulf (F := Ideal) (W (Proc.devRef .tc main_v47)) (W (Proc.devRef .tc main_v47))))
        (Cert.KernelIdeal.Terms.featRow (W (Proc.devRef .tc main_arg10)))
        (Cert.KernelIdeal.Terms.tableRow1 (W (Proc.devRef .tc main_arg15))) (Cert.KernelIdeal.Terms.tableRow1 (W (Proc.devRef .tc main_arg16)))
        (Cert.KernelIdeal.Terms.tableRow1 (W (Proc.devRef .tc main_arg17))) (Cert.KernelIdeal.Terms.tableRow1 (W (Proc.devRef .tc main_arg18))) := by
  rw [hnorm, ref_agg1_entry, hw_kept_1, ref_dense1,
    agg1_keeps (after dense1 W) main_v47 (by decide), dense1_keeps W main_v47 (by decide),
    agg1_keeps (after dense1 W) main_arg10 (by decide), dense1_keeps W main_arg10 (by decide),
    agg1_keeps (after dense1 W) main_arg15 (by decide), dense1_keeps W main_arg15 (by decide),
    agg1_keeps (after dense1 W) main_arg16 (by decide), dense1_keeps W main_arg16 (by decide),
    agg1_keeps (after dense1 W) main_arg17 (by decide), dense1_keeps W main_arg17 (by decide),
    agg1_keeps (after dense1 W) main_arg18 (by decide), dense1_keeps W main_arg18 (by decide)]

/-- Layer 2 from its entry contents, given the normalisation stage's equation: the stage reads the aggregate, the
    product, the inverse square roots and the parameters where the aggregation stage left them, and these are the
    entry's (the two earlier stages write none of them). -/
theorem ref_layer2_of
    (hnorm : ∀ W' : Valuation τ sig (Elt Ideal), after norm2 W' (Proc.devRef .tc main_v230)
      = Cert.Stage.eluStage (W' (Proc.devRef .tc main_v198)) (W' (Proc.devRef .tc main_v170)) (Cert.KernelIdeal.Terms.nodeCol (mulf (F := Ideal) (W' (Proc.devRef .tc main_v47)) (W' (Proc.devRef .tc main_v47))))
        (Cert.KernelIdeal.Terms.featRow (W' (Proc.devRef .tc main_arg12)))
        (Cert.KernelIdeal.Terms.tableRow2 (W' (Proc.devRef .tc main_arg15))) (Cert.KernelIdeal.Terms.tableRow2 (W' (Proc.devRef .tc main_arg16)))
        (Cert.KernelIdeal.Terms.tableRow2 (W' (Proc.devRef .tc main_arg17))) (Cert.KernelIdeal.Terms.tableRow2 (W' (Proc.devRef .tc main_arg18))))
    (W : Valuation τ sig (Elt Ideal)) :
    after norm2 (after agg2 (after dense2 W)) (Proc.devRef .tc main_v230)
      = Cert.Stage.eluStage (aggR (F := Ideal) (Host.dotGeneral (F := Ideal) (φ₁ := .f32) (φ₂ := .f32) dot_S100000x128_S128x128_S100000x128_1_0_0_1_n_n none (W (Proc.devRef .tc main_v169)) (W (Proc.devRef .tc main_arg11))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v169)) (W (Proc.devRef .tc main_arg11))) (Cert.KernelIdeal.Terms.nodeCol (mulf (F := Ideal) (W (Proc.devRef .tc main_v47)) (W (Proc.devRef .tc main_v47))))
        (Cert.KernelIdeal.Terms.featRow (W (Proc.devRef .tc main_arg12)))
        (Cert.KernelIdeal.Terms.tableRow2 (W (Proc.devRef .tc main_arg15))) (Cert.KernelIdeal.Terms.tableRow2 (W (Proc.devRef .tc main_arg16)))
        (Cert.KernelIdeal.Terms.tableRow2 (W (Proc.devRef .tc main_arg17))) (Cert.KernelIdeal.Terms.tableRow2 (W (Proc.devRef .tc main_arg18))) := by
  rw [hnorm, ref_agg2_entry, hw_kept_2, ref_dense2,
    agg2_keeps (after dense2 W) main_v47 (by decide), dense2_keeps W main_v47 (by decide),
    agg2_keeps (after dense2 W) main_arg12 (by decide), dense2_keeps W main_arg12 (by decide),
    agg2_keeps (after dense2 W) main_arg15 (by decide), dense2_keeps W main_arg15 (by decide),
    agg2_keeps (after dense2 W) main_arg16 (by decide), dense2_keeps W main_arg16 (by decide),
    agg2_keeps (after dense2 W) main_arg17 (by decide), dense2_keeps W main_arg17 (by decide),
    agg2_keeps (after dense2 W) main_arg18 (by decide), dense2_keeps W main_arg18 (by decide)]

/-- Layer 3 from its entry contents, given the normalisation stage's equation: the stage reads the aggregate, the
    product, the inverse square roots and the parameters where the aggregation stage left them, and these are the
    entry's (the two earlier stages write none of them). -/
theorem ref_layer3_of
    (hnorm : ∀ W' : Valuation τ sig (Elt Ideal), after norm3 W' (Proc.devRef .tc main_v291)
      = Cert.Stage.reluStage (W' (Proc.devRef .tc main_v259)) (W' (Proc.devRef .tc main_v231)) (Cert.KernelIdeal.Terms.nodeCol (mulf (F := Ideal) (W' (Proc.devRef .tc main_v47)) (W' (Proc.devRef .tc main_v47))))
        (Cert.KernelIdeal.Terms.featRow (W' (Proc.devRef .tc main_arg14)))
        (Cert.KernelIdeal.Terms.tableRow3 (W' (Proc.devRef .tc main_arg15))) (Cert.KernelIdeal.Terms.tableRow3 (W' (Proc.devRef .tc main_arg16)))
        (Cert.KernelIdeal.Terms.tableRow3 (W' (Proc.devRef .tc main_arg17))) (Cert.KernelIdeal.Terms.tableRow3 (W' (Proc.devRef .tc main_arg18))))
    (W : Valuation τ sig (Elt Ideal)) :
    after norm3 (after agg3 (after dense3 W)) (Proc.devRef .tc main_v291)
      = Cert.Stage.reluStage (aggR (F := Ideal) (Host.dotGeneral (F := Ideal) (φ₁ := .f32) (φ₂ := .f32) dot_S100000x128_S128x128_S100000x128_1_0_0_1_n_n none (W (Proc.devRef .tc main_v230)) (W (Proc.devRef .tc main_arg13))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v230)) (W (Proc.devRef .tc main_arg13))) (Cert.KernelIdeal.Terms.nodeCol (mulf (F := Ideal) (W (Proc.devRef .tc main_v47)) (W (Proc.devRef .tc main_v47))))
        (Cert.KernelIdeal.Terms.featRow (W (Proc.devRef .tc main_arg14)))
        (Cert.KernelIdeal.Terms.tableRow3 (W (Proc.devRef .tc main_arg15))) (Cert.KernelIdeal.Terms.tableRow3 (W (Proc.devRef .tc main_arg16)))
        (Cert.KernelIdeal.Terms.tableRow3 (W (Proc.devRef .tc main_arg17))) (Cert.KernelIdeal.Terms.tableRow3 (W (Proc.devRef .tc main_arg18))) := by
  rw [hnorm, ref_agg3_entry, hw_kept_3, ref_dense3,
    agg3_keeps (after dense3 W) main_v47 (by decide), dense3_keeps W main_v47 (by decide),
    agg3_keeps (after dense3 W) main_arg14 (by decide), dense3_keeps W main_arg14 (by decide),
    agg3_keeps (after dense3 W) main_arg15 (by decide), dense3_keeps W main_arg15 (by decide),
    agg3_keeps (after dense3 W) main_arg16 (by decide), dense3_keeps W main_arg16 (by decide),
    agg3_keeps (after dense3 W) main_arg17 (by decide), dense3_keeps W main_arg17 (by decide),
    agg3_keeps (after dense3 W) main_arg18 (by decide), dense3_keeps W main_arg18 (by decide)]

/-- Layer 0 of the reference from its entry contents. -/
theorem ref_layer0 (W : Valuation τ sig (Elt Ideal)) :
    after norm0 (after agg0 (after dense0 W)) (Proc.devRef .tc main_v108)
      = Cert.Stage.eluStage (aggR (F := Ideal) (Host.dotGeneral (F := Ideal) (φ₁ := .f32) (φ₂ := .f32) dot_S100000x129_S129x128_S100000x128_1_0_0_1_n_n none (W (Proc.devRef .tc main_v36)) (W (Proc.devRef .tc main_arg7))) (W (Proc.devRef .tc main_v47)) (W (Proc.devRef .tc main_v38)) (W (Proc.devRef .tc main_v40)))
        (Host.dotGeneral (F := Ideal) (φ₁ := .f32) (φ₂ := .f32) dot_S100000x129_S129x128_S100000x128_1_0_0_1_n_n none (W (Proc.devRef .tc main_v36)) (W (Proc.devRef .tc main_arg7))) (Cert.KernelIdeal.Terms.nodeCol (mulf (F := Ideal) (W (Proc.devRef .tc main_v47)) (W (Proc.devRef .tc main_v47))))
        (Cert.KernelIdeal.Terms.featRow (W (Proc.devRef .tc main_arg8)))
        (Cert.KernelIdeal.Terms.tableRow0 (W (Proc.devRef .tc main_arg15))) (Cert.KernelIdeal.Terms.tableRow0 (W (Proc.devRef .tc main_arg16)))
        (Cert.KernelIdeal.Terms.tableRow0 (W (Proc.devRef .tc main_arg17))) (Cert.KernelIdeal.Terms.tableRow0 (W (Proc.devRef .tc main_arg18))) :=
  ref_layer0_of (fun W' => Cert.ReferenceIdeal.RefNorm.ref_norm0 W') W

/-- Layer 1 of the reference from its entry contents. -/
theorem ref_layer1 (W : Valuation τ sig (Elt Ideal)) :
    after norm1 (after agg1 (after dense1 W)) (Proc.devRef .tc main_v169)
      = Cert.Stage.eluStage (aggR (F := Ideal) (Host.dotGeneral (F := Ideal) (φ₁ := .f32) (φ₂ := .f32) dot_S100000x128_S128x128_S100000x128_1_0_0_1_n_n none (W (Proc.devRef .tc main_v108)) (W (Proc.devRef .tc main_arg9))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v108)) (W (Proc.devRef .tc main_arg9))) (Cert.KernelIdeal.Terms.nodeCol (mulf (F := Ideal) (W (Proc.devRef .tc main_v47)) (W (Proc.devRef .tc main_v47))))
        (Cert.KernelIdeal.Terms.featRow (W (Proc.devRef .tc main_arg10)))
        (Cert.KernelIdeal.Terms.tableRow1 (W (Proc.devRef .tc main_arg15))) (Cert.KernelIdeal.Terms.tableRow1 (W (Proc.devRef .tc main_arg16)))
        (Cert.KernelIdeal.Terms.tableRow1 (W (Proc.devRef .tc main_arg17))) (Cert.KernelIdeal.Terms.tableRow1 (W (Proc.devRef .tc main_arg18))) :=
  ref_layer1_of (fun W' => Cert.ReferenceIdeal.RefNorm.ref_norm1 W') W

/-- Layer 2 of the reference from its entry contents. -/
theorem ref_layer2 (W : Valuation τ sig (Elt Ideal)) :
    after norm2 (after agg2 (after dense2 W)) (Proc.devRef .tc main_v230)
      = Cert.Stage.eluStage (aggR (F := Ideal) (Host.dotGeneral (F := Ideal) (φ₁ := .f32) (φ₂ := .f32) dot_S100000x128_S128x128_S100000x128_1_0_0_1_n_n none (W (Proc.devRef .tc main_v169)) (W (Proc.devRef .tc main_arg11))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v169)) (W (Proc.devRef .tc main_arg11))) (Cert.KernelIdeal.Terms.nodeCol (mulf (F := Ideal) (W (Proc.devRef .tc main_v47)) (W (Proc.devRef .tc main_v47))))
        (Cert.KernelIdeal.Terms.featRow (W (Proc.devRef .tc main_arg12)))
        (Cert.KernelIdeal.Terms.tableRow2 (W (Proc.devRef .tc main_arg15))) (Cert.KernelIdeal.Terms.tableRow2 (W (Proc.devRef .tc main_arg16)))
        (Cert.KernelIdeal.Terms.tableRow2 (W (Proc.devRef .tc main_arg17))) (Cert.KernelIdeal.Terms.tableRow2 (W (Proc.devRef .tc main_arg18))) :=
  ref_layer2_of (fun W' => Cert.ReferenceIdeal.RefNorm.ref_norm2 W') W

/-- Layer 3 of the reference from its entry contents. -/
theorem ref_layer3 (W : Valuation τ sig (Elt Ideal)) :
    after norm3 (after agg3 (after dense3 W)) (Proc.devRef .tc main_v291)
      = Cert.Stage.reluStage (aggR (F := Ideal) (Host.dotGeneral (F := Ideal) (φ₁ := .f32) (φ₂ := .f32) dot_S100000x128_S128x128_S100000x128_1_0_0_1_n_n none (W (Proc.devRef .tc main_v230)) (W (Proc.devRef .tc main_arg13))) (W (Proc.devRef .tc main_v47)) (W (Proc.devRef .tc main_v38)) (W (Proc.devRef .tc main_v40)))
        (Host.dotGeneral (F := Ideal) (φ₁ := .f32) (φ₂ := .f32) dot_S100000x128_S128x128_S100000x128_1_0_0_1_n_n none (W (Proc.devRef .tc main_v230)) (W (Proc.devRef .tc main_arg13))) (Cert.KernelIdeal.Terms.nodeCol (mulf (F := Ideal) (W (Proc.devRef .tc main_v47)) (W (Proc.devRef .tc main_v47))))
        (Cert.KernelIdeal.Terms.featRow (W (Proc.devRef .tc main_arg14)))
        (Cert.KernelIdeal.Terms.tableRow3 (W (Proc.devRef .tc main_arg15))) (Cert.KernelIdeal.Terms.tableRow3 (W (Proc.devRef .tc main_arg16)))
        (Cert.KernelIdeal.Terms.tableRow3 (W (Proc.devRef .tc main_arg17))) (Cert.KernelIdeal.Terms.tableRow3 (W (Proc.devRef .tc main_arg18))) :=
  ref_layer3_of (fun W' => Cert.ReferenceIdeal.RefNorm.ref_norm3 W') W

end Cert.ReferenceIdeal.RefRun

end
-- ==== Proof.LayerAgreement.lean ====
/-
  One layer of the two programs agrees.
  In a layer the kernel's dense region is the reference's matrix product, the kernel's aggregation over the edges is
  the reference's up to how the per-edge coefficient becomes a column, and the kernel's normalisation region is the
  reference's elementwise chain.  So from equal input features, equal edge rows and inverse-root degrees, and equal
  layer parameters, the two programs leave equal activations.
-/
import proofs.«127358_j57011395887506_2_alg».proof.Proof.KernelLayer3
import proofs.«127358_j57011395887506_2_alg».proof.Proof.KernelCoefficients
import proofs.«127358_j57011395887506_2_alg».proof.Proof.AggregateBridge
import proofs.«127358_j57011395887506_2_alg».proof.Proof.RefLayerResults

set_option maxHeartbeats 1000000
set_option maxRecDepth 16384
set_option pp.maxSteps 6000
set_option pp.deepTerms false

noncomputable section

namespace Cert.Bridge

open Idealize.ShloMosaic Idealize.ShloMosaic.TcCoe Idealize.ShloMosaic.StableHlo Idealize.SL.Sem
open Cert.KernelIdeal.Gen Cert.KernelIdeal.Terms Cert.KernelIdeal.Layers Cert.KernelIdeal.Stretch

local notation "𝕂" b => Proc.devRef (τ := Cert.KernelIdeal.τ) (sig := Cert.KernelIdeal.sig) Proc.tc b
local notation "ℝ'" b => Proc.devRef (τ := Cert.ReferenceIdeal.τ) (sig := Cert.ReferenceIdeal.sig) Proc.tc b

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Layer 0: from equal input features, edge rows, inverse-root degrees and parameters, the kernel program's
    normalised activations are the reference's. -/
theorem layer_agree0 (X : Valuation Cert.ReferenceIdeal.τ Cert.ReferenceIdeal.sig (Elt Ideal))
    (hfeat : W1 m ρ c (𝕂 Cert.KernelIdeal.main_v36) = X (ℝ' Cert.ReferenceIdeal.main_v36))
    (h38 : X (ℝ' Cert.ReferenceIdeal.main_v38) = W1 m ρ c (𝕂 Cert.KernelIdeal.main_v38))
    (h40 : X (ℝ' Cert.ReferenceIdeal.main_v40) = W1 m ρ c (𝕂 Cert.KernelIdeal.main_v40))
    (h47 : X (ℝ' Cert.ReferenceIdeal.main_v47) = W1 m ρ c (𝕂 Cert.KernelIdeal.main_v47))
    (hw : X (ℝ' Cert.ReferenceIdeal.main_arg7) = m ((c : Thread Cert.KernelIdeal.nD Cert.KernelIdeal.τ).loc Cert.KernelIdeal.main_arg7))
    (hb : X (ℝ' Cert.ReferenceIdeal.main_arg8) = m ((c : Thread Cert.KernelIdeal.nD Cert.KernelIdeal.τ).loc Cert.KernelIdeal.main_arg8))
    (h15 : X (ℝ' Cert.ReferenceIdeal.main_arg15) = m ((c : Thread Cert.KernelIdeal.nD Cert.KernelIdeal.τ).loc Cert.KernelIdeal.main_arg15))
    (h16 : X (ℝ' Cert.ReferenceIdeal.main_arg16) = m ((c : Thread Cert.KernelIdeal.nD Cert.KernelIdeal.τ).loc Cert.KernelIdeal.main_arg16))
    (h17 : X (ℝ' Cert.ReferenceIdeal.main_arg17) = m ((c : Thread Cert.KernelIdeal.nD Cert.KernelIdeal.τ).loc Cert.KernelIdeal.main_arg17))
    (h18 : X (ℝ' Cert.ReferenceIdeal.main_arg18) = m ((c : Thread Cert.KernelIdeal.nD Cert.KernelIdeal.τ).loc Cert.KernelIdeal.main_arg18)) :
    W4 m ρ c (𝕂 Cert.KernelIdeal.main_v92)
      = after (Cert.ReferenceIdeal.RefRun.norm0 (F := Ideal)) (after Cert.ReferenceIdeal.RefRun.agg0 (after Cert.ReferenceIdeal.RefRun.dense0 X)) (ℝ' Cert.ReferenceIdeal.main_v108) := by
  refine (layer0 m ρ c).trans (Eq.trans ?_ (Cert.ReferenceIdeal.RefRun.ref_layer0 X).symm)
  simp only [proj0, h38, h40, h47, hw, hb, h15, h16, h17, h18, ← hfeat, coef_entry m ρ c, selfcol_entry m ρ c, aggregate_bridge]

/-- Layer 1: from equal input features, edge rows, inverse-root degrees and parameters, the kernel program's
    normalised activations are the reference's. -/
theorem layer_agree1 (X : Valuation Cert.ReferenceIdeal.τ Cert.ReferenceIdeal.sig (Elt Ideal))
    (hfeat : W4 m ρ c (𝕂 Cert.KernelIdeal.main_v92) = X (ℝ' Cert.ReferenceIdeal.main_v108))
    (h38 : X (ℝ' Cert.ReferenceIdeal.main_v38) = W1 m ρ c (𝕂 Cert.KernelIdeal.main_v38))
    (h40 : X (ℝ' Cert.ReferenceIdeal.main_v40) = W1 m ρ c (𝕂 Cert.KernelIdeal.main_v40))
    (h47 : X (ℝ' Cert.ReferenceIdeal.main_v47) = W1 m ρ c (𝕂 Cert.KernelIdeal.main_v47))
    (hw : X (ℝ' Cert.ReferenceIdeal.main_arg9) = m ((c : Thread Cert.KernelIdeal.nD Cert.KernelIdeal.τ).loc Cert.KernelIdeal.main_arg9))
    (hb : X (ℝ' Cert.ReferenceIdeal.main_arg10) = m ((c : Thread Cert.KernelIdeal.nD Cert.KernelIdeal.τ).loc Cert.KernelIdeal.main_arg10))
    (h15 : X (ℝ' Cert.ReferenceIdeal.main_arg15) = m ((c : Thread Cert.KernelIdeal.nD Cert.KernelIdeal.τ).loc Cert.KernelIdeal.main_arg15))
    (h16 : X (ℝ' Cert.ReferenceIdeal.main_arg16) = m ((c : Thread Cert.KernelIdeal.nD Cert.KernelIdeal.τ).loc Cert.KernelIdeal.main_arg16))
    (h17 : X (ℝ' Cert.ReferenceIdeal.main_arg17) = m ((c : Thread Cert.KernelIdeal.nD Cert.KernelIdeal.τ).loc Cert.KernelIdeal.main_arg17))
    (h18 : X (ℝ' Cert.ReferenceIdeal.main_arg18) = m ((c : Thread Cert.KernelIdeal.nD Cert.KernelIdeal.τ).loc Cert.KernelIdeal.main_arg18)) :
    W7 m ρ c (𝕂 Cert.KernelIdeal.main_v119)
      = after (Cert.ReferenceIdeal.RefRun.norm1 (F := Ideal)) (after Cert.ReferenceIdeal.RefRun.agg1 (after Cert.ReferenceIdeal.RefRun.dense1 X)) (ℝ' Cert.ReferenceIdeal.main_v169) := by
  refine (layer1 m ρ c).trans (Eq.trans ?_ (Cert.ReferenceIdeal.RefRun.ref_layer1 X).symm)
  simp only [proj1, h38, h40, h47, hw, hb, h15, h16, h17, h18, ← hfeat, coef_entry m ρ c, selfcol_entry m ρ c, aggregate_bridge]

/-- Layer 2: from equal input features, edge rows, inverse-root degrees and parameters, the kernel program's
    normalised activations are the reference's. -/
theorem layer_agree2 (X : Valuation Cert.ReferenceIdeal.τ Cert.ReferenceIdeal.sig (Elt Ideal))
    (hfeat : W7 m ρ c (𝕂 Cert.KernelIdeal.main_v119) = X (ℝ' Cert.ReferenceIdeal.main_v169))
    (h38 : X (ℝ' Cert.ReferenceIdeal.main_v38) = W1 m ρ c (𝕂 Cert.KernelIdeal.main_v38))
    (h40 : X (ℝ' Cert.ReferenceIdeal.main_v40) = W1 m ρ c (𝕂 Cert.KernelIdeal.main_v40))
    (h47 : X (ℝ' Cert.ReferenceIdeal.main_v47) = W1 m ρ c (𝕂 Cert.KernelIdeal.main_v47))
    (hw : X (ℝ' Cert.ReferenceIdeal.main_arg11) = m ((c : Thread Cert.KernelIdeal.nD Cert.KernelIdeal.τ).loc Cert.KernelIdeal.main_arg11))
    (hb : X (ℝ' Cert.ReferenceIdeal.main_arg12) = m ((c : Thread Cert.KernelIdeal.nD Cert.KernelIdeal.τ).loc Cert.KernelIdeal.main_arg12))
    (h15 : X (ℝ' Cert.ReferenceIdeal.main_arg15) = m ((c : Thread Cert.KernelIdeal.nD Cert.KernelIdeal.τ).loc Cert.KernelIdeal.main_arg15))
    (h16 : X (ℝ' Cert.ReferenceIdeal.main_arg16) = m ((c : Thread Cert.KernelIdeal.nD Cert.KernelIdeal.τ).loc Cert.KernelIdeal.main_arg16))
    (h17 : X (ℝ' Cert.ReferenceIdeal.main_arg17) = m ((c : Thread Cert.KernelIdeal.nD Cert.KernelIdeal.τ).loc Cert.KernelIdeal.main_arg17))
    (h18 : X (ℝ' Cert.ReferenceIdeal.main_arg18) = m ((c : Thread Cert.KernelIdeal.nD Cert.KernelIdeal.τ).loc Cert.KernelIdeal.main_arg18)) :
    W10 m ρ c (𝕂 Cert.KernelIdeal.main_v146)
      = after (Cert.ReferenceIdeal.RefRun.norm2 (F := Ideal)) (after Cert.ReferenceIdeal.RefRun.agg2 (after Cert.ReferenceIdeal.RefRun.dense2 X)) (ℝ' Cert.ReferenceIdeal.main_v230) := by
  refine (layer2 m ρ c).trans (Eq.trans ?_ (Cert.ReferenceIdeal.RefRun.ref_layer2 X).symm)
  simp only [proj2, h38, h40, h47, hw, hb, h15, h16, h17, h18, ← hfeat, coef_entry m ρ c, selfcol_entry m ρ c, aggregate_bridge]

/-- Layer 3: from equal input features, edge rows, inverse-root degrees and parameters, the kernel program's
    normalised activations are the reference's. -/
theorem layer_agree3 (X : Valuation Cert.ReferenceIdeal.τ Cert.ReferenceIdeal.sig (Elt Ideal))
    (hfeat : W10 m ρ c (𝕂 Cert.KernelIdeal.main_v146) = X (ℝ' Cert.ReferenceIdeal.main_v230))
    (h38 : X (ℝ' Cert.ReferenceIdeal.main_v38) = W1 m ρ c (𝕂 Cert.KernelIdeal.main_v38))
    (h40 : X (ℝ' Cert.ReferenceIdeal.main_v40) = W1 m ρ c (𝕂 Cert.KernelIdeal.main_v40))
    (h47 : X (ℝ' Cert.ReferenceIdeal.main_v47) = W1 m ρ c (𝕂 Cert.KernelIdeal.main_v47))
    (hw : X (ℝ' Cert.ReferenceIdeal.main_arg13) = m ((c : Thread Cert.KernelIdeal.nD Cert.KernelIdeal.τ).loc Cert.KernelIdeal.main_arg13))
    (hb : X (ℝ' Cert.ReferenceIdeal.main_arg14) = m ((c : Thread Cert.KernelIdeal.nD Cert.KernelIdeal.τ).loc Cert.KernelIdeal.main_arg14))
    (h15 : X (ℝ' Cert.ReferenceIdeal.main_arg15) = m ((c : Thread Cert.KernelIdeal.nD Cert.KernelIdeal.τ).loc Cert.KernelIdeal.main_arg15))
    (h16 : X (ℝ' Cert.ReferenceIdeal.main_arg16) = m ((c : Thread Cert.KernelIdeal.nD Cert.KernelIdeal.τ).loc Cert.KernelIdeal.main_arg16))
    (h17 : X (ℝ' Cert.ReferenceIdeal.main_arg17) = m ((c : Thread Cert.KernelIdeal.nD Cert.KernelIdeal.τ).loc Cert.KernelIdeal.main_arg17))
    (h18 : X (ℝ' Cert.ReferenceIdeal.main_arg18) = m ((c : Thread Cert.KernelIdeal.nD Cert.KernelIdeal.τ).loc Cert.KernelIdeal.main_arg18)) :
    W13 m ρ c (𝕂 Cert.KernelIdeal.main_v173)
      = after (Cert.ReferenceIdeal.RefRun.norm3 (F := Ideal)) (after Cert.ReferenceIdeal.RefRun.agg3 (after Cert.ReferenceIdeal.RefRun.dense3 X)) (ℝ' Cert.ReferenceIdeal.main_v291) := by
  refine (layer3 m ρ c).trans (Eq.trans ?_ (Cert.ReferenceIdeal.RefRun.ref_layer3 X).symm)
  simp only [proj3, h38, h40, h47, hw, hb, h15, h16, h17, h18, ← hfeat, coef_entry m ρ c, selfcol_entry m ρ c, aggregate_bridge]

end Cert.Bridge

end
-- ==== Proof.SharedPreamble.lean ====
/-
  The preamble is one computation in both programs.
  Before the first layer both programs compute, by the same operations over buffers numbered alike: the attention
  weight of each node's substructure (a softmax over the 64 substructure scores) appended to the node features as a
  129th column; the source and destination rows of the edge list; and the inverse square root of each node's in-degree
  plus one.  From equal arguments these four arrays are equal.
-/
import proofs.«127358_j57011395887506_2_alg».proof.Proof.Gen.KernelIdeal.Launch
import proofs.«127358_j57011395887506_2_alg».proof.Proof.RefOps
import Idealize.ShloMosaic.Lib.StableHlo.Run
import Idealize.ShloMosaic.PureOps.Ideal

set_option maxHeartbeats 4000000
set_option maxRecDepth 16384

noncomputable section

namespace Cert.Bridge

open Idealize.ShloMosaic Idealize.ShloMosaic.TcCoe Idealize.ShloMosaic.StableHlo Idealize.SL.Sem

local notation "𝕂" b => Proc.devRef (τ := Cert.KernelIdeal.τ) (sig := Cert.KernelIdeal.sig) Proc.tc b
local notation "ℝ'" b => Proc.devRef (τ := Cert.ReferenceIdeal.τ) (sig := Cert.ReferenceIdeal.sig) Proc.tc b

variable (WK : Valuation Cert.KernelIdeal.τ Cert.KernelIdeal.sig (Elt Ideal))
  (WR : Valuation Cert.ReferenceIdeal.τ Cert.ReferenceIdeal.sig (Elt Ideal))

/-- The node features with the attention column appended. -/
theorem features_agree
    (h0 : WK (𝕂 Cert.KernelIdeal.main_arg0) = WR (ℝ' Cert.ReferenceIdeal.main_arg0))
    (h2 : WK (𝕂 Cert.KernelIdeal.main_arg2) = WR (ℝ' Cert.ReferenceIdeal.main_arg2))
    (h4 : WK (𝕂 Cert.KernelIdeal.main_arg4) = WR (ℝ' Cert.ReferenceIdeal.main_arg4))
    (h5 : WK (𝕂 Cert.KernelIdeal.main_arg5) = WR (ℝ' Cert.ReferenceIdeal.main_arg5))
    (h6 : WK (𝕂 Cert.KernelIdeal.main_arg6) = WR (ℝ' Cert.ReferenceIdeal.main_arg6)) :
    after (Cert.KernelIdeal.Gen.hostOps0 (F := Ideal)) WK (𝕂 Cert.KernelIdeal.main_v36)
      = after (Cert.ReferenceIdeal.RefRun.pre (F := Ideal)) WR (ℝ' Cert.ReferenceIdeal.main_v36) := by
  after_results_simp
  -- both sides are the concatenation, along the columns, of the features and the attention column
  refine congrArg₂ (fun (a : (⟨Cert.KernelIdeal.S100000x128, .f32⟩ : BufTy).Contents (Elt Ideal))
      (b : (⟨Cert.KernelIdeal.S100000x1, .f32⟩ : BufTy).Contents (Elt Ideal)) =>
      concatenate Cert.KernelIdeal.S100000x129 1 [⟨Cert.KernelIdeal.S100000x128, a⟩, ⟨Cert.KernelIdeal.S100000x1, b⟩]
        Cert.KernelIdeal.Gen.concatenates_S100000x128_S100000x1_S100000x129_d1) ?_ ?_
  · after_results_simp
    exact h0
  · after_results_simp
    rw [h0, h2, h4, h5, h6]
    rfl

/-- The edges' source rows. -/
theorem sources_agree (h1 : WK (𝕂 Cert.KernelIdeal.main_arg1) = WR (ℝ' Cert.ReferenceIdeal.main_arg1)) :
    after (Cert.KernelIdeal.Gen.hostOps0 (F := Ideal)) WK (𝕂 Cert.KernelIdeal.main_v38)
      = after (Cert.ReferenceIdeal.RefRun.pre (F := Ideal)) WR (ℝ' Cert.ReferenceIdeal.main_v38) := by
  after_results_simp
  rw [h1]
  rfl

/-- The edges' destination rows. -/
theorem destinations_agree (h1 : WK (𝕂 Cert.KernelIdeal.main_arg1) = WR (ℝ' Cert.ReferenceIdeal.main_arg1)) :
    after (Cert.KernelIdeal.Gen.hostOps0 (F := Ideal)) WK (𝕂 Cert.KernelIdeal.main_v40)
      = after (Cert.ReferenceIdeal.RefRun.pre (F := Ideal)) WR (ℝ' Cert.ReferenceIdeal.main_v40) := by
  after_results_simp
  rw [h1]
  rfl

/-- The inverse square roots of the in-degrees plus one. -/
theorem invsqrt_degree_agree (h1 : WK (𝕂 Cert.KernelIdeal.main_arg1) = WR (ℝ' Cert.ReferenceIdeal.main_arg1)) :
    after (Cert.KernelIdeal.Gen.hostOps0 (F := Ideal)) WK (𝕂 Cert.KernelIdeal.main_v47)
      = after (Cert.ReferenceIdeal.RefRun.pre (F := Ideal)) WR (ℝ' Cert.ReferenceIdeal.main_v47) := by
  after_results_simp
  rw [h1]
  rfl

end Cert.Bridge

end
-- ==== Proof.SharedReadout.lean ====
/-
  The readout is one computation in both programs.
  After the last layer both programs pool the node features over the graphs of the batch (a count per graph, floored
  at one; the features scatter-added by graph and divided by the count) and apply the two-layer head, the hidden
  layer through ELU as jax spells it.  The two texts are the same operations over buffers numbered differently, so
  from equal node features and equal head parameters the results are equal.
-/
import proofs.«127358_j57011395887506_2_alg».proof.Proof.Gen.KernelIdeal.Launch
import proofs.«127358_j57011395887506_2_alg».proof.Proof.RefOps
import Idealize.ShloMosaic.Lib.StableHlo.Run
import Idealize.ShloMosaic.PureOps.Ideal

set_option maxHeartbeats 4000000
set_option maxRecDepth 16384

noncomputable section

namespace Cert.Bridge

open Idealize.ShloMosaic Idealize.ShloMosaic.TcCoe Idealize.ShloMosaic.StableHlo Idealize.SL.Sem

local notation "𝕂" b => Proc.devRef (τ := Cert.KernelIdeal.τ) (sig := Cert.KernelIdeal.sig) Proc.tc b
local notation "ℝ'" b => Proc.devRef (τ := Cert.ReferenceIdeal.τ) (sig := Cert.ReferenceIdeal.sig) Proc.tc b

/-- From equal last-layer features and equal readout parameters (graph ids, the head's two weight matrices and
    biases), the kernel program's readout stretches and the reference's readout leave equal predictions. -/
theorem readout_agree
    (WK : Valuation Cert.KernelIdeal.τ Cert.KernelIdeal.sig (Elt Ideal))
    (WR : Valuation Cert.ReferenceIdeal.τ Cert.ReferenceIdeal.sig (Elt Ideal))
    (hfeat : WK (𝕂 Cert.KernelIdeal.main_v173) = WR (ℝ' Cert.ReferenceIdeal.main_v291))
    (h3 : WK (𝕂 Cert.KernelIdeal.main_arg3) = WR (ℝ' Cert.ReferenceIdeal.main_arg3))
    (h19 : WK (𝕂 Cert.KernelIdeal.main_arg19) = WR (ℝ' Cert.ReferenceIdeal.main_arg19))
    (h20 : WK (𝕂 Cert.KernelIdeal.main_arg20) = WR (ℝ' Cert.ReferenceIdeal.main_arg20))
    (h21 : WK (𝕂 Cert.KernelIdeal.main_arg21) = WR (ℝ' Cert.ReferenceIdeal.main_arg21))
    (h22 : WK (𝕂 Cert.KernelIdeal.main_arg22) = WR (ℝ' Cert.ReferenceIdeal.main_arg22)) :
    after (Cert.KernelIdeal.Gen.hostOps8_2 (F := Ideal))
        (after Cert.KernelIdeal.Gen.hostOps8_1 (after Cert.KernelIdeal.Gen.hostOps8 WK)) (𝕂 Cert.KernelIdeal.main_v194)
      = after (Cert.ReferenceIdeal.RefRun.tail (F := Ideal)) WR (ℝ' Cert.ReferenceIdeal.main_v312) := by
  after_results_simp
  rw [hfeat, h3, h19, h20, h21, h22]
  rfl

end Cert.Bridge

end
-- ==== Proof.Agreement.lean ====
/-
  The two programs compute the same prediction.
  From memories that agree on the arguments, the reference's result (its operations folded over its launch memory) is
  the kernel program's result (the last boundary's contents of its eight-region run): the preamble is one computation
  in both programs, each of the four layers agrees (equal inputs give equal activations), and the readout is again one
  computation.  The reference's contents at its stage boundaries are named; a stage leaves every buffer it does not
  write — edge rows, inverse-root degrees, arguments — as it found it.  No step uses finiteness of the inputs.
-/
import proofs.«127358_j57011395887506_2_alg».proof.Proof.LayerAgreement
import proofs.«127358_j57011395887506_2_alg».proof.Proof.SharedPreamble
import proofs.«127358_j57011395887506_2_alg».proof.Proof.SharedReadout

set_option maxHeartbeats 1000000
set_option maxRecDepth 16384
set_option pp.maxSteps 6000
set_option pp.deepTerms false

noncomputable section

namespace Cert.Bridge

open Idealize.ShloMosaic Idealize.ShloMosaic.TcCoe Idealize.ShloMosaic.StableHlo Idealize.SL.Sem
open Cert.KernelIdeal.Gen Cert.KernelIdeal.Layers
open Cert.ReferenceIdeal.RefRun

local notation "𝕂" b => Proc.devRef (τ := Cert.KernelIdeal.τ) (sig := Cert.KernelIdeal.sig) Proc.tc b
local notation "ℝ'" b => Proc.devRef (τ := Cert.ReferenceIdeal.τ) (sig := Cert.ReferenceIdeal.sig) Proc.tc b

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

variable (M' : Valuation Cert.ReferenceIdeal.τ Cert.ReferenceIdeal.sig (Elt Ideal))

/-- The reference's contents after its preamble, and after each layer. -/
def refPre : Valuation Cert.ReferenceIdeal.τ Cert.ReferenceIdeal.sig (Elt Ideal) := after (pre (F := Ideal)) M'
def refL0 : Valuation Cert.ReferenceIdeal.τ Cert.ReferenceIdeal.sig (Elt Ideal) := after (norm0 (F := Ideal)) (after agg0 (after dense0 (refPre M')))
def refL1 : Valuation Cert.ReferenceIdeal.τ Cert.ReferenceIdeal.sig (Elt Ideal) := after (norm1 (F := Ideal)) (after agg1 (after dense1 (refL0 M')))
def refL2 : Valuation Cert.ReferenceIdeal.τ Cert.ReferenceIdeal.sig (Elt Ideal) := after (norm2 (F := Ideal)) (after agg2 (after dense2 (refL1 M')))
def refL3 : Valuation Cert.ReferenceIdeal.τ Cert.ReferenceIdeal.sig (Elt Ideal) := after (norm3 (F := Ideal)) (after agg3 (after dense3 (refL2 M')))

/-- The reference's fold splits along its stages. -/
theorem ops_split : after (Cert.ReferenceIdeal.RefRun.ops (F := Ideal)) M' = after (tail (F := Ideal)) (refL3 M') := by
  unfold refL3 refL2 refL1 refL0 refPre
  simp only [Cert.ReferenceIdeal.RefRun.ops, after_append]

/-- Buffers a stage does not write. -/
theorem keptPre (b : Ref Cert.ReferenceIdeal.sig .tc) (hb : b ∈ (args : List (Ref Cert.ReferenceIdeal.sig .tc))) :
    refPre M' (ℝ' b) = M' (ℝ' b) := kept_pre M' b hb
theorem kept0 (b : Ref Cert.ReferenceIdeal.sig .tc) (hb : b ∈ (live : List (Ref Cert.ReferenceIdeal.sig .tc))) :
    refL0 M' (ℝ' b) = refPre M' (ℝ' b) := kept_layer0 (refPre M') b hb
theorem kept1 (b : Ref Cert.ReferenceIdeal.sig .tc) (hb : b ∈ (live : List (Ref Cert.ReferenceIdeal.sig .tc))) :
    refL1 M' (ℝ' b) = refL0 M' (ℝ' b) := kept_layer1 (refL0 M') b hb
theorem kept2 (b : Ref Cert.ReferenceIdeal.sig .tc) (hb : b ∈ (live : List (Ref Cert.ReferenceIdeal.sig .tc))) :
    refL2 M' (ℝ' b) = refL1 M' (ℝ' b) := kept_layer2 (refL1 M') b hb
theorem kept3 (b : Ref Cert.ReferenceIdeal.sig .tc) (hb : b ∈ (live : List (Ref Cert.ReferenceIdeal.sig .tc))) :
    refL3 M' (ℝ' b) = refL2 M' (ℝ' b) := kept_layer3 (refL2 M') b hb

/-- An argument at each of the reference's boundaries is the launch array. -/
theorem argPre (b) (hb : b ∈ (args : List (Ref Cert.ReferenceIdeal.sig .tc))) : refPre M' (ℝ' b) = M' (ℝ' b) := keptPre M' b hb
theorem arg0 (b) (ha : b ∈ (args : List (Ref Cert.ReferenceIdeal.sig .tc))) (hl : b ∈ (live : List (Ref Cert.ReferenceIdeal.sig .tc))) :
    refL0 M' (ℝ' b) = M' (ℝ' b) := (kept0 M' b hl).trans (argPre M' b ha)
theorem arg1 (b) (ha : b ∈ (args : List (Ref Cert.ReferenceIdeal.sig .tc))) (hl : b ∈ (live : List (Ref Cert.ReferenceIdeal.sig .tc))) :
    refL1 M' (ℝ' b) = M' (ℝ' b) := (kept1 M' b hl).trans (arg0 M' b ha hl)
theorem arg2 (b) (ha : b ∈ (args : List (Ref Cert.ReferenceIdeal.sig .tc))) (hl : b ∈ (live : List (Ref Cert.ReferenceIdeal.sig .tc))) :
    refL2 M' (ℝ' b) = M' (ℝ' b) := (kept2 M' b hl).trans (arg1 M' b ha hl)
theorem arg3 (b) (ha : b ∈ (args : List (Ref Cert.ReferenceIdeal.sig .tc))) (hl : b ∈ (live : List (Ref Cert.ReferenceIdeal.sig .tc))) :
    refL3 M' (ℝ' b) = M' (ℝ' b) := (kept3 M' b hl).trans (arg2 M' b ha hl)

/-- The edge rows and inverse-root degrees at each boundary are the preamble's. -/
theorem live1 (b) (hl : b ∈ (live : List (Ref Cert.ReferenceIdeal.sig .tc))) : refL1 M' (ℝ' b) = refPre M' (ℝ' b) :=
  (kept1 M' b hl).trans (kept0 M' b hl)
theorem live2 (b) (hl : b ∈ (live : List (Ref Cert.ReferenceIdeal.sig .tc))) : refL2 M' (ℝ' b) = refPre M' (ℝ' b) :=
  (kept2 M' b hl).trans (live1 M' b hl)

/-- The agreement of the arguments, as the claim states it. -/
abbrev ArgsAgree (m' : (ℓ : Loc Cert.ReferenceIdeal.nD Cert.ReferenceIdeal.τ Cert.ReferenceIdeal.sig) → Buf (Elt Ideal) ℓ) : Prop :=
  (∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))

variable (m' : (ℓ : Loc Cert.ReferenceIdeal.nD Cert.ReferenceIdeal.τ Cert.ReferenceIdeal.sig) → Buf (Elt Ideal) ℓ)

/-- The reference's result is the kernel program's result, on every device. -/
theorem value_agree (hagree : ArgsAgree m m') :
    after (Cert.ReferenceIdeal.RefRun.ops (F := Ideal)) (launchContents m' c) (ℝ' Cert.ReferenceIdeal.main_v312)
      = W16 m ρ c (𝕂 Cert.KernelIdeal.main_v194) := by
  obtain ⟨g0, g1, g2, g3, g4, g5, g6, g7, g8, g9, g10, g11, g12, g13, g14, g15, g16, g17, g18, g19, g20, g21, g22⟩ := hagree c
  -- the reference's launch arrays are the kernel's
  have a0 : launchContents m' c (ℝ' Cert.ReferenceIdeal.main_arg0) = m ((c : Thread Cert.KernelIdeal.nD Cert.KernelIdeal.τ).loc Cert.KernelIdeal.main_arg0) := g0
  have a1 : launchContents m' c (ℝ' Cert.ReferenceIdeal.main_arg1) = m ((c : Thread Cert.KernelIdeal.nD Cert.KernelIdeal.τ).loc Cert.KernelIdeal.main_arg1) := g1
  have a2 : launchContents m' c (ℝ' Cert.ReferenceIdeal.main_arg2) = m ((c : Thread Cert.KernelIdeal.nD Cert.KernelIdeal.τ).loc Cert.KernelIdeal.main_arg2) := g2
  have a3 : launchContents m' c (ℝ' Cert.ReferenceIdeal.main_arg3) = m ((c : Thread Cert.KernelIdeal.nD Cert.KernelIdeal.τ).loc Cert.KernelIdeal.main_arg3) := g3
  have a4 : launchContents m' c (ℝ' Cert.ReferenceIdeal.main_arg4) = m ((c : Thread Cert.KernelIdeal.nD Cert.KernelIdeal.τ).loc Cert.KernelIdeal.main_arg4) := g4
  have a5 : launchContents m' c (ℝ' Cert.ReferenceIdeal.main_arg5) = m ((c : Thread Cert.KernelIdeal.nD Cert.KernelIdeal.τ).loc Cert.KernelIdeal.main_arg5) := g5
  have a6 : launchContents m' c (ℝ' Cert.ReferenceIdeal.main_arg6) = m ((c : Thread Cert.KernelIdeal.nD Cert.KernelIdeal.τ).loc Cert.KernelIdeal.main_arg6) := g6
  have a7 : launchContents m' c (ℝ' Cert.ReferenceIdeal.main_arg7) = m ((c : Thread Cert.KernelIdeal.nD Cert.KernelIdeal.τ).loc Cert.KernelIdeal.main_arg7) := g7
  have a8 : launchContents m' c (ℝ' Cert.ReferenceIdeal.main_arg8) = m ((c : Thread Cert.KernelIdeal.nD Cert.KernelIdeal.τ).loc Cert.KernelIdeal.main_arg8) := g8
  have a9 : launchContents m' c (ℝ' Cert.ReferenceIdeal.main_arg9) = m ((c : Thread Cert.KernelIdeal.nD Cert.KernelIdeal.τ).loc Cert.KernelIdeal.main_arg9) := g9
  have a10 : launchContents m' c (ℝ' Cert.ReferenceIdeal.main_arg10) = m ((c : Thread Cert.KernelIdeal.nD Cert.KernelIdeal.τ).loc Cert.KernelIdeal.main_arg10) := g10
  have a11 : launchContents m' c (ℝ' Cert.ReferenceIdeal.main_arg11) = m ((c : Thread Cert.KernelIdeal.nD Cert.KernelIdeal.τ).loc Cert.KernelIdeal.main_arg11) := g11
  have a12 : launchContents m' c (ℝ' Cert.ReferenceIdeal.main_arg12) = m ((c : Thread Cert.KernelIdeal.nD Cert.KernelIdeal.τ).loc Cert.KernelIdeal.main_arg12) := g12
  have a13 : launchContents m' c (ℝ' Cert.ReferenceIdeal.main_arg13) = m ((c : Thread Cert.KernelIdeal.nD Cert.KernelIdeal.τ).loc Cert.KernelIdeal.main_arg13) := g13
  have a14 : launchContents m' c (ℝ' Cert.ReferenceIdeal.main_arg14) = m ((c : Thread Cert.KernelIdeal.nD Cert.KernelIdeal.τ).loc Cert.KernelIdeal.main_arg14) := g14
  have a15 : launchContents m' c (ℝ' Cert.ReferenceIdeal.main_arg15) = m ((c : Thread Cert.KernelIdeal.nD Cert.KernelIdeal.τ).loc Cert.KernelIdeal.main_arg15) := g15
  have a16 : launchContents m' c (ℝ' Cert.ReferenceIdeal.main_arg16) = m ((c : Thread Cert.KernelIdeal.nD Cert.KernelIdeal.τ).loc Cert.KernelIdeal.main_arg16) := g16
  have a17 : launchContents m' c (ℝ' Cert.ReferenceIdeal.main_arg17) = m ((c : Thread Cert.KernelIdeal.nD Cert.KernelIdeal.τ).loc Cert.KernelIdeal.main_arg17) := g17
  have a18 : launchContents m' c (ℝ' Cert.ReferenceIdeal.main_arg18) = m ((c : Thread Cert.KernelIdeal.nD Cert.KernelIdeal.τ).loc Cert.KernelIdeal.main_arg18) := g18
  have a19 : launchContents m' c (ℝ' Cert.ReferenceIdeal.main_arg19) = m ((c : Thread Cert.KernelIdeal.nD Cert.KernelIdeal.τ).loc Cert.KernelIdeal.main_arg19) := g19
  have a20 : launchContents m' c (ℝ' Cert.ReferenceIdeal.main_arg20) = m ((c : Thread Cert.KernelIdeal.nD Cert.KernelIdeal.τ).loc Cert.KernelIdeal.main_arg20) := g20
  have a21 : launchContents m' c (ℝ' Cert.ReferenceIdeal.main_arg21) = m ((c : Thread Cert.KernelIdeal.nD Cert.KernelIdeal.τ).loc Cert.KernelIdeal.main_arg21) := g21
  have a22 : launchContents m' c (ℝ' Cert.ReferenceIdeal.main_arg22) = m ((c : Thread Cert.KernelIdeal.nD Cert.KernelIdeal.τ).loc Cert.KernelIdeal.main_arg22) := g22
  -- the preamble
  have f0 : W1 m ρ c (𝕂 Cert.KernelIdeal.main_v36) = refPre (launchContents m' c) (ℝ' Cert.ReferenceIdeal.main_v36) :=
    features_agree (W0 m ρ c) (launchContents m' c) a0.symm a2.symm a4.symm a5.symm a6.symm
  have s0 : refPre (launchContents m' c) (ℝ' Cert.ReferenceIdeal.main_v38) = W1 m ρ c (𝕂 Cert.KernelIdeal.main_v38) :=
    (sources_agree (W0 m ρ c) (launchContents m' c) a1.symm).symm
  have d0 : refPre (launchContents m' c) (ℝ' Cert.ReferenceIdeal.main_v40) = W1 m ρ c (𝕂 Cert.KernelIdeal.main_v40) :=
    (destinations_agree (W0 m ρ c) (launchContents m' c) a1.symm).symm
  have q0 : refPre (launchContents m' c) (ℝ' Cert.ReferenceIdeal.main_v47) = W1 m ρ c (𝕂 Cert.KernelIdeal.main_v47) :=
    (invsqrt_degree_agree (W0 m ρ c) (launchContents m' c) a1.symm).symm
  -- the four layers
  have f1 : W4 m ρ c (𝕂 Cert.KernelIdeal.main_v92) = refL0 (launchContents m' c) (ℝ' Cert.ReferenceIdeal.main_v108) :=
    layer_agree0 m ρ c (refPre (launchContents m' c)) f0 s0 d0 q0
      ((argPre _ Cert.ReferenceIdeal.main_arg7 (by decide)).trans a7) ((argPre _ Cert.ReferenceIdeal.main_arg8 (by decide)).trans a8)
      ((argPre _ Cert.ReferenceIdeal.main_arg15 (by decide)).trans a15) ((argPre _ Cert.ReferenceIdeal.main_arg16 (by decide)).trans a16)
      ((argPre _ Cert.ReferenceIdeal.main_arg17 (by decide)).trans a17) ((argPre _ Cert.ReferenceIdeal.main_arg18 (by decide)).trans a18)
  have f2 : W7 m ρ c (𝕂 Cert.KernelIdeal.main_v119) = refL1 (launchContents m' c) (ℝ' Cert.ReferenceIdeal.main_v169) :=
    layer_agree1 m ρ c (refL0 (launchContents m' c)) f1
      ((kept0 _ Cert.ReferenceIdeal.main_v38 (by decide)).trans s0) ((kept0 _ Cert.ReferenceIdeal.main_v40 (by decide)).trans d0)
      ((kept0 _ Cert.ReferenceIdeal.main_v47 (by decide)).trans q0)
      ((arg0 _ Cert.ReferenceIdeal.main_arg9 (by decide) (by decide)).trans a9) ((arg0 _ Cert.ReferenceIdeal.main_arg10 (by decide) (by decide)).trans a10)
      ((arg0 _ Cert.ReferenceIdeal.main_arg15 (by decide) (by decide)).trans a15) ((arg0 _ Cert.ReferenceIdeal.main_arg16 (by decide) (by decide)).trans a16)
      ((arg0 _ Cert.ReferenceIdeal.main_arg17 (by decide) (by decide)).trans a17) ((arg0 _ Cert.ReferenceIdeal.main_arg18 (by decide) (by decide)).trans a18)
  have f3 : W10 m ρ c (𝕂 Cert.KernelIdeal.main_v146) = refL2 (launchContents m' c) (ℝ' Cert.ReferenceIdeal.main_v230) :=
    layer_agree2 m ρ c (refL1 (launchContents m' c)) f2
      ((live1 _ Cert.ReferenceIdeal.main_v38 (by decide)).trans s0) ((live1 _ Cert.ReferenceIdeal.main_v40 (by decide)).trans d0)
      ((live1 _ Cert.ReferenceIdeal.main_v47 (by decide)).trans q0)
      ((arg1 _ Cert.ReferenceIdeal.main_arg11 (by decide) (by decide)).trans a11) ((arg1 _ Cert.ReferenceIdeal.main_arg12 (by decide) (by decide)).trans a12)
      ((arg1 _ Cert.ReferenceIdeal.main_arg15 (by decide) (by decide)).trans a15) ((arg1 _ Cert.ReferenceIdeal.main_arg16 (by decide) (by decide)).trans a16)
      ((arg1 _ Cert.ReferenceIdeal.main_arg17 (by decide) (by decide)).trans a17) ((arg1 _ Cert.ReferenceIdeal.main_arg18 (by decide) (by decide)).trans a18)
  have f4 : W13 m ρ c (𝕂 Cert.KernelIdeal.main_v173) = refL3 (launchContents m' c) (ℝ' Cert.ReferenceIdeal.main_v291) :=
    layer_agree3 m ρ c (refL2 (launchContents m' c)) f3
      ((live2 _ Cert.ReferenceIdeal.main_v38 (by decide)).trans s0) ((live2 _ Cert.ReferenceIdeal.main_v40 (by decide)).trans d0)
      ((live2 _ Cert.ReferenceIdeal.main_v47 (by decide)).trans q0)
      ((arg2 _ Cert.ReferenceIdeal.main_arg13 (by decide) (by decide)).trans a13) ((arg2 _ Cert.ReferenceIdeal.main_arg14 (by decide) (by decide)).trans a14)
      ((arg2 _ Cert.ReferenceIdeal.main_arg15 (by decide) (by decide)).trans a15) ((arg2 _ Cert.ReferenceIdeal.main_arg16 (by decide) (by decide)).trans a16)
      ((arg2 _ Cert.ReferenceIdeal.main_arg17 (by decide) (by decide)).trans a17) ((arg2 _ Cert.ReferenceIdeal.main_arg18 (by decide) (by decide)).trans a18)
  -- the readout
  refine (congrFun (ops_split (launchContents m' c)) _).trans ?_
  exact (readout_agree (W13 m ρ c) (refL3 (launchContents m' c)) f4
    ((exit3_arg3 m ρ c).trans ((arg3 _ Cert.ReferenceIdeal.main_arg3 (by decide) (by decide)).trans a3).symm)
    ((exit3_arg19 m ρ c).trans ((arg3 _ Cert.ReferenceIdeal.main_arg19 (by decide) (by decide)).trans a19).symm)
    ((exit3_arg20 m ρ c).trans ((arg3 _ Cert.ReferenceIdeal.main_arg20 (by decide) (by decide)).trans a20).symm)
    ((exit3_arg21 m ρ c).trans ((arg3 _ Cert.ReferenceIdeal.main_arg21 (by decide) (by decide)).trans a21).symm)
    ((exit3_arg22 m ρ c).trans ((arg3 _ Cert.ReferenceIdeal.main_arg22 (by decide) (by decide)).trans a22).symm)).symm

end Cert.Bridge

end
-- ==== Proof.lean ====
/-
  The certificate of a four-layer graph-convolution network over 100000 nodes and 1600000 edges, whose dense projections
  and per-node normalisations run as eight pipelined kernel regions, against its plain array-program reference.

  Frames.  The kernel program (word-level and idealized) terminates without a fault and leaves its arguments as launched:
  each region is a grid of row blocks whose body loads, computes and stores through whole rectangles.  The reference is
  a straight line of host operations (with its outlined activation functions read in line), so it runs to the fold of
  its operations over the launch memory, and no operation writes an argument.

  Idealization.  The idealization rewrote nothing: the kernel only rounds to a narrower format on the way into its
  matrix products, and a change of format is the identity on extended reals.

  Values.  At the ideal instance both programs compute, per layer,
      act(((Σ_{e : dst e = n} dinv[src e]·dinv[dst e]·(hW)[src e] + (hW)[n]·dinv[n]² + b) − mean)·rsqrt(var + ε)·γ + β),
  the kernel's dense region being the reference's matrix product (a block of rows of a product is the product of the
  block), the kernel's normalisation region the reference's elementwise chain read index by index, and ELU written
  where(x > 0, x, exp(min(x, 0)) − 1) being ELU written where(x > 0, x, 1·expm1(where(x > 0, 0, x))) for every extended
  real x.  The preamble (attention column, edge rows, inverse-root degrees) and the readout (mean pool over graphs and
  the two-layer head) are the same operations in both programs.
-/
import proofs.«127358_j57011395887506_2_alg».proof.Defs
import proofs.«127358_j57011395887506_2_alg».proof.Proof.Gen.Kernel
import proofs.«127358_j57011395887506_2_alg».proof.Proof.Gen.Kernel.Frame
import proofs.«127358_j57011395887506_2_alg».proof.Proof.Gen.KernelIdeal
import proofs.«127358_j57011395887506_2_alg».proof.Proof.Gen.KernelIdeal.Frame
import proofs.«127358_j57011395887506_2_alg».proof.Proof.Gen.ReferenceIdeal
import proofs.«127358_j57011395887506_2_alg».proof.Proof.Gen.Pre_finite_inputs
import proofs.«127358_j57011395887506_2_alg».proof.Proof.KernelRun
import proofs.«127358_j57011395887506_2_alg».proof.Proof.RefFrame
import proofs.«127358_j57011395887506_2_alg».proof.Proof.Agreement
import Idealize.ShloMosaic.Adequacy
import Idealize.ShloMosaic.Init

set_option maxHeartbeats 4000000
set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame_ref m ρ

/-- The idealization rewrote no operation. -/
theorem preserves : Cert.preserves_Kernel_KernelIdeal := trivial

/-- Both idealized programs run, from memories that agree on the arguments, to the same prediction: the kernel
    program's result is the last boundary's contents of its run, and the reference's fold ends at the same array. -/
theorem algebraic : Cert.algebraic_KernelIdeal_ReferenceIdeal := by
  intro m ρ m' ρ' _ hagree
  refine ⟨fun c => Cert.KernelIdeal.Gen.W16 m ρ c (Proc.devRef .tc Cert.KernelIdeal.main_v194),
    Cert.KernelIdeal.Result.run_result m ρ, ?_⟩
  refine (θ_run Cert.ReferenceIdeal.defs _ _).mono (fun r h c => ⟨?_, (h c Cert.ReferenceIdeal.main_arg0).trans (Cert.ReferenceIdeal.RefRun.arg_kept_0 _),
      (h c Cert.ReferenceIdeal.main_arg1).trans (Cert.ReferenceIdeal.RefRun.arg_kept_1 _),
      (h c Cert.ReferenceIdeal.main_arg2).trans (Cert.ReferenceIdeal.RefRun.arg_kept_2 _),
      (h c Cert.ReferenceIdeal.main_arg3).trans (Cert.ReferenceIdeal.RefRun.arg_kept_3 _),
      (h c Cert.ReferenceIdeal.main_arg4).trans (Cert.ReferenceIdeal.RefRun.arg_kept_4 _),
      (h c Cert.ReferenceIdeal.main_arg5).trans (Cert.ReferenceIdeal.RefRun.arg_kept_5 _),
      (h c Cert.ReferenceIdeal.main_arg6).trans (Cert.ReferenceIdeal.RefRun.arg_kept_6 _),
      (h c Cert.ReferenceIdeal.main_arg7).trans (Cert.ReferenceIdeal.RefRun.arg_kept_7 _),
      (h c Cert.ReferenceIdeal.main_arg8).trans (Cert.ReferenceIdeal.RefRun.arg_kept_8 _),
      (h c Cert.ReferenceIdeal.main_arg9).trans (Cert.ReferenceIdeal.RefRun.arg_kept_9 _),
      (h c Cert.ReferenceIdeal.main_arg10).trans (Cert.ReferenceIdeal.RefRun.arg_kept_10 _),
      (h c Cert.ReferenceIdeal.main_arg11).trans (Cert.ReferenceIdeal.RefRun.arg_kept_11 _),
      (h c Cert.ReferenceIdeal.main_arg12).trans (Cert.ReferenceIdeal.RefRun.arg_kept_12 _),
      (h c Cert.ReferenceIdeal.main_arg13).trans (Cert.ReferenceIdeal.RefRun.arg_kept_13 _),
      (h c Cert.ReferenceIdeal.main_arg14).trans (Cert.ReferenceIdeal.RefRun.arg_kept_14 _),
      (h c Cert.ReferenceIdeal.main_arg15).trans (Cert.ReferenceIdeal.RefRun.arg_kept_15 _),
      (h c Cert.ReferenceIdeal.main_arg16).trans (Cert.ReferenceIdeal.RefRun.arg_kept_16 _),
      (h c Cert.ReferenceIdeal.main_arg17).trans (Cert.ReferenceIdeal.RefRun.arg_kept_17 _),
      (h c Cert.ReferenceIdeal.main_arg18).trans (Cert.ReferenceIdeal.RefRun.arg_kept_18 _),
      (h c Cert.ReferenceIdeal.main_arg19).trans (Cert.ReferenceIdeal.RefRun.arg_kept_19 _),
      (h c Cert.ReferenceIdeal.main_arg20).trans (Cert.ReferenceIdeal.RefRun.arg_kept_20 _),
      (h c Cert.ReferenceIdeal.main_arg21).trans (Cert.ReferenceIdeal.RefRun.arg_kept_21 _),
      (h c Cert.ReferenceIdeal.main_arg22).trans (Cert.ReferenceIdeal.RefRun.arg_kept_22 _)⟩)
    (Cert.ReferenceIdeal.RefRun.run_all (F := Ideal) m' ρ')
  exact (h c Cert.ReferenceIdeal.main_v312).trans (Cert.Bridge.value_agree m ρ c m' hagree)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
